-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x100 : Shape := ⟨2, ![1000000, 100]⟩
abbrev S1000000 : Shape := ⟨1, ![1000000]⟩
abbrev S200000 : Shape := ⟨1, ![200000]⟩
abbrev S100000 : Shape := ⟨1, ![100000]⟩
abbrev S100000x172 : Shape := ⟨2, ![100000, 172]⟩
abbrev S100 : Shape := ⟨1, ![100]⟩
abbrev S300x472 : Shape := ⟨2, ![300, 472]⟩
abbrev S300x100 : Shape := ⟨2, ![300, 100]⟩
abbrev S300 : Shape := ⟨1, ![300]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S100000x172 : S_.BroadcastsInDim S100000x172 (![] : Fin 0 → Fin S100000x172.rank)
  reducesTo_S100000x172_S_d0_1 : S100000x172.ReducesTo [0, 1] S_
  bcast_S_S100 : S_.BroadcastsInDim S100 (![] : Fin 0 → Fin S100.rank)
  reducesTo_S100_S_d0 : S100.ReducesTo [0] S_
  bcast_S_S300x472 : S_.BroadcastsInDim S300x472 (![] : Fin 0 → Fin S300x472.rank)
  reducesTo_S300x472_S_d0_1 : S300x472.ReducesTo [0, 1] S_
  bcast_S_S300x100 : S_.BroadcastsInDim S300x100 (![] : Fin 0 → Fin S300x100.rank)
  reducesTo_S300x100_S_d0_1 : S300x100.ReducesTo [0, 1] S_
  bcast_S_S300 : S_.BroadcastsInDim S300 (![] : Fin 0 → Fin S300.rank)
  reducesTo_S300_S_d0 : S300.ReducesTo [0] S_

variable [Facts]

def fn_part2 {F : FTy → Type} [FloatOps F] (main_arg15 : FVec F S300 .f32) (main_arg16 : FVec F S300 .f32) (main_v33 : IVec S_ 1) : IVec S_ 1 :=
  let main_v34 : FVec F S300 .f32 := Host.absf main_arg15
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300 .f32 := Host.absf main_arg16
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  main_v43

def fn_part1 {F : FTy → Type} [FloatOps F] (main_arg12 : FVec F S100 .f32) (main_arg13 : FVec F S300x472 .f32) (main_arg14 : FVec F S300x100 .f32) (main_arg15 : FVec F S300 .f32) (main_arg16 : FVec F S300 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg12
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S300x472 .f32 := Host.absf main_arg13
  let main_cst_8 : FVec F S_ .f32 := constant S_ .f32 0x7F800000#32
  let main_v25 : FVec F S300x472 .f32 := broadcastInDim S300x472 ![] bcast_S_S300x472 main_cst_8
  let main_v26 : IVec S300x472 1 := cmpf .olt main_v24 main_v25
  let main_c_9 : IVec S_ 1 := constantI S_ 1 1#1
  let main_v27 : IVec S_ 1 := (fun x v => Host.reduce IntOp.andi x v reducesTo_S300x472_S_d0_1 h_S_) main_v26 main_c_9
  let main_v28 : IVec S_ 1 := andi main_v23 main_v27
  let main_v29 : FVec F S300x100 .f32 := Host.absf main_arg14
  let main_cst_10 : FVec F S_ .f32 := constant S_ .f32 0x7F800000#32
  let main_v30 : FVec F S300x100 .f32 := broadcastInDim S300x100 ![] bcast_S_S300x100 main_cst_10
  let main_v31 : IVec S300x100 1 := cmpf .olt main_v29 main_v30
  let main_c_11 : IVec S_ 1 := constantI S_ 1 1#1
  let main_v32 : IVec S_ 1 := (fun x v => Host.reduce IntOp.andi x v reducesTo_S300x100_S_d0_1 h_S_) main_v31 main_c_11
  let main_v33 : IVec S_ 1 := andi main_v28 main_v32
  fn_part2 (F := F) main_arg15 main_arg16 main_v33

def fn {F : FTy → Type} [FloatOps F] (main_arg0 : FVec F S1000000x100 .f32) (main_arg1 : IVec S1000000 32) (main_arg2 : IVec S200000 32) (main_arg3 : IVec S100000 32) (main_arg4 : IVec S100000 32) (main_arg5 : IVec S100000 32) (main_arg6 : FVec F S100000x172 .f32) (main_arg7 : IVec S100000 32) (main_arg8 : IVec S100000 32) (main_arg9 : IVec S100000 32) (main_arg10 : FVec F S100000x172 .f32) (main_arg11 : FVec F S100 .f32) (main_arg12 : FVec F S100 .f32) (main_arg13 : FVec F S300x472 .f32) (main_arg14 : FVec F S300x100 .f32) (main_arg15 : FVec F S300 .f32) (main_arg16 : FVec F S300 .f32) : IVec S_ 1 :=
  let main_v0 : FVec F S1000000x100 .f32 := Host.absf main_arg0
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_v4 : FVec F S100000x172 .f32 := Host.absf main_arg6
  let main_cst_0 : FVec F S_ .f32 := constant S_ .f32 0x7F800000#32
  let main_v5 : FVec F S100000x172 .f32 := broadcastInDim S100000x172 ![] bcast_S_S100000x172 main_cst_0
  let main_v6 : IVec S100000x172 1 := cmpf .olt main_v4 main_v5
  let main_c_1 : IVec S_ 1 := constantI S_ 1 1#1
  let main_v7 : IVec S_ 1 := (fun x v => Host.reduce IntOp.andi x v reducesTo_S100000x172_S_d0_1 h_S_) main_v6 main_c_1
  let main_v8 : IVec S_ 1 := andi main_v3 main_v7
  let main_v9 : FVec F S100000x172 .f32 := Host.absf main_arg10
  let main_cst_2 : FVec F S_ .f32 := constant S_ .f32 0x7F800000#32
  let main_v10 : FVec F S100000x172 .f32 := broadcastInDim S100000x172 ![] bcast_S_S100000x172 main_cst_2
  let main_v11 : IVec S100000x172 1 := cmpf .olt main_v9 main_v10
  let main_c_3 : IVec S_ 1 := constantI S_ 1 1#1
  let main_v12 : IVec S_ 1 := (fun x v => Host.reduce IntOp.andi x v reducesTo_S100000x172_S_d0_1 h_S_) main_v11 main_c_3
  let main_v13 : IVec S_ 1 := andi main_v8 main_v12
  let main_v14 : FVec F S100 .f32 := Host.absf main_arg11
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg12 main_arg13 main_arg14 main_arg15 main_arg16 main_v13 main_v16
-- ==== Kernel.lean ====
abbrev S1000000x100 : Shape := ⟨2, ![1000000, 100]⟩
abbrev S1000000 : Shape := ⟨1, ![1000000]⟩
abbrev S200000 : Shape := ⟨1, ![200000]⟩
abbrev S100000 : Shape := ⟨1, ![100000]⟩
abbrev S100000x172 : Shape := ⟨2, ![100000, 172]⟩
abbrev S100 : Shape := ⟨1, ![100]⟩
abbrev S300x472 : Shape := ⟨2, ![300, 472]⟩
abbrev S300x100 : Shape := ⟨2, ![300, 100]⟩
abbrev S300 : Shape := ⟨1, ![300]⟩
abbrev S_ : Shape := ⟨0, ![]⟩
abbrev S100000x1 : Shape := ⟨2, ![100000, 1]⟩
abbrev S200000x172 : Shape := ⟨2, ![200000, 172]⟩
abbrev S200000x1 : Shape := ⟨2, ![200000, 1]⟩
abbrev S1x100 : Shape := ⟨2, ![1, 100]⟩
abbrev S200000x100 : Shape := ⟨2, ![200000, 100]⟩
abbrev S200000x472 : Shape := ⟨2, ![200000, 472]⟩
abbrev S2000x472 : Shape := ⟨2, ![2000, 472]⟩
abbrev S2000x100 : Shape := ⟨2, ![2000, 100]⟩
abbrev S2000x300 : Shape := ⟨2, ![2000, 300]⟩
abbrev S1x300 : Shape := ⟨2, ![1, 300]⟩

abbrev nBuf : Space → Nat
  | .hbm => 181
  | .vmem => 10
  | .smem => 0
  | _ => 0

abbrev hbmTy0_0 (i : Nat) : BufTy := match i % 128 with
  | 0 => ⟨S1000000x100, .f32⟩
  | 1 => ⟨S1000000, .i32⟩
  | 2 => ⟨S200000, .i32⟩
  | 3 => ⟨S100000, .i32⟩
  | 4 => ⟨S100000, .i32⟩
  | 5 => ⟨S100000, .i32⟩
  | 6 => ⟨S100000x172, .f32⟩
  | 7 => ⟨S100000, .i32⟩
  | 8 => ⟨S100000, .i32⟩
  | 9 => ⟨S100000, .i32⟩
  | 10 => ⟨S100000x172, .f32⟩
  | 11 => ⟨S100, .f32⟩
  | 12 => ⟨S100, .f32⟩
  | 13 => ⟨S300x472, .f32⟩
  | 14 => ⟨S300x100, .f32⟩
  | 15 => ⟨S300, .f32⟩
  | 16 => ⟨S300, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000, .i32⟩
  | 35 => ⟨S200000, .i32⟩
  | 36 => ⟨S200000, .i32⟩
  | 37 => ⟨S200000, .i32⟩
  | 38 => ⟨S200000, .i32⟩
  | 39 => ⟨S200000x172, .f32⟩
  | 40 => ⟨S_, .i32⟩
  | 41 => ⟨S200000, .i32⟩
  | 42 => ⟨S200000x1, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000, .i32⟩
  | 53 => ⟨S200000, .i1⟩
  | 54 => ⟨S200000, .i32⟩
  | 55 => ⟨S_, .i32⟩
  | 56 => ⟨S200000, .i32⟩
  | 57 => ⟨S200000, .i32⟩
  | 58 => ⟨S_, .i32⟩
  | 59 => ⟨S200000, .i32⟩
  | 60 => ⟨S200000x1, .i32⟩
  | 61 => ⟨S200000, .i32⟩
  | 62 => ⟨S_, .i32⟩
  | 63 => ⟨S200000, .i32⟩
  | 64 => ⟨S200000, .i1⟩
  | 65 => ⟨S_, .i32⟩
  | 66 => ⟨S_, .i32⟩
  | 67 => ⟨S200000, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000, .i32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000, .i32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000, .i32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S200000x172, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000, .i32⟩
  | 114 => ⟨S200000, .i32⟩
  | 115 => ⟨S200000, .f32⟩
  | 116 => ⟨S200000x1, .f32⟩
  | 117 => ⟨S1x100, .f32⟩
  | 118 => ⟨S200000x100, .f32⟩
  | 119 => ⟨S200000x100, .f32⟩
  | 120 => ⟨S200000x100, .f32⟩
  | 121 => ⟨S1x100, .f32⟩
  | 122 => ⟨S200000x100, .f32⟩
  | 123 => ⟨S200000x100, .f32⟩
  | 124 => ⟨S200000x100, .f32⟩
  | 125 => ⟨S_, .i32⟩
  | 126 => ⟨S200000, .i32⟩
  | 127 => ⟨S200000, .i1⟩
  | _ => ⟨S1000000x100, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x100, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x100, .f32⟩
  | 15 => ⟨S200000x1, .i1⟩
  | 16 => ⟨S200000x472, .f32⟩
  | 17 => ⟨S_, .f32⟩
  | 18 => ⟨S_, .f32⟩
  | 19 => ⟨S200000x472, .i1⟩
  | 20 => ⟨S200000x472, .f32⟩
  | 21 => ⟨S200000x472, .f32⟩
  | 22 => ⟨S200000x472, .bf16⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x100, .f32⟩
  | 32 => ⟨S300x472, .bf16⟩
  | 33 => ⟨S300x100, .bf16⟩
  | 34 => ⟨S200000x100, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S1000000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000, .i32⟩
  | _ => ⟨S1000000x100, .f32⟩

abbrev hbmTy (i : Nat) : BufTy := match i / 128 with
  | 0 => hbmTy0_0 i
  | 1 => hbmTy0_1 i
  | _ => ⟨S1000000x100, .f32⟩

abbrev bufTy : (tb : Table) → Fin (tcTables nBuf tb) → BufTy
  | .hbm, ⟨i, _⟩ => hbmTy i
  | .local _ .vmem, ⟨0, _⟩ => ⟨S2000x472, .bf16⟩
  | .local _ .vmem, ⟨1, _⟩ => ⟨S2000x472, .bf16⟩
  | .local _ .vmem, ⟨2, _⟩ => ⟨S2000x100, .f32⟩
  | .local _ .vmem, ⟨3, _⟩ => ⟨S2000x100, .f32⟩
  | .local _ .vmem, ⟨4, _⟩ => ⟨S300x472, .bf16⟩
  | .local _ .vmem, ⟨5, _⟩ => ⟨S300x100, .bf16⟩
  | .local _ .vmem, ⟨6, _⟩ => ⟨S300, .f32⟩
  | .local _ .vmem, ⟨7, _⟩ => ⟨S300, .f32⟩
  | .local _ .vmem, ⟨8, _⟩ => ⟨S2000x100, .f32⟩
  | .local _ .vmem, ⟨9, _⟩ => ⟨S2000x100, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_call0_v0 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_c_9 : Ref sig .tc := ⟨.hbm, 65, rfl⟩
abbrev main_call1_v0 : Ref sig .tc := ⟨.hbm, 66, rfl⟩
abbrev main_call1_v1 : Ref sig .tc := ⟨.hbm, 67, rfl⟩
abbrev main_v37 : Ref sig .tc := ⟨.hbm, 68, rfl⟩
abbrev main_c_10 : Ref sig .tc := ⟨.hbm, 69, rfl⟩
abbrev main_v38 : Ref sig .tc := ⟨.hbm, 70, rfl⟩
abbrev main_v39 : Ref sig .tc := ⟨.hbm, 71, rfl⟩
abbrev main_c_11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_12 : Ref sig .tc := ⟨.hbm, 78, rfl⟩
abbrev main_v45 : Ref sig .tc := ⟨.hbm, 79, rfl⟩
abbrev main_v46 : Ref sig .tc := ⟨.hbm, 80, rfl⟩
abbrev main_c_13 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_14 : Ref sig .tc := ⟨.hbm, 87, rfl⟩
abbrev main_v52 : Ref sig .tc := ⟨.hbm, 88, rfl⟩
abbrev main_v53 : Ref sig .tc := ⟨.hbm, 89, rfl⟩
abbrev main_c_15 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_16 : Ref sig .tc := ⟨.hbm, 96, rfl⟩
abbrev main_v59 : Ref sig .tc := ⟨.hbm, 97, rfl⟩
abbrev main_v60 : Ref sig .tc := ⟨.hbm, 98, rfl⟩
abbrev main_c_17 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_18 : Ref sig .tc := ⟨.hbm, 105, rfl⟩
abbrev main_v66 : Ref sig .tc := ⟨.hbm, 106, rfl⟩
abbrev main_v67 : Ref sig .tc := ⟨.hbm, 107, rfl⟩
abbrev main_c_19 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_20 : Ref sig .tc := ⟨.hbm, 125, rfl⟩
abbrev main_v84 : Ref sig .tc := ⟨.hbm, 126, rfl⟩
abbrev main_v85 : Ref sig .tc := ⟨.hbm, 127, rfl⟩
abbrev main_c_21 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_22 : Ref sig .tc := ⟨.hbm, 134, rfl⟩
abbrev main_v91 : Ref sig .tc := ⟨.hbm, 135, rfl⟩
abbrev main_v92 : Ref sig .tc := ⟨.hbm, 136, rfl⟩
abbrev main_c_23 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v100 : Ref sig .tc := ⟨.hbm, 149, rfl⟩
abbrev main_v101 : Ref sig .tc := ⟨.hbm, 150, rfl⟩
abbrev main_c_24 : Ref sig .tc := ⟨.hbm, 151, rfl⟩
abbrev main_v102 : Ref sig .tc := ⟨.hbm, 152, rfl⟩
abbrev main_v103 : Ref sig .tc := ⟨.hbm, 153, rfl⟩
abbrev main_c_25 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_c_26 : Ref sig .tc := ⟨.hbm, 163, rfl⟩
abbrev main_v112 : Ref sig .tc := ⟨.hbm, 164, rfl⟩
abbrev main_v113 : Ref sig .tc := ⟨.hbm, 165, rfl⟩
abbrev main_c_27 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_28 : Ref sig .tc := ⟨.hbm, 172, rfl⟩
abbrev main_v119 : Ref sig .tc := ⟨.hbm, 173, rfl⟩
abbrev main_v120 : Ref sig .tc := ⟨.hbm, 174, rfl⟩
abbrev main_c_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x472 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x472 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x100 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000_S100000_S200000_d0 : Shape.Concatenates [S100000, S100000] S200000 0
  concatenates_S100000x172_S100000x172_S200000x172_d0 : Shape.Concatenates [S100000x172, S100000x172] S200000x172 0
  bcast_S_S200000 : S_.BroadcastsInDim S200000 (![] : Fin 0 → Fin S200000.rank)
  bcast_S200000_S200000x1_0 : S200000.BroadcastsInDim S200000x1 (![0] : Fin 1 → Fin S200000x1.rank)
  bcast_S100_S1x100_1 : S100.BroadcastsInDim S1x100 (![1] : Fin 1 → Fin S1x100.rank)
  bcast_S200000x1_S200000x100_0_1 : S200000x1.BroadcastsInDim S200000x100 (![0, 1] : Fin 2 → Fin S200000x100.rank)
  bcast_S1x100_S200000x100_0_1 : S1x100.BroadcastsInDim S200000x100 (![0, 1] : Fin 2 → Fin S200000x100.rank)
  concatenates_S200000x100_S200000x100_S200000x172_S200000x100_S200000x472_d1 : Shape.Concatenates [S200000x100, S200000x100, S200000x172, S200000x100] S200000x472 1
  bcast_S200000x1_S200000x472_0_1 : S200000x1.BroadcastsInDim S200000x472 (![0, 1] : Fin 2 → Fin S200000x472.rank)
  bcast_S_S200000x472 : S_.BroadcastsInDim S200000x472 (![] : Fin 0 → Fin S200000x472.rank)
  bitsLt_bf16_f32 : FTy.bits .bf16 < FTy.bits .f32
  inb_S2000x472_S2000x472_0_0 : ∀ a, (![0, 0] : Fin 2 → Nat) a + S2000x472.size a ≤ S2000x472.size a
  h_S2000x472 : 0 < S2000x472.numel
  shapeCasts_S2000x472_S2000x472 : S2000x472.ShapeCasts S2000x472
  inb_S300x472_S300x472_0_0 : ∀ a, (![0, 0] : Fin 2 → Nat) a + S300x472.size a ≤ S300x472.size a
  h_S300x472 : 0 < S300x472.numel
  shapeCasts_S300x472_S300x472 : S300x472.ShapeCasts S300x472
  inb_S300_S300_0 : ∀ a, (![0] : Fin 1 → Nat) a + S300.size a ≤ S300.size a
  h_S300 : 0 < S300.numel
  shapeCasts_S300_S1x300 : S300.ShapeCasts S1x300
  broadcasts_S1x300_S2000x300 : S1x300.Broadcasts S2000x300
  inb_S2000x100_S2000x100_0_0 : ∀ a, (![0, 0] : Fin 2 → Nat) a + S2000x100.size a ≤ S2000x100.size a
  h_S2000x100 : 0 < S2000x100.numel
  shapeCasts_S2000x100_S2000x100 : S2000x100.ShapeCasts S2000x100
  inb_S300x100_S300x100_0_0 : ∀ a, (![0, 0] : Fin 2 → Nat) a + S300x100.size a ≤ S300x100.size a
  h_S300x100 : 0 < S300x100.numel
  shapeCasts_S300x100_S300x100 : S300x100.ShapeCasts S300x100
  slices_S2000x300_o0_0_S2000x100 : S2000x300.Slices ![0, 0] S2000x100
  slices_S2000x300_o0_100_S2000x100 : S2000x300.Slices ![0, 100] S2000x100
  slices_S2000x300_o0_200_S2000x100 : S2000x300.Slices ![0, 200] S2000x100
  gather_S200000_S100000x1_S100000_n_0_n_n_0_1_1_wf : GatherDims.WF S200000 S100000x1 S100000 [] [0] [] [0] [] 1 ![1]
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  gather_S200000x172_S200000x1_S200000x172_1_0_n_n_0_1_1172_wf : GatherDims.WF S200000x172 S200000x1 S200000x172 [1] [0] [] [0] [] 1 ![1, 172]
  gather_S1000000_S200000x1_S200000_n_0_n_n_0_1_1_wf : GatherDims.WF S1000000 S200000x1 S200000 [] [0] [] [0] [] 1 ![1]
  gather_S1000000x100_S200000x1_S200000x100_1_0_n_n_0_1_1100_wf : GatherDims.WF S1000000x100 S200000x1 S200000x100 [1] [0] [] [0] [] 1 ![1, 100]
  dot_S2000x472_S300x472_S2000x300_1_1_0_0_n_n_wf : DotDims.WF S2000x472 S300x472 S2000x300 [1] [1] [0] [0] [] []
  dot_S2000x100_S300x100_S2000x300_1_1_0_0_n_n_wf : DotDims.WF S2000x100 S300x100 S2000x300 [1] [1] [0] [0] [] []
  scatter_S1000000_S200000x1_S200000_n_0_0_1_wf : ScatterDims.WF S1000000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x472.size a ≤ S200000x472.size a
  hwx0_0 : ∀ i : grid0.Coords, EltTy.bits .bf16 = 32 ∨ (Rect.block (s := S200000x472) S2000x472.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x100.size a ≤ S200000x100.size a
  hwx0_1 : ∀ i : grid0.Coords, EltTy.bits .f32 = 32 ∨ (Rect.block (s := S200000x100) S2000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x472.size a ≤ S300x472.size a
  hwx0_2 : ∀ i : grid0.Coords, EltTy.bits .bf16 = 32 ∨ (Rect.block (s := S300x472) S300x472.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x100.size a ≤ S300x100.size a
  hwx0_3 : ∀ i : grid0.Coords, EltTy.bits .bf16 = 32 ∨ (Rect.block (s := S300x100) S300x100.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300.size a ≤ S300.size a
  hwx0_4 : ∀ i : grid0.Coords, EltTy.bits .f32 = 32 ∨ (Rect.block (s := S300) S300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300.size a ≤ S300.size a
  hwx0_5 : ∀ i : grid0.Coords, EltTy.bits .f32 = 32 ∨ (Rect.block (s := S300) S300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x100.size a ≤ S200000x100.size a
  hwx0_6 : ∀ i : grid0.Coords, EltTy.bits .f32 = 32 ∨ (Rect.block (s := S200000x100) S2000x100.size (cc0_transform_6 i) (hinb0_6 i)).WholeWords (EltTy.packing .f32)

variable [Facts₀]

def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def gather_S200000x172_S200000x1_S200000x172_1_0_n_n_0_1_1172 : GatherDims S200000x172 S200000x1 S200000x172 where
  offsetDims := [1]
  collapsedSliceDims := [0]
  operandBatchingDims := []
  startIndicesBatchingDims := []
  startIndexMap := [0]
  indexVectorDim := 1
  sliceSizes := ![1, 172]
  wf := gather_S200000x172_S200000x1_S200000x172_1_0_n_n_0_1_1172_wf
def gather_S1000000_S200000x1_S200000_n_0_n_n_0_1_1 : GatherDims S1000000 S200000x1 S200000 where
  offsetDims := []
  collapsedSliceDims := [0]
  operandBatchingDims := []
  startIndicesBatchingDims := []
  startIndexMap := [0]
  indexVectorDim := 1
  sliceSizes := ![1]
  wf := gather_S1000000_S200000x1_S200000_n_0_n_n_0_1_1_wf
def gather_S1000000x100_S200000x1_S200000x100_1_0_n_n_0_1_1100 : GatherDims S1000000x100 S200000x1 S200000x100 where
  offsetDims := [1]
  collapsedSliceDims := [0]
  operandBatchingDims := []
  startIndicesBatchingDims := []
  startIndexMap := [0]
  indexVectorDim := 1
  sliceSizes := ![1, 100]
  wf := gather_S1000000x100_S200000x1_S200000x100_1_0_n_n_0_1_1100_wf
def dot_S2000x472_S300x472_S2000x300_1_1_0_0_n_n : DotDims S2000x472 S300x472 S2000x300 where
  lhsContracting := [1]
  rhsContracting := [1]
  lhsNonContracting := [0]
  rhsNonContracting := [0]
  lhsBatch := []
  rhsBatch := []
  wf := dot_S2000x472_S300x472_S2000x300_1_1_0_0_n_n_wf
def dot_S2000x100_S300x100_S2000x300_1_1_0_0_n_n : DotDims S2000x100 S300x100 S2000x300 where
  lhsContracting := [1]
  rhsContracting := [1]
  lhsNonContracting := [0]
  rhsNonContracting := [0]
  lhsBatch := []
  rhsBatch := []
  wf := dot_S2000x100_S300x100_S2000x300_1_1_0_0_n_n_wf
def scatter_S1000000_S200000x1_S200000_n_0_0_1 : ScatterDims S1000000 S200000x1 S200000 where
  updateWindowDims := []
  insertedWindowDims := [0]
  scatterDimsToOperandDims := [0]
  indexVectorDim := 1
  wf := scatter_S1000000_S200000x1_S200000_n_0_0_1_wf

abbrev win0_0 : Pipeline.Window sig grid0 :=
  Pipeline.Window.ofSpec (Memref.whole main_v101) S2000x472.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v108) S2000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v109) S300x472.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v110) S300x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg15) S300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg16) S300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v111) S2000x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x100 : Shape := ⟨2, ![1000000, 100]⟩
abbrev S1000000 : Shape := ⟨1, ![1000000]⟩
abbrev S200000 : Shape := ⟨1, ![200000]⟩
abbrev S100000 : Shape := ⟨1, ![100000]⟩
abbrev S100000x172 : Shape := ⟨2, ![100000, 172]⟩
abbrev S100 : Shape := ⟨1, ![100]⟩
abbrev S300x472 : Shape := ⟨2, ![300, 472]⟩
abbrev S300x100 : Shape := ⟨2, ![300, 100]⟩
abbrev S300 : Shape := ⟨1, ![300]⟩
abbrev S_ : Shape := ⟨0, ![]⟩
abbrev S100000x1 : Shape := ⟨2, ![100000, 1]⟩
abbrev S1x100 : Shape := ⟨2, ![1, 100]⟩
abbrev S100000x100 : Shape := ⟨2, ![100000, 100]⟩
abbrev S100000x472 : Shape := ⟨2, ![100000, 472]⟩
abbrev S200000x472 : Shape := ⟨2, ![200000, 472]⟩
abbrev S200000x1 : Shape := ⟨2, ![200000, 1]⟩
abbrev S200000x100 : Shape := ⟨2, ![200000, 100]⟩
abbrev S472x300 : Shape := ⟨2, ![472, 300]⟩
abbrev S200000x300 : Shape := ⟨2, ![200000, 300]⟩
abbrev S1x300 : Shape := ⟨2, ![1, 300]⟩
abbrev S100x300 : Shape := ⟨2, ![100, 300]⟩

abbrev nBuf : Space → Nat
  | .hbm => 231
  | .vmem => 0
  | .smem => 0
  | _ => 0

abbrev hbmTy0_0 (i : Nat) : BufTy := match i % 128 with
  | 0 => ⟨S1000000x100, .f32⟩
  | 1 => ⟨S1000000, .i32⟩
  | 2 => ⟨S200000, .i32⟩
  | 3 => ⟨S100000, .i32⟩
  | 4 => ⟨S100000, .i32⟩
  | 5 => ⟨S100000, .i32⟩
  | 6 => ⟨S100000x172, .f32⟩
  | 7 => ⟨S100000, .i32⟩
  | 8 => ⟨S100000, .i32⟩
  | 9 => ⟨S100000, .i32⟩
  | 10 => ⟨S100000x172, .f32⟩
  | 11 => ⟨S100, .f32⟩
  | 12 => ⟨S100, .f32⟩
  | 13 => ⟨S300x472, .f32⟩
  | 14 => ⟨S300x100, .f32⟩
  | 15 => ⟨S300, .f32⟩
  | 16 => ⟨S300, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000, .i32⟩
  | 35 => ⟨S100000, .i32⟩
  | 36 => ⟨S100000, .f32⟩
  | 37 => ⟨S100000x1, .f32⟩
  | 38 => ⟨S1x100, .f32⟩
  | 39 => ⟨S100000x100, .f32⟩
  | 40 => ⟨S100000x100, .f32⟩
  | 41 => ⟨S100000x100, .f32⟩
  | 42 => ⟨S1x100, .f32⟩
  | 43 => ⟨S100000x100, .f32⟩
  | 44 => ⟨S100000x100, .f32⟩
  | 45 => ⟨S100000x100, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x100, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x100, .f32⟩
  | 64 => ⟨S100000x472, .f32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000, .i32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000, .i32⟩
  | 83 => ⟨S100000, .i32⟩
  | 84 => ⟨S100000, .f32⟩
  | 85 => ⟨S100000x1, .f32⟩
  | 86 => ⟨S1x100, .f32⟩
  | 87 => ⟨S100000x100, .f32⟩
  | 88 => ⟨S100000x100, .f32⟩
  | 89 => ⟨S100000x100, .f32⟩
  | 90 => ⟨S1x100, .f32⟩
  | 91 => ⟨S100000x100, .f32⟩
  | 92 => ⟨S100000x100, .f32⟩
  | 93 => ⟨S100000x100, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x100, .f32⟩
  | 103 => ⟨S_, .i32⟩
  | 104 => ⟨S100000, .i32⟩
  | 105 => ⟨S100000, .i1⟩
  | 106 => ⟨S_, .i32⟩
  | 107 => ⟨S100000, .i32⟩
  | 108 => ⟨S100000, .i32⟩
  | 109 => ⟨S100000, .i32⟩
  | 110 => ⟨S100000x1, .i32⟩
  | 111 => ⟨S100000x100, .f32⟩
  | 112 => ⟨S100000x472, .f32⟩
  | 113 => ⟨S200000x472, .f32⟩
  | 114 => ⟨S200000, .i32⟩
  | 115 => ⟨S200000, .i32⟩
  | 116 => ⟨S200000, .i32⟩
  | 117 => ⟨S_, .i32⟩
  | 118 => ⟨S200000, .i32⟩
  | 119 => ⟨S200000x1, .i32⟩
  | 120 => ⟨S200000, .i32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S1000000x100, .f32⟩

abbrev hbmTy0_1 (i : Nat) : BufTy := match i % 128 with
  | 0 => ⟨S200000x1, .i32⟩
  | 1 => ⟨S200000, .i32⟩
  | 2 => ⟨S200000, .i1⟩
  | 3 => ⟨S200000, .i32⟩
  | 4 => ⟨S_, .i32⟩
  | 5 => ⟨S200000, .i32⟩
  | 6 => ⟨S200000, .i32⟩
  | 7 => ⟨S_, .i32⟩
  | 8 => ⟨S200000, .i32⟩
  | 9 => ⟨S200000x1, .i32⟩
  | 10 => ⟨S200000, .i32⟩
  | 11 => ⟨S_, .i32⟩
  | 12 => ⟨S200000, .i32⟩
  | 13 => ⟨S200000, .i1⟩
  | 14 => ⟨S200000x1, .i1⟩
  | 15 => ⟨S_, .i32⟩
  | 16 => ⟨S_, .i32⟩
  | 17 => ⟨S200000, .i32⟩
  | 18 => ⟨S200000, .i32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000x472, .f32⟩
  | 28 => ⟨S_, .f32⟩
  | 29 => ⟨S_, .f32⟩
  | 30 => ⟨S200000x472, .i1⟩
  | 31 => ⟨S200000x472, .f32⟩
  | 32 => ⟨S200000x472, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x100, .f32⟩
  | 42 => ⟨S472x300, .f32⟩
  | 43 => ⟨S200000x300, .f32⟩
  | 44 => ⟨S1x300, .f32⟩
  | 45 => ⟨S200000x300, .f32⟩
  | 46 => ⟨S200000x300, .f32⟩
  | 47 => ⟨S100x300, .f32⟩
  | 48 => ⟨S200000x300, .f32⟩
  | 49 => ⟨S1x300, .f32⟩
  | 50 => ⟨S200000x300, .f32⟩
  | 51 => ⟨S200000x300, .f32⟩
  | 52 => ⟨S200000x100, .f32⟩
  | 53 => ⟨S200000x100, .f32⟩
  | 54 => ⟨S200000x100, .f32⟩
  | 55 => ⟨S200000x100, .f32⟩
  | 56 => ⟨S200000x100, .f32⟩
  | 57 => ⟨S200000x100, .f32⟩
  | 58 => ⟨S200000x100, .f32⟩
  | 59 => ⟨S200000x100, .f32⟩
  | 60 => ⟨S200000x100, .f32⟩
  | 61 => ⟨S_, .f32⟩
  | 62 => ⟨S200000x100, .f32⟩
  | 63 => ⟨S200000x100, .f32⟩
  | 64 => ⟨S_, .f32⟩
  | 65 => ⟨S200000x100, .f32⟩
  | 66 => ⟨S200000x100, .f32⟩
  | 67 => ⟨S200000x100, .f32⟩
  | 68 => ⟨S200000x100, .f32⟩
  | 69 => ⟨S200000x100, .f32⟩
  | 70 => ⟨S_, .f32⟩
  | 71 => ⟨S200000x100, .f32⟩
  | 72 => ⟨S200000x100, .f32⟩
  | 73 => ⟨S_, .f32⟩
  | 74 => ⟨S200000x100, .f32⟩
  | 75 => ⟨S200000x100, .f32⟩
  | 76 => ⟨S200000x100, .f32⟩
  | 77 => ⟨S200000x100, .f32⟩
  | 78 => ⟨S200000x100, .f32⟩
  | 79 => ⟨S_, .f32⟩
  | 80 => ⟨S200000x100, .f32⟩
  | 81 => ⟨S200000x100, .f32⟩
  | 82 => ⟨S200000x100, .f32⟩
  | 83 => ⟨S200000x100, .f32⟩
  | 84 => ⟨S200000x100, .f32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S1000000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000, .i32⟩
  | _ => ⟨S1000000x100, .f32⟩

abbrev hbmTy (i : Nat) : BufTy := match i / 128 with
  | 0 => hbmTy0_0 i
  | 1 => hbmTy0_1 i
  | _ => ⟨S1000000x100, .f32⟩

abbrev bufTy : (tb : Table) → Fin (tcTables nBuf tb) → BufTy
  | .hbm, ⟨i, _⟩ => hbmTy i
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_c_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_18 : Ref sig .tc := ⟨.hbm, 132, rfl⟩
abbrev main_call0_v0 : Ref sig .tc := ⟨.hbm, 133, rfl⟩
abbrev main_v96 : Ref sig .tc := ⟨.hbm, 134, rfl⟩
abbrev main_c_19 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_21 : Ref sig .tc := ⟨.hbm, 143, rfl⟩
abbrev main_call1_v0 : Ref sig .tc := ⟨.hbm, 144, rfl⟩
abbrev main_call1_v1 : Ref sig .tc := ⟨.hbm, 145, rfl⟩
abbrev main_v103 : Ref sig .tc := ⟨.hbm, 146, rfl⟩
abbrev main_c_22 : Ref sig .tc := ⟨.hbm, 147, rfl⟩
abbrev main_v104 : Ref sig .tc := ⟨.hbm, 148, rfl⟩
abbrev main_v105 : Ref sig .tc := ⟨.hbm, 149, rfl⟩
abbrev main_c_23 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_v111 : Ref sig .tc := ⟨.hbm, 160, rfl⟩
abbrev main_c_24 : Ref sig .tc := ⟨.hbm, 161, rfl⟩
abbrev main_v112 : Ref sig .tc := ⟨.hbm, 162, rfl⟩
abbrev main_v113 : Ref sig .tc := ⟨.hbm, 163, rfl⟩
abbrev main_c_25 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_26 : Ref sig .tc := ⟨.hbm, 189, rfl⟩
abbrev main_v138 : Ref sig .tc := ⟨.hbm, 190, rfl⟩
abbrev main_v139 : Ref sig .tc := ⟨.hbm, 191, rfl⟩
abbrev main_cst_27 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_28 : Ref sig .tc := ⟨.hbm, 198, rfl⟩
abbrev main_v145 : Ref sig .tc := ⟨.hbm, 199, rfl⟩
abbrev main_v146 : Ref sig .tc := ⟨.hbm, 200, rfl⟩
abbrev main_cst_29 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_30 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_c_31 : Ref sig .tc := ⟨.hbm, 213, rfl⟩
abbrev main_v157 : Ref sig .tc := ⟨.hbm, 214, rfl⟩
abbrev main_v158 : Ref sig .tc := ⟨.hbm, 215, rfl⟩
abbrev main_c_32 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_33 : Ref sig .tc := ⟨.hbm, 222, rfl⟩
abbrev main_v164 : Ref sig .tc := ⟨.hbm, 223, rfl⟩
abbrev main_v165 : Ref sig .tc := ⟨.hbm, 224, rfl⟩
abbrev main_c_34 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S100_S1x100_1 : S100.BroadcastsInDim S1x100 (![1] : Fin 1 → Fin S1x100.rank)
  bcast_S100000x1_S100000x100_0_1 : S100000x1.BroadcastsInDim S100000x100 (![0, 1] : Fin 2 → Fin S100000x100.rank)
  bcast_S1x100_S100000x100_0_1 : S1x100.BroadcastsInDim S100000x100 (![0, 1] : Fin 2 → Fin S100000x100.rank)
  concatenates_S100000x100_S100000x100_S100000x172_S100000x100_S100000x472_d1 : Shape.Concatenates [S100000x100, S100000x100, S100000x172, S100000x100] S100000x472 1
  concatenates_S100000x472_S100000x472_S200000x472_d0 : Shape.Concatenates [S100000x472, S100000x472] S200000x472 0
  concatenates_S100000_S100000_S200000_d0 : Shape.Concatenates [S100000, S100000] S200000 0
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x472_0_1 : S200000x1.BroadcastsInDim S200000x472 (![0, 1] : Fin 2 → Fin S200000x472.rank)
  bcast_S_S200000x472 : S_.BroadcastsInDim S200000x472 (![] : Fin 0 → Fin S200000x472.rank)
  transposes_S300x472_S472x300_1_0 : S300x472.Transposes [1, 0] S472x300
  bcast_S300_S1x300_1 : S300.BroadcastsInDim S1x300 (![1] : Fin 1 → Fin S1x300.rank)
  bcast_S1x300_S200000x300_0_1 : S1x300.BroadcastsInDim S200000x300 (![0, 1] : Fin 2 → Fin S200000x300.rank)
  transposes_S300x100_S100x300_1_0 : S300x100.Transposes [1, 0] S100x300
  slices_S200000x300_S200000x100_0_0 : S200000x300.Slices ![0, 0] S200000x100
  slices_S200000x300_S200000x100_0_100 : S200000x300.Slices ![0, 100] S200000x100
  slices_S200000x300_S200000x100_0_200 : S200000x300.Slices ![0, 200] S200000x100
  bcast_S_S200000x100 : S_.BroadcastsInDim S200000x100 (![] : Fin 0 → Fin S200000x100.rank)
  gather_S200000_S100000x1_S100000_n_0_n_n_0_1_1_wf : GatherDims.WF S200000 S100000x1 S100000 [] [0] [] [0] [] 1 ![1]
  gather_S1000000_S100000x1_S100000_n_0_n_n_0_1_1_wf : GatherDims.WF S1000000 S100000x1 S100000 [] [0] [] [0] [] 1 ![1]
  gather_S1000000x100_S100000x1_S100000x100_1_0_n_n_0_1_1100_wf : GatherDims.WF S1000000x100 S100000x1 S100000x100 [1] [0] [] [0] [] 1 ![1, 100]
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  gather_S200000x472_S200000x1_S200000x472_1_0_n_n_0_1_1472_wf : GatherDims.WF S200000x472 S200000x1 S200000x472 [1] [0] [] [0] [] 1 ![1, 472]
  gather_S1000000x100_S200000x1_S200000x100_1_0_n_n_0_1_1100_wf : GatherDims.WF S1000000x100 S200000x1 S200000x100 [1] [0] [] [0] [] 1 ![1, 100]
  dot_S200000x472_S472x300_S200000x300_1_0_0_1_n_n_wf : DotDims.WF S200000x472 S472x300 S200000x300 [1] [0] [0] [1] [] []
  dot_S200000x100_S100x300_S200000x300_1_0_0_1_n_n_wf : DotDims.WF S200000x100 S100x300 S200000x300 [1] [0] [0] [1] [] []
  scatter_S1000000_S200000x1_S200000_n_0_0_1_wf : ScatterDims.WF S1000000 S200000x1 S200000 [] [0] [0] 1
  gather_S1000000_S200000x1_S200000_n_0_n_n_0_1_1_wf : GatherDims.WF S1000000 S200000x1 S200000 [] [0] [] [0] [] 1 ![1]

variable [Facts₀]

def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def gather_S1000000_S100000x1_S100000_n_0_n_n_0_1_1 : GatherDims S1000000 S100000x1 S100000 where
  offsetDims := []
  collapsedSliceDims := [0]
  operandBatchingDims := []
  startIndicesBatchingDims := []
  startIndexMap := [0]
  indexVectorDim := 1
  sliceSizes := ![1]
  wf := gather_S1000000_S100000x1_S100000_n_0_n_n_0_1_1_wf
def gather_S1000000x100_S100000x1_S100000x100_1_0_n_n_0_1_1100 : GatherDims S1000000x100 S100000x1 S100000x100 where
  offsetDims := [1]
  collapsedSliceDims := [0]
  operandBatchingDims := []
  startIndicesBatchingDims := []
  startIndexMap := [0]
  indexVectorDim := 1
  sliceSizes := ![1, 100]
  wf := gather_S1000000x100_S100000x1_S100000x100_1_0_n_n_0_1_1100_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def gather_S200000x472_S200000x1_S200000x472_1_0_n_n_0_1_1472 : GatherDims S200000x472 S200000x1 S200000x472 where
  offsetDims := [1]
  collapsedSliceDims := [0]
  operandBatchingDims := []
  startIndicesBatchingDims := []
  startIndexMap := [0]
  indexVectorDim := 1
  sliceSizes := ![1, 472]
  wf := gather_S200000x472_S200000x1_S200000x472_1_0_n_n_0_1_1472_wf
def gather_S1000000x100_S200000x1_S200000x100_1_0_n_n_0_1_1100 : GatherDims S1000000x100 S200000x1 S200000x100 where
  offsetDims := [1]
  collapsedSliceDims := [0]
  operandBatchingDims := []
  startIndicesBatchingDims := []
  startIndexMap := [0]
  indexVectorDim := 1
  sliceSizes := ![1, 100]
  wf := gather_S1000000x100_S200000x1_S200000x100_1_0_n_n_0_1_1100_wf
def dot_S200000x472_S472x300_S200000x300_1_0_0_1_n_n : DotDims S200000x472 S472x300 S200000x300 where
  lhsContracting := [1]
  rhsContracting := [0]
  lhsNonContracting := [0]
  rhsNonContracting := [1]
  lhsBatch := []
  rhsBatch := []
  wf := dot_S200000x472_S472x300_S200000x300_1_0_0_1_n_n_wf
def dot_S200000x100_S100x300_S200000x300_1_0_0_1_n_n : DotDims S200000x100 S100x300 S200000x300 where
  lhsContracting := [1]
  rhsContracting := [0]
  lhsNonContracting := [0]
  rhsNonContracting := [1]
  lhsBatch := []
  rhsBatch := []
  wf := dot_S200000x100_S100x300_S200000x300_1_0_0_1_n_n_wf
def scatter_S1000000_S200000x1_S200000_n_0_0_1 : ScatterDims S1000000 S200000x1 S200000 where
  updateWindowDims := []
  insertedWindowDims := [0]
  scatterDimsToOperandDims := [0]
  indexVectorDim := 1
  wf := scatter_S1000000_S200000x1_S200000_n_0_0_1_wf
def gather_S1000000_S200000x1_S200000_n_0_n_n_0_1_1 : GatherDims S1000000 S200000x1 S200000 where
  offsetDims := []
  collapsedSliceDims := [0]
  operandBatchingDims := []
  startIndicesBatchingDims := []
  startIndexMap := [0]
  indexVectorDim := 1
  sliceSizes := ![1]
  wf := gather_S1000000_S200000x1_S200000_n_0_n_n_0_1_1_wf

class Facts : Prop extends Facts₀ where

variable [Facts]
-- ==== Proof.BitsRegion.lean ====
/-
  The one pallas_call of the program, as the mathematics sees it.  The host lines before the call are pure
  functions of the launch memory; applying them in order gives the contents `V` that the call finds in every
  buffer.  The call walks a grid of 100 points; at point `t` the two row-blocked operands (the aggregated
  messages, 2000 × 472, and the gathered node states, 2000 × 100) are rows 2000·t … 2000·t + 1999 of their
  arrays, the two weight matrices and the two bias vectors are whole at every point, and the body leaves in the
  output's staging buffer ONE store covering all 2000 × 100 entries: the gated-recurrent-unit update of those
  rows (the body's arithmetic is the single pure term `k0_pay1`).  `dats` records exactly that, point by point.
-/
import proofs.«121507_j30451318129194_2_alg».proof.Proof.Gen.Kernel.Launch
import proofs.«121507_j30451318129194_2_alg».proof.Proof.Gen.Kernel.Skeleton
import proofs.«121507_j30451318129194_2_alg».proof.Proof.Gen.Kernel.Points
import Idealize.ShloMosaic.Lib.Pipeline.FrameBody
import Idealize.ShloMosaic.Lib.Pipeline.FrameSuffix
import Idealize.ShloMosaic.Lib.Ring

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## What the call finds -/

/-- Core `c`'s buffer contents when the call is entered: the seven stretches of host lines before it, applied in
    order to the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a TensorCore buffer. -/
abbrev V (c : Dev nD) (b : Ref sig .tc) : Buf (Elt F) ((c : Thread nD τ).loc b) := V0 m c (Proc.devRef .tc b)

/-- Operand `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole staging buffer -/

abbrev rMsg : Rect S2000x472 := Rect.unit (s := S2000x472) ![0, 0] S2000x472.size inb_S2000x472_S2000x472_0_0
abbrev rRow : Rect S2000x100 := Rect.unit (s := S2000x100) ![0, 0] S2000x100.size inb_S2000x100_S2000x100_0_0
abbrev rWi : Rect S300x472 := Rect.unit (s := S300x472) ![0, 0] S300x472.size inb_S300x472_S300x472_0_0
abbrev rWh : Rect S300x100 := Rect.unit (s := S300x100) ![0, 0] S300x100.size inb_S300x100_S300x100_0_0
abbrev rBias : Rect S300 := Rect.unit (s := S300) ![0] S300.size inb_S300_S300_0

/-- The output's staging buffer after the body, from the six operand blocks: its one store, whose value is the
    body's arithmetic on the six loads (messages, input weights, input bias, states, hidden weights, hidden bias
    — the order in which `k0_pay1` takes them). -/
def outBlock (x0 : Vec F S2000x472 .bf16) (x1 : Vec F S2000x100 .f32) (x2 : Vec F S300x472 .bf16) (x3 : Vec F S300x100 .bf16)
    (x4 : Vec F S300 .f32) (x5 : Vec F S300 .f32) : Vec F S2000x100 .f32 :=
  View.canon [⟨rRow, k0_pay1 (View.ld x0 rMsg) (View.ld x2 rWi) (View.ld x4 rBias) (View.ld x1 rRow) (View.ld x3 rWh) (View.ld x5 rBias)⟩]

/-! ## The proof data of the call -/

/-- On core `c`: the arrays as the call finds them; after the body at point `t` each operand's buffer still at
    its block and the output's at `outBlock` of the six blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the contents the call finds (projected, never unfolded through `V`). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlock (iblk m c 0 t) (iblk m c 1 t) (iblk m c 2 t) (iblk m c 3 t) (iblk m c 4 t) (iblk m c 5 t) := by dsimp only [dats]

end Cert.Kernel.Region

end
-- ==== Proof.BitsFrame.lean ====
/-
  The frame of the program: every weakly fair execution of @main ends, without fault, with the seventeen argument
  arrays as they were launched.  @main is seven stretches of host lines, the one pallas_call, and a last stretch of
  host lines.  The host lines are pure functions from buffers to a result buffer of their own, and no result buffer
  is an argument, so each argument reaches the call as launched (`V_main_argK`) and leaves the last stretch as the
  call left it (`W_main_argK`).  The call itself only reads its six operands: at every grid point the body loads
  the six staging buffers whole, loads the output's staging buffer (whatever it holds), and stores the update over
  all of it (`sound_kernel`); so the two operands that are argument arrays (the two bias vectors) end as they
  began, and the fifteen arguments no window stages are not touched by the call at all.
-/
import proofs.«121507_j30451318129194_2_alg».proof.Proof.BitsRegion
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen Cert.Kernel.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

set_option maxHeartbeats 4000000 in
/-- No line of this stretch allocates a buffer. -/
theorem hostOps0_fresh : (hostOps0 : List (HloOp τ sig (Elt F))).Forall fun op => op.fresh = ∅ := by
  simp only [List.Forall]; repeat' constructor
/-- No line of this stretch allocates a buffer. -/
theorem hostOps0_1_fresh : (hostOps0_1 : List (HloOp τ sig (Elt F))).Forall fun op => op.fresh = ∅ := by
  simp only [List.Forall]; repeat' constructor
/-- No line of this stretch allocates a buffer. -/
theorem hostOps0_2_fresh : (hostOps0_2 : List (HloOp τ sig (Elt F))).Forall fun op => op.fresh = ∅ := by
  simp only [List.Forall]; repeat' constructor
/-- No line of this stretch allocates a buffer. -/
theorem hostOps0_3_fresh : (hostOps0_3 : List (HloOp τ sig (Elt F))).Forall fun op => op.fresh = ∅ := by
  simp only [List.Forall]; repeat' constructor
set_option maxHeartbeats 4000000 in
/-- No line of this stretch allocates a buffer. -/
theorem hostOps0_4_fresh : (hostOps0_4 : List (HloOp τ sig (Elt F))).Forall fun op => op.fresh = ∅ := by
  simp only [List.Forall]; repeat' constructor
/-- No line of this stretch allocates a buffer. -/
theorem hostOps0_5_fresh : (hostOps0_5 : List (HloOp τ sig (Elt F))).Forall fun op => op.fresh = ∅ := by
  simp only [List.Forall]; repeat' constructor
/-- No line of this stretch allocates a buffer. -/
theorem hostOps0_6_fresh : (hostOps0_6 : List (HloOp τ sig (Elt F))).Forall fun op => op.fresh = ∅ := by
  simp only [List.Forall]; repeat' constructor
/-- No line of this stretch allocates a buffer. -/
theorem hostOps1_fresh : (hostOps1 : List (HloOp τ sig (Elt F))).Forall fun op => op.fresh = ∅ := by
  simp only [List.Forall]; repeat' constructor

/-- @main is the host lines before the call, the call, and the host lines after it; it reduces to the call
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩ main_chain

/-- The lines after the call touch the call's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the call: each writes only its own result buffer, which is no operand. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the call's entry and after the last line -/

set_option maxHeartbeats 4000000 in
/-- No host line before the call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg5`: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg6`: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg7`: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg8`: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg9`: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg10`: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg11`: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg12`: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg13`: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg14`: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg15`: the call finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg16`: the call finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the call writes `main_arg0`, and it is no array of the call: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the call writes `main_arg1`, and it is no array of the call: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the call writes `main_arg2`, and it is no array of the call: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the call writes `main_arg3`, and it is no array of the call: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the call writes `main_arg4`, and it is no array of the call: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the call writes `main_arg5`, and it is no array of the call: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the call writes `main_arg6`, and it is no array of the call: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the call writes `main_arg7`, and it is no array of the call: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the call writes `main_arg8`, and it is no array of the call: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the call writes `main_arg9`, and it is no array of the call: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the call writes `main_arg10`, and it is no array of the call: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line after the call writes `main_arg11`, and it is no array of the call: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line after the call writes `main_arg12`, and it is no array of the call: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line after the call writes `main_arg13`, and it is no array of the call: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host line after the call writes `main_arg14`, and it is no array of the call: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The operands' blocks at a grid point -/

/-- Operand 0's current staging buffer holds its block at every point, fetched there or not (unfetched, its
    block index has not moved), for any proof data whose array is `V`'s and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Operand 1's current staging buffer holds its block at every point, fetched there or not (unfetched, its
    block index has not moved), for any proof data whose array is `V`'s and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Operand 2's current staging buffer holds its block at every point, fetched there or not (unfetched, its
    block index has not moved), for any proof data whose array is `V`'s and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Operand 3's current staging buffer holds its block at every point, fetched there or not (unfetched, its
    block index has not moved), for any proof data whose array is `V`'s and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Operand 4's current staging buffer holds its block at every point, fetched there or not (unfetched, its
    block index has not moved), for any proof data whose array is `V`'s and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Operand 5's current staging buffer holds its block at every point, fetched there or not (unfetched, its
    block index has not moved), for any proof data whose array is `V`'s and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- What the frame run's post says of the seventeen arguments on core `c`: the two bias vectors, which the call
    stages as operands 4 and 5, by the library's reading of an input array after the call; the other fifteen, which
    no window stages, by the post's second clause; each then as the host lines leave it. -/
theorem post_args {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).1 4).trans ((((dats m) 0 c).arrAt_in 4 rfl _).trans ((A_eq m c 4).trans (V_main_arg15 m c))),
    ((h c).1 5).trans ((((dats m) 0 c).arrAt_in 5 rfl _).trans ((A_eq m c 5).trans (V_main_arg16 m c)))⟩

/-! ## The body -/

/-- The body's one store covers the whole output buffer. -/
theorem cover_out (p0 : Vec F S2000x100 .f32) (y : S2000x100.Idx) :
    ∃ pc ∈ ([⟨rRow, p0⟩] : List (View.Piece (Elt F) S2000x100 .f32)), y ∈ pc.1.set :=
  View.cover_of_tiled [⟨rRow, p0⟩] S2000x100.size (by rfl) y

set_option maxHeartbeats 4000000 in
/-- The body on whole staging buffers, the six operands' at contents `x0 … x5` and the output's at anything: it
    returns with the operands' as they were and the output's at `outBlock` of the six.  (The body's load of the
    output buffer needs it owned at some contents; what it reads there is never used.) -/
theorem sound_kernel (c : Dev nD) (E : Set ℕ) (i : grid0.Coords) (arg1 : Memref sig .tc .vmem S2000x472 .bf16) (harg1 : arg1.IsWhole) (arg2 : Memref sig .tc .vmem S2000x100 .f32) (harg2 : arg2.IsWhole) (arg3 : Memref sig .tc .vmem S300x472 .bf16) (harg3 : arg3.IsWhole) (arg4 : Memref sig .tc .vmem S300x100 .bf16) (harg4 : arg4.IsWhole) (arg5 : Memref sig .tc .vmem S300 .f32) (harg5 : arg5.IsWhole) (arg6 : Memref sig .tc .vmem S300 .f32) (harg6 : arg6.IsWhole) (arg7 : Memref sig .tc .vmem S2000x100 .f32) (harg7 : arg7.IsWhole)
    (x0 : Vec F S2000x472 .bf16) (x1 : Vec F S2000x100 .f32) (x2 : Vec F S300x472 .bf16) (x3 : Vec F S300x100 .bf16) (x4 : Vec F S300 .f32) (x5 : Vec F S300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outBlock x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The proof data's blocks -/

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point: the operands' buffers hold their blocks, so `sound_kernel` applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main on the TensorCores terminates, and every
    final state has every array of the call at what the proof data say and every other unscoped buffer as the lines
    after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without fault and the seventeen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => post_args m h c) (run_main m ρ)

end Cert.Kernel.Frame

end
-- ==== Proof.IdealRegion.lean ====
/-
  The one pallas_call of the program, as the mathematics sees it.  The host lines before the call are pure
  functions of the launch memory; applying them in order gives the contents `V` that the call finds in every
  buffer.  The call walks a grid of 100 points; at point `t` the two row-blocked operands (the aggregated
  messages, 2000 × 472, and the gathered node states, 2000 × 100) are rows 2000·t … 2000·t + 1999 of their
  arrays, the two weight matrices and the two bias vectors are whole at every point, and the body leaves in the
  output's staging buffer ONE store covering all 2000 × 100 entries: the gated-recurrent-unit update of those
  rows (the body's arithmetic is the single pure term `k0_pay1`).  `dats` records exactly that, point by point.
-/
import proofs.«121507_j30451318129194_2_alg».proof.Proof.Gen.KernelIdeal.Launch
import proofs.«121507_j30451318129194_2_alg».proof.Proof.Gen.KernelIdeal.Skeleton
import proofs.«121507_j30451318129194_2_alg».proof.Proof.Gen.KernelIdeal.Points
import Idealize.ShloMosaic.Lib.Pipeline.FrameBody
import Idealize.ShloMosaic.Lib.Pipeline.FrameSuffix
import Idealize.ShloMosaic.Lib.Ring

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## What the call finds -/

/-- Core `c`'s buffer contents when the call is entered: the seven stretches of host lines before it, applied in
    order to the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a TensorCore buffer. -/
abbrev V (c : Dev nD) (b : Ref sig .tc) : Buf (Elt F) ((c : Thread nD τ).loc b) := V0 m c (Proc.devRef .tc b)

/-- Operand `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole staging buffer -/

abbrev rMsg : Rect S2000x472 := Rect.unit (s := S2000x472) ![0, 0] S2000x472.size inb_S2000x472_S2000x472_0_0
abbrev rRow : Rect S2000x100 := Rect.unit (s := S2000x100) ![0, 0] S2000x100.size inb_S2000x100_S2000x100_0_0
abbrev rWi : Rect S300x472 := Rect.unit (s := S300x472) ![0, 0] S300x472.size inb_S300x472_S300x472_0_0
abbrev rWh : Rect S300x100 := Rect.unit (s := S300x100) ![0, 0] S300x100.size inb_S300x100_S300x100_0_0
abbrev rBias : Rect S300 := Rect.unit (s := S300) ![0] S300.size inb_S300_S300_0

/-- The output's staging buffer after the body, from the six operand blocks: its one store, whose value is the
    body's arithmetic on the six loads (messages, input weights, input bias, states, hidden weights, hidden bias
    — the order in which `k0_pay1` takes them). -/
def outBlock (x0 : Vec F S2000x472 .bf16) (x1 : Vec F S2000x100 .f32) (x2 : Vec F S300x472 .bf16) (x3 : Vec F S300x100 .bf16)
    (x4 : Vec F S300 .f32) (x5 : Vec F S300 .f32) : Vec F S2000x100 .f32 :=
  View.canon [⟨rRow, k0_pay1 (View.ld x0 rMsg) (View.ld x2 rWi) (View.ld x4 rBias) (View.ld x1 rRow) (View.ld x3 rWh) (View.ld x5 rBias)⟩]

/-! ## The proof data of the call -/

/-- On core `c`: the arrays as the call finds them; after the body at point `t` each operand's buffer still at
    its block and the output's at `outBlock` of the six blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the contents the call finds (projected, never unfolded through `V`). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlock (iblk m c 0 t) (iblk m c 1 t) (iblk m c 2 t) (iblk m c 3 t) (iblk m c 4 t) (iblk m c 5 t) := by dsimp only [dats]

end Cert.KernelIdeal.Region

end
-- ==== Proof.IdealFrame.lean ====
/-
  The frame of the program: every weakly fair execution of @main ends, without fault, with the seventeen argument
  arrays as they were launched.  @main is seven stretches of host lines, the one pallas_call, and a last stretch of
  host lines.  The host lines are pure functions from buffers to a result buffer of their own, and no result buffer
  is an argument, so each argument reaches the call as launched (`V_main_argK`) and leaves the last stretch as the
  call left it (`W_main_argK`).  The call itself only reads its six operands: at every grid point the body loads
  the six staging buffers whole, loads the output's staging buffer (whatever it holds), and stores the update over
  all of it (`sound_kernel`); so the two operands that are argument arrays (the two bias vectors) end as they
  began, and the fifteen arguments no window stages are not touched by the call at all.
-/
import proofs.«121507_j30451318129194_2_alg».proof.Proof.IdealRegion
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

set_option maxHeartbeats 4000000 in
/-- No line of this stretch allocates a buffer. -/
theorem hostOps0_fresh : (hostOps0 : List (HloOp τ sig (Elt F))).Forall fun op => op.fresh = ∅ := by
  simp only [List.Forall]; repeat' constructor
/-- No line of this stretch allocates a buffer. -/
theorem hostOps0_1_fresh : (hostOps0_1 : List (HloOp τ sig (Elt F))).Forall fun op => op.fresh = ∅ := by
  simp only [List.Forall]; repeat' constructor
/-- No line of this stretch allocates a buffer. -/
theorem hostOps0_2_fresh : (hostOps0_2 : List (HloOp τ sig (Elt F))).Forall fun op => op.fresh = ∅ := by
  simp only [List.Forall]; repeat' constructor
/-- No line of this stretch allocates a buffer. -/
theorem hostOps0_3_fresh : (hostOps0_3 : List (HloOp τ sig (Elt F))).Forall fun op => op.fresh = ∅ := by
  simp only [List.Forall]; repeat' constructor
set_option maxHeartbeats 4000000 in
/-- No line of this stretch allocates a buffer. -/
theorem hostOps0_4_fresh : (hostOps0_4 : List (HloOp τ sig (Elt F))).Forall fun op => op.fresh = ∅ := by
  simp only [List.Forall]; repeat' constructor
/-- No line of this stretch allocates a buffer. -/
theorem hostOps0_5_fresh : (hostOps0_5 : List (HloOp τ sig (Elt F))).Forall fun op => op.fresh = ∅ := by
  simp only [List.Forall]; repeat' constructor
/-- No line of this stretch allocates a buffer. -/
theorem hostOps0_6_fresh : (hostOps0_6 : List (HloOp τ sig (Elt F))).Forall fun op => op.fresh = ∅ := by
  simp only [List.Forall]; repeat' constructor
/-- No line of this stretch allocates a buffer. -/
theorem hostOps1_fresh : (hostOps1 : List (HloOp τ sig (Elt F))).Forall fun op => op.fresh = ∅ := by
  simp only [List.Forall]; repeat' constructor

/-- @main is the host lines before the call, the call, and the host lines after it; it reduces to the call
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩ main_chain

/-- The lines after the call touch the call's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the call: each writes only its own result buffer, which is no operand. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the call's entry and after the last line -/

set_option maxHeartbeats 4000000 in
/-- No host line before the call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg5`: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg6`: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg7`: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg8`: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg9`: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg10`: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg11`: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg12`: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg13`: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg14`: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg15`: the call finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host line before the call writes `main_arg16`: the call finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the call writes `main_arg0`, and it is no array of the call: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the call writes `main_arg1`, and it is no array of the call: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the call writes `main_arg2`, and it is no array of the call: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the call writes `main_arg3`, and it is no array of the call: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the call writes `main_arg4`, and it is no array of the call: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the call writes `main_arg5`, and it is no array of the call: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the call writes `main_arg6`, and it is no array of the call: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the call writes `main_arg7`, and it is no array of the call: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the call writes `main_arg8`, and it is no array of the call: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the call writes `main_arg9`, and it is no array of the call: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the call writes `main_arg10`, and it is no array of the call: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line after the call writes `main_arg11`, and it is no array of the call: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line after the call writes `main_arg12`, and it is no array of the call: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line after the call writes `main_arg13`, and it is no array of the call: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host line after the call writes `main_arg14`, and it is no array of the call: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The operands' blocks at a grid point -/

/-- Operand 0's current staging buffer holds its block at every point, fetched there or not (unfetched, its
    block index has not moved), for any proof data whose array is `V`'s and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Operand 1's current staging buffer holds its block at every point, fetched there or not (unfetched, its
    block index has not moved), for any proof data whose array is `V`'s and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Operand 2's current staging buffer holds its block at every point, fetched there or not (unfetched, its
    block index has not moved), for any proof data whose array is `V`'s and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Operand 3's current staging buffer holds its block at every point, fetched there or not (unfetched, its
    block index has not moved), for any proof data whose array is `V`'s and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Operand 4's current staging buffer holds its block at every point, fetched there or not (unfetched, its
    block index has not moved), for any proof data whose array is `V`'s and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Operand 5's current staging buffer holds its block at every point, fetched there or not (unfetched, its
    block index has not moved), for any proof data whose array is `V`'s and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- What the frame run's post says of the seventeen arguments on core `c`: the two bias vectors, which the call
    stages as operands 4 and 5, by the library's reading of an input array after the call; the other fifteen, which
    no window stages, by the post's second clause; each then as the host lines leave it. -/
theorem post_args {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).1 4).trans ((((dats m) 0 c).arrAt_in 4 rfl _).trans ((A_eq m c 4).trans (V_main_arg15 m c))),
    ((h c).1 5).trans ((((dats m) 0 c).arrAt_in 5 rfl _).trans ((A_eq m c 5).trans (V_main_arg16 m c)))⟩

/-! ## The body -/

/-- The body's one store covers the whole output buffer. -/
theorem cover_out (p0 : Vec F S2000x100 .f32) (y : S2000x100.Idx) :
    ∃ pc ∈ ([⟨rRow, p0⟩] : List (View.Piece (Elt F) S2000x100 .f32)), y ∈ pc.1.set :=
  View.cover_of_tiled [⟨rRow, p0⟩] S2000x100.size (by rfl) y

set_option maxHeartbeats 4000000 in
/-- The body on whole staging buffers, the six operands' at contents `x0 … x5` and the output's at anything: it
    returns with the operands' as they were and the output's at `outBlock` of the six.  (The body's load of the
    output buffer needs it owned at some contents; what it reads there is never used.) -/
theorem sound_kernel (c : Dev nD) (E : Set ℕ) (i : grid0.Coords) (arg1 : Memref sig .tc .vmem S2000x472 .bf16) (harg1 : arg1.IsWhole) (arg2 : Memref sig .tc .vmem S2000x100 .f32) (harg2 : arg2.IsWhole) (arg3 : Memref sig .tc .vmem S300x472 .bf16) (harg3 : arg3.IsWhole) (arg4 : Memref sig .tc .vmem S300x100 .bf16) (harg4 : arg4.IsWhole) (arg5 : Memref sig .tc .vmem S300 .f32) (harg5 : arg5.IsWhole) (arg6 : Memref sig .tc .vmem S300 .f32) (harg6 : arg6.IsWhole) (arg7 : Memref sig .tc .vmem S2000x100 .f32) (harg7 : arg7.IsWhole)
    (x0 : Vec F S2000x472 .bf16) (x1 : Vec F S2000x100 .f32) (x2 : Vec F S300x472 .bf16) (x3 : Vec F S300x100 .bf16) (x4 : Vec F S300 .f32) (x5 : Vec F S300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outBlock x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The proof data's blocks -/

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point: the operands' buffers hold their blocks, so `sound_kernel` applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main on the TensorCores terminates, and every
    final state has every array of the call at what the proof data say and every other unscoped buffer as the lines
    after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without fault and the seventeen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => post_args m h c) (run_main m ρ)

end Cert.KernelIdeal.Frame

end
-- ==== Proof.GruSpec.lean ====
/-
  The gated recurrent unit, row by row, on the extended reals — the one function both programs compute from
  the aggregated messages `X` (200000 × 472), the node states `H` (200000 × 100), the input weights `Wi`
  (300 × 472), the hidden weights `Wh` (300 × 100) and the two biases (300 each).

  For a node `r` and a gate row `g` of the 300 (three gates of 100 units: reset, update, candidate)
      inGate  r g = Σ_k X[r, k] · Wi[g, k] + bi[g]          (k over the 472 message features)
      hidGate r g = Σ_k H[r, k] · Wh[g, k] + bh[g]          (k over the 100 state features)
  and for a unit `j` of the 100
      reset  = σ (inGate r j + hidGate r j)
      update = σ (inGate r (100 + j) + hidGate r (100 + j))
      cand   = tanh (inGate r (200 + j) + reset · hidGate r (200 + j))
      new[r, j] = (1 − update) · cand + update · H[r, j],
  with σ x = 1 / (1 + e^(−x)).  No rounding happens on the extended reals, so the order in which either program
  adds the products of a row does not matter: a finite sum there is commutative and associative.
-/
import Idealize.ShloMosaic.PureOps.Ideal
import Idealize.ShloMosaic.Lib.ValueIdx

noncomputable section

namespace Cert.Gru

open Idealize.ShloMosaic Idealize.ShloMosaic.ValueIdx

/-- The input-side pre-activation of gate row `g` at node `r`. -/
def inGate (X : (⟨2, ![200000, 472]⟩ : Shape).Idx → EReal) (Wi : (⟨2, ![300, 472]⟩ : Shape).Idx → EReal)
    (bi : (⟨1, ![300]⟩ : Shape).Idx → EReal) (r : Fin 200000) (g : Fin 300) : EReal :=
  (∑ k : Fin 472, X (ix2 r k) * Wi (ix2 g k)) + bi (ix1 g)

/-- The state-side pre-activation of gate row `g` at node `r`. -/
def hidGate (H : (⟨2, ![200000, 100]⟩ : Shape).Idx → EReal) (Wh : (⟨2, ![300, 100]⟩ : Shape).Idx → EReal)
    (bh : (⟨1, ![300]⟩ : Shape).Idx → EReal) (r : Fin 200000) (g : Fin 300) : EReal :=
  (∑ k : Fin 100, H (ix2 r k) * Wh (ix2 g k)) + bh (ix1 g)

/-- Unit `j` of gate number `q` (0 reset, 1 update, 2 candidate) is gate row `100 q + j`. -/
def gateRow (q : Fin 3) (j : Fin 100) : Fin 300 := ⟨100 * q.val + j.val, by have := q.isLt; have := j.isLt; omega⟩

/-- The update from the two pre-activations and the old state (one entry). -/
def cell (gi gh : Fin 300 → EReal) (h : EReal) (j : Fin 100) : EReal :=
  (1 - Ideal.logistic (gi (gateRow 1 j) + gh (gateRow 1 j)))
      * Ideal.tanh (gi (gateRow 2 j) + Ideal.logistic (gi (gateRow 0 j) + gh (gateRow 0 j)) * gh (gateRow 2 j))
    + Ideal.logistic (gi (gateRow 1 j) + gh (gateRow 1 j)) * h

/-- The new state of node `r`, unit `j`. -/
def newAt (X : (⟨2, ![200000, 472]⟩ : Shape).Idx → EReal) (H : (⟨2, ![200000, 100]⟩ : Shape).Idx → EReal)
    (Wi : (⟨2, ![300, 472]⟩ : Shape).Idx → EReal) (Wh : (⟨2, ![300, 100]⟩ : Shape).Idx → EReal)
    (bi bh : (⟨1, ![300]⟩ : Shape).Idx → EReal) (r : Fin 200000) (j : Fin 100) : EReal :=
  cell (inGate X Wi bi r) (hidGate H Wh bh r) (H (ix2 r j)) j

/-- The whole array of new states. -/
def new (X : (⟨2, ![200000, 472]⟩ : Shape).Idx → EReal) (H : (⟨2, ![200000, 100]⟩ : Shape).Idx → EReal)
    (Wi : (⟨2, ![300, 472]⟩ : Shape).Idx → EReal) (Wh : (⟨2, ![300, 100]⟩ : Shape).Idx → EReal)
    (bi bh : (⟨1, ![300]⟩ : Shape).Idx → EReal) : (⟨2, ![200000, 100]⟩ : Shape).Idx → EReal :=
  fun i => newAt X H Wi Wh bi bh (i 0) (i 1)

theorem new_apply (X : (⟨2, ![200000, 472]⟩ : Shape).Idx → EReal) (H : (⟨2, ![200000, 100]⟩ : Shape).Idx → EReal)
    (Wi : (⟨2, ![300, 472]⟩ : Shape).Idx → EReal) (Wh : (⟨2, ![300, 100]⟩ : Shape).Idx → EReal)
    (bi bh : (⟨1, ![300]⟩ : Shape).Idx → EReal) (r : Fin 200000) (j : Fin 100) :
    new X H Wi Wh bi bh (ix2 r j) = newAt X H Wi Wh bi bh r j := rfl

/-- The bit pattern of the float one denotes the real one. -/
theorem one_f32 : Ideal.ofBits .f32 0x3F800000#32 = 1 := by
  simp [Ideal.ofBits, Ideal.ieee, -EReal.coe_mul]; norm_num

end Cert.Gru

end
-- ==== Proof.IdealPayload.lean ====
/-
  One entry of the block the body stores, read on the extended reals.

  The body multiplies its 2000 rows of messages by the transposed input weights and its 2000 rows of states by the
  transposed hidden weights (each product accumulated from zero, so entry (p, g) is just the sum over the contracted
  feature axis), adds the biases along the rows, cuts each 2000 × 300 result into the three gates of 100 columns, and
  combines them with the logistic function and the hyperbolic tangent.  Every step is either pointwise or a re-indexing,
  so entry (p, j) of the stored block depends only on row p of the two row blocks, on the whole weights and biases, and
  on the unit j: it is the gated update `Cert.Gru.cell` of that row's two pre-activations and its old state.
-/
import proofs.«121507_j30451318129194_2_alg».proof.Proof.Gen.KernelIdeal.Skeleton
import proofs.«121507_j30451318129194_2_alg».proof.Proof.GruSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen
open Idealize.ShloMosaic Idealize.ShloMosaic.ValueIdx

/-! ## The two products at an entry

A product's dimension numbers contract axis 1 of both operands and keep axis 0 of each, so at output entry (p, g) and
contraction index k the left operand is read at (p, k) and the right one at (g, k). -/

theorem inDot_lhs0 (i : S2000x300.Idx) (q : dot_S2000x472_S300x472_S2000x300_1_1_0_0_n_n.contr.Idx) :
    (dot_S2000x472_S300x472_S2000x300_1_1_0_0_n_n.lhsIdx i q 0).val = (i 0).val := by
  unfold DotDims.lhsIdx
  rw [dif_neg (show ¬(0 : Fin S2000x472.rank) ∈ dot_S2000x472_S300x472_S2000x300_1_1_0_0_n_n.lhsBatch by decide), dif_pos (show (0 : Fin S2000x472.rank) ∈ dot_S2000x472_S300x472_S2000x300_1_1_0_0_n_n.lhsNonContracting by decide)]
  rfl
theorem inDot_lhs1 (i : S2000x300.Idx) (q : dot_S2000x472_S300x472_S2000x300_1_1_0_0_n_n.contr.Idx) :
    (dot_S2000x472_S300x472_S2000x300_1_1_0_0_n_n.lhsIdx i q 1).val = (q ⟨0, by decide⟩).val :=
  dot_S2000x472_S300x472_S2000x300_1_1_0_0_n_n.lhsIdx_val_of_single rfl i q
theorem inDot_rhs0 (i : S2000x300.Idx) (q : dot_S2000x472_S300x472_S2000x300_1_1_0_0_n_n.contr.Idx) :
    (dot_S2000x472_S300x472_S2000x300_1_1_0_0_n_n.rhsIdx i q 0).val = (i 1).val := by
  unfold DotDims.rhsIdx
  rw [dif_neg (show ¬(0 : Fin S300x472.rank) ∈ dot_S2000x472_S300x472_S2000x300_1_1_0_0_n_n.rhsBatch by decide), dif_pos (show (0 : Fin S300x472.rank) ∈ dot_S2000x472_S300x472_S2000x300_1_1_0_0_n_n.rhsNonContracting by decide)]
  rfl
theorem inDot_rhs1 (i : S2000x300.Idx) (q : dot_S2000x472_S300x472_S2000x300_1_1_0_0_n_n.contr.Idx) :
    (dot_S2000x472_S300x472_S2000x300_1_1_0_0_n_n.rhsIdx i q 1).val = (q ⟨0, by decide⟩).val :=
  dot_S2000x472_S300x472_S2000x300_1_1_0_0_n_n.rhsIdx_val_of_single rfl i q

/-- The product of a block of messages with the transposed input weights, entry (p, g): the sum over the 472 message
    features of message p times weight row g. -/
theorem inDot_apply (x : FVec Ideal S2000x472 .bf16) (w : FVec Ideal S300x472 .bf16) (p : Fin 2000) (g : Fin 300) :
    matmul dot_S2000x472_S300x472_S2000x300_1_1_0_0_n_n none x w (constant S2000x300 .f32 0x00000000#32) (ix2 p g)
      = ∑ k : Fin 472, x (ix2 p k) * w (ix2 g k) := by
  show FloatOps.matmul dot_S2000x472_S300x472_S2000x300_1_1_0_0_n_n none x w (constant S2000x300 .f32 0x00000000#32) (ix2 p g) = _
  rw [Ideal.matmul_constant_zero_apply, ← Equiv.sum_comp (contrEquiv1 dot_S2000x472_S300x472_S2000x300_1_1_0_0_n_n 472 rfl rfl).symm]
  refine Finset.sum_congr rfl fun k _ => ?_
  have hk := contrEquiv1_symm_val dot_S2000x472_S300x472_S2000x300_1_1_0_0_n_n 472 rfl rfl k
  have el : dot_S2000x472_S300x472_S2000x300_1_1_0_0_n_n.lhsIdx (ix2 p g) ((contrEquiv1 dot_S2000x472_S300x472_S2000x300_1_1_0_0_n_n 472 rfl rfl).symm k) = ix2 p k := funext fun a => Fin.ext (by
    match a with
    | ⟨0, _⟩ => exact inDot_lhs0 _ _
    | ⟨1, _⟩ => exact (inDot_lhs1 _ _).trans hk)
  have er : dot_S2000x472_S300x472_S2000x300_1_1_0_0_n_n.rhsIdx (ix2 p g) ((contrEquiv1 dot_S2000x472_S300x472_S2000x300_1_1_0_0_n_n 472 rfl rfl).symm k) = ix2 g k := funext fun a => Fin.ext (by
    match a with
    | ⟨0, _⟩ => exact inDot_rhs0 _ _
    | ⟨1, _⟩ => exact (inDot_rhs1 _ _).trans hk)
  rw [el, er]

theorem hidDot_lhs0 (i : S2000x300.Idx) (q : dot_S2000x100_S300x100_S2000x300_1_1_0_0_n_n.contr.Idx) :
    (dot_S2000x100_S300x100_S2000x300_1_1_0_0_n_n.lhsIdx i q 0).val = (i 0).val := by
  unfold DotDims.lhsIdx
  rw [dif_neg (show ¬(0 : Fin S2000x100.rank) ∈ dot_S2000x100_S300x100_S2000x300_1_1_0_0_n_n.lhsBatch by decide), dif_pos (show (0 : Fin S2000x100.rank) ∈ dot_S2000x100_S300x100_S2000x300_1_1_0_0_n_n.lhsNonContracting by decide)]
  rfl
theorem hidDot_lhs1 (i : S2000x300.Idx) (q : dot_S2000x100_S300x100_S2000x300_1_1_0_0_n_n.contr.Idx) :
    (dot_S2000x100_S300x100_S2000x300_1_1_0_0_n_n.lhsIdx i q 1).val = (q ⟨0, by decide⟩).val :=
  dot_S2000x100_S300x100_S2000x300_1_1_0_0_n_n.lhsIdx_val_of_single rfl i q
theorem hidDot_rhs0 (i : S2000x300.Idx) (q : dot_S2000x100_S300x100_S2000x300_1_1_0_0_n_n.contr.Idx) :
    (dot_S2000x100_S300x100_S2000x300_1_1_0_0_n_n.rhsIdx i q 0).val = (i 1).val := by
  unfold DotDims.rhsIdx
  rw [dif_neg (show ¬(0 : Fin S300x100.rank) ∈ dot_S2000x100_S300x100_S2000x300_1_1_0_0_n_n.rhsBatch by decide), dif_pos (show (0 : Fin S300x100.rank) ∈ dot_S2000x100_S300x100_S2000x300_1_1_0_0_n_n.rhsNonContracting by decide)]
  rfl
theorem hidDot_rhs1 (i : S2000x300.Idx) (q : dot_S2000x100_S300x100_S2000x300_1_1_0_0_n_n.contr.Idx) :
    (dot_S2000x100_S300x100_S2000x300_1_1_0_0_n_n.rhsIdx i q 1).val = (q ⟨0, by decide⟩).val :=
  dot_S2000x100_S300x100_S2000x300_1_1_0_0_n_n.rhsIdx_val_of_single rfl i q

/-- The product of a block of states with the transposed hidden weights, entry (p, g): the sum over the 100 state
    features of state p times weight row g. -/
theorem hidDot_apply (x : FVec Ideal S2000x100 .bf16) (w : FVec Ideal S300x100 .bf16) (p : Fin 2000) (g : Fin 300) :
    matmul dot_S2000x100_S300x100_S2000x300_1_1_0_0_n_n none x w (constant S2000x300 .f32 0x00000000#32) (ix2 p g)
      = ∑ k : Fin 100, x (ix2 p k) * w (ix2 g k) := by
  show FloatOps.matmul dot_S2000x100_S300x100_S2000x300_1_1_0_0_n_n none x w (constant S2000x300 .f32 0x00000000#32) (ix2 p g) = _
  rw [Ideal.matmul_constant_zero_apply, ← Equiv.sum_comp (contrEquiv1 dot_S2000x100_S300x100_S2000x300_1_1_0_0_n_n 100 rfl rfl).symm]
  refine Finset.sum_congr rfl fun k _ => ?_
  have hk := contrEquiv1_symm_val dot_S2000x100_S300x100_S2000x300_1_1_0_0_n_n 100 rfl rfl k
  have el : dot_S2000x100_S300x100_S2000x300_1_1_0_0_n_n.lhsIdx (ix2 p g) ((contrEquiv1 dot_S2000x100_S300x100_S2000x300_1_1_0_0_n_n 100 rfl rfl).symm k) = ix2 p k := funext fun a => Fin.ext (by
    match a with
    | ⟨0, _⟩ => exact hidDot_lhs0 _ _
    | ⟨1, _⟩ => exact (hidDot_lhs1 _ _).trans hk)
  have er : dot_S2000x100_S300x100_S2000x300_1_1_0_0_n_n.rhsIdx (ix2 p g) ((contrEquiv1 dot_S2000x100_S300x100_S2000x300_1_1_0_0_n_n 100 rfl rfl).symm k) = ix2 g k := funext fun a => Fin.ext (by
    match a with
    | ⟨0, _⟩ => exact hidDot_rhs0 _ _
    | ⟨1, _⟩ => exact (hidDot_rhs1 _ _).trans hk)
  rw [el, er]

/-! ## The layout steps and the two transcendental functions at an entry -/

/-- A bias vector laid as one row and repeated down the 2000 rows of a block reads, at (p, g), its entry g. -/
theorem biasRows_apply (b : FVec Ideal S300 .f32) (p : Fin 2000) (g : Fin 300) :
    broadcastTo S2000x300 (shapeCast S1x300 b shapeCasts_S300_S1x300) broadcasts_S1x300_S2000x300 (ix2 p g) = b (ix1 g) := by
  rw [broadcastTo_1b_ab_apply, shapeCast_a_1a_apply]

/-- The logistic function of a vector, at an index, is the logistic function of the entry. -/
theorem logistic_apply {s : Shape} {φ : FTy} (a : FVec Ideal s φ) (i : s.Idx) : logistic a i = Ideal.logistic (a i) := rfl
/-- The hyperbolic tangent of a vector, at an index, is the hyperbolic tangent of the entry. -/
theorem tanh_apply {s : Shape} {φ : FTy} (a : FVec Ideal s φ) (i : s.Idx) : tanh a i = Ideal.tanh (a i) := rfl

/-! ## The stored block at an entry -/

/-- ENTRY (p, j) OF THE STORED BLOCK: the gated update of row p of the block, unit j, from the two pre-activations of
    that row — messages against the input weights plus the input bias, states against the hidden weights plus the
    hidden bias — and the row's old state. The three 100-column slices of each 2000 × 300 pre-activation block are the
    reset, update and candidate gates, so column j of slice q is gate row 100 q + j; the format changes are the identity
    on the extended reals, and the literal one is the real one. -/
theorem payload_at (x0 : FVec Ideal S2000x472 .bf16) (x2 : FVec Ideal S300x472 .bf16) (x5 : FVec Ideal S300 .f32)
    (x9 : FVec Ideal S2000x100 .f32) (x12 : FVec Ideal S300x100 .bf16) (x15 : FVec Ideal S300 .f32) (p : Fin 2000) (j : Fin 100) :
    k0_pay1 (F := Ideal) x0 x2 x5 x9 x12 x15 (ix2 p j)
      = Cert.Gru.cell (fun g => (∑ k : Fin 472, x0 (ix2 p k) * x2 (ix2 g k)) + x5 (ix1 g))
          (fun g => (∑ k : Fin 100, x9 (ix2 p k) * x12 (ix2 g k)) + x15 (ix1 g)) (x9 (ix2 p j)) j := by
  unfold k0_pay1
  simp only [shapeCast_self, addf_apply, mulf_apply, subf_apply, broadcast_apply, logistic_apply, tanh_apply,
    slice2_axis1_eq, inDot_apply, hidDot_apply, biasRows_apply, truncf_apply, Ideal.ofBits_def, Cert.Gru.one_f32]
  rfl

end Cert.KernelIdeal.Blocks

end
-- ==== Proof.IdealBlocks.lean ====
/-
  From the blocks to the whole array.

  The call walks 100 grid points.  At point t the two row-blocked operands (messages, states) and the result are
  block (t, 0) of their arrays: rows 2000 t … 2000 t + 1999, every column.  The weights and the biases are block 0,
  which is the whole array, at every point.  A block's entry at coordinates y sits in the array, on each axis, at
  block index × block size + y.  So:
    • entry (p, k) of the messages' (states') block at t is entry (2000 t + p, k) of the messages (states), and the
      weights' and biases' blocks ARE the weights and biases;
    • by the entry-by-entry reading of the body, what point t stores at (p, j) is the gated update `Cert.Gru.new` of
      the arrays at (2000 t + p, j), that is, point t writes back block t of that one whole-array function;
    • row r of the result lies in the block of point r / 2000, so the 100 blocks cover the result array, and after the
      whole grid the result array is that function.
-/
import proofs.«121507_j30451318129194_2_alg».proof.Proof.IdealRegion
import proofs.«121507_j30451318129194_2_alg».proof.Proof.IdealPayload
import Idealize.ShloMosaic.Lib.Pipeline.Value

noncomputable section

namespace Cert.KernelIdeal.Blocks

open Cert.KernelIdeal Cert.KernelIdeal.Gen Cert.KernelIdeal.Region
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The index maps, over the whole grid -/

/-- The zero offsets of a whole-buffer access of rank 2, as a constant function. -/
theorem hz2 : (![0, 0] : Fin 2 → Nat) = fun _ => 0 := funext fun a => by fin_cases a <;> rfl
/-- The zero offset of a whole-buffer access of rank 1, as a constant function. -/
theorem hz1 : (![0] : Fin 1 → Nat) = fun _ => 0 := funext fun a => by fin_cases a; rfl

/-- The block index of every window at every grid point: the row-blocked windows (messages, states, result) are at
    block (t, 0); the weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val ∧ win0_6.index t (1 : Fin 2) = 0 :=
  (by decide +kernel : ∀ t : Fin grid0.N, _)

/-! ## Where a block's entry sits in its array -/

/-- Entry (p, k) of the messages' block at point t is entry (2000 t + p, k) of the messages. -/
theorem emb_msg (t : Fin cfg0.N) (p : Fin 2000) (k : Fin 472) (r : Fin 200000) (hr : r.val = 2000 * t.val + p.val) :
    ((cfg0.win 0).blk t).view.emb (ix2 p k) = (ix2 r k : S200000x472.Idx) := by
  have e0 : win0_0.index t (0 : Fin 2) = t.val := (idx_facts t).1
  have e1 : win0_0.index t (1 : Fin 2) = 0 := (idx_facts t).2.1
  funext a; apply Fin.ext
  match a with
  | ⟨0, _⟩ => show win0_0.index t (0 : Fin 2) * 2000 + 1 * p.val = r.val; rw [e0, hr]; omega
  | ⟨1, _⟩ => show win0_0.index t (1 : Fin 2) * 472 + 1 * k.val = k.val; rw [e1]; omega

/-- Entry (p, k) of the states' block at point t is entry (2000 t + p, k) of the states. -/
theorem emb_state (t : Fin cfg0.N) (p : Fin 2000) (k : Fin 100) (r : Fin 200000) (hr : r.val = 2000 * t.val + p.val) :
    ((cfg0.win 1).blk t).view.emb (ix2 p k) = (ix2 r k : S200000x100.Idx) := by
  have e0 : win0_1.index t (0 : Fin 2) = t.val := (idx_facts t).2.2.1
  have e1 : win0_1.index t (1 : Fin 2) = 0 := (idx_facts t).2.2.2.1
  funext a; apply Fin.ext
  match a with
  | ⟨0, _⟩ => show win0_1.index t (0 : Fin 2) * 2000 + 1 * p.val = r.val; rw [e0, hr]; omega
  | ⟨1, _⟩ => show win0_1.index t (1 : Fin 2) * 100 + 1 * k.val = k.val; rw [e1]; omega

/-- Entry (p, k) of the result's block at point t is entry (2000 t + p, k) of the result. -/
theorem emb_out (t : Fin cfg0.N) (p : Fin 2000) (k : Fin 100) (r : Fin 200000) (hr : r.val = 2000 * t.val + p.val) :
    ((cfg0.win 6).blk t).view.emb (ix2 p k) = (ix2 r k : S200000x100.Idx) := by
  have e0 : win0_6.index t (0 : Fin 2) = t.val := (idx_facts t).2.2.2.2.2.2.2.2.2.2.1
  have e1 : win0_6.index t (1 : Fin 2) = 0 := (idx_facts t).2.2.2.2.2.2.2.2.2.2.2
  funext a; apply Fin.ext
  match a with
  | ⟨0, _⟩ => show win0_6.index t (0 : Fin 2) * 2000 + 1 * p.val = r.val; rw [e0, hr]; omega
  | ⟨1, _⟩ => show win0_6.index t (1 : Fin 2) * 100 + 1 * k.val = k.val; rw [e1]; omega

/-- The input weights' block is the whole array: an entry keeps its coordinates. -/
theorem emb_wi (t : Fin cfg0.N) (y : S300x472.Idx) : ((cfg0.win 2).blk t).view.emb y = y := by
  have e0 : win0_2.index t (0 : Fin 2) = 0 := (idx_facts t).2.2.2.2.1
  have e1 : win0_2.index t (1 : Fin 2) = 0 := (idx_facts t).2.2.2.2.2.1
  funext a; apply Fin.ext
  match a with
  | ⟨0, _⟩ => show win0_2.index t (0 : Fin 2) * 300 + 1 * (y 0).val = (y 0).val; rw [e0]; omega
  | ⟨1, _⟩ => show win0_2.index t (1 : Fin 2) * 472 + 1 * (y 1).val = (y 1).val; rw [e1]; omega

/-- The hidden weights' block is the whole array. -/
theorem emb_wh (t : Fin cfg0.N) (y : S300x100.Idx) : ((cfg0.win 3).blk t).view.emb y = y := by
  have e0 : win0_3.index t (0 : Fin 2) = 0 := (idx_facts t).2.2.2.2.2.2.1
  have e1 : win0_3.index t (1 : Fin 2) = 0 := (idx_facts t).2.2.2.2.2.2.2.1
  funext a; apply Fin.ext
  match a with
  | ⟨0, _⟩ => show win0_3.index t (0 : Fin 2) * 300 + 1 * (y 0).val = (y 0).val; rw [e0]; omega
  | ⟨1, _⟩ => show win0_3.index t (1 : Fin 2) * 100 + 1 * (y 1).val = (y 1).val; rw [e1]; omega

/-- The input bias's block is the whole vector. -/
theorem emb_bi (t : Fin cfg0.N) (y : S300.Idx) : ((cfg0.win 4).blk t).view.emb y = y := by
  have e0 : win0_4.index t (0 : Fin 1) = 0 := (idx_facts t).2.2.2.2.2.2.2.2.1
  funext a; apply Fin.ext
  match a with
  | ⟨0, _⟩ => show win0_4.index t (0 : Fin 1) * 300 + 1 * (y 0).val = (y 0).val; rw [e0]; omega

/-- The hidden bias's block is the whole vector. -/
theorem emb_bh (t : Fin cfg0.N) (y : S300.Idx) : ((cfg0.win 5).blk t).view.emb y = y := by
  have e0 : win0_5.index t (0 : Fin 1) = 0 := (idx_facts t).2.2.2.2.2.2.2.2.2.1
  funext a; apply Fin.ext
  match a with
  | ⟨0, _⟩ => show win0_5.index t (0 : Fin 1) * 300 + 1 * (y 0).val = (y 0).val; rw [e0]; omega

/-! ## The six operand blocks, read off the arrays the call finds -/

/-- The messages' block at point t, at (p, k), is the messages at (r, k) for the row r = 2000 t + p. -/
theorem iblk0_apply (c : Dev nD) (t : Fin cfg0.N) (p : Fin 2000) (k : Fin 472) (r : Fin 200000) (hr : r.val = 2000 * t.val + p.val) :
    (iblk m c 0 t : Vec Ideal S2000x472 .bf16) (ix2 p k) = (V m c main_v101 : S200000x472.Idx → EReal) (ix2 r k) := by
  unfold iblk
  rw [View.read_apply, emb_msg t p k r hr]
  exact cast_eq _ _

/-- The states' block at point t, at (p, k), is the states at (r, k) for the row r = 2000 t + p. -/
theorem iblk1_apply (c : Dev nD) (t : Fin cfg0.N) (p : Fin 2000) (k : Fin 100) (r : Fin 200000) (hr : r.val = 2000 * t.val + p.val) :
    (iblk m c 1 t : Vec Ideal S2000x100 .f32) (ix2 p k) = (V m c main_v108 : S200000x100.Idx → EReal) (ix2 r k) := by
  unfold iblk
  rw [View.read_apply, emb_state t p k r hr]
  exact cast_eq _ _

/-- The input weights' block at any point is the input weights. -/
theorem iblk2_eq (c : Dev nD) (t : Fin cfg0.N) :
    (iblk m c 2 t : Vec Ideal S300x472 .bf16) = (V m c main_v109 : S300x472.Idx → EReal) := by
  funext y
  unfold iblk
  rw [View.read_apply, emb_wi t y]
  exact cast_eq _ _

/-- The hidden weights' block at any point is the hidden weights. -/
theorem iblk3_eq (c : Dev nD) (t : Fin cfg0.N) :
    (iblk m c 3 t : Vec Ideal S300x100 .bf16) = (V m c main_v110 : S300x100.Idx → EReal) := by
  funext y
  unfold iblk
  rw [View.read_apply, emb_wh t y]
  exact cast_eq _ _

/-- The input bias's block at any point is the input bias. -/
theorem iblk4_eq (c : Dev nD) (t : Fin cfg0.N) :
    (iblk m c 4 t : Vec Ideal S300 .f32) = (V m c main_arg15 : S300.Idx → EReal) := by
  funext y
  unfold iblk
  rw [View.read_apply, emb_bi t y]
  exact cast_eq _ _

/-- The hidden bias's block at any point is the hidden bias. -/
theorem iblk5_eq (c : Dev nD) (t : Fin cfg0.N) :
    (iblk m c 5 t : Vec Ideal S300 .f32) = (V m c main_arg16 : S300.Idx → EReal) := by
  funext y
  unfold iblk
  rw [View.read_apply, emb_bh t y]
  exact cast_eq _ _

/-! ## What a point writes back -/

/-- If a block of messages and a block of states hold, in their row p, row r of the arrays X and H, and the other four
    operands are the weights and biases, then the body's stored entry (p, j) is the gated update of the arrays at (r, j):
    the update of a row reads that row only. -/
theorem block_at (X : S200000x472.Idx → EReal) (H : S200000x100.Idx → EReal) (Wi : S300x472.Idx → EReal) (Wh : S300x100.Idx → EReal)
    (bi bh : S300.Idx → EReal) (x0 : FVec Ideal S2000x472 .bf16) (x2 : FVec Ideal S300x472 .bf16) (x5 : FVec Ideal S300 .f32)
    (x9 : FVec Ideal S2000x100 .f32) (x12 : FVec Ideal S300x100 .bf16) (x15 : FVec Ideal S300 .f32)
    (p : Fin 2000) (j : Fin 100) (r : Fin 200000)
    (h0 : ∀ k : Fin 472, x0 (ix2 p k) = X (ix2 r k)) (h9 : ∀ k : Fin 100, x9 (ix2 p k) = H (ix2 r k))
    (h2 : x2 = Wi) (h5 : x5 = bi) (h12 : x12 = Wh) (h15 : x15 = bh) :
    k0_pay1 (F := Ideal) x0 x2 x5 x9 x12 x15 (ix2 p j) = Cert.Gru.new X H Wi Wh bi bh (ix2 r j) := by
  subst h2 h5 h12 h15
  rw [payload_at, Cert.Gru.new_apply]
  unfold Cert.Gru.newAt Cert.Gru.inGate Cert.Gru.hidGate
  simp only [h0, h9]

/-- WHAT POINT t WRITES BACK is block t of the gated update of the arrays the call finds. -/
theorem flushed_eq (c : Dev nD) (t : Fin cfg0.N) :
    (dats m 0 c).flushed 6 t = ((cfg0.win 6).blk t).view.read (Elt Ideal)
      (Cert.Gru.new (V m c main_v101) (V m c main_v108) (V m c main_v109) (V m c main_v110) (V m c main_arg15) (V m c main_arg16)) := by
  show (cfg0.win 6).cut (grid0.coords t) ((dats m 0 c).after 6 t) = _
  funext y
  obtain ⟨p, j, rfl⟩ : ∃ (p : Fin 2000) (j : Fin 100), y = ix2 p j := ⟨y 0, y 1, eq_ix2 y⟩
  have hN : grid0.N = 100 := N_0
  have ht : t.val < grid0.N := t.isLt
  rw [hN] at ht
  have hp : p.val < 2000 := p.isLt
  have hlt : 2000 * t.val + p.val < 200000 := by omega
  rw [View.read_apply, emb_out t p j ⟨2000 * t.val + p.val, hlt⟩ rfl]
  refine Eq.trans ?_ (cast_eq _ _).symm
  rw [after_6]
  unfold outBlock
  rw [View.canon_unit_zero hz2]
  simp only [View.ld_unit_zero (S := S2000x472) hz2, View.ld_unit_zero (S := S2000x100) hz2, View.ld_unit_zero (S := S300x472) hz2,
    View.ld_unit_zero (S := S300x100) hz2, View.ld_unit_zero (S := S300) hz1]
  exact block_at (V m c main_v101) (V m c main_v108) (V m c main_v109) (V m c main_v110) (V m c main_arg15) (V m c main_arg16)
    (iblk m c 0 t) (iblk m c 2 t) (iblk m c 4 t) (iblk m c 1 t) (iblk m c 3 t) (iblk m c 5 t) p j ⟨2000 * t.val + p.val, hlt⟩
    (fun k => iblk0_apply m c t p k ⟨2000 * t.val + p.val, hlt⟩ rfl) (fun k => iblk1_apply m c t p k ⟨2000 * t.val + p.val, hlt⟩ rfl)
    (iblk2_eq m c t) (iblk4_eq m c t) (iblk3_eq m c t) (iblk5_eq m c t)

/-! ## The blocks cover the result -/

/-- An index of the result is in point t's block iff each coordinate is in the block's range on its axis. -/
theorem mem_blk (t : Fin cfg0.N) (i : S200000x100.Idx) :
    i ∈ ((cfg0.win 6).blk t).view.set ↔ ∀ a : Fin 2, win0_6.index t a * S2000x100.size a ≤ (i a).val ∧ (i a).val < win0_6.index t a * S2000x100.size a + S2000x100.size a := by
  show i ∈ ((View.whole main_v111).slice (win0_6.rect t)).set ↔ _
  rw [View.set_slice_whole, Rect.mem_set_unit]
  exact Iff.rfl

/-- Row r of the result lies in the block of point r / 2000 (200000 = 100 · 2000 rows, every column in every block). -/
theorem cover (i : S200000x100.Idx) : ∃ t : Fin cfg0.N, (cfg0.win 6).flush t = true ∧ i ∈ ((cfg0.win 6).blk t).view.set := by
  have hi0 : (i 0).val < 200000 := (i 0).isLt
  have hi1 : (i 1).val < 100 := (i 1).isLt
  have hN : grid0.N = 100 := N_0
  obtain ⟨t, ht⟩ : ∃ t : Fin cfg0.N, t.val = (i 0).val / 2000 := ⟨⟨(i 0).val / 2000, by show _ < grid0.N; rw [hN]; omega⟩, rfl⟩
  have e0 : win0_6.index t (0 : Fin 2) = t.val := (idx_facts t).2.2.2.2.2.2.2.2.2.2.1
  have e1 : win0_6.index t (1 : Fin 2) = 0 := (idx_facts t).2.2.2.2.2.2.2.2.2.2.2
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 100 ≤ (i 1).val ∧ (i 1).val < win0_6.index t (1 : Fin 2) * 100 + 100; rw [e1]; omega

/-- THE RESULT ARRAY AFTER THE WHOLE GRID is the gated update of the arrays the call finds: every point writes back its
    block of that one function, and the blocks cover the array. -/
theorem final (c : Dev nD) :
    (dats m 0 c).arrAt 6 cfg0.N = Cert.Gru.new (V m c main_v101) (V m c main_v108) (V m c main_v109) (V m c main_v110) (V m c main_arg15) (V m c main_arg16) :=
  (dats m 0 c).arrAt_eq_of_cover 6
    (Cert.Gru.new (V m c main_v101) (V m c main_v108) (V m c main_v109) (V m c main_v110) (V m c main_arg15) (V m c main_arg16))
    (fun t _ => flushed_eq m c t) cover

end Cert.KernelIdeal.Blocks

end
-- ==== Proof.HostIdx.lean ====
/-
  Host layout operations read at an index, for the shapes this program uses.

  A gather along axis 0 (what `x[idx]` lowers to) with its indices laid out as a column `[M, 1]` reads, for
  result row `r`, the operand row that the index word `idx[r, 0]` selects: the word read as a signed integer,
  negative values sent to 0, and the whole clamped into `[0, N − 1]` (`rowOf`).  A row gather of a matrix keeps the
  column.  Before such a gather the program normalises a possibly negative index by adding the axis length
  (`wrapIdx`).  A broadcast reads its operand at the coordinates it keeps.
-/
import Idealize.ShloMosaic.Lib.ValueIdx
import Idealize.ShloMosaic.Lib.Pipeline.Value
import Idealize.ShloMosaic.Lib.StableHlo.Run

noncomputable section

namespace Cert.HostIdx

open Idealize.ShloMosaic Idealize.ShloMosaic.ValueIdx

variable {α : Type}

/-- The row of an axis of length `N` that an index word selects: the word as a signed integer, clamped into
    `[0, N − 1]`. -/
def rowOf (N : Nat) (hN : 0 < N) (v : BitVec 32) : Fin N := ⟨min v.toInt.toNat (N - 1), by omega⟩

/-- jnp's normalisation of a possibly negative index into an axis of length `n` (given as a word). -/
def wrapIdx (n : BitVec 32) (v : BitVec 32) : BitVec 32 :=
  Scalar.select (IntOp.cmpi .slt v 0#32) (IntOp.addi v n) v

/-- The position an index word selects in a list of 200000 (the selected nodes, or the edges). -/
def slot (v : BitVec 32) : Fin 200000 := rowOf 200000 (by decide) (wrapIdx 200000#32 v)

/-- The node an index word names in the table of 1000000 nodes. -/
def node (v : BitVec 32) : Fin 1000000 := rowOf 1000000 (by decide) (wrapIdx 1000000#32 v)

/-! ## Gathers along axis 0 -/

/-- The dimension numbers of `x[idx]` for a vector `x : [N]` and indices `[M, 1]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_vec_apply {N M : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ 32) (r : Fin M) :
    Host.gather (vecDims N M wf) x idx (ix1 r) = x (ix1 (rowOf N hN (idx (ix2 r (0 : Fin 1))))) := by
  unfold Host.gather
  congr 1
  funext a
  obtain rfl : a = 0 := Subsingleton.elim _ _
  refine Fin.ext ?_
  show (vecDims N M wf).start (ix1 r) idx 0 + (vecDims N M wf).batchCoord (ix1 r) 0 + (vecDims N M wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 r) ⟨List.idxOf (0 : Fin 1) (vecDims N M wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `x[idx]` (rows) for a matrix `x : [N, C]` and indices `[M, 1]`. -/
abbrev rowDims (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem gather_rows_apply {N C M : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ 32) (r : Fin M) (c : Fin C) :
    Host.gather (rowDims N C M wf) x idx (ix2 r c) = x (ix2 (rowOf N hN (idx (ix2 r (0 : Fin 1)))) c) := by
  unfold Host.gather
  congr 1
  funext a
  refine Fin.ext ?_
  match a with
  | ⟨0, _⟩ =>
    show (rowDims N C M wf).start (ix2 r c) idx 0 + (rowDims N C M wf).batchCoord (ix2 r c) 0 + (rowDims N C M wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 r c) ⟨List.idxOf (0 : Fin 2) (rowDims N C M wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C M wf).start (ix2 r c) idx 1 + (rowDims N C M wf).batchCoord (ix2 r c) 1 + (rowDims N C M wf).offCoord (ix2 r c) 1 = _
    rw [GatherDims.batchCoord_eq_zero _ _ _ List.not_mem_nil]
    unfold GatherDims.start
    rw [dif_neg (show (1 : Fin 2) ∉ (rowDims N C M wf).startIndexMap from (show (1 : Fin 2) ∉ [(0 : Fin 2)] from by decide))]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-! ## Broadcasts -/

theorem bcast_scalar {n : Nat} (h : (⟨0, ![]⟩ : Shape).BroadcastsInDim ⟨1, ![n]⟩ ![]) (y : (⟨0, ![]⟩ : Shape).Idx → α)
    (i : (⟨1, ![n]⟩ : Shape).Idx) : broadcastInDim ⟨1, ![n]⟩ ![] h y i = y ix0 :=
  broadcastInDim_apply _ h y i ix0 (fun a => a.elim0)

theorem bcast_scalar2 {n k : Nat} (h : (⟨0, ![]⟩ : Shape).BroadcastsInDim ⟨2, ![n, k]⟩ ![]) (y : (⟨0, ![]⟩ : Shape).Idx → α)
    (i : (⟨2, ![n, k]⟩ : Shape).Idx) : broadcastInDim ⟨2, ![n, k]⟩ ![] h y i = y ix0 :=
  broadcastInDim_apply _ h y i ix0 (fun a => a.elim0)

end Cert.HostIdx

end
-- ==== Proof.IdealHost.lean ====
/-
  The kernel program's host side, read as mathematics.

  Before its one pallas_call the program decides, for each of the 200000 selected nodes `r`, which edge wins (the
  index array `A`: the edge with the largest time among those whose owner is `r`), and then builds the winner's
  message directly from the source tables: with `a = A[r]` (wrapped and clamped into the 200000 edges)
      columns   0 ..  99 : memory[src[a]]          (the owner's state)
      columns 100 .. 199 : memory[dst[a]]          (the other endpoint's state)
      columns 200 .. 371 : raw[a]                  (the edge's raw message)
      columns 372 .. 471 : cos ((t[a] − last_update[src[a]]) · w + b)   (the time encoding)
  `msgK` is that matrix as one term in the program's own operations; `msgK_apply` reads it at an entry.
-/
import proofs.«121507_j30451318129194_2_alg».proof.Proof.IdealRegion
import proofs.«121507_j30451318129194_2_alg».proof.Proof.HostIdx
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Cert.KernelIdeal.Region Cert.HostIdx
open Idealize.ShloMosaic Idealize.ShloMosaic.TcCoe Idealize.SL.Sem Idealize.ShloMosaic.StableHlo
open Idealize.ShloMosaic.ValueIdx

variable {F : FTy → Type} [FloatOps F]

/-! ## The program's idioms, named -/

/-- An index vector over the 200000 rows, wrapped into an axis of length `n` and laid out as a column. -/
def wrapCol (n : BitVec 32) (x : (⟨S200000, .i32⟩ : BufTy).Contents (Elt F)) : (⟨S200000x1, .i32⟩ : BufTy).Contents (Elt F) :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 n))) x)

/-- A per-edge vector read at each node's winning edge. -/
def atWinner (A x : (⟨S200000, .i32⟩ : BufTy).Contents (Elt F)) : (⟨S200000, .i32⟩ : BufTy).Contents (Elt F) :=
  Host.gather gather_S200000_S200000x1_S200000_n_0_n_n_0_1_1 x (wrapCol 200000#32 A)

/-- Rows of the node-state table at the nodes an index vector names. -/
def memRows (mem : (⟨S1000000x100, .f32⟩ : BufTy).Contents (Elt F)) (x : (⟨S200000, .i32⟩ : BufTy).Contents (Elt F)) :
    (⟨S200000x100, .f32⟩ : BufTy).Contents (Elt F) :=
  Host.gather gather_S1000000x100_S200000x1_S200000x100_1_0_n_n_0_1_1100 mem (wrapCol 1000000#32 x)

/-- A vector of 100 features repeated down the 200000 rows. -/
def featRows (w : (⟨S100, .f32⟩ : BufTy).Contents (Elt F)) : (⟨S200000x100, .f32⟩ : BufTy).Contents (Elt F) :=
  broadcastInDim S200000x100 ![0, 1] bcast_S1x100_S200000x100_0_1 (broadcastInDim S1x100 ![1] bcast_S100_S1x100_1 w)

/-- The time encoding of each node's winning edge. -/
def timeEnc (A src t : (⟨S200000, .i32⟩ : BufTy).Contents (Elt F)) (lu : (⟨S1000000, .i32⟩ : BufTy).Contents (Elt F))
    (w b : (⟨S100, .f32⟩ : BufTy).Contents (Elt F)) : (⟨S200000x100, .f32⟩ : BufTy).Contents (Elt F) :=
  Host.cos (addf (mulf
    (broadcastInDim S200000x100 ![0, 1] bcast_S200000x1_S200000x100_0_1
      (broadcastInDim S200000x1 ![0] bcast_S200000_S200000x1_0
        (sitofp .f32 (subi (atWinner A t)
          (Host.gather gather_S1000000_S200000x1_S200000_n_0_n_n_0_1_1 lu (wrapCol 1000000#32 (atWinner A src)))))))
    (featRows w)) (featRows b))

/-- The winners' messages, 200000 × 472. -/
def msgK (A src dst t : (⟨S200000, .i32⟩ : BufTy).Contents (Elt F)) (raw : (⟨S200000x172, .f32⟩ : BufTy).Contents (Elt F))
    (mem : (⟨S1000000x100, .f32⟩ : BufTy).Contents (Elt F)) (lu : (⟨S1000000, .i32⟩ : BufTy).Contents (Elt F))
    (w b : (⟨S100, .f32⟩ : BufTy).Contents (Elt F)) : (⟨S200000x472, .f32⟩ : BufTy).Contents (Elt F) :=
  concatenate S200000x472 1
    [⟨S200000x100, memRows mem (atWinner A src)⟩, ⟨S200000x100, memRows mem (atWinner A dst)⟩,
     ⟨S200000x172, Host.gather gather_S200000x172_S200000x1_S200000x172_1_0_n_n_0_1_1172 raw (wrapCol 200000#32 A)⟩,
     ⟨S200000x100, timeEnc A src t lu w b⟩]
    concatenates_S200000x100_S200000x100_S200000x172_S200000x100_S200000x472_d1

set_option maxHeartbeats 8000000 in
/-- The stretch of host lines that builds the winners' messages computes `msgK` of what it finds. -/
theorem stretch4_msg (W : Valuation τ sig (Elt F)) :
    StableHlo.after (hostOps0_4 (F := F)) W (Proc.devRef .tc main_v99)
      = msgK (W (Proc.devRef .tc main_v37)) (W (Proc.devRef .tc main_v16)) (W (Proc.devRef .tc main_v17)) (W (Proc.devRef .tc main_v15))
          (W (Proc.devRef .tc main_v18)) (W (Proc.devRef .tc main_arg0)) (W (Proc.devRef .tc main_arg1))
          (W (Proc.devRef .tc main_arg11)) (W (Proc.devRef .tc main_arg12)) := by
  after_results_simp
  rfl

/-! ## Reading the idioms at an index -/

/-- The edge that wins at node `r`: the word `A[r]`, wrapped into the 200000 edges and clamped. -/
def winner (A : (⟨S200000, .i32⟩ : BufTy).Contents (Elt F)) (r : Fin 200000) : Fin 200000 :=
  slot (A (ix1 r))

theorem wrapCol_apply (n : BitVec 32) (x : (⟨S200000, .i32⟩ : BufTy).Contents (Elt F)) (r : Fin 200000) (z : Fin 1) :
    wrapCol n x (ix2 r z) = wrapIdx n (x (ix1 r)) := by
  unfold wrapCol
  rw [broadcastInDim_apply _ bcast_S200000_S200000x1_0 _ (ix2 r z) (ix1 r) (fun a => match a with
    | ⟨0, _⟩ => by show r.val = if (200000 : Nat) = 1 then 0 else r.val; rw [if_neg (by decide)])]
  show Scalar.select (IntOp.cmpi .slt (x (ix1 r)) (broadcastInDim S200000 ![] bcast_S_S200000 (constantI S_ 32 0#32) (ix1 r)))
      (IntOp.addi (x (ix1 r)) (broadcastInDim S200000 ![] bcast_S_S200000 (constantI S_ 32 n) (ix1 r))) (x (ix1 r)) = _
  rw [bcast_scalar, bcast_scalar]
  rfl

theorem atWinner_apply (A x : (⟨S200000, .i32⟩ : BufTy).Contents (Elt F)) (r : Fin 200000) :
    atWinner A x (ix1 r) = x (ix1 (winner A r)) := by
  unfold atWinner winner slot
  refine (gather_vec_apply (N := 200000) (M := 200000) (by decide) (by decide) x (wrapCol 200000#32 A) r).trans ?_
  rw [wrapCol_apply]

theorem memRows_apply (mem : (⟨S1000000x100, .f32⟩ : BufTy).Contents (Elt F)) (x : (⟨S200000, .i32⟩ : BufTy).Contents (Elt F))
    (r : Fin 200000) (c : Fin 100) : memRows mem x (ix2 r c) = mem (ix2 (node (x (ix1 r))) c) := by
  unfold memRows node
  refine (gather_rows_apply (N := 1000000) (C := 100) (M := 200000) (by decide) (by decide) mem (wrapCol 1000000#32 x) r c).trans ?_
  rw [wrapCol_apply]

theorem rawRows_apply (raw : (⟨S200000x172, .f32⟩ : BufTy).Contents (Elt F)) (A : (⟨S200000, .i32⟩ : BufTy).Contents (Elt F))
    (r : Fin 200000) (c : Fin 172) :
    Host.gather gather_S200000x172_S200000x1_S200000x172_1_0_n_n_0_1_1172 raw (wrapCol 200000#32 A) (ix2 r c) = raw (ix2 (winner A r) c) := by
  unfold winner slot
  refine (gather_rows_apply (N := 200000) (C := 172) (M := 200000) (by decide) (by decide) raw (wrapCol 200000#32 A) r c).trans ?_
  rw [wrapCol_apply]

theorem luAt_apply (lu : (⟨S1000000, .i32⟩ : BufTy).Contents (Elt F)) (x : (⟨S200000, .i32⟩ : BufTy).Contents (Elt F)) (r : Fin 200000) :
    Host.gather gather_S1000000_S200000x1_S200000_n_0_n_n_0_1_1 lu (wrapCol 1000000#32 x) (ix1 r) = lu (ix1 (node (x (ix1 r)))) := by
  unfold node
  refine (gather_vec_apply (N := 1000000) (M := 200000) (by decide) (by decide) lu (wrapCol 1000000#32 x) r).trans ?_
  rw [wrapCol_apply]

theorem featRows_apply (w : (⟨S100, .f32⟩ : BufTy).Contents (Elt F)) (r : Fin 200000) (c : Fin 100) :
    featRows w (ix2 r c) = w (ix1 c) := by
  unfold featRows
  rw [broadcastInDim_apply _ bcast_S1x100_S200000x100_0_1 _ (ix2 r c) (ix2 (0 : Fin 1) c) (fun a => match a with
      | ⟨0, _⟩ => by show 0 = if (1 : Nat) = 1 then 0 else r.val; rw [if_pos rfl]
      | ⟨1, _⟩ => by show c.val = if (100 : Nat) = 1 then 0 else c.val; rw [if_neg (by decide)]),
    broadcastInDim_apply _ bcast_S100_S1x100_1 _ (ix2 (0 : Fin 1) c) (ix1 c) (fun a => match a with
      | ⟨0, _⟩ => by show c.val = if (100 : Nat) = 1 then 0 else c.val; rw [if_neg (by decide)])]

/-- One entry of the time encoding: the cosine of (winning edge's time − its owner's last update) · w + b. -/
theorem timeEnc_apply (A src t : (⟨S200000, .i32⟩ : BufTy).Contents (Elt F)) (lu : (⟨S1000000, .i32⟩ : BufTy).Contents (Elt F))
    (w b : (⟨S100, .f32⟩ : BufTy).Contents (Elt F)) (r : Fin 200000) (c : Fin 100) :
    timeEnc A src t lu w b (ix2 r c)
      = FloatOps.hostUnary .cos (FloatOps.addf (FloatOps.mulf
          (FloatOps.sitofp .f32 (IntOp.subi (t (ix1 (winner A r))) (lu (ix1 (node (src (ix1 (winner A r))))))))
          (w (ix1 c))) (b (ix1 c))) := by
  unfold timeEnc
  show FloatOps.hostUnary .cos (FloatOps.addf (FloatOps.mulf
      (broadcastInDim (s := S200000x1) S200000x100 ![0, 1] bcast_S200000x1_S200000x100_0_1 _ (ix2 r c)) (featRows w (ix2 r c))) (featRows b (ix2 r c))) = _
  rw [featRows_apply, featRows_apply,
    broadcastInDim_apply _ bcast_S200000x1_S200000x100_0_1 _ (ix2 r c) (ix2 r (0 : Fin 1)) (fun a => match a with
      | ⟨0, _⟩ => by show r.val = if (200000 : Nat) = 1 then 0 else r.val; rw [if_neg (by decide)]
      | ⟨1, _⟩ => by show 0 = if (1 : Nat) = 1 then 0 else c.val; rw [if_pos rfl]),
    broadcastInDim_apply _ bcast_S200000_S200000x1_0 _ (ix2 r (0 : Fin 1)) (ix1 r) (fun a => match a with
      | ⟨0, _⟩ => by show r.val = if (200000 : Nat) = 1 then 0 else r.val; rw [if_neg (by decide)])]
  show FloatOps.hostUnary .cos (FloatOps.addf (FloatOps.mulf
      (FloatOps.sitofp .f32 (IntOp.subi (atWinner A t (ix1 r))
        (Host.gather gather_S1000000_S200000x1_S200000_n_0_n_n_0_1_1 lu (wrapCol 1000000#32 (atWinner A src)) (ix1 r)))) (w (ix1 c))) (b (ix1 c))) = _
  rw [luAt_apply, atWinner_apply, atWinner_apply]

/-! ## The winners' messages, entry by entry: the four column ranges -/

section Columns

variable (A src dst t : (⟨S200000, .i32⟩ : BufTy).Contents (Elt F)) (raw : (⟨S200000x172, .f32⟩ : BufTy).Contents (Elt F))
  (mem : (⟨S1000000x100, .f32⟩ : BufTy).Contents (Elt F)) (lu : (⟨S1000000, .i32⟩ : BufTy).Contents (Elt F))
  (w b : (⟨S100, .f32⟩ : BufTy).Contents (Elt F)) (r : Fin 200000)

/-- Columns 0 … 99: the owner's state. -/
theorem msgK_owner (c : Fin 100) :
    msgK A src dst t raw mem lu w b (ix2 r (⟨c.val, by omega⟩ : Fin 472)) = mem (ix2 (node (src (ix1 (winner A r)))) c) := by
  unfold msgK
  refine (concatenate_apply_piece (t := S200000x472) (1 : Fin 2)
    [⟨S200000x100, memRows mem (atWinner A src)⟩, ⟨S200000x100, memRows mem (atWinner A dst)⟩,
     ⟨S200000x172, Host.gather gather_S200000x172_S200000x1_S200000x172_1_0_n_n_0_1_1172 raw (wrapCol 200000#32 A)⟩,
     ⟨S200000x100, timeEnc A src t lu w b⟩]
    concatenates_S200000x100_S200000x100_S200000x172_S200000x100_S200000x472_d1
    (ix2 r (⟨c.val, by omega⟩ : Fin 472)) 0 (by simp) S200000x100 (memRows mem (atWinner A src)) rfl rfl 0 rfl (ix2 r c)
    (fun b hb => by match b with | ⟨0, _⟩ => rfl | ⟨1, _⟩ => exact absurd rfl hb) (Nat.zero_add _)).trans ?_
  rw [memRows_apply, atWinner_apply]

/-- Columns 100 … 199: the other endpoint's state. -/
theorem msgK_other (c : Fin 100) :
    msgK A src dst t raw mem lu w b (ix2 r (⟨100 + c.val, by omega⟩ : Fin 472)) = mem (ix2 (node (dst (ix1 (winner A r)))) c) := by
  unfold msgK
  refine (concatenate_apply_piece (1 : Fin 2) _ _ (ix2 r (⟨100 + c.val, by omega⟩ : Fin 472)) 1 (by simp) S200000x100 _ rfl rfl 100 rfl (ix2 r c)
    (fun b hb => by match b with | ⟨0, _⟩ => rfl | ⟨1, _⟩ => exact absurd rfl hb) rfl).trans ?_
  rw [memRows_apply, atWinner_apply]

/-- Columns 200 … 371: the edge's raw message. -/
theorem msgK_raw (c : Fin 172) :
    msgK A src dst t raw mem lu w b (ix2 r (⟨200 + c.val, by omega⟩ : Fin 472)) = raw (ix2 (winner A r) c) := by
  unfold msgK
  refine (concatenate_apply_piece (1 : Fin 2) _ _ (ix2 r (⟨200 + c.val, by omega⟩ : Fin 472)) 2 (by simp) S200000x172 _ rfl rfl 200 rfl (ix2 r c)
    (fun b hb => by match b with | ⟨0, _⟩ => rfl | ⟨1, _⟩ => exact absurd rfl hb) rfl).trans ?_
  rw [rawRows_apply]

/-- Columns 372 … 471: the time encoding. -/
theorem msgK_time (c : Fin 100) :
    msgK A src dst t raw mem lu w b (ix2 r (⟨372 + c.val, by omega⟩ : Fin 472))
      = FloatOps.hostUnary .cos (FloatOps.addf (FloatOps.mulf
          (FloatOps.sitofp .f32 (IntOp.subi (t (ix1 (winner A r))) (lu (ix1 (node (src (ix1 (winner A r))))))))
          (w (ix1 c))) (b (ix1 c))) := by
  unfold msgK
  refine (concatenate_apply_piece (1 : Fin 2) _ _ (ix2 r (⟨372 + c.val, by omega⟩ : Fin 472)) 3 (by simp) S200000x100 _ rfl rfl 372 rfl (ix2 r c)
    (fun b hb => by match b with | ⟨0, _⟩ => rfl | ⟨1, _⟩ => exact absurd rfl hb) rfl).trans ?_
  rw [timeEnc_apply]

end Columns

end Cert.KernelIdeal.Host

end
-- ==== Proof.IdealPrefix.lean ====
/-
  The program's host side, read in the reference's stages.

  Before its one call the program runs seven stretches of host lines, and one more after it.  Each line writes a buffer
  of its own from buffers written earlier, so what a stretch leaves in a buffer is a composition of the lines'
  functions applied to what the stretch found, and a buffer the stretch does not write is as it found it.  Reading each
  stretch on its own, over an arbitrary starting memory, and then chaining the stretches gives every buffer the call
  reads as a function of the seventeen arguments:
    • the winning edge of each node (the scatter-max of the edge times by owner, the edges that attain it, the largest
      such edge index, clamped at zero) and the mask of the nodes that have an edge at all are, operation for operation,
      the reference's stages of the same names, so they are stated as those stages of the arguments;
    • the messages the call finds are the winners' messages (`Host.msgK` of the winner index, the owners, the other
      endpoints, the times, the raw messages, the state table, the last-update table and the two time-encoding
      vectors), zeroed at the nodes without an edge, rounded to the narrow format;
    • the states it finds are the state table's rows at the selected nodes, and the two weight matrices are the
      arguments rounded to the narrow format;
    • the last stretch, which reads the owners, the times and two arguments only, leaves the reference's last stage.
-/
import proofs.«121507_j30451318129194_2_alg».proof.Proof.IdealRegion
import proofs.«121507_j30451318129194_2_alg».proof.Proof.IdealHost
import proofs.«121507_j30451318129194_2_alg».proof.Proof.IdealFrame
import proofs.«121507_j30451318129194_2_alg».proof.Proof.RefRead
import Idealize.ShloMosaic.Lib.StableHlo.Run

noncomputable section

namespace Cert.KernelIdeal.Prefix

open Cert.KernelIdeal Cert.KernelIdeal.Gen Cert.KernelIdeal.Region
open Idealize.ShloMosaic Idealize.ShloMosaic.TcCoe Idealize.SL.Sem Idealize.ShloMosaic.StableHlo

variable {F : FTy → Type} [FloatOps F]

/-! ## Two stretches run one after the other -/

/-- Running a concatenation of lines is running the first part, then the second from what the first left. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

/-! ## What each stretch writes, and so what it keeps -/

/-- The buffers the stretch `hostOps0` writes. -/
abbrev hostOps0_W : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_v18, main_c_3, main_v19, main_v20, main_v21, main_c_4, main_v22, main_v23, main_c_5, main_v24, main_v25, main_v26, main_v27, main_v28, main_v29, main_v30, main_c_6]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps0_keep (W : Valuation τ sig (Elt F)) (r : Ref sig .tc) (h : r ∉ hostOps0_W) :
    StableHlo.after (hostOps0 (F := F)) W (Proc.devRef .tc r) = W (Proc.devRef .tc r) :=
  StableHlo.after_of_writes_sub hostOps0 W hostOps0_writes h

/-- The buffers the stretch `hostOps0_1` writes. -/
abbrev hostOps0_1_W : List (Ref sig .tc) := [main_call0_v0, main_v31]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps0_1_keep (W : Valuation τ sig (Elt F)) (r : Ref sig .tc) (h : r ∉ hostOps0_1_W) :
    StableHlo.after (hostOps0_1 (F := F)) W (Proc.devRef .tc r) = W (Proc.devRef .tc r) :=
  StableHlo.after_of_writes_sub hostOps0_1 W hostOps0_1_writes h

/-- The buffers the stretch `hostOps0_2` writes. -/
abbrev hostOps0_2_W : List (Ref sig .tc) := [main_c_7, main_v32, main_v33, main_v34, main_c_8, main_v35, main_v36, main_c_9]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps0_2_keep (W : Valuation τ sig (Elt F)) (r : Ref sig .tc) (h : r ∉ hostOps0_2_W) :
    StableHlo.after (hostOps0_2 (F := F)) W (Proc.devRef .tc r) = W (Proc.devRef .tc r) :=
  StableHlo.after_of_writes_sub hostOps0_2 W hostOps0_2_writes h

/-- The buffers the stretch `hostOps0_3` writes. -/
abbrev hostOps0_3_W : List (Ref sig .tc) := [main_call1_v0, main_call1_v1, main_v37]
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps0_3_keep (W : Valuation τ sig (Elt F)) (r : Ref sig .tc) (h : r ∉ hostOps0_3_W) :
    StableHlo.after (hostOps0_3 (F := F)) W (Proc.devRef .tc r) = W (Proc.devRef .tc r) :=
  StableHlo.after_of_writes_sub hostOps0_3 W hostOps0_3_writes h

/-- The buffers the stretch `hostOps0_4` writes. -/
abbrev hostOps0_4_W : List (Ref sig .tc) := [main_c_10, main_v38, main_v39, main_c_11, main_v40, main_v41, main_v42, main_v43, main_v44, main_c_12, main_v45, main_v46, main_c_13, main_v47, main_v48, main_v49, main_v50, main_v51, main_c_14, main_v52, main_v53, main_c_15, main_v54, main_v55, main_v56, main_v57, main_v58, main_c_16, main_v59, main_v60, main_c_17, main_v61, main_v62, main_v63, main_v64, main_v65, main_c_18, main_v66, main_v67, main_c_19, main_v68, main_v69, main_v70, main_v71, main_v72, main_v73, main_v74, main_v75, main_v76, main_v77, main_v78, main_v79, main_v80, main_v81, main_v82, main_v83, main_c_20, main_v84, main_v85, main_c_21, main_v86, main_v87, main_v88, main_v89, main_v90, main_c_22, main_v91, main_v92, main_c_23, main_v93, main_v94, main_v95, main_v96, main_v97, main_v98, main_v99, main_cst]
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps0_4_keep (W : Valuation τ sig (Elt F)) (r : Ref sig .tc) (h : r ∉ hostOps0_4_W) :
    StableHlo.after (hostOps0_4 (F := F)) W (Proc.devRef .tc r) = W (Proc.devRef .tc r) :=
  StableHlo.after_of_writes_sub hostOps0_4 W hostOps0_4_writes h

/-- The buffers the stretch `hostOps0_5` writes. -/
abbrev hostOps0_5_W : List (Ref sig .tc) := [main_call2_v0, main_call2_v1, main_call2_v2, main_v100]
theorem hostOps0_5_writes : (hostOps0_5 : List (HloOp τ sig (Elt F))).Forall fun op => op.writes ⊆ (hostOps0_5_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps0_5_keep (W : Valuation τ sig (Elt F)) (r : Ref sig .tc) (h : r ∉ hostOps0_5_W) :
    StableHlo.after (hostOps0_5 (F := F)) W (Proc.devRef .tc r) = W (Proc.devRef .tc r) :=
  StableHlo.after_of_writes_sub hostOps0_5 W hostOps0_5_writes h

/-- The buffers the stretch `hostOps0_6` writes. -/
abbrev hostOps0_6_W : List (Ref sig .tc) := [main_v101, main_c_24, main_v102, main_v103, main_c_25, main_v104, main_v105, main_v106, main_v107, main_v108, main_v109, main_v110]
theorem hostOps0_6_writes : (hostOps0_6 : List (HloOp τ sig (Elt F))).Forall fun op => op.writes ⊆ (hostOps0_6_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps0_6_keep (W : Valuation τ sig (Elt F)) (r : Ref sig .tc) (h : r ∉ hostOps0_6_W) :
    StableHlo.after (hostOps0_6 (F := F)) W (Proc.devRef .tc r) = W (Proc.devRef .tc r) :=
  StableHlo.after_of_writes_sub hostOps0_6 W hostOps0_6_writes h

/-- The buffers the stretch `hostOps1` writes. -/
abbrev hostOps1_W : List (Ref sig .tc) := [main_c_26, main_v112, main_v113, main_c_27, main_v114, main_v115, main_v116, main_v117, main_v118, main_c_28, main_v119, main_v120, main_c_29, main_v121, main_v122, main_v123, main_v124, main_v125]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.nary_writes, Finset.singleton_subset_iff, List.mem_toFinset]
  repeat' apply And.intro
  all_goals exact List.mem_map_of_mem (by decide)
/-- A buffer the stretch does not write keeps its contents. -/
theorem hostOps1_keep (W : Valuation τ sig (Elt F)) (r : Ref sig .tc) (h : r ∉ hostOps1_W) :
    StableHlo.after (hostOps1 (F := F)) W (Proc.devRef .tc r) = W (Proc.devRef .tc r) :=
  StableHlo.after_of_writes_sub hostOps1 W hostOps1_writes h

/-! ## Each stretch on its own, over whatever it finds -/

/-- The first stretch: the owners of the 200000 edges (both directions' owners, one after the other). -/
theorem s0_v14 (W : Valuation τ sig (Elt F)) : StableHlo.after (hostOps0 (F := F)) W (Proc.devRef .tc main_v14)
    = Cert.ReferenceIdeal.Read.val_main_v81 (F := F) (W (Proc.devRef .tc main_arg3)) (W (Proc.devRef .tc main_arg7)) := by
  after_results_simp
  rfl

/-- The first stretch: the edges' times. -/
theorem s0_v15 (W : Valuation τ sig (Elt F)) : StableHlo.after (hostOps0 (F := F)) W (Proc.devRef .tc main_v15)
    = Cert.ReferenceIdeal.Read.val_main_v82 (F := F) (W (Proc.devRef .tc main_arg5)) (W (Proc.devRef .tc main_arg9)) := by
  after_results_simp
  rfl

/-- The first stretch: the owners as rows of the state table (the selected nodes' ids at the owners). -/
theorem s0_v16 (W : Valuation τ sig (Elt F)) : StableHlo.after (hostOps0 (F := F)) W (Proc.devRef .tc main_v16)
    = Cert.ReferenceIdeal.Read.val_main_v83 (F := F) (W (Proc.devRef .tc main_arg2)) (W (Proc.devRef .tc main_arg3)) (W (Proc.devRef .tc main_arg7)) := by
  after_results_simp
  rfl

/-- The first stretch: the edges' other endpoints. -/
theorem s0_v17 (W : Valuation τ sig (Elt F)) : StableHlo.after (hostOps0 (F := F)) W (Proc.devRef .tc main_v17)
    = concatenate S200000 0 [⟨S100000, (W (Proc.devRef .tc main_arg4))⟩, ⟨S100000, (W (Proc.devRef .tc main_arg8))⟩] concatenates_S100000_S100000_S200000_d0 := by
  after_results_simp
  rfl

/-- The first stretch: the edges' raw messages. -/
theorem s0_v18 (W : Valuation τ sig (Elt F)) : StableHlo.after (hostOps0 (F := F)) W (Proc.devRef .tc main_v18)
    = concatenate S200000x172 0 [⟨S100000x172, (W (Proc.devRef .tc main_arg6))⟩, ⟨S100000x172, (W (Proc.devRef .tc main_arg10))⟩] concatenates_S100000x172_S100000x172_S200000x172_d0 := by
  after_results_simp
  rfl

/-- The first stretch: which edges attain their owner's largest time. -/
theorem s0_v29 (W : Valuation τ sig (Elt F)) : StableHlo.after (hostOps0 (F := F)) W (Proc.devRef .tc main_v29)
    = Cert.ReferenceIdeal.Read.val_main_v94 (F := F) (W (Proc.devRef .tc main_arg3)) (W (Proc.devRef .tc main_arg5)) (W (Proc.devRef .tc main_arg7)) (W (Proc.devRef .tc main_arg9)) := by
  after_results_simp
  rfl

/-- The first stretch: the edge indices 0, 1, 2, …. -/
theorem s0_v30 (W : Valuation τ sig (Elt F)) : StableHlo.after (hostOps0 (F := F)) W (Proc.devRef .tc main_v30) = Cert.ReferenceIdeal.Read.val_main_v95 (F := F) := by
  after_results_simp
  rfl

/-- The first stretch: the constant −1. -/
theorem s0_c6 (W : Valuation τ sig (Elt F)) : StableHlo.after (hostOps0 (F := F)) W (Proc.devRef .tc main_c_6) = Cert.ReferenceIdeal.Read.val_main_c_18 (F := F) := by
  after_results_simp
  rfl

/-- The second stretch: an edge's own index where it attains its owner's largest time, −1 elsewhere. -/
theorem s1_v31 (W : Valuation τ sig (Elt F)) : StableHlo.after (hostOps0_1 (F := F)) W (Proc.devRef .tc main_v31)
    = (select (W (Proc.devRef .tc main_v29)) (W (Proc.devRef .tc main_v30)) (broadcastInDim S200000 ![] bcast_S_S200000 (W (Proc.devRef .tc main_c_6))) : (⟨S200000, .i32⟩ : BufTy).Contents (Elt F)) := by
  after_results_simp
  rfl

/-- The third stretch: per node, the largest index among its edges that attain the largest time (the smallest integer
    for a node with no edge). -/
theorem s2_v34 (W : Valuation τ sig (Elt F)) : StableHlo.after (hostOps0_2 (F := F)) W (Proc.devRef .tc main_v34)
    = (Host.scatter scatter_S200000_S200000x1_S200000_n_0_0_1 IntOp.maxsi (broadcastInDim S200000 ![] bcast_S_S200000 (constantI S_ 32 2147483648#32))
        (broadcastInDim S200000x1 ![0] bcast_S200000_S200000x1_0 (W (Proc.devRef .tc main_v14))) (W (Proc.devRef .tc main_v31)) : (⟨S200000, .i32⟩ : BufTy).Contents (Elt F)) := by
  after_results_simp

/-- The third stretch: the mask of the nodes that have an edge. -/
theorem s2_v36 (W : Valuation τ sig (Elt F)) : StableHlo.after (hostOps0_2 (F := F)) W (Proc.devRef .tc main_v36)
    = (cmpi .sge (Host.scatter scatter_S200000_S200000x1_S200000_n_0_0_1 IntOp.maxsi (broadcastInDim S200000 ![] bcast_S_S200000 (constantI S_ 32 2147483648#32))
          (broadcastInDim S200000x1 ![0] bcast_S200000_S200000x1_0 (W (Proc.devRef .tc main_v14))) (W (Proc.devRef .tc main_v31)) : (⟨S200000, .i32⟩ : BufTy).Contents (Elt F))
        (broadcastInDim S200000 ![] bcast_S_S200000 (constantI S_ 32 0#32)) : (⟨S200000, .i1⟩ : BufTy).Contents (Elt F)) := by
  after_results_simp

/-- The third stretch: the constant 0. -/
theorem s2_c9 (W : Valuation τ sig (Elt F)) : StableHlo.after (hostOps0_2 (F := F)) W (Proc.devRef .tc main_c_9)
    = (constantI S_ 32 0#32 : (⟨S_, .i32⟩ : BufTy).Contents (Elt F)) := by
  after_results_simp

/-- The fourth stretch: the winner index clamped at zero. -/
theorem s3_v37 (W : Valuation τ sig (Elt F)) : StableHlo.after (hostOps0_3 (F := F)) W (Proc.devRef .tc main_v37)
    = (maxsi (broadcastInDim S200000 ![] bcast_S_S200000 (id (W (Proc.devRef .tc main_c_9)))) (W (Proc.devRef .tc main_v34)) : (⟨S200000, .i32⟩ : BufTy).Contents (Elt F)) := by
  after_results_simp
  rfl

/-- The fifth stretch: the mask as a column. -/
theorem s4_v98 (W : Valuation τ sig (Elt F)) : StableHlo.after (hostOps0_4 (F := F)) W (Proc.devRef .tc main_v98)
    = (broadcastInDim S200000x1 ![0] bcast_S200000_S200000x1_0 (W (Proc.devRef .tc main_v36)) : (⟨S200000x1, .i1⟩ : BufTy).Contents (Elt F)) := by
  after_results_simp

/-- The fifth stretch: the float zero. -/
theorem s4_cst (W : Valuation τ sig (Elt F)) : StableHlo.after (hostOps0_4 (F := F)) W (Proc.devRef .tc main_cst)
    = (constant S_ .f32 0x00000000#32 : (⟨S_, .f32⟩ : BufTy).Contents (Elt F)) := by
  after_results_simp

/-- The sixth stretch: the messages, zeroed where the mask is off. -/
theorem s5_v100 (W : Valuation τ sig (Elt F)) : StableHlo.after (hostOps0_5 (F := F)) W (Proc.devRef .tc main_v100)
    = (select (broadcastInDim S200000x472 ![0, 1] bcast_S200000x1_S200000x472_0_1 (W (Proc.devRef .tc main_v98))) (W (Proc.devRef .tc main_v99))
        (broadcastInDim S200000x472 ![] bcast_S_S200000x472 (id (W (Proc.devRef .tc main_cst)))) : (⟨S200000x472, .f32⟩ : BufTy).Contents (Elt F)) := by
  after_results_simp
  rfl

/-- The seventh stretch: the messages rounded to the narrow format. -/
theorem s6_v101 (W : Valuation τ sig (Elt F)) : StableHlo.after (hostOps0_6 (F := F)) W (Proc.devRef .tc main_v101)
    = ((truncf .bf16 · bitsLt_bf16_f32) (W (Proc.devRef .tc main_v100)) : (⟨S200000x472, .bf16⟩ : BufTy).Contents (Elt F)) := by
  after_results_simp

/-- The seventh stretch: the state table's rows at the selected nodes. -/
theorem s6_v108 (W : Valuation τ sig (Elt F)) : StableHlo.after (hostOps0_6 (F := F)) W (Proc.devRef .tc main_v108)
    = Cert.ReferenceIdeal.Read.val_main_v118 (F := F) (W (Proc.devRef .tc main_arg0)) (W (Proc.devRef .tc main_arg2)) := by
  after_results_simp
  rfl

/-- The seventh stretch: the input weights rounded to the narrow format. -/
theorem s6_v109 (W : Valuation τ sig (Elt F)) : StableHlo.after (hostOps0_6 (F := F)) W (Proc.devRef .tc main_v109)
    = ((truncf .bf16 · bitsLt_bf16_f32) (W (Proc.devRef .tc main_arg13)) : (⟨S300x472, .bf16⟩ : BufTy).Contents (Elt F)) := by
  after_results_simp

/-- The seventh stretch: the hidden weights rounded to the narrow format. -/
theorem s6_v110 (W : Valuation τ sig (Elt F)) : StableHlo.after (hostOps0_6 (F := F)) W (Proc.devRef .tc main_v110)
    = ((truncf .bf16 · bitsLt_bf16_f32) (W (Proc.devRef .tc main_arg14)) : (⟨S300x100, .bf16⟩ : BufTy).Contents (Elt F)) := by
  after_results_simp

/-- The last stretch, over whatever it finds in the four buffers it reads. -/
theorem t_v125 (W : Valuation τ sig (Elt F)) (x1 : (⟨S1000000, .i32⟩ : BufTy).Contents (Elt F)) (x2 : (⟨S200000, .i32⟩ : BufTy).Contents (Elt F))
    (x3 x5 x7 x9 : (⟨S100000, .i32⟩ : BufTy).Contents (Elt F))
    (h16 : (W (Proc.devRef .tc main_v16)) = Cert.ReferenceIdeal.Read.val_main_v83 (F := F) x2 x3 x7) (h15 : (W (Proc.devRef .tc main_v15)) = Cert.ReferenceIdeal.Read.val_main_v82 (F := F) x5 x9)
    (h1 : (W (Proc.devRef .tc main_arg1)) = x1) (h2 : (W (Proc.devRef .tc main_arg2)) = x2) :
    StableHlo.after (hostOps1 (F := F)) W (Proc.devRef .tc main_v125) = Cert.ReferenceIdeal.Read.val_main_v170 (F := F) x1 x2 x3 x5 x7 x9 := by
  after_results_simp
  rw [h16, h15, h1, h2]
  rfl

/-! ## The stretches composed -/

variable (m : (ℓ : Loc nD τ sig) → Buf (Elt F) ℓ) (c : Dev nD)

local notation "W₀" => (fun b => m (c, b) : Valuation τ sig (Elt F))
local notation "W₁" => StableHlo.after hostOps0 W₀
local notation "W₂" => StableHlo.after hostOps0_1 W₁
local notation "W₃" => StableHlo.after hostOps0_2 W₂
local notation "W₄" => StableHlo.after hostOps0_3 W₃
local notation "W₅" => StableHlo.after hostOps0_4 W₄
local notation "W₆" => StableHlo.after hostOps0_5 W₅

/-- What the call finds is the seven stretches run in order from the launch memory. -/
theorem V0_eq : V0 m c = StableHlo.after hostOps0_6 W₆ := by
  show StableHlo.after (List.flatten [hostOps0, hostOps0_1, hostOps0_2, hostOps0_3, hostOps0_4, hostOps0_5, hostOps0_6]) (fun b => m (c, b)) = _
  simp only [List.flatten_cons, List.flatten_nil, List.append_nil, after_append]

/-- After two stretches: an edge's own index where it attains its owner's largest time, −1 elsewhere — the reference's stage. -/
theorem w2_v31 : W₂ (Proc.devRef .tc main_v31) = (Cert.ReferenceIdeal.Read.val_main_v96 (F := F) (m ((c : Thread nD τ).loc main_arg3)) (m ((c : Thread nD τ).loc main_arg5)) (m ((c : Thread nD τ).loc main_arg7)) (m ((c : Thread nD τ).loc main_arg9))) := by
  refine (s1_v31 W₁).trans ?_
  rw [s0_v29 W₀, s0_v30 W₀, s0_c6 W₀]
  rfl

/-- After three stretches: per node, the largest index among its winning edges — the reference's stage. -/
theorem w3_v34 : W₃ (Proc.devRef .tc main_v34) = (Cert.ReferenceIdeal.Read.val_main_v99 (F := F) (m ((c : Thread nD τ).loc main_arg3)) (m ((c : Thread nD τ).loc main_arg5)) (m ((c : Thread nD τ).loc main_arg7)) (m ((c : Thread nD τ).loc main_arg9))) := by
  refine (s2_v34 W₂).trans ?_
  rw [w2_v31 m c, hostOps0_1_keep _ main_v14 (by decide), s0_v14 W₀]
  rfl

/-- After four stretches: THE WINNER INDEX, clamped at zero — the reference's stage. -/
theorem w4_v37 : W₄ (Proc.devRef .tc main_v37) = (Cert.ReferenceIdeal.Read.val_main_v103 (F := F) (m ((c : Thread nD τ).loc main_arg3)) (m ((c : Thread nD τ).loc main_arg5)) (m ((c : Thread nD τ).loc main_arg7)) (m ((c : Thread nD τ).loc main_arg9))) := by
  refine (s3_v37 W₃).trans ?_
  rw [w3_v34 m c, s2_c9 W₂]
  rfl

/-! No line writes an argument, so every stretch finds the arguments as launched. -/

theorem w6_arg0 : W₆ (Proc.devRef .tc main_arg0) = (m ((c : Thread nD τ).loc main_arg0)) := by
  rw [← hostOps0_6_keep W₆ main_arg0 (by decide), ← V0_eq m c]; exact Cert.KernelIdeal.Frame.V_main_arg0 m c

theorem w6_arg1 : W₆ (Proc.devRef .tc main_arg1) = (m ((c : Thread nD τ).loc main_arg1)) := by
  rw [← hostOps0_6_keep W₆ main_arg1 (by decide), ← V0_eq m c]; exact Cert.KernelIdeal.Frame.V_main_arg1 m c

theorem w6_arg2 : W₆ (Proc.devRef .tc main_arg2) = (m ((c : Thread nD τ).loc main_arg2)) := by
  rw [← hostOps0_6_keep W₆ main_arg2 (by decide), ← V0_eq m c]; exact Cert.KernelIdeal.Frame.V_main_arg2 m c

theorem w6_arg11 : W₆ (Proc.devRef .tc main_arg11) = (m ((c : Thread nD τ).loc main_arg11)) := by
  rw [← hostOps0_6_keep W₆ main_arg11 (by decide), ← V0_eq m c]; exact Cert.KernelIdeal.Frame.V_main_arg11 m c

theorem w6_arg12 : W₆ (Proc.devRef .tc main_arg12) = (m ((c : Thread nD τ).loc main_arg12)) := by
  rw [← hostOps0_6_keep W₆ main_arg12 (by decide), ← V0_eq m c]; exact Cert.KernelIdeal.Frame.V_main_arg12 m c

theorem w6_arg13 : W₆ (Proc.devRef .tc main_arg13) = (m ((c : Thread nD τ).loc main_arg13)) := by
  rw [← hostOps0_6_keep W₆ main_arg13 (by decide), ← V0_eq m c]; exact Cert.KernelIdeal.Frame.V_main_arg13 m c

theorem w6_arg14 : W₆ (Proc.devRef .tc main_arg14) = (m ((c : Thread nD τ).loc main_arg14)) := by
  rw [← hostOps0_6_keep W₆ main_arg14 (by decide), ← V0_eq m c]; exact Cert.KernelIdeal.Frame.V_main_arg14 m c

theorem w5_arg0 : W₅ (Proc.devRef .tc main_arg0) = (m ((c : Thread nD τ).loc main_arg0)) :=
  (hostOps0_5_keep W₅ main_arg0 (by decide)).symm.trans (w6_arg0 m c)
theorem w4_arg0 : W₄ (Proc.devRef .tc main_arg0) = (m ((c : Thread nD τ).loc main_arg0)) :=
  (hostOps0_4_keep W₄ main_arg0 (by decide)).symm.trans (w5_arg0 m c)

theorem w5_arg1 : W₅ (Proc.devRef .tc main_arg1) = (m ((c : Thread nD τ).loc main_arg1)) :=
  (hostOps0_5_keep W₅ main_arg1 (by decide)).symm.trans (w6_arg1 m c)
theorem w4_arg1 : W₄ (Proc.devRef .tc main_arg1) = (m ((c : Thread nD τ).loc main_arg1)) :=
  (hostOps0_4_keep W₄ main_arg1 (by decide)).symm.trans (w5_arg1 m c)

theorem w5_arg11 : W₅ (Proc.devRef .tc main_arg11) = (m ((c : Thread nD τ).loc main_arg11)) :=
  (hostOps0_5_keep W₅ main_arg11 (by decide)).symm.trans (w6_arg11 m c)
theorem w4_arg11 : W₄ (Proc.devRef .tc main_arg11) = (m ((c : Thread nD τ).loc main_arg11)) :=
  (hostOps0_4_keep W₄ main_arg11 (by decide)).symm.trans (w5_arg11 m c)

theorem w5_arg12 : W₅ (Proc.devRef .tc main_arg12) = (m ((c : Thread nD τ).loc main_arg12)) :=
  (hostOps0_5_keep W₅ main_arg12 (by decide)).symm.trans (w6_arg12 m c)
theorem w4_arg12 : W₄ (Proc.devRef .tc main_arg12) = (m ((c : Thread nD τ).loc main_arg12)) :=
  (hostOps0_4_keep W₄ main_arg12 (by decide)).symm.trans (w5_arg12 m c)

/-! The first stretch's arrays, after four stretches. -/

theorem w4_v15 : W₄ (Proc.devRef .tc main_v15) = (Cert.ReferenceIdeal.Read.val_main_v82 (F := F) (m ((c : Thread nD τ).loc main_arg5)) (m ((c : Thread nD τ).loc main_arg9))) := by
  rw [hostOps0_3_keep _ main_v15 (by decide), hostOps0_2_keep _ main_v15 (by decide), hostOps0_1_keep _ main_v15 (by decide)]; exact s0_v15 W₀
theorem w4_v16 : W₄ (Proc.devRef .tc main_v16) = (Cert.ReferenceIdeal.Read.val_main_v83 (F := F) (m ((c : Thread nD τ).loc main_arg2)) (m ((c : Thread nD τ).loc main_arg3)) (m ((c : Thread nD τ).loc main_arg7))) := by
  rw [hostOps0_3_keep _ main_v16 (by decide), hostOps0_2_keep _ main_v16 (by decide), hostOps0_1_keep _ main_v16 (by decide)]; exact s0_v16 W₀
theorem w4_v17 : W₄ (Proc.devRef .tc main_v17) = (concatenate S200000 0 [⟨S100000, (m ((c : Thread nD τ).loc main_arg4))⟩, ⟨S100000, (m ((c : Thread nD τ).loc main_arg8))⟩] concatenates_S100000_S100000_S200000_d0) := by
  rw [hostOps0_3_keep _ main_v17 (by decide), hostOps0_2_keep _ main_v17 (by decide), hostOps0_1_keep _ main_v17 (by decide)]; exact s0_v17 W₀
theorem w4_v18 : W₄ (Proc.devRef .tc main_v18) = (concatenate S200000x172 0 [⟨S100000x172, (m ((c : Thread nD τ).loc main_arg6))⟩, ⟨S100000x172, (m ((c : Thread nD τ).loc main_arg10))⟩] concatenates_S100000x172_S100000x172_S200000x172_d0) := by
  rw [hostOps0_3_keep _ main_v18 (by decide), hostOps0_2_keep _ main_v18 (by decide), hostOps0_1_keep _ main_v18 (by decide)]; exact s0_v18 W₀

/-- After four stretches: the mask of the nodes that have an edge — the reference's stage. -/
theorem w4_v36 : W₄ (Proc.devRef .tc main_v36) = (Cert.ReferenceIdeal.Read.val_main_v101 (F := F) (m ((c : Thread nD τ).loc main_arg3)) (m ((c : Thread nD τ).loc main_arg5)) (m ((c : Thread nD τ).loc main_arg7)) (m ((c : Thread nD τ).loc main_arg9))) := by
  rw [hostOps0_3_keep _ main_v36 (by decide)]
  refine (s2_v36 W₂).trans ?_
  rw [w2_v31 m c, hostOps0_1_keep _ main_v14 (by decide), s0_v14 W₀]
  rfl

/-- After five stretches: the winners' messages. -/
theorem w5_v99 : W₅ (Proc.devRef .tc main_v99) = (Host.msgK (Cert.ReferenceIdeal.Read.val_main_v103 (F := F) (m ((c : Thread nD τ).loc main_arg3)) (m ((c : Thread nD τ).loc main_arg5)) (m ((c : Thread nD τ).loc main_arg7)) (m ((c : Thread nD τ).loc main_arg9))) (Cert.ReferenceIdeal.Read.val_main_v83 (F := F) (m ((c : Thread nD τ).loc main_arg2)) (m ((c : Thread nD τ).loc main_arg3)) (m ((c : Thread nD τ).loc main_arg7))) (concatenate S200000 0 [⟨S100000, (m ((c : Thread nD τ).loc main_arg4))⟩, ⟨S100000, (m ((c : Thread nD τ).loc main_arg8))⟩] concatenates_S100000_S100000_S200000_d0) (Cert.ReferenceIdeal.Read.val_main_v82 (F := F) (m ((c : Thread nD τ).loc main_arg5)) (m ((c : Thread nD τ).loc main_arg9))) (concatenate S200000x172 0 [⟨S100000x172, (m ((c : Thread nD τ).loc main_arg6))⟩, ⟨S100000x172, (m ((c : Thread nD τ).loc main_arg10))⟩] concatenates_S100000x172_S100000x172_S200000x172_d0) (m ((c : Thread nD τ).loc main_arg0)) (m ((c : Thread nD τ).loc main_arg1)) (m ((c : Thread nD τ).loc main_arg11)) (m ((c : Thread nD τ).loc main_arg12))) := by
  refine (Host.stretch4_msg W₄).trans ?_
  rw [w4_v37 m c, w4_v16 m c, w4_v17 m c, w4_v15 m c, w4_v18 m c, w4_arg0 m c, w4_arg1 m c, w4_arg11 m c, w4_arg12 m c]

/-- After five stretches: the mask as a column. -/
theorem w5_v98 : W₅ (Proc.devRef .tc main_v98) = (broadcastInDim S200000x1 ![0] bcast_S200000_S200000x1_0 (Cert.ReferenceIdeal.Read.val_main_v101 (F := F) (m ((c : Thread nD τ).loc main_arg3)) (m ((c : Thread nD τ).loc main_arg5)) (m ((c : Thread nD τ).loc main_arg7)) (m ((c : Thread nD τ).loc main_arg9))) : (⟨S200000x1, .i1⟩ : BufTy).Contents (Elt F)) := by
  refine (s4_v98 W₄).trans ?_
  rw [w4_v36 m c]

/-- After six stretches: the winners' messages, zeroed at the nodes without an edge. -/
theorem w6_v100 : W₆ (Proc.devRef .tc main_v100) = (select (broadcastInDim S200000x472 ![0, 1] bcast_S200000x1_S200000x472_0_1 (broadcastInDim S200000x1 ![0] bcast_S200000_S200000x1_0 (Cert.ReferenceIdeal.Read.val_main_v101 (F := F) (m ((c : Thread nD τ).loc main_arg3)) (m ((c : Thread nD τ).loc main_arg5)) (m ((c : Thread nD τ).loc main_arg7)) (m ((c : Thread nD τ).loc main_arg9))))) (Host.msgK (Cert.ReferenceIdeal.Read.val_main_v103 (F := F) (m ((c : Thread nD τ).loc main_arg3)) (m ((c : Thread nD τ).loc main_arg5)) (m ((c : Thread nD τ).loc main_arg7)) (m ((c : Thread nD τ).loc main_arg9))) (Cert.ReferenceIdeal.Read.val_main_v83 (F := F) (m ((c : Thread nD τ).loc main_arg2)) (m ((c : Thread nD τ).loc main_arg3)) (m ((c : Thread nD τ).loc main_arg7))) (concatenate S200000 0 [⟨S100000, (m ((c : Thread nD τ).loc main_arg4))⟩, ⟨S100000, (m ((c : Thread nD τ).loc main_arg8))⟩] concatenates_S100000_S100000_S200000_d0) (Cert.ReferenceIdeal.Read.val_main_v82 (F := F) (m ((c : Thread nD τ).loc main_arg5)) (m ((c : Thread nD τ).loc main_arg9))) (concatenate S200000x172 0 [⟨S100000x172, (m ((c : Thread nD τ).loc main_arg6))⟩, ⟨S100000x172, (m ((c : Thread nD τ).loc main_arg10))⟩] concatenates_S100000x172_S100000x172_S200000x172_d0) (m ((c : Thread nD τ).loc main_arg0)) (m ((c : Thread nD τ).loc main_arg1)) (m ((c : Thread nD τ).loc main_arg11)) (m ((c : Thread nD τ).loc main_arg12))) (broadcastInDim S200000x472 ![] bcast_S_S200000x472 (id (constant S_ .f32 0x00000000#32))) : (⟨S200000x472, .f32⟩ : BufTy).Contents (Elt F)) := by
  refine (s5_v100 W₅).trans ?_
  rw [w5_v98 m c, w5_v99 m c, s4_cst W₄]

/-! ## What the call finds, and what the last stretch leaves -/

/-- THE MESSAGES THE CALL FINDS: the winners' messages, zeroed at the nodes without an edge, in the narrow format. -/
theorem msg_in : V m c main_v101 = ((truncf .bf16 · bitsLt_bf16_f32)
    (select (broadcastInDim S200000x472 ![0, 1] bcast_S200000x1_S200000x472_0_1 (broadcastInDim S200000x1 ![0] bcast_S200000_S200000x1_0 (Cert.ReferenceIdeal.Read.val_main_v101 (F := F) (m ((c : Thread nD τ).loc main_arg3)) (m ((c : Thread nD τ).loc main_arg5)) (m ((c : Thread nD τ).loc main_arg7)) (m ((c : Thread nD τ).loc main_arg9))))) (Host.msgK (Cert.ReferenceIdeal.Read.val_main_v103 (F := F) (m ((c : Thread nD τ).loc main_arg3)) (m ((c : Thread nD τ).loc main_arg5)) (m ((c : Thread nD τ).loc main_arg7)) (m ((c : Thread nD τ).loc main_arg9))) (Cert.ReferenceIdeal.Read.val_main_v83 (F := F) (m ((c : Thread nD τ).loc main_arg2)) (m ((c : Thread nD τ).loc main_arg3)) (m ((c : Thread nD τ).loc main_arg7))) (concatenate S200000 0 [⟨S100000, (m ((c : Thread nD τ).loc main_arg4))⟩, ⟨S100000, (m ((c : Thread nD τ).loc main_arg8))⟩] concatenates_S100000_S100000_S200000_d0) (Cert.ReferenceIdeal.Read.val_main_v82 (F := F) (m ((c : Thread nD τ).loc main_arg5)) (m ((c : Thread nD τ).loc main_arg9))) (concatenate S200000x172 0 [⟨S100000x172, (m ((c : Thread nD τ).loc main_arg6))⟩, ⟨S100000x172, (m ((c : Thread nD τ).loc main_arg10))⟩] concatenates_S100000x172_S100000x172_S200000x172_d0) (m ((c : Thread nD τ).loc main_arg0)) (m ((c : Thread nD τ).loc main_arg1)) (m ((c : Thread nD τ).loc main_arg11)) (m ((c : Thread nD τ).loc main_arg12))) (broadcastInDim S200000x472 ![] bcast_S_S200000x472 (id (constant S_ .f32 0x00000000#32))) : (⟨S200000x472, .f32⟩ : BufTy).Contents (Elt F)) : (⟨S200000x472, .bf16⟩ : BufTy).Contents (Elt F)) := by
  show V0 m c (Proc.devRef .tc main_v101) = _
  rw [V0_eq m c]
  refine (s6_v101 W₆).trans ?_
  rw [w6_v100 m c]

/-- THE STATES THE CALL FINDS: the state table's rows at the selected nodes. -/
theorem states_in : V m c main_v108 = Cert.ReferenceIdeal.Read.val_main_v118 (F := F) (m ((c : Thread nD τ).loc main_arg0)) (m ((c : Thread nD τ).loc main_arg2)) := by
  show V0 m c (Proc.devRef .tc main_v108) = _
  rw [V0_eq m c]
  refine (s6_v108 W₆).trans ?_
  rw [w6_arg0 m c, w6_arg2 m c]

/-- THE INPUT WEIGHTS THE CALL FINDS: the argument in the narrow format. -/
theorem wi_in : V m c main_v109 = ((truncf .bf16 · bitsLt_bf16_f32) (m ((c : Thread nD τ).loc main_arg13)) : (⟨S300x472, .bf16⟩ : BufTy).Contents (Elt F)) := by
  show V0 m c (Proc.devRef .tc main_v109) = _
  rw [V0_eq m c]
  refine (s6_v109 W₆).trans ?_
  rw [w6_arg13 m c]

/-- THE HIDDEN WEIGHTS THE CALL FINDS: the argument in the narrow format. -/
theorem wh_in : V m c main_v110 = ((truncf .bf16 · bitsLt_bf16_f32) (m ((c : Thread nD τ).loc main_arg14)) : (⟨S300x100, .bf16⟩ : BufTy).Contents (Elt F)) := by
  show V0 m c (Proc.devRef .tc main_v110) = _
  rw [V0_eq m c]
  refine (s6_v110 W₆).trans ?_
  rw [w6_arg14 m c]

/-- The owners' rows and the edges' times are still there when the call is entered. -/
theorem v0_v16 : V0 m c (Proc.devRef .tc main_v16) = (Cert.ReferenceIdeal.Read.val_main_v83 (F := F) (m ((c : Thread nD τ).loc main_arg2)) (m ((c : Thread nD τ).loc main_arg3)) (m ((c : Thread nD τ).loc main_arg7))) := by
  rw [V0_eq m c, hostOps0_6_keep _ main_v16 (by decide), hostOps0_5_keep _ main_v16 (by decide), hostOps0_4_keep _ main_v16 (by decide), hostOps0_3_keep _ main_v16 (by decide), hostOps0_2_keep _ main_v16 (by decide), hostOps0_1_keep _ main_v16 (by decide)]; exact s0_v16 W₀
theorem v0_v15 : V0 m c (Proc.devRef .tc main_v15) = (Cert.ReferenceIdeal.Read.val_main_v82 (F := F) (m ((c : Thread nD τ).loc main_arg5)) (m ((c : Thread nD τ).loc main_arg9))) := by
  rw [V0_eq m c, hostOps0_6_keep _ main_v15 (by decide), hostOps0_5_keep _ main_v15 (by decide), hostOps0_4_keep _ main_v15 (by decide), hostOps0_3_keep _ main_v15 (by decide), hostOps0_2_keep _ main_v15 (by decide), hostOps0_1_keep _ main_v15 (by decide)]; exact s0_v15 W₀

/-- WHAT THE LAST STRETCH LEAVES: it reads the owners' rows, the times and two arguments, none of which the call
    touches, so it leaves the reference's last stage of the arguments. -/
theorem tail_out : Pipeline.afterTail₀ cfgs (Region.dats m) 0 (V0 m) [hostOps1] c main_v125 = Cert.ReferenceIdeal.Read.val_main_v170 (F := F) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) := by
  unfold Pipeline.afterTail₀
  show StableHlo.after hostOps1 _ (Proc.devRef .tc main_v125) = _
  refine t_v125 _ _ _ _ _ _ _ ?_ ?_ ?_ ?_
  · rw [Pipeline.withArrays_of_ne _ c (V0 m c) _ main_v16 (by exact (by decide : ∀ w, Pipeline.arrRef spec0 w ≠ main_v16))]; exact v0_v16 m c
  · rw [Pipeline.withArrays_of_ne _ c (V0 m c) _ main_v15 (by exact (by decide : ∀ w, Pipeline.arrRef spec0 w ≠ main_v15))]; exact v0_v15 m c
  · rw [Pipeline.withArrays_of_ne _ c (V0 m c) _ main_arg1 (by exact (by decide : ∀ w, Pipeline.arrRef spec0 w ≠ main_arg1))]; exact Cert.KernelIdeal.Frame.V_main_arg1 m c
  · rw [Pipeline.withArrays_of_ne _ c (V0 m c) _ main_arg2 (by exact (by decide : ∀ w, Pipeline.arrRef spec0 w ≠ main_arg2))]; exact Cert.KernelIdeal.Frame.V_main_arg2 m c

end Cert.KernelIdeal.Prefix

end
-- ==== Proof.RefMsg.lean ====
/-
  The reference program's per-edge messages, read as mathematics.

  For each of its two halves of 100000 edges (the events stored at their sources, and those stored at their
  destinations) the reference builds ALL messages first: for edge `e` with owner position `loc[e]` in the list of
  selected nodes, owner node `o = n_id[loc[e]]`, other endpoint `dst[e]`, time `t[e]` and raw message `raw[e]`,
      columns   0 ..  99 : memory[o]
      columns 100 .. 199 : memory[dst[e]]
      columns 200 .. 371 : raw[e]
      columns 372 .. 471 : cos ((t[e] − last_update[o]) · w + b).
  `halfMsg` is that matrix as one term in the program's own operations; both halves are `halfMsg` of their own
  arrays; the lemmas below read it at an entry.
-/
import proofs.«121507_j30451318129194_2_alg».proof.Proof.RefRead
import proofs.«121507_j30451318129194_2_alg».proof.Proof.HostIdx
import Idealize.ShloMosaic.Lib.Pipeline.Value
import Idealize.ShloMosaic.Lib.ValueIdx

noncomputable section

namespace Cert.ReferenceIdeal.Msg

open Cert.ReferenceIdeal Cert.ReferenceIdeal.Gen Cert.ReferenceIdeal.Read Cert.HostIdx
open Idealize.ShloMosaic Idealize.ShloMosaic.TcCoe Idealize.SL.Sem Idealize.ShloMosaic.StableHlo
open Idealize.ShloMosaic.ValueIdx

variable {F : FTy → Type} [FloatOps F]

/-! ## The program's idioms over one half, named -/

/-- An index vector over the 100000 edges of a half, wrapped into an axis of length `n` and laid out as a column. -/
def wrapColH (n : BitVec 32) (x : (⟨S100000, .i32⟩ : BufTy).Contents (Elt F)) : (⟨S100000x1, .i32⟩ : BufTy).Contents (Elt F) :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 n))) x)

/-- The owner node of each edge: the selected-node list read at the edge's owner position. -/
def ownerIds (nid : (⟨S200000, .i32⟩ : BufTy).Contents (Elt F)) (loc : (⟨S100000, .i32⟩ : BufTy).Contents (Elt F)) :
    (⟨S100000, .i32⟩ : BufTy).Contents (Elt F) :=
  Host.gather gather_S200000_S100000x1_S100000_n_0_n_n_0_1_1 nid (wrapColH 200000#32 loc)

/-- Rows of the node-state table at the nodes an index vector names. -/
def memRowsH (mem : (⟨S1000000x100, .f32⟩ : BufTy).Contents (Elt F)) (x : (⟨S100000, .i32⟩ : BufTy).Contents (Elt F)) :
    (⟨S100000x100, .f32⟩ : BufTy).Contents (Elt F) :=
  Host.gather gather_S1000000x100_S100000x1_S100000x100_1_0_n_n_0_1_1100 mem (wrapColH 1000000#32 x)

/-- A vector of 100 features repeated down the 100000 rows. -/
def featRowsH (w : (⟨S100, .f32⟩ : BufTy).Contents (Elt F)) : (⟨S100000x100, .f32⟩ : BufTy).Contents (Elt F) :=
  broadcastInDim S100000x100 ![0, 1] bcast_S1x100_S100000x100_0_1 (broadcastInDim S1x100 ![1] bcast_S100_S1x100_1 w)

/-- The time encoding of every edge of a half. -/
def timeEncH (own t : (⟨S100000, .i32⟩ : BufTy).Contents (Elt F)) (lu : (⟨S1000000, .i32⟩ : BufTy).Contents (Elt F))
    (w b : (⟨S100, .f32⟩ : BufTy).Contents (Elt F)) : (⟨S100000x100, .f32⟩ : BufTy).Contents (Elt F) :=
  Host.cos (addf (mulf
    (broadcastInDim S100000x100 ![0, 1] bcast_S100000x1_S100000x100_0_1
      (broadcastInDim S100000x1 ![0] bcast_S100000_S100000x1_0
        (sitofp .f32 (subi t
          (Host.gather gather_S1000000_S100000x1_S100000_n_0_n_n_0_1_1 lu (wrapColH 1000000#32 own))))))
    (featRowsH w)) (featRowsH b))

/-- All messages of a half, 100000 × 472. -/
def halfMsg (loc dst t : (⟨S100000, .i32⟩ : BufTy).Contents (Elt F)) (raw : (⟨S100000x172, .f32⟩ : BufTy).Contents (Elt F))
    (nid : (⟨S200000, .i32⟩ : BufTy).Contents (Elt F)) (mem : (⟨S1000000x100, .f32⟩ : BufTy).Contents (Elt F))
    (lu : (⟨S1000000, .i32⟩ : BufTy).Contents (Elt F)) (w b : (⟨S100, .f32⟩ : BufTy).Contents (Elt F)) :
    (⟨S100000x472, .f32⟩ : BufTy).Contents (Elt F) :=
  concatenate S100000x472 1
    [⟨S100000x100, memRowsH mem (ownerIds nid loc)⟩, ⟨S100000x100, memRowsH mem dst⟩, ⟨S100000x172, raw⟩,
     ⟨S100000x100, timeEncH (ownerIds nid loc) t lu w b⟩]
    concatenates_S100000x100_S100000x100_S100000x172_S100000x100_S100000x472_d1

/-- The first half's messages, as the reference's operations spell them, are `halfMsg` of the first half's arrays. -/
theorem half_s_eq (x0 : (⟨S1000000x100, .f32⟩ : BufTy).Contents (Elt F)) (x1 : (⟨S1000000, .i32⟩ : BufTy).Contents (Elt F))
    (x2 : (⟨S200000, .i32⟩ : BufTy).Contents (Elt F)) (x3 x4 x5 : (⟨S100000, .i32⟩ : BufTy).Contents (Elt F))
    (x6 : (⟨S100000x172, .f32⟩ : BufTy).Contents (Elt F)) (x11 x12 : (⟨S100, .f32⟩ : BufTy).Contents (Elt F)) :
    val_main_v39 (F := F) x0 x1 x2 x3 x4 x5 x6 x11 x12 = halfMsg x3 x4 x5 x6 x2 x0 x1 x11 x12 := rfl

/-- And the second half's of the second half's. -/
theorem half_d_eq (x0 : (⟨S1000000x100, .f32⟩ : BufTy).Contents (Elt F)) (x1 : (⟨S1000000, .i32⟩ : BufTy).Contents (Elt F))
    (x2 : (⟨S200000, .i32⟩ : BufTy).Contents (Elt F)) (x7 x8 x9 : (⟨S100000, .i32⟩ : BufTy).Contents (Elt F))
    (x10 : (⟨S100000x172, .f32⟩ : BufTy).Contents (Elt F)) (x11 x12 : (⟨S100, .f32⟩ : BufTy).Contents (Elt F)) :
    val_main_v79 (F := F) x0 x1 x2 x7 x8 x9 x10 x11 x12 = halfMsg x7 x8 x9 x10 x2 x0 x1 x11 x12 := rfl

/-! ## Reading a half at an index -/

theorem wrapColH_apply (n : BitVec 32) (x : (⟨S100000, .i32⟩ : BufTy).Contents (Elt F)) (e : Fin 100000) (z : Fin 1) :
    wrapColH n x (ix2 e z) = wrapIdx n (x (ix1 e)) := by
  unfold wrapColH
  rw [broadcastInDim_apply _ bcast_S100000_S100000x1_0 _ (ix2 e z) (ix1 e) (fun a => match a with
    | ⟨0, _⟩ => by show e.val = if (100000 : Nat) = 1 then 0 else e.val; rw [if_neg (by decide)])]
  show Scalar.select (IntOp.cmpi .slt (x (ix1 e)) (broadcastInDim S100000 ![] bcast_S_S100000 (constantI S_ 32 0#32) (ix1 e)))
      (IntOp.addi (x (ix1 e)) (broadcastInDim S100000 ![] bcast_S_S100000 (constantI S_ 32 n) (ix1 e))) (x (ix1 e)) = _
  rw [bcast_scalar, bcast_scalar]
  rfl

theorem ownerIds_apply (nid : (⟨S200000, .i32⟩ : BufTy).Contents (Elt F)) (loc : (⟨S100000, .i32⟩ : BufTy).Contents (Elt F))
    (e : Fin 100000) : ownerIds nid loc (ix1 e) = nid (ix1 (slot (loc (ix1 e)))) := by
  unfold ownerIds slot
  refine (gather_vec_apply (N := 200000) (M := 100000) (by decide) (by decide) nid (wrapColH 200000#32 loc) e).trans ?_
  rw [wrapColH_apply]

theorem memRowsH_apply (mem : (⟨S1000000x100, .f32⟩ : BufTy).Contents (Elt F)) (x : (⟨S100000, .i32⟩ : BufTy).Contents (Elt F))
    (e : Fin 100000) (c : Fin 100) : memRowsH mem x (ix2 e c) = mem (ix2 (node (x (ix1 e))) c) := by
  unfold memRowsH node
  refine (gather_rows_apply (N := 1000000) (C := 100) (M := 100000) (by decide) (by decide) mem (wrapColH 1000000#32 x) e c).trans ?_
  rw [wrapColH_apply]

theorem luH_apply (lu : (⟨S1000000, .i32⟩ : BufTy).Contents (Elt F)) (x : (⟨S100000, .i32⟩ : BufTy).Contents (Elt F)) (e : Fin 100000) :
    Host.gather gather_S1000000_S100000x1_S100000_n_0_n_n_0_1_1 lu (wrapColH 1000000#32 x) (ix1 e) = lu (ix1 (node (x (ix1 e)))) := by
  unfold node
  refine (gather_vec_apply (N := 1000000) (M := 100000) (by decide) (by decide) lu (wrapColH 1000000#32 x) e).trans ?_
  rw [wrapColH_apply]

theorem featRowsH_apply (w : (⟨S100, .f32⟩ : BufTy).Contents (Elt F)) (e : Fin 100000) (c : Fin 100) :
    featRowsH w (ix2 e c) = w (ix1 c) := by
  unfold featRowsH
  rw [broadcastInDim_apply _ bcast_S1x100_S100000x100_0_1 _ (ix2 e c) (ix2 (0 : Fin 1) c) (fun a => match a with
      | ⟨0, _⟩ => by show 0 = if (1 : Nat) = 1 then 0 else e.val; rw [if_pos rfl]
      | ⟨1, _⟩ => by show c.val = if (100 : Nat) = 1 then 0 else c.val; rw [if_neg (by decide)]),
    broadcastInDim_apply _ bcast_S100_S1x100_1 _ (ix2 (0 : Fin 1) c) (ix1 c) (fun a => match a with
      | ⟨0, _⟩ => by show c.val = if (100 : Nat) = 1 then 0 else c.val; rw [if_neg (by decide)])]

theorem timeEncH_apply (own t : (⟨S100000, .i32⟩ : BufTy).Contents (Elt F)) (lu : (⟨S1000000, .i32⟩ : BufTy).Contents (Elt F))
    (w b : (⟨S100, .f32⟩ : BufTy).Contents (Elt F)) (e : Fin 100000) (c : Fin 100) :
    timeEncH own t lu w b (ix2 e c)
      = FloatOps.hostUnary .cos (FloatOps.addf (FloatOps.mulf
          (FloatOps.sitofp .f32 (IntOp.subi (t (ix1 e)) (lu (ix1 (node (own (ix1 e)))))))
          (w (ix1 c))) (b (ix1 c))) := by
  unfold timeEncH
  show FloatOps.hostUnary .cos (FloatOps.addf (FloatOps.mulf
      (broadcastInDim (s := S100000x1) S100000x100 ![0, 1] bcast_S100000x1_S100000x100_0_1 _ (ix2 e c)) (featRowsH w (ix2 e c))) (featRowsH b (ix2 e c))) = _
  rw [featRowsH_apply, featRowsH_apply,
    broadcastInDim_apply _ bcast_S100000x1_S100000x100_0_1 _ (ix2 e c) (ix2 e (0 : Fin 1)) (fun a => match a with
      | ⟨0, _⟩ => by show e.val = if (100000 : Nat) = 1 then 0 else e.val; rw [if_neg (by decide)]
      | ⟨1, _⟩ => by show 0 = if (1 : Nat) = 1 then 0 else c.val; rw [if_pos rfl]),
    broadcastInDim_apply _ bcast_S100000_S100000x1_0 _ (ix2 e (0 : Fin 1)) (ix1 e) (fun a => match a with
      | ⟨0, _⟩ => by show e.val = if (100000 : Nat) = 1 then 0 else e.val; rw [if_neg (by decide)])]
  show FloatOps.hostUnary .cos (FloatOps.addf (FloatOps.mulf
      (FloatOps.sitofp .f32 (IntOp.subi (t (ix1 e))
        (Host.gather gather_S1000000_S100000x1_S100000_n_0_n_n_0_1_1 lu (wrapColH 1000000#32 own) (ix1 e)))) (w (ix1 c))) (b (ix1 c))) = _
  rw [luH_apply]

section Columns

variable (loc dst t : (⟨S100000, .i32⟩ : BufTy).Contents (Elt F)) (raw : (⟨S100000x172, .f32⟩ : BufTy).Contents (Elt F))
  (nid : (⟨S200000, .i32⟩ : BufTy).Contents (Elt F)) (mem : (⟨S1000000x100, .f32⟩ : BufTy).Contents (Elt F))
  (lu : (⟨S1000000, .i32⟩ : BufTy).Contents (Elt F)) (w b : (⟨S100, .f32⟩ : BufTy).Contents (Elt F)) (e : Fin 100000)

/-- Columns 0 … 99: the owner's state. -/
theorem half_owner (c : Fin 100) :
    halfMsg loc dst t raw nid mem lu w b (ix2 e (⟨c.val, by omega⟩ : Fin 472)) = mem (ix2 (node (nid (ix1 (slot (loc (ix1 e)))))) c) := by
  unfold halfMsg
  refine (concatenate_apply_piece (t := S100000x472) (1 : Fin 2)
    [⟨S100000x100, memRowsH mem (ownerIds nid loc)⟩, ⟨S100000x100, memRowsH mem dst⟩, ⟨S100000x172, raw⟩,
     ⟨S100000x100, timeEncH (ownerIds nid loc) t lu w b⟩]
    concatenates_S100000x100_S100000x100_S100000x172_S100000x100_S100000x472_d1
    (ix2 e (⟨c.val, by omega⟩ : Fin 472)) 0 (by simp) S100000x100 (memRowsH mem (ownerIds nid loc)) rfl rfl 0 rfl (ix2 e c)
    (fun b hb => by match b with | ⟨0, _⟩ => rfl | ⟨1, _⟩ => exact absurd rfl hb) (Nat.zero_add _)).trans ?_
  rw [memRowsH_apply, ownerIds_apply]

/-- Columns 100 … 199: the other endpoint's state. -/
theorem half_other (c : Fin 100) :
    halfMsg loc dst t raw nid mem lu w b (ix2 e (⟨100 + c.val, by omega⟩ : Fin 472)) = mem (ix2 (node (dst (ix1 e))) c) := by
  unfold halfMsg
  refine (concatenate_apply_piece (1 : Fin 2) _ _ (ix2 e (⟨100 + c.val, by omega⟩ : Fin 472)) 1 (by simp) S100000x100 _ rfl rfl 100 rfl (ix2 e c)
    (fun b hb => by match b with | ⟨0, _⟩ => rfl | ⟨1, _⟩ => exact absurd rfl hb) rfl).trans ?_
  rw [memRowsH_apply]

/-- Columns 200 … 371: the edge's raw message. -/
theorem half_raw (c : Fin 172) :
    halfMsg loc dst t raw nid mem lu w b (ix2 e (⟨200 + c.val, by omega⟩ : Fin 472)) = raw (ix2 e c) := by
  unfold halfMsg
  exact concatenate_apply_piece (1 : Fin 2) _ _ (ix2 e (⟨200 + c.val, by omega⟩ : Fin 472)) 2 (by simp) S100000x172 _ rfl rfl 200 rfl (ix2 e c)
    (fun b hb => by match b with | ⟨0, _⟩ => rfl | ⟨1, _⟩ => exact absurd rfl hb) rfl

/-- Columns 372 … 471: the time encoding. -/
theorem half_time (c : Fin 100) :
    halfMsg loc dst t raw nid mem lu w b (ix2 e (⟨372 + c.val, by omega⟩ : Fin 472))
      = FloatOps.hostUnary .cos (FloatOps.addf (FloatOps.mulf
          (FloatOps.sitofp .f32 (IntOp.subi (t (ix1 e)) (lu (ix1 (node (nid (ix1 (slot (loc (ix1 e)))))))))) (w (ix1 c))) (b (ix1 c))) := by
  unfold halfMsg
  refine (concatenate_apply_piece (1 : Fin 2) _ _ (ix2 e (⟨372 + c.val, by omega⟩ : Fin 472)) 3 (by simp) S100000x100 _ rfl rfl 372 rfl (ix2 e c)
    (fun b hb => by match b with | ⟨0, _⟩ => rfl | ⟨1, _⟩ => exact absurd rfl hb) rfl).trans ?_
  rw [timeEncH_apply, ownerIds_apply]

end Columns

end Cert.ReferenceIdeal.Msg

end
-- ==== Proof.HostCat.lean ====
/-
  A concatenation of two arrays along the first axis, read at an index: positions below the first array's length
  read the first array, the others read the second at the position less that length.
-/
import Idealize.ShloMosaic.Lib.ValueIdx
import Idealize.ShloMosaic.Lib.Pipeline.Value

noncomputable section

namespace Cert.HostCat

open Idealize.ShloMosaic Idealize.ShloMosaic.ValueIdx

variable {α : Type}

theorem cat_vec_left {n1 n2 n : Nat} (h : Shape.Concatenates [(⟨1, ![n1]⟩ : Shape), ⟨1, ![n2]⟩] ⟨1, ![n]⟩ 0)
    (x : (⟨1, ![n1]⟩ : Shape).Idx → α) (y : (⟨1, ![n2]⟩ : Shape).Idx → α) (e : Fin n) (he : e.val < n1) :
    concatenate ⟨1, ![n]⟩ 0 [⟨⟨1, ![n1]⟩, x⟩, ⟨⟨1, ![n2]⟩, y⟩] h (ix1 e) = x (ix1 ⟨e.val, he⟩) :=
  concatenate_pair_apply_left (0 : Fin 1) x y h (ix1 e) rfl (ix1 ⟨e.val, he⟩) (fun b => by match b with | ⟨0, _⟩ => rfl)

theorem cat_vec_right {n1 n2 n : Nat} (h : Shape.Concatenates [(⟨1, ![n1]⟩ : Shape), ⟨1, ![n2]⟩] ⟨1, ![n]⟩ 0)
    (x : (⟨1, ![n1]⟩ : Shape).Idx → α) (y : (⟨1, ![n2]⟩ : Shape).Idx → α) (e : Fin n) (he : n1 ≤ e.val) (he2 : e.val - n1 < n2) :
    concatenate ⟨1, ![n]⟩ 0 [⟨⟨1, ![n1]⟩, x⟩, ⟨⟨1, ![n2]⟩, y⟩] h (ix1 e) = y (ix1 ⟨e.val - n1, he2⟩) :=
  concatenate_pair_apply_right (0 : Fin 1) x y h (ix1 e) rfl rfl (ix1 ⟨e.val - n1, he2⟩)
    (fun b hb => absurd (Subsingleton.elim _ _) hb) (by show e.val - n1 + n1 = e.val; omega)

theorem cat_rows_left {n1 n2 n k : Nat} (h : Shape.Concatenates [(⟨2, ![n1, k]⟩ : Shape), ⟨2, ![n2, k]⟩] ⟨2, ![n, k]⟩ 0)
    (x : (⟨2, ![n1, k]⟩ : Shape).Idx → α) (y : (⟨2, ![n2, k]⟩ : Shape).Idx → α) (e : Fin n) (c : Fin k) (he : e.val < n1) :
    concatenate ⟨2, ![n, k]⟩ 0 [⟨⟨2, ![n1, k]⟩, x⟩, ⟨⟨2, ![n2, k]⟩, y⟩] h (ix2 e c) = x (ix2 ⟨e.val, he⟩ c) :=
  concatenate_pair_apply_left (0 : Fin 2) x y h (ix2 e c) rfl (ix2 ⟨e.val, he⟩ c)
    (fun b => by match b with | ⟨0, _⟩ => rfl | ⟨1, _⟩ => rfl)

theorem cat_rows_right {n1 n2 n k : Nat} (h : Shape.Concatenates [(⟨2, ![n1, k]⟩ : Shape), ⟨2, ![n2, k]⟩] ⟨2, ![n, k]⟩ 0)
    (x : (⟨2, ![n1, k]⟩ : Shape).Idx → α) (y : (⟨2, ![n2, k]⟩ : Shape).Idx → α) (e : Fin n) (c : Fin k) (he : n1 ≤ e.val)
    (he2 : e.val - n1 < n2) :
    concatenate ⟨2, ![n, k]⟩ 0 [⟨⟨2, ![n1, k]⟩, x⟩, ⟨⟨2, ![n2, k]⟩, y⟩] h (ix2 e c) = y (ix2 ⟨e.val - n1, he2⟩ c) :=
  concatenate_pair_apply_right (0 : Fin 2) x y h (ix2 e c) rfl rfl (ix2 ⟨e.val - n1, he2⟩ c)
    (fun b hb => by match b with | ⟨0, _⟩ => exact absurd rfl hb | ⟨1, _⟩ => rfl) (by show e.val - n1 + n1 = e.val; omega)

end Cert.HostCat

end
-- ==== Proof.RefGather.lean ====
/-
  The reference's aggregation, read at an entry.  All 200000 per-edge messages are the first half's followed by the
  second half's; node `r` receives the row of its winning edge, the edge at position `A[r]` (wrapped and clamped)
  — the same index array `A` the kernel program computes.  The concatenated per-edge vectors (owner positions,
  times, owner nodes) read the first or the second half's vector according to the same split.
-/
import proofs.«121507_j30451318129194_2_alg».proof.Proof.RefMsg
import proofs.«121507_j30451318129194_2_alg».proof.Proof.HostCat

noncomputable section

namespace Cert.ReferenceIdeal.Gathered

open Cert.ReferenceIdeal Cert.ReferenceIdeal.Gen Cert.ReferenceIdeal.Read Cert.ReferenceIdeal.Msg Cert.HostIdx Cert.HostCat
open Idealize.ShloMosaic Idealize.ShloMosaic.TcCoe Idealize.SL.Sem Idealize.ShloMosaic.StableHlo
open Idealize.ShloMosaic.ValueIdx

variable {F : FTy → Type} [FloatOps F]

/-- An index vector over the 200000 rows, wrapped into an axis of length `n` and laid out as a column. -/
def wrapColA (n : BitVec 32) (x : (⟨S200000, .i32⟩ : BufTy).Contents (Elt F)) : (⟨S200000x1, .i32⟩ : BufTy).Contents (Elt F) :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 n))) x)

theorem wrapColA_apply (n : BitVec 32) (x : (⟨S200000, .i32⟩ : BufTy).Contents (Elt F)) (r : Fin 200000) (z : Fin 1) :
    wrapColA n x (ix2 r z) = wrapIdx n (x (ix1 r)) := by
  unfold wrapColA
  rw [broadcastInDim_apply _ bcast_S200000_S200000x1_0 _ (ix2 r z) (ix1 r) (fun a => match a with
    | ⟨0, _⟩ => by show r.val = if (200000 : Nat) = 1 then 0 else r.val; rw [if_neg (by decide)])]
  show Scalar.select (IntOp.cmpi .slt (x (ix1 r)) (broadcastInDim S200000 ![] bcast_S_S200000 (constantI S_ 32 0#32) (ix1 r)))
      (IntOp.addi (x (ix1 r)) (broadcastInDim S200000 ![] bcast_S_S200000 (constantI S_ 32 n) (ix1 r))) (x (ix1 r)) = _
  rw [bcast_scalar, bcast_scalar]
  rfl

/-- The gather's index column is the winner index, wrapped into the 200000 edges. -/
theorem winnerCol_eq (x3 x5 x7 x9 : (⟨S100000, .i32⟩ : BufTy).Contents (Elt F)) :
    val_main_v109 (F := F) x3 x5 x7 x9 = wrapColA 200000#32 (val_main_v103 (F := F) x3 x5 x7 x9) := rfl

/-- Node `r`'s aggregated message is the row of its winning edge among all messages. -/
theorem gathered_apply (x0 : (⟨S1000000x100, .f32⟩ : BufTy).Contents (Elt F)) (x1 : (⟨S1000000, .i32⟩ : BufTy).Contents (Elt F)) (x2 : (⟨S200000, .i32⟩ : BufTy).Contents (Elt F)) (x3 x4 x5 : (⟨S100000, .i32⟩ : BufTy).Contents (Elt F)) (x6 : (⟨S100000x172, .f32⟩ : BufTy).Contents (Elt F)) (x7 x8 x9 : (⟨S100000, .i32⟩ : BufTy).Contents (Elt F)) (x10 : (⟨S100000x172, .f32⟩ : BufTy).Contents (Elt F)) (x11 x12 : (⟨S100, .f32⟩ : BufTy).Contents (Elt F)) (r : Fin 200000) (col : Fin 472) :
    val_main_v110 (F := F) x0 x1 x2 x3 x4 x5 x6 x7 x8 x9 x10 x11 x12 (ix2 r col)
      = val_main_v80 (F := F) x0 x1 x2 x3 x4 x5 x6 x7 x8 x9 x10 x11 x12 (ix2 (slot (val_main_v103 (F := F) x3 x5 x7 x9 (ix1 r))) col) := by
  unfold val_main_v110 slot
  refine (gather_rows_apply (N := 200000) (C := 472) (M := 200000) (by decide) (by decide) _ _ r col).trans ?_
  rw [winnerCol_eq, wrapColA_apply]

/-- An edge of the first half: its message is the first half's. -/
theorem allMsg_left (x0 : (⟨S1000000x100, .f32⟩ : BufTy).Contents (Elt F)) (x1 : (⟨S1000000, .i32⟩ : BufTy).Contents (Elt F)) (x2 : (⟨S200000, .i32⟩ : BufTy).Contents (Elt F)) (x3 x4 x5 : (⟨S100000, .i32⟩ : BufTy).Contents (Elt F)) (x6 : (⟨S100000x172, .f32⟩ : BufTy).Contents (Elt F)) (x7 x8 x9 : (⟨S100000, .i32⟩ : BufTy).Contents (Elt F)) (x10 : (⟨S100000x172, .f32⟩ : BufTy).Contents (Elt F)) (x11 x12 : (⟨S100, .f32⟩ : BufTy).Contents (Elt F)) (e : Fin 200000) (col : Fin 472) (h : e.val < 100000) :
    val_main_v80 (F := F) x0 x1 x2 x3 x4 x5 x6 x7 x8 x9 x10 x11 x12 (ix2 e col)
      = halfMsg x3 x4 x5 x6 x2 x0 x1 x11 x12 (ix2 (⟨e.val, h⟩ : Fin 100000) col) := by
  unfold val_main_v80
  rw [half_s_eq, half_d_eq]
  exact cat_rows_left _ _ _ e col h

/-- An edge of the second half: its message is the second half's, at its position there. -/
theorem allMsg_right (x0 : (⟨S1000000x100, .f32⟩ : BufTy).Contents (Elt F)) (x1 : (⟨S1000000, .i32⟩ : BufTy).Contents (Elt F)) (x2 : (⟨S200000, .i32⟩ : BufTy).Contents (Elt F)) (x3 x4 x5 : (⟨S100000, .i32⟩ : BufTy).Contents (Elt F)) (x6 : (⟨S100000x172, .f32⟩ : BufTy).Contents (Elt F)) (x7 x8 x9 : (⟨S100000, .i32⟩ : BufTy).Contents (Elt F)) (x10 : (⟨S100000x172, .f32⟩ : BufTy).Contents (Elt F)) (x11 x12 : (⟨S100, .f32⟩ : BufTy).Contents (Elt F)) (e : Fin 200000) (col : Fin 472) (h : 100000 ≤ e.val) :
    val_main_v80 (F := F) x0 x1 x2 x3 x4 x5 x6 x7 x8 x9 x10 x11 x12 (ix2 e col)
      = halfMsg x7 x8 x9 x10 x2 x0 x1 x11 x12 (ix2 (⟨e.val - 100000, by have := e.isLt; omega⟩ : Fin 100000) col) := by
  unfold val_main_v80
  rw [half_s_eq, half_d_eq]
  exact cat_rows_right _ _ _ e col h _

/-! ## The concatenated per-edge vectors -/

theorem ownersAll_left (x2 : (⟨S200000, .i32⟩ : BufTy).Contents (Elt F)) (x3 x7 : (⟨S100000, .i32⟩ : BufTy).Contents (Elt F))
    (e : Fin 200000) (h : e.val < 100000) :
    val_main_v83 (F := F) x2 x3 x7 (ix1 e) = x2 (ix1 (slot (x3 (ix1 (⟨e.val, h⟩ : Fin 100000))))) := by
  unfold val_main_v83
  refine (cat_vec_left _ _ _ e h).trans ?_
  exact ownerIds_apply x2 x3 _

theorem ownersAll_right (x2 : (⟨S200000, .i32⟩ : BufTy).Contents (Elt F)) (x3 x7 : (⟨S100000, .i32⟩ : BufTy).Contents (Elt F))
    (e : Fin 200000) (h : 100000 ≤ e.val) :
    val_main_v83 (F := F) x2 x3 x7 (ix1 e) = x2 (ix1 (slot (x7 (ix1 (⟨e.val - 100000, by have := e.isLt; omega⟩ : Fin 100000))))) := by
  unfold val_main_v83
  refine (cat_vec_right _ _ _ e h (by have := e.isLt; omega)).trans ?_
  exact ownerIds_apply x2 x7 _

theorem timesAll_left (x5 x9 : (⟨S100000, .i32⟩ : BufTy).Contents (Elt F)) (e : Fin 200000) (h : e.val < 100000) :
    val_main_v82 (F := F) x5 x9 (ix1 e) = x5 (ix1 (⟨e.val, h⟩ : Fin 100000)) := by
  unfold val_main_v82
  exact cat_vec_left _ _ _ e h

theorem timesAll_right (x5 x9 : (⟨S100000, .i32⟩ : BufTy).Contents (Elt F)) (e : Fin 200000) (h : 100000 ≤ e.val) :
    val_main_v82 (F := F) x5 x9 (ix1 e) = x9 (ix1 (⟨e.val - 100000, by have := e.isLt; omega⟩ : Fin 100000)) := by
  unfold val_main_v82
  exact cat_vec_right _ _ _ e h _

end Cert.ReferenceIdeal.Gathered

end
-- ==== Proof.MsgBridge.lean ====
/-
  The two programs aggregate the same messages.

  The reference builds every edge's message, stacks the two halves of 100000 edges, and lets node `r` take the row of
  its winning edge `e = A[r]`.  The kernel program takes the winning edge's entries of the per-edge vectors first
  (owner node, other endpoint, time, raw message) and builds only the winner's message from them.  Entry by entry the
  two agree: in each of the four column ranges, both read the same table at the same node, the winning edge being
  looked up in the first half's arrays when `e < 100000` and in the second half's at `e − 100000` otherwise.  No
  arithmetic is involved: every step is "a gather of a gather is a gather at the composed index" and "an entry of a
  concatenation is an entry of one of its pieces".
-/
import proofs.«121507_j30451318129194_2_alg».proof.Proof.IdealHost
import proofs.«121507_j30451318129194_2_alg».proof.Proof.RefGather

noncomputable section

namespace Cert.Bridge

open Cert.HostIdx Cert.HostCat
open Idealize.ShloMosaic Idealize.ShloMosaic.TcCoe Idealize.SL.Sem
open Idealize.ShloMosaic.ValueIdx
open Cert.ReferenceIdeal.Read Cert.ReferenceIdeal.Msg Cert.ReferenceIdeal.Gathered
open Cert.KernelIdeal.Host

variable {F : FTy → Type} [FloatOps F]

section Entries

variable (x0 : (⟨Cert.KernelIdeal.S1000000x100, .f32⟩ : BufTy).Contents (Elt F)) (x1 : (⟨Cert.KernelIdeal.S1000000, .i32⟩ : BufTy).Contents (Elt F)) (x2 : (⟨Cert.KernelIdeal.S200000, .i32⟩ : BufTy).Contents (Elt F)) (x3 x4 x5 : (⟨Cert.KernelIdeal.S100000, .i32⟩ : BufTy).Contents (Elt F)) (x6 : (⟨Cert.KernelIdeal.S100000x172, .f32⟩ : BufTy).Contents (Elt F)) (x7 x8 x9 : (⟨Cert.KernelIdeal.S100000, .i32⟩ : BufTy).Contents (Elt F)) (x10 : (⟨Cert.KernelIdeal.S100000x172, .f32⟩ : BufTy).Contents (Elt F)) (x11 x12 : (⟨Cert.KernelIdeal.S100, .f32⟩ : BufTy).Contents (Elt F)) (r : Fin 200000)

/-- The kernel program's messages, over the reference's stages for the winner index, the owners and the times, and the
    concatenated other endpoints and raw messages. -/
abbrev kernelMsg : (⟨Cert.KernelIdeal.S200000x472, .f32⟩ : BufTy).Contents (Elt F) :=
  msgK (val_main_v103 (F := F) x3 x5 x7 x9) (val_main_v83 (F := F) x2 x3 x7)
    (concatenate Cert.KernelIdeal.S200000 0 [⟨Cert.KernelIdeal.S100000, x4⟩, ⟨Cert.KernelIdeal.S100000, x8⟩] Cert.KernelIdeal.Facts₀.concatenates_S100000_S100000_S200000_d0)
    (val_main_v82 (F := F) x5 x9)
    (concatenate Cert.KernelIdeal.S200000x172 0 [⟨Cert.KernelIdeal.S100000x172, x6⟩, ⟨Cert.KernelIdeal.S100000x172, x10⟩] Cert.KernelIdeal.Facts₀.concatenates_S100000x172_S100000x172_S200000x172_d0)
    x0 x1 x11 x12

/-- Columns 0 … 99. -/
theorem owner_col (c : Fin 100) :
    kernelMsg x0 x1 x2 x3 x4 x5 x6 x7 x8 x9 x10 x11 x12 (ix2 r (⟨c.val, by omega⟩ : Fin 472))
      = val_main_v110 (F := F) x0 x1 x2 x3 x4 x5 x6 x7 x8 x9 x10 x11 x12 (ix2 r (⟨c.val, by omega⟩ : Fin 472)) := by
  unfold kernelMsg
  rw [msgK_owner, gathered_apply]
  unfold winner
  generalize slot (val_main_v103 (F := F) x3 x5 x7 x9 (ix1 r)) = e
  by_cases h : e.val < 100000
  · rw [allMsg_left x0 x1 x2 x3 x4 x5 x6 x7 x8 x9 x10 x11 x12 e _ h, half_owner, ownersAll_left x2 x3 x7 e h]
  · have h' : 100000 ≤ e.val := Nat.le_of_not_lt h
    rw [allMsg_right x0 x1 x2 x3 x4 x5 x6 x7 x8 x9 x10 x11 x12 e _ h', half_owner, ownersAll_right x2 x3 x7 e h']

/-- Columns 100 … 199. -/
theorem other_col (c : Fin 100) :
    kernelMsg x0 x1 x2 x3 x4 x5 x6 x7 x8 x9 x10 x11 x12 (ix2 r (⟨100 + c.val, by omega⟩ : Fin 472))
      = val_main_v110 (F := F) x0 x1 x2 x3 x4 x5 x6 x7 x8 x9 x10 x11 x12 (ix2 r (⟨100 + c.val, by omega⟩ : Fin 472)) := by
  unfold kernelMsg
  rw [msgK_other, gathered_apply]
  unfold winner
  generalize slot (val_main_v103 (F := F) x3 x5 x7 x9 (ix1 r)) = e
  by_cases h : e.val < 100000
  · rw [allMsg_left x0 x1 x2 x3 x4 x5 x6 x7 x8 x9 x10 x11 x12 e _ h, half_other, cat_vec_left _ x4 x8 e h]
  · have h' : 100000 ≤ e.val := Nat.le_of_not_lt h
    rw [allMsg_right x0 x1 x2 x3 x4 x5 x6 x7 x8 x9 x10 x11 x12 e _ h', half_other,
      cat_vec_right _ x4 x8 e h' (by have := e.isLt; omega)]

/-- Columns 200 … 371. -/
theorem raw_col (c : Fin 172) :
    kernelMsg x0 x1 x2 x3 x4 x5 x6 x7 x8 x9 x10 x11 x12 (ix2 r (⟨200 + c.val, by omega⟩ : Fin 472))
      = val_main_v110 (F := F) x0 x1 x2 x3 x4 x5 x6 x7 x8 x9 x10 x11 x12 (ix2 r (⟨200 + c.val, by omega⟩ : Fin 472)) := by
  unfold kernelMsg
  rw [msgK_raw, gathered_apply]
  unfold winner
  generalize slot (val_main_v103 (F := F) x3 x5 x7 x9 (ix1 r)) = e
  by_cases h : e.val < 100000
  · rw [allMsg_left x0 x1 x2 x3 x4 x5 x6 x7 x8 x9 x10 x11 x12 e _ h, half_raw, cat_rows_left _ x6 x10 e c h]
  · have h' : 100000 ≤ e.val := Nat.le_of_not_lt h
    rw [allMsg_right x0 x1 x2 x3 x4 x5 x6 x7 x8 x9 x10 x11 x12 e _ h', half_raw,
      cat_rows_right _ x6 x10 e c h' (by have := e.isLt; omega)]

/-- Columns 372 … 471. -/
theorem time_col (c : Fin 100) :
    kernelMsg x0 x1 x2 x3 x4 x5 x6 x7 x8 x9 x10 x11 x12 (ix2 r (⟨372 + c.val, by omega⟩ : Fin 472))
      = val_main_v110 (F := F) x0 x1 x2 x3 x4 x5 x6 x7 x8 x9 x10 x11 x12 (ix2 r (⟨372 + c.val, by omega⟩ : Fin 472)) := by
  unfold kernelMsg
  rw [msgK_time, gathered_apply]
  unfold winner
  generalize slot (val_main_v103 (F := F) x3 x5 x7 x9 (ix1 r)) = e
  by_cases h : e.val < 100000
  · rw [allMsg_left x0 x1 x2 x3 x4 x5 x6 x7 x8 x9 x10 x11 x12 e _ h, half_time, ownersAll_left x2 x3 x7 e h, timesAll_left x5 x9 e h]
  · have h' : 100000 ≤ e.val := Nat.le_of_not_lt h
    rw [allMsg_right x0 x1 x2 x3 x4 x5 x6 x7 x8 x9 x10 x11 x12 e _ h', half_time, ownersAll_right x2 x3 x7 e h', timesAll_right x5 x9 e h']

end Entries

/-- The winners' messages of the kernel program ARE the reference's gathered messages. -/
theorem msg_eq (x0 : (⟨Cert.KernelIdeal.S1000000x100, .f32⟩ : BufTy).Contents (Elt F)) (x1 : (⟨Cert.KernelIdeal.S1000000, .i32⟩ : BufTy).Contents (Elt F)) (x2 : (⟨Cert.KernelIdeal.S200000, .i32⟩ : BufTy).Contents (Elt F)) (x3 x4 x5 : (⟨Cert.KernelIdeal.S100000, .i32⟩ : BufTy).Contents (Elt F)) (x6 : (⟨Cert.KernelIdeal.S100000x172, .f32⟩ : BufTy).Contents (Elt F)) (x7 x8 x9 : (⟨Cert.KernelIdeal.S100000, .i32⟩ : BufTy).Contents (Elt F)) (x10 : (⟨Cert.KernelIdeal.S100000x172, .f32⟩ : BufTy).Contents (Elt F)) (x11 x12 : (⟨Cert.KernelIdeal.S100, .f32⟩ : BufTy).Contents (Elt F)) :
    kernelMsg x0 x1 x2 x3 x4 x5 x6 x7 x8 x9 x10 x11 x12 = val_main_v110 (F := F) x0 x1 x2 x3 x4 x5 x6 x7 x8 x9 x10 x11 x12 := by
  funext i
  obtain ⟨r, col, rfl⟩ : ∃ (r : Fin 200000) (col : Fin 472), i = ix2 r col := ⟨i 0, i 1, eq_ix2 i⟩
  by_cases h1 : col.val < 100
  · obtain ⟨c, hc⟩ : ∃ c : Fin 100, col = (⟨c.val, by omega⟩ : Fin 472) := ⟨⟨col.val, h1⟩, Fin.ext rfl⟩
    rw [hc]
    exact owner_col x0 x1 x2 x3 x4 x5 x6 x7 x8 x9 x10 x11 x12 r c
  by_cases h2 : col.val < 200
  · obtain ⟨c, hc⟩ : ∃ c : Fin 100, col = (⟨100 + c.val, by omega⟩ : Fin 472) :=
      ⟨⟨col.val - 100, by omega⟩, Fin.ext (by show col.val = 100 + (col.val - 100); omega)⟩
    rw [hc]
    exact other_col x0 x1 x2 x3 x4 x5 x6 x7 x8 x9 x10 x11 x12 r c
  by_cases h3 : col.val < 372
  · obtain ⟨c, hc⟩ : ∃ c : Fin 172, col = (⟨200 + c.val, by omega⟩ : Fin 472) :=
      ⟨⟨col.val - 200, by omega⟩, Fin.ext (by show col.val = 200 + (col.val - 200); omega)⟩
    rw [hc]
    exact raw_col x0 x1 x2 x3 x4 x5 x6 x7 x8 x9 x10 x11 x12 r c
  · obtain ⟨c, hc⟩ : ∃ c : Fin 100, col = (⟨372 + c.val, by omega⟩ : Fin 472) :=
      ⟨⟨col.val - 372, by have := col.isLt; omega⟩, Fin.ext (by show col.val = 372 + (col.val - 372); omega)⟩
    rw [hc]
    exact time_col x0 x1 x2 x3 x4 x5 x6 x7 x8 x9 x10 x11 x12 r c

end Cert.Bridge

end
-- ==== Proof.AggrBridge.lean ====
/-
  The masked messages.  Both programs zero the message of a node no edge belongs to (the validity mask) and the kernel
  program then rounds the matrix to bf16 for its matrix unit — on the extended reals a change of float format is the
  identity, so the operand the pallas_call receives is the reference's masked aggregate itself.
-/
import proofs.«121507_j30451318129194_2_alg».proof.Proof.MsgBridge

noncomputable section

namespace Cert.Bridge

open Idealize.ShloMosaic Idealize.ShloMosaic.TcCoe Idealize.SL.Sem
open Cert.ReferenceIdeal.Read
open Cert.KernelIdeal Cert.KernelIdeal.Facts₀

/-- Rounding the message matrix to bf16 changes nothing on the extended reals. -/
theorem round_msg (x : (⟨Cert.KernelIdeal.S200000x472, .f32⟩ : BufTy).Contents (Elt Ideal)) :
    ((truncf (F := Ideal) .bf16 · bitsLt_bf16_f32) x : FVec Ideal Cert.KernelIdeal.S200000x472 .bf16) = (x : FVec Ideal Cert.KernelIdeal.S200000x472 .bf16) := rfl

/-- The kernel program's first operand of the call, spelt in its own host operations over the reference's stages, is
    the reference's masked aggregate. -/
theorem aggr_eq (x0 : (⟨Cert.KernelIdeal.S1000000x100, .f32⟩ : BufTy).Contents (Elt Ideal)) (x1 : (⟨Cert.KernelIdeal.S1000000, .i32⟩ : BufTy).Contents (Elt Ideal)) (x2 : (⟨Cert.KernelIdeal.S200000, .i32⟩ : BufTy).Contents (Elt Ideal)) (x3 x4 x5 : (⟨Cert.KernelIdeal.S100000, .i32⟩ : BufTy).Contents (Elt Ideal)) (x6 : (⟨Cert.KernelIdeal.S100000x172, .f32⟩ : BufTy).Contents (Elt Ideal)) (x7 x8 x9 : (⟨Cert.KernelIdeal.S100000, .i32⟩ : BufTy).Contents (Elt Ideal)) (x10 : (⟨Cert.KernelIdeal.S100000x172, .f32⟩ : BufTy).Contents (Elt Ideal)) (x11 x12 : (⟨Cert.KernelIdeal.S100, .f32⟩ : BufTy).Contents (Elt Ideal)) :
    ((truncf (F := Ideal) .bf16 · bitsLt_bf16_f32)
        (select (broadcastInDim Cert.KernelIdeal.S200000x472 ![0, 1] bcast_S200000x1_S200000x472_0_1
            (broadcastInDim Cert.KernelIdeal.S200000x1 ![0] bcast_S200000_S200000x1_0 (val_main_v101 (F := Ideal) x3 x5 x7 x9)))
          (kernelMsg (F := Ideal) x0 x1 x2 x3 x4 x5 x6 x7 x8 x9 x10 x11 x12)
          (broadcastInDim Cert.KernelIdeal.S200000x472 ![] bcast_S_S200000x472 (id (constant Cert.KernelIdeal.S_ .f32 0x00000000#32))))
      : FVec Ideal Cert.KernelIdeal.S200000x472 .bf16)
      = (val_main_v111 (F := Ideal) x0 x1 x2 x3 x4 x5 x6 x7 x8 x9 x10 x11 x12 : FVec Ideal Cert.KernelIdeal.S200000x472 .bf16) := by
  rw [msg_eq]
  unfold val_main_v111 val_main_call2_v1 val_main_call2_v2 val_main_call2_v0 val_main_v102 val_main_cst
  have hmask : (broadcastInDim Cert.KernelIdeal.S200000x472 ![0, 1] bcast_S200000x1_S200000x472_0_1
      (broadcastInDim Cert.KernelIdeal.S200000x1 ![0] bcast_S200000_S200000x1_0 (val_main_v101 (F := Ideal) x3 x5 x7 x9)))
      = (broadcastInDim Cert.ReferenceIdeal.S200000x472 ![0, 1] Cert.ReferenceIdeal.Gen.bcast_S200000x1_S200000x472_0_1
        (broadcastInDim Cert.ReferenceIdeal.S200000x1 ![0] Cert.ReferenceIdeal.Gen.bcast_S200000_S200000x1_0 (val_main_v101 (F := Ideal) x3 x5 x7 x9))) := rfl
  have hzero : (broadcastInDim Cert.KernelIdeal.S200000x472 ![] bcast_S_S200000x472 (id (constant (F := Ideal) Cert.KernelIdeal.S_ .f32 0x00000000#32)) : FVec Ideal Cert.KernelIdeal.S200000x472 .f32)
      = (broadcastInDim Cert.ReferenceIdeal.S200000x472 ![] Cert.ReferenceIdeal.Gen.bcast_S_S200000x472 (id (constant (F := Ideal) Cert.ReferenceIdeal.S_ .f32 0x00000000#32)) : FVec Ideal Cert.KernelIdeal.S200000x472 .f32) := rfl
  rw [hmask, hzero]
  exact round_msg _

/-- Rounding a weight matrix to bf16 changes nothing on the extended reals. -/
theorem round_wi (x : (⟨Cert.KernelIdeal.S300x472, .f32⟩ : BufTy).Contents (Elt Ideal)) :
    ((truncf (F := Ideal) .bf16 · bitsLt_bf16_f32) x : FVec Ideal Cert.KernelIdeal.S300x472 .bf16) = (x : FVec Ideal Cert.KernelIdeal.S300x472 .bf16) := rfl

theorem round_wh (x : (⟨Cert.KernelIdeal.S300x100, .f32⟩ : BufTy).Contents (Elt Ideal)) :
    ((truncf (F := Ideal) .bf16 · bitsLt_bf16_f32) x : FVec Ideal Cert.KernelIdeal.S300x100 .bf16) = (x : FVec Ideal Cert.KernelIdeal.S300x100 .bf16) := rfl

end Cert.Bridge

end
-- ==== Proof.IdealResult.lean ====
/-
  What the idealized kernel program returns, in the reference's own terms.

  The pallas_call's output array is the gated-recurrent-unit update of the six arrays the call is handed.  Those are:
  the masked messages (equal to the reference's masked aggregate: the two programs aggregate the same messages, and
  rounding to bf16 is the identity on the extended reals), the states of the selected nodes (the same gather in both
  programs), the two weight matrices (rounded: the identity again) and the two biases (untouched arguments).  The second
  result, the refreshed last-update times of the selected nodes, is computed by the same host operations in both
  programs.
-/
import proofs.«121507_j30451318129194_2_alg».proof.Proof.IdealBlocks
import proofs.«121507_j30451318129194_2_alg».proof.Proof.IdealPrefix
import proofs.«121507_j30451318129194_2_alg».proof.Proof.IdealFrame
import proofs.«121507_j30451318129194_2_alg».proof.Proof.AggrBridge
import proofs.«121507_j30451318129194_2_alg».proof.Proof.GruSpec

noncomputable section

namespace Cert.KernelIdeal.Result

open Cert.KernelIdeal Cert.KernelIdeal.Gen Cert.KernelIdeal.Region
open Idealize.ShloMosaic Idealize.ShloMosaic.TcCoe Idealize.SL.Sem

variable (m : (ℓ : Loc nD τ sig) → Buf (Elt Ideal) ℓ)

/-- The new states the call writes are the specification's, of the reference's masked aggregate and gathered states and
    the launch contents of the weights and biases. -/
theorem new_states (c : Dev nD) :
    (dats m 0 c).arrAt 6 cfg0.N = Cert.Gru.new (Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (Cert.ReferenceIdeal.Read.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  rw [Cert.KernelIdeal.Blocks.final m c, Cert.KernelIdeal.Prefix.msg_in m c, Cert.KernelIdeal.Prefix.states_in m c,
    Cert.KernelIdeal.Prefix.wi_in m c, Cert.KernelIdeal.Prefix.wh_in m c, Cert.KernelIdeal.Frame.V_main_arg15 m c,
    Cert.KernelIdeal.Frame.V_main_arg16 m c]
  rw [show _ = _ from Cert.Bridge.aggr_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))]
  rfl

end Cert.KernelIdeal.Result

end
-- ==== Proof.RefGru.lean ====
/-
  The reference program's result is the gated recurrent unit of GruSpec.  Its last stretch takes the aggregated
  messages X (the program's value %111) and the gathered node states H (%118), both left opaque here, and
  computes  X · Wiᵀ + bi  and  H · Whᵀ + bh  (two transposes, two contractions over the feature axis, two
  broadcasts of a bias along the rows), cuts each into the three gates' column ranges, and combines them
  elementwise with  1 / (1 + e^(−x)),  tanh,  and  (1 − u) · n + u · h.  Read at one entry (r, j) each step is one
  arithmetic operation on the extended reals at the same entry, the contractions are the sums over the feature
  index, and  1 / (1 + e^(−x))  is the logistic function by definition; so the entry is `Cert.Gru.newAt … r j`.
-/
import proofs.«121507_j30451318129194_2_alg».proof.Proof.RefRead
import proofs.«121507_j30451318129194_2_alg».proof.Proof.GruSpec
import Idealize.ShloMosaic.PureOps.Ideal.Laws
import Idealize.ShloMosaic.Lib.ValueIdx

noncomputable section

open scoped BigOperators

namespace Cert.ReferenceIdeal.GruValue

open Cert.ReferenceIdeal Cert.ReferenceIdeal.Gen Cert.ReferenceIdeal.Read
open Idealize.ShloMosaic Idealize.ShloMosaic.TcCoe Idealize.ShloMosaic.ValueIdx Idealize.SL.Sem

/-! ## Gate rows -/

theorem gateRow0_val (j : Fin 100) : (Cert.Gru.gateRow 0 j).val = j.val := by
  show 100 * 0 + j.val = j.val; omega
theorem gateRow1_val (j : Fin 100) : (Cert.Gru.gateRow 1 j).val = 100 + j.val := rfl
theorem gateRow2_val (j : Fin 100) : (Cert.Gru.gateRow 2 j).val = 200 + j.val := rfl

/-! ## The elementwise tail -/

/-- The reference's elementwise tail at one entry, on the six gate pre-activations and the old state, is the
    unit's cell: each of its two gates is spelt  1 / (1 + e^(−x)),  which is the logistic function, and the
    float constant one is the real one. -/
theorem cell_of_tail (gi gh : Fin 300 → EReal) (h : EReal) (j : Fin 100) :
    FloatOps.addf (F := Ideal) (φ := .f32)
      (FloatOps.mulf (F := Ideal) (φ := .f32)
        (FloatOps.subf (F := Ideal) (φ := .f32) (FloatOps.ofBits (F := Ideal) .f32 0x3F800000#32)
          (FloatOps.hostDivf (F := Ideal) (φ := .f32) (FloatOps.ofBits (F := Ideal) .f32 0x3F800000#32)
            (FloatOps.addf (F := Ideal) (φ := .f32) (FloatOps.ofBits (F := Ideal) .f32 0x3F800000#32)
              (FloatOps.hostUnary (F := Ideal) (φ := .f32) .exp (FloatOps.hostNegf (F := Ideal) (φ := .f32)
                (FloatOps.addf (F := Ideal) (φ := .f32) (gi (Cert.Gru.gateRow 1 j)) (gh (Cert.Gru.gateRow 1 j))))))))
        (FloatOps.hostUnary (F := Ideal) (φ := .f32) .tanh
          (FloatOps.addf (F := Ideal) (φ := .f32) (gi (Cert.Gru.gateRow 2 j))
            (FloatOps.mulf (F := Ideal) (φ := .f32)
              (FloatOps.hostDivf (F := Ideal) (φ := .f32) (FloatOps.ofBits (F := Ideal) .f32 0x3F800000#32)
                (FloatOps.addf (F := Ideal) (φ := .f32) (FloatOps.ofBits (F := Ideal) .f32 0x3F800000#32)
                  (FloatOps.hostUnary (F := Ideal) (φ := .f32) .exp (FloatOps.hostNegf (F := Ideal) (φ := .f32)
                    (FloatOps.addf (F := Ideal) (φ := .f32) (gi (Cert.Gru.gateRow 0 j)) (gh (Cert.Gru.gateRow 0 j)))))))
              (gh (Cert.Gru.gateRow 2 j))))))
      (FloatOps.mulf (F := Ideal) (φ := .f32)
        (FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32)
              (FloatOps.addf (F := Ideal) (φ := .f32) (gi (Cert.Gru.gateRow 1 j)) (gh (Cert.Gru.gateRow 1 j)))))))
        h)
    = Cert.Gru.cell gi gh h j := by
  unfold Cert.Gru.cell Ideal.logistic
  simp only [Ideal.addf_def, Ideal.subf_def, Ideal.mulf_def, Ideal.hostDivf_def, Ideal.hostNegf_def, Ideal.negf_def,
    Ideal.hostUnary_exp_def, Ideal.hostUnary_tanh_def, Ideal.ofBits_def, Cert.Gru.one_f32]

variable (x0 : (⟨S1000000x100, .f32⟩ : BufTy).Contents (Elt Ideal)) (x1 : (⟨S1000000, .i32⟩ : BufTy).Contents (Elt Ideal)) (x2 : (⟨S200000, .i32⟩ : BufTy).Contents (Elt Ideal)) (x3 : (⟨S100000, .i32⟩ : BufTy).Contents (Elt Ideal)) (x4 : (⟨S100000, .i32⟩ : BufTy).Contents (Elt Ideal)) (x5 : (⟨S100000, .i32⟩ : BufTy).Contents (Elt Ideal)) (x6 : (⟨S100000x172, .f32⟩ : BufTy).Contents (Elt Ideal)) (x7 : (⟨S100000, .i32⟩ : BufTy).Contents (Elt Ideal)) (x8 : (⟨S100000, .i32⟩ : BufTy).Contents (Elt Ideal)) (x9 : (⟨S100000, .i32⟩ : BufTy).Contents (Elt Ideal)) (x10 : (⟨S100000x172, .f32⟩ : BufTy).Contents (Elt Ideal)) (x11 : (⟨S100, .f32⟩ : BufTy).Contents (Elt Ideal)) (x12 : (⟨S100, .f32⟩ : BufTy).Contents (Elt Ideal)) (x13 : (⟨S300x472, .f32⟩ : BufTy).Contents (Elt Ideal)) (x14 : (⟨S300x100, .f32⟩ : BufTy).Contents (Elt Ideal)) (x15 : (⟨S300, .f32⟩ : BufTy).Contents (Elt Ideal)) (x16 : (⟨S300, .f32⟩ : BufTy).Contents (Elt Ideal))

/-! ## The two affine maps, at one entry -/

/-- The input-side pre-activation: the contraction of X's row r with the transposed input weights' column g
    is the sum over the 472 message features of X[r, k] · Wi[g, k], and the bias is broadcast along the rows. -/
theorem v123_at (r : Fin 200000) (g : Fin 300) :
    val_main_v123 (F := Ideal) x0 x1 x2 x3 x4 x5 x6 x7 x8 x9 x10 x11 x12 x13 x15 (ix2 r g) = Cert.Gru.inGate (val_main_v111 (F := Ideal) x0 x1 x2 x3 x4 x5 x6 x7 x8 x9 x10 x11 x12) x13 x15 r g := by
  rw [val_main_v123_apply, val_main_v120_apply, val_main_v122_apply, val_main_v121_apply, Ideal.addf_def]
  generalize val_main_v111 (F := Ideal) x0 x1 x2 x3 x4 x5 x6 x7 x8 x9 x10 x11 x12 = X
  have e1 : ∀ k : Fin 472, lidx_main_v120 (ix2 r g) k = ix2 r k := fun k => funext fun a => by match a with | ⟨0, _⟩ => rfl | ⟨1, _⟩ => rfl
  have e2 : ∀ k : Fin 472, idx_main_v119 (ridx_main_v120 (ix2 r g) k) = ix2 g k := fun k => funext fun a => by match a with | ⟨0, _⟩ => rfl | ⟨1, _⟩ => rfl
  have e3 : idx_main_v121 (idx_main_v122 (ix2 r g)) = ix1 g := funext fun a => by match a with | ⟨0, _⟩ => rfl
  simp only [val_main_v119_apply, e1, e2, e3]
  first | done | rfl

/-- The state-side pre-activation, in the same way over the 100 state features. -/
theorem v128_at (r : Fin 200000) (g : Fin 300) :
    val_main_v128 (F := Ideal) x0 x2 x14 x16 (ix2 r g) = Cert.Gru.hidGate (val_main_v118 (F := Ideal) x0 x2) x14 x16 r g := by
  rw [val_main_v128_apply, val_main_v125_apply, val_main_v127_apply, val_main_v126_apply, Ideal.addf_def]
  generalize val_main_v118 (F := Ideal) x0 x2 = H
  have e1 : ∀ k : Fin 100, lidx_main_v125 (ix2 r g) k = ix2 r k := fun k => funext fun a => by match a with | ⟨0, _⟩ => rfl | ⟨1, _⟩ => rfl
  have e2 : ∀ k : Fin 100, idx_main_v124 (ridx_main_v125 (ix2 r g) k) = ix2 g k := fun k => funext fun a => by match a with | ⟨0, _⟩ => rfl | ⟨1, _⟩ => rfl
  have e3 : idx_main_v126 (idx_main_v127 (ix2 r g)) = ix1 g := funext fun a => by match a with | ⟨0, _⟩ => rfl
  simp only [val_main_v124_apply, e1, e2, e3]
  first | done | rfl

/-! ## The six slices -/

/-- Columns 0 … 99 of the input-side pre-activations are gate 0's. -/
theorem v129_at (r : Fin 200000) (j : Fin 100) :
    val_main_v129 (F := Ideal) x0 x1 x2 x3 x4 x5 x6 x7 x8 x9 x10 x11 x12 x13 x15 (ix2 r j) = val_main_v123 (F := Ideal) x0 x1 x2 x3 x4 x5 x6 x7 x8 x9 x10 x11 x12 x13 x15 (ix2 r (Cert.Gru.gateRow 0 j)) := by
  rw [val_main_v129_apply]
  exact congrArg (val_main_v123 (F := Ideal) x0 x1 x2 x3 x4 x5 x6 x7 x8 x9 x10 x11 x12 x13 x15)
    (funext fun a => by match a with | ⟨0, _⟩ => rfl | ⟨1, _⟩ => exact Fin.ext (gateRow0_val j).symm)

/-- Columns 100 … 199 of the input-side pre-activations are gate 1's. -/
theorem v130_at (r : Fin 200000) (j : Fin 100) :
    val_main_v130 (F := Ideal) x0 x1 x2 x3 x4 x5 x6 x7 x8 x9 x10 x11 x12 x13 x15 (ix2 r j) = val_main_v123 (F := Ideal) x0 x1 x2 x3 x4 x5 x6 x7 x8 x9 x10 x11 x12 x13 x15 (ix2 r (Cert.Gru.gateRow 1 j)) := by
  rw [val_main_v130_apply]
  exact congrArg (val_main_v123 (F := Ideal) x0 x1 x2 x3 x4 x5 x6 x7 x8 x9 x10 x11 x12 x13 x15)
    (funext fun a => by match a with | ⟨0, _⟩ => rfl | ⟨1, _⟩ => exact Fin.ext (gateRow1_val j).symm)

/-- Columns 200 … 299 of the input-side pre-activations are gate 2's. -/
theorem v131_at (r : Fin 200000) (j : Fin 100) :
    val_main_v131 (F := Ideal) x0 x1 x2 x3 x4 x5 x6 x7 x8 x9 x10 x11 x12 x13 x15 (ix2 r j) = val_main_v123 (F := Ideal) x0 x1 x2 x3 x4 x5 x6 x7 x8 x9 x10 x11 x12 x13 x15 (ix2 r (Cert.Gru.gateRow 2 j)) := by
  rw [val_main_v131_apply]
  exact congrArg (val_main_v123 (F := Ideal) x0 x1 x2 x3 x4 x5 x6 x7 x8 x9 x10 x11 x12 x13 x15)
    (funext fun a => by match a with | ⟨0, _⟩ => rfl | ⟨1, _⟩ => exact Fin.ext (gateRow2_val j).symm)

/-- Columns 0 … 99 of the state-side pre-activations are gate 0's. -/
theorem v132_at (r : Fin 200000) (j : Fin 100) :
    val_main_v132 (F := Ideal) x0 x2 x14 x16 (ix2 r j) = val_main_v128 (F := Ideal) x0 x2 x14 x16 (ix2 r (Cert.Gru.gateRow 0 j)) := by
  rw [val_main_v132_apply]
  exact congrArg (val_main_v128 (F := Ideal) x0 x2 x14 x16)
    (funext fun a => by match a with | ⟨0, _⟩ => rfl | ⟨1, _⟩ => exact Fin.ext (gateRow0_val j).symm)

/-- Columns 100 … 199 of the state-side pre-activations are gate 1's. -/
theorem v133_at (r : Fin 200000) (j : Fin 100) :
    val_main_v133 (F := Ideal) x0 x2 x14 x16 (ix2 r j) = val_main_v128 (F := Ideal) x0 x2 x14 x16 (ix2 r (Cert.Gru.gateRow 1 j)) := by
  rw [val_main_v133_apply]
  exact congrArg (val_main_v128 (F := Ideal) x0 x2 x14 x16)
    (funext fun a => by match a with | ⟨0, _⟩ => rfl | ⟨1, _⟩ => exact Fin.ext (gateRow1_val j).symm)

/-- Columns 200 … 299 of the state-side pre-activations are gate 2's. -/
theorem v134_at (r : Fin 200000) (j : Fin 100) :
    val_main_v134 (F := Ideal) x0 x2 x14 x16 (ix2 r j) = val_main_v128 (F := Ideal) x0 x2 x14 x16 (ix2 r (Cert.Gru.gateRow 2 j)) := by
  rw [val_main_v134_apply]
  exact congrArg (val_main_v128 (F := Ideal) x0 x2 x14 x16)
    (funext fun a => by match a with | ⟨0, _⟩ => rfl | ⟨1, _⟩ => exact Fin.ext (gateRow2_val j).symm)

/-! ## The result -/

/-- The reference's result, as a function of @main's arguments, is the unit's update of the gathered states
    by the aggregated messages. -/
theorem ref_gru :
    val_main_v156 (F := Ideal) x0 x1 x2 x3 x4 x5 x6 x7 x8 x9 x10 x11 x12 x13 x14 x15 x16
      = Cert.Gru.new (val_main_v111 (F := Ideal) x0 x1 x2 x3 x4 x5 x6 x7 x8 x9 x10 x11 x12) (val_main_v118 (F := Ideal) x0 x2) x13 x14 x15 x16 := by
  funext i
  obtain ⟨r, j, rfl⟩ : ∃ (r : Fin 200000) (j : Fin 100), i = ix2 r j := ⟨i 0, i 1, eq_ix2 i⟩
  rw [Cert.Gru.new_apply]
  unfold Cert.Gru.newAt
  rw [val_main_v156_apply, val_main_v154_apply, val_main_v155_apply, val_main_v153_apply, val_main_v152_apply, val_main_cst_30_apply, val_main_v151_apply, val_main_v150_apply, val_main_v149_apply, val_main_v148_apply, val_main_v147_apply, val_main_cst_29_apply, val_main_v146_apply, val_main_v145_apply, val_main_cst_28_apply, val_main_v144_apply, val_main_v143_apply, val_main_v142_apply, val_main_v141_apply, val_main_v140_apply, val_main_cst_27_apply, val_main_v139_apply, val_main_v138_apply, val_main_cst_26_apply, val_main_v137_apply, val_main_v136_apply, val_main_v135_apply,
    v129_at, v130_at, v131_at, v132_at, v133_at, v134_at, v123_at, v123_at, v123_at, v128_at, v128_at, v128_at]
  generalize val_main_v111 (F := Ideal) x0 x1 x2 x3 x4 x5 x6 x7 x8 x9 x10 x11 x12 = X
  generalize val_main_v118 (F := Ideal) x0 x2 = H
  exact cell_of_tail (Cert.Gru.inGate X x13 x15 r) (Cert.Gru.hidGate H x14 x16 r) (H (ix2 r j)) j

/-- The same of the run's term for the result buffer. -/
theorem ref_result (m : (ℓ : Loc nD τ sig) → Buf (Elt Ideal) ℓ) (c : Dev nD) :
    Cert.ReferenceIdeal.Value.res_main_v156 (F := Ideal) m c
      = Cert.Gru.new (val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
          (val_main_v118 (F := Ideal) (m ((c.tc : Thread nD τ).loc main_arg0)) (m ((c.tc : Thread nD τ).loc main_arg2)))
          (m ((c.tc : Thread nD τ).loc main_arg13)) (m ((c.tc : Thread nD τ).loc main_arg14)) (m ((c.tc : Thread nD τ).loc main_arg15)) (m ((c.tc : Thread nD τ).loc main_arg16)) :=
  (val_main_v156_eq (F := Ideal) m c).trans (ref_gru _ _ _ _ _ _ _ _ _ _ _ _ _ _ _ _ _)

end Cert.ReferenceIdeal.GruValue

end
-- ==== Proof.RefRunHand.lean ====
/-
  The reference program's run, by hand.  @main is one straight line of 214 host operations; each is a pure function
  from the buffers it reads to the one buffer it writes, so the memory after the line is the fold of the operations
  over the launch memory.  The fold is read in 19 consecutive stretches.  For each cut a record says what the
  buffers that are still read after the cut hold, as functions of the launch contents of the arguments: an argument
  still holds its launch contents, a computed buffer holds its stage of the reference.  Each stretch takes the record
  before it to the record after it: a buffer the stretch writes is its operation applied to buffers the record
  describes, which is the buffer's stage by unfolding the stages of that stretch only; a buffer the stretch does not
  write is carried over.  The last record holds the two results.  That no operation writes an argument is read off the
  list of operations once.
-/
import proofs.«121507_j30451318129194_2_alg».proof.Proof.RefRead
import Idealize.ShloMosaic.Lib.StableHlo.Run

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The inlined calls' buffers

An operation of a module-local function carries its buffers with their tensor types and moves contents to and from a
buffer along the equation "this buffer's type is that type"; at a literal buffer the equation holds by computation and
the move is the identity. -/

theorem toBuf_main_c_18 (h1 h2 h3) (v : (⟨S_, .i32⟩ : BufTy).Contents (Elt F)) :
    (TRef.of (T := ⟨S_, .i32⟩) main_c_18 h1 h2 h3).toBuf v = v := rfl
theorem ofBuf_main_c_18 (h1 h2 h3) (u : (⟨S_, .i32⟩ : BufTy).Contents (Elt F)) :
    (TRef.of (T := ⟨S_, .i32⟩) main_c_18 h1 h2 h3).ofBuf u = u := rfl
theorem toBuf_main_call0_v0 (h1 h2 h3) (v : (⟨S200000, .i32⟩ : BufTy).Contents (Elt F)) :
    (TRef.of (T := ⟨S200000, .i32⟩) main_call0_v0 h1 h2 h3).toBuf v = v := rfl
theorem ofBuf_main_call0_v0 (h1 h2 h3) (u : (⟨S200000, .i32⟩ : BufTy).Contents (Elt F)) :
    (TRef.of (T := ⟨S200000, .i32⟩) main_call0_v0 h1 h2 h3).ofBuf u = u := rfl
theorem toBuf_main_v94 (h1 h2 h3) (v : (⟨S200000, .i1⟩ : BufTy).Contents (Elt F)) :
    (TRef.of (T := ⟨S200000, .i1⟩) main_v94 h1 h2 h3).toBuf v = v := rfl
theorem ofBuf_main_v94 (h1 h2 h3) (u : (⟨S200000, .i1⟩ : BufTy).Contents (Elt F)) :
    (TRef.of (T := ⟨S200000, .i1⟩) main_v94 h1 h2 h3).ofBuf u = u := rfl
theorem toBuf_main_v95 (h1 h2 h3) (v : (⟨S200000, .i32⟩ : BufTy).Contents (Elt F)) :
    (TRef.of (T := ⟨S200000, .i32⟩) main_v95 h1 h2 h3).toBuf v = v := rfl
theorem ofBuf_main_v95 (h1 h2 h3) (u : (⟨S200000, .i32⟩ : BufTy).Contents (Elt F)) :
    (TRef.of (T := ⟨S200000, .i32⟩) main_v95 h1 h2 h3).ofBuf u = u := rfl
theorem toBuf_main_v96 (h1 h2 h3) (v : (⟨S200000, .i32⟩ : BufTy).Contents (Elt F)) :
    (TRef.of (T := ⟨S200000, .i32⟩) main_v96 h1 h2 h3).toBuf v = v := rfl
theorem ofBuf_main_v96 (h1 h2 h3) (u : (⟨S200000, .i32⟩ : BufTy).Contents (Elt F)) :
    (TRef.of (T := ⟨S200000, .i32⟩) main_v96 h1 h2 h3).ofBuf u = u := rfl
theorem toBuf_main_c_21 (h1 h2 h3) (v : (⟨S_, .i32⟩ : BufTy).Contents (Elt F)) :
    (TRef.of (T := ⟨S_, .i32⟩) main_c_21 h1 h2 h3).toBuf v = v := rfl
theorem ofBuf_main_c_21 (h1 h2 h3) (u : (⟨S_, .i32⟩ : BufTy).Contents (Elt F)) :
    (TRef.of (T := ⟨S_, .i32⟩) main_c_21 h1 h2 h3).ofBuf u = u := rfl
theorem toBuf_main_call1_v0 (h1 h2 h3) (v : (⟨S_, .i32⟩ : BufTy).Contents (Elt F)) :
    (TRef.of (T := ⟨S_, .i32⟩) main_call1_v0 h1 h2 h3).toBuf v = v := rfl
theorem ofBuf_main_call1_v0 (h1 h2 h3) (u : (⟨S_, .i32⟩ : BufTy).Contents (Elt F)) :
    (TRef.of (T := ⟨S_, .i32⟩) main_call1_v0 h1 h2 h3).ofBuf u = u := rfl
theorem toBuf_main_call1_v1 (h1 h2 h3) (v : (⟨S200000, .i32⟩ : BufTy).Contents (Elt F)) :
    (TRef.of (T := ⟨S200000, .i32⟩) main_call1_v1 h1 h2 h3).toBuf v = v := rfl
theorem ofBuf_main_call1_v1 (h1 h2 h3) (u : (⟨S200000, .i32⟩ : BufTy).Contents (Elt F)) :
    (TRef.of (T := ⟨S200000, .i32⟩) main_call1_v1 h1 h2 h3).ofBuf u = u := rfl
theorem toBuf_main_v99 (h1 h2 h3) (v : (⟨S200000, .i32⟩ : BufTy).Contents (Elt F)) :
    (TRef.of (T := ⟨S200000, .i32⟩) main_v99 h1 h2 h3).toBuf v = v := rfl
theorem ofBuf_main_v99 (h1 h2 h3) (u : (⟨S200000, .i32⟩ : BufTy).Contents (Elt F)) :
    (TRef.of (T := ⟨S200000, .i32⟩) main_v99 h1 h2 h3).ofBuf u = u := rfl
theorem toBuf_main_v103 (h1 h2 h3) (v : (⟨S200000, .i32⟩ : BufTy).Contents (Elt F)) :
    (TRef.of (T := ⟨S200000, .i32⟩) main_v103 h1 h2 h3).toBuf v = v := rfl
theorem ofBuf_main_v103 (h1 h2 h3) (u : (⟨S200000, .i32⟩ : BufTy).Contents (Elt F)) :
    (TRef.of (T := ⟨S200000, .i32⟩) main_v103 h1 h2 h3).ofBuf u = u := rfl
theorem toBuf_main_cst (h1 h2 h3) (v : (⟨S_, .f32⟩ : BufTy).Contents (Elt F)) :
    (TRef.of (T := ⟨S_, .f32⟩) main_cst h1 h2 h3).toBuf v = v := rfl
theorem ofBuf_main_cst (h1 h2 h3) (u : (⟨S_, .f32⟩ : BufTy).Contents (Elt F)) :
    (TRef.of (T := ⟨S_, .f32⟩) main_cst h1 h2 h3).ofBuf u = u := rfl
theorem toBuf_main_call2_v0 (h1 h2 h3) (v : (⟨S_, .f32⟩ : BufTy).Contents (Elt F)) :
    (TRef.of (T := ⟨S_, .f32⟩) main_call2_v0 h1 h2 h3).toBuf v = v := rfl
theorem ofBuf_main_call2_v0 (h1 h2 h3) (u : (⟨S_, .f32⟩ : BufTy).Contents (Elt F)) :
    (TRef.of (T := ⟨S_, .f32⟩) main_call2_v0 h1 h2 h3).ofBuf u = u := rfl
theorem toBuf_main_v102 (h1 h2 h3) (v : (⟨S200000x1, .i1⟩ : BufTy).Contents (Elt F)) :
    (TRef.of (T := ⟨S200000x1, .i1⟩) main_v102 h1 h2 h3).toBuf v = v := rfl
theorem ofBuf_main_v102 (h1 h2 h3) (u : (⟨S200000x1, .i1⟩ : BufTy).Contents (Elt F)) :
    (TRef.of (T := ⟨S200000x1, .i1⟩) main_v102 h1 h2 h3).ofBuf u = u := rfl
theorem toBuf_main_call2_v1 (h1 h2 h3) (v : (⟨S200000x472, .i1⟩ : BufTy).Contents (Elt F)) :
    (TRef.of (T := ⟨S200000x472, .i1⟩) main_call2_v1 h1 h2 h3).toBuf v = v := rfl
theorem ofBuf_main_call2_v1 (h1 h2 h3) (u : (⟨S200000x472, .i1⟩ : BufTy).Contents (Elt F)) :
    (TRef.of (T := ⟨S200000x472, .i1⟩) main_call2_v1 h1 h2 h3).ofBuf u = u := rfl
theorem toBuf_main_call2_v2 (h1 h2 h3) (v : (⟨S200000x472, .f32⟩ : BufTy).Contents (Elt F)) :
    (TRef.of (T := ⟨S200000x472, .f32⟩) main_call2_v2 h1 h2 h3).toBuf v = v := rfl
theorem ofBuf_main_call2_v2 (h1 h2 h3) (u : (⟨S200000x472, .f32⟩ : BufTy).Contents (Elt F)) :
    (TRef.of (T := ⟨S200000x472, .f32⟩) main_call2_v2 h1 h2 h3).ofBuf u = u := rfl
theorem toBuf_main_v110 (h1 h2 h3) (v : (⟨S200000x472, .f32⟩ : BufTy).Contents (Elt F)) :
    (TRef.of (T := ⟨S200000x472, .f32⟩) main_v110 h1 h2 h3).toBuf v = v := rfl
theorem ofBuf_main_v110 (h1 h2 h3) (u : (⟨S200000x472, .f32⟩ : BufTy).Contents (Elt F)) :
    (TRef.of (T := ⟨S200000x472, .f32⟩) main_v110 h1 h2 h3).ofBuf u = u := rfl
theorem toBuf_main_v111 (h1 h2 h3) (v : (⟨S200000x472, .f32⟩ : BufTy).Contents (Elt F)) :
    (TRef.of (T := ⟨S200000x472, .f32⟩) main_v111 h1 h2 h3).toBuf v = v := rfl
theorem ofBuf_main_v111 (h1 h2 h3) (u : (⟨S200000x472, .f32⟩ : BufTy).Contents (Elt F)) :
    (TRef.of (T := ⟨S200000x472, .f32⟩) main_v111 h1 h2 h3).ofBuf u = u := rfl

/-- The fold read at a buffer: each operation's result at its own buffer is its function of the contents it reads,
    and at any other buffer what was there (the two told apart as references); a four-operand concatenate reads each
    operand at its own reference. -/
macro "fold_results" : tactic =>
  `(tactic| (simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']))

/-- The same facts applied one at a time: an operand of a concatenate sits in a position whose type depends on its
    shape, where an equation can be used only if it keeps the term's type. -/
macro "fold_results_rw" : tactic =>
  `(tactic| (repeat (first
      | rw [nullary_result] | rw [unary_result] | rw [binary_result] | rw [ternary_result] | rw [quaternary_result]
      | rw [reshape_result] | rw [nary4_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide))))

/-! ## The stretches -/

/-- Operations 1 … 25 of @main. -/
abbrev L0 : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg3 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 200000#32),
    unary main_c_0 main_v2 (broadcastInDim S100000 ![] bcast_S_S100000 : (⟨S_, .i32⟩ : BufTy).Contents (Elt F) → (⟨S100000, .i32⟩ : BufTy).Contents (Elt F)),
    binary main_arg3 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg3 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg2 main_v5 main_v6 ((fun x i => Host.gather gather_S200000_S100000x1_S100000_n_0_n_n_0_1_1 x i) : (⟨S200000, .i32⟩ : BufTy).Contents (Elt F) → (⟨S100000x1, .i32⟩ : BufTy).Contents (Elt F) → (⟨S100000, .i32⟩ : BufTy).Contents (Elt F)),
    nullary main_c_1 (constantI S_ 32 0#32),
    unary main_c_1 main_v7 (broadcastInDim S100000 ![] bcast_S_S100000 : (⟨S_, .i32⟩ : BufTy).Contents (Elt F) → (⟨S100000, .i32⟩ : BufTy).Contents (Elt F)),
    binary main_v6 main_v7 main_v8 (cmpi .slt : (⟨S100000, .i32⟩ : BufTy).Contents (Elt F) → (⟨S100000, .i32⟩ : BufTy).Contents (Elt F) → (⟨S100000, .i1⟩ : BufTy).Contents (Elt F)),
    nullary main_c_2 (constantI S_ 32 1000000#32),
    unary main_c_2 main_v9 (broadcastInDim S100000 ![] bcast_S_S100000 : (⟨S_, .i32⟩ : BufTy).Contents (Elt F) → (⟨S100000, .i32⟩ : BufTy).Contents (Elt F)),
    binary main_v6 main_v9 main_v10 (addi : (⟨S100000, .i32⟩ : BufTy).Contents (Elt F) → (⟨S100000, .i32⟩ : BufTy).Contents (Elt F) → (⟨S100000, .i32⟩ : BufTy).Contents (Elt F)),
    ternary main_v8 main_v10 main_v6 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v11 main_v12 (broadcastInDim S100000x1 ![0] bcast_S100000_S100000x1_0 : (⟨S100000, .i32⟩ : BufTy).Contents (Elt F) → (⟨S100000x1, .i32⟩ : BufTy).Contents (Elt F)),
    binary main_arg1 main_v12 main_v13 ((fun x i => Host.gather gather_S1000000_S100000x1_S100000_n_0_n_n_0_1_1 x i) : (⟨S1000000, .i32⟩ : BufTy).Contents (Elt F) → (⟨S100000x1, .i32⟩ : BufTy).Contents (Elt F) → (⟨S100000, .i32⟩ : BufTy).Contents (Elt F)),
    binary main_arg5 main_v13 main_v14 (subi : (⟨S100000, .i32⟩ : BufTy).Contents (Elt F) → (⟨S100000, .i32⟩ : BufTy).Contents (Elt F) → (⟨S100000, .i32⟩ : BufTy).Contents (Elt F)),
    unary main_v14 main_v15 (sitofp .f32 : (⟨S100000, .i32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_arg11 main_v17 (broadcastInDim S1x100 ![1] bcast_S100_S1x100_1 : (⟨S100, .f32⟩ : BufTy).Contents (Elt F) → (⟨S1x100, .f32⟩ : BufTy).Contents (Elt F)),
    unary main_v16 main_v18 (broadcastInDim S100000x100 ![0, 1] bcast_S100000x1_S100000x100_0_1 : (⟨S100000x1, .f32⟩ : BufTy).Contents (Elt F) → (⟨S100000x100, .f32⟩ : BufTy).Contents (Elt F)),
    unary main_v17 main_v19 (broadcastInDim S100000x100 ![0, 1] bcast_S1x100_S100000x100_0_1 : (⟨S1x100, .f32⟩ : BufTy).Contents (Elt F) → (⟨S100000x100, .f32⟩ : BufTy).Contents (Elt F)),
    binary main_v18 main_v19 main_v20 (mulf : (⟨S100000x100, .f32⟩ : BufTy).Contents (Elt F) → (⟨S100000x100, .f32⟩ : BufTy).Contents (Elt F) → (⟨S100000x100, .f32⟩ : BufTy).Contents (Elt F)) ]

/-- Operations 26 … 48 of @main. -/
abbrev L1 : List (HloOp τ sig (Elt F)) :=
  [ unary main_arg12 main_v21 (broadcastInDim S1x100 ![1] bcast_S100_S1x100_1 : (⟨S100, .f32⟩ : BufTy).Contents (Elt F) → (⟨S1x100, .f32⟩ : BufTy).Contents (Elt F)),
    unary main_v21 main_v22 (broadcastInDim S100000x100 ![0, 1] bcast_S1x100_S100000x100_0_1 : (⟨S1x100, .f32⟩ : BufTy).Contents (Elt F) → (⟨S100000x100, .f32⟩ : BufTy).Contents (Elt F)),
    binary main_v20 main_v22 main_v23 (addf : (⟨S100000x100, .f32⟩ : BufTy).Contents (Elt F) → (⟨S100000x100, .f32⟩ : BufTy).Contents (Elt F) → (⟨S100000x100, .f32⟩ : BufTy).Contents (Elt F)),
    unary main_v23 main_v24 (Host.cos : (⟨S100000x100, .f32⟩ : BufTy).Contents (Elt F) → (⟨S100000x100, .f32⟩ : BufTy).Contents (Elt F)),
    nullary main_c_3 (constantI S_ 32 0#32),
    unary main_c_3 main_v25 (broadcastInDim S100000 ![] bcast_S_S100000 : (⟨S_, .i32⟩ : BufTy).Contents (Elt F) → (⟨S100000, .i32⟩ : BufTy).Contents (Elt F)),
    binary main_v6 main_v25 main_v26 (cmpi .slt : (⟨S100000, .i32⟩ : BufTy).Contents (Elt F) → (⟨S100000, .i32⟩ : BufTy).Contents (Elt F) → (⟨S100000, .i1⟩ : BufTy).Contents (Elt F)),
    nullary main_c_4 (constantI S_ 32 1000000#32),
    unary main_c_4 main_v27 (broadcastInDim S100000 ![] bcast_S_S100000 : (⟨S_, .i32⟩ : BufTy).Contents (Elt F) → (⟨S100000, .i32⟩ : BufTy).Contents (Elt F)),
    binary main_v6 main_v27 main_v28 (addi : (⟨S100000, .i32⟩ : BufTy).Contents (Elt F) → (⟨S100000, .i32⟩ : BufTy).Contents (Elt F) → (⟨S100000, .i32⟩ : BufTy).Contents (Elt F)),
    ternary main_v26 main_v28 main_v6 main_v29 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v29 main_v30 (broadcastInDim S100000x1 ![0] bcast_S100000_S100000x1_0 : (⟨S100000, .i32⟩ : BufTy).Contents (Elt F) → (⟨S100000x1, .i32⟩ : BufTy).Contents (Elt F)),
    binary main_arg0 main_v30 main_v31 ((fun x i => Host.gather gather_S1000000x100_S100000x1_S100000x100_1_0_n_n_0_1_1100 x i) : (⟨S1000000x100, .f32⟩ : BufTy).Contents (Elt F) → (⟨S100000x1, .i32⟩ : BufTy).Contents (Elt F) → (⟨S100000x100, .f32⟩ : BufTy).Contents (Elt F)),
    nullary main_c_5 (constantI S_ 32 0#32),
    unary main_c_5 main_v32 (broadcastInDim S100000 ![] bcast_S_S100000 : (⟨S_, .i32⟩ : BufTy).Contents (Elt F) → (⟨S100000, .i32⟩ : BufTy).Contents (Elt F)),
    binary main_arg4 main_v32 main_v33 (cmpi .slt : (⟨S100000, .i32⟩ : BufTy).Contents (Elt F) → (⟨S100000, .i32⟩ : BufTy).Contents (Elt F) → (⟨S100000, .i1⟩ : BufTy).Contents (Elt F)),
    nullary main_c_6 (constantI S_ 32 1000000#32),
    unary main_c_6 main_v34 (broadcastInDim S100000 ![] bcast_S_S100000 : (⟨S_, .i32⟩ : BufTy).Contents (Elt F) → (⟨S100000, .i32⟩ : BufTy).Contents (Elt F)),
    binary main_arg4 main_v34 main_v35 (addi : (⟨S100000, .i32⟩ : BufTy).Contents (Elt F) → (⟨S100000, .i32⟩ : BufTy).Contents (Elt F) → (⟨S100000, .i32⟩ : BufTy).Contents (Elt F)),
    ternary main_v33 main_v35 main_arg4 main_v36 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v36 main_v37 (broadcastInDim S100000x1 ![0] bcast_S100000_S100000x1_0 : (⟨S100000, .i32⟩ : BufTy).Contents (Elt F) → (⟨S100000x1, .i32⟩ : BufTy).Contents (Elt F)),
    binary main_arg0 main_v37 main_v38 ((fun x i => Host.gather gather_S1000000x100_S100000x1_S100000x100_1_0_n_n_0_1_1100 x i) : (⟨S1000000x100, .f32⟩ : BufTy).Contents (Elt F) → (⟨S100000x1, .i32⟩ : BufTy).Contents (Elt F) → (⟨S100000x100, .f32⟩ : BufTy).Contents (Elt F)),
    nary ![main_v31, main_v38, main_arg6, main_v24] main_v39 (fun u => concatenate S100000x472 1 [⟨S100000x100, u 0⟩, ⟨S100000x100, u 1⟩, ⟨S100000x172, u 2⟩, ⟨S100000x100, u 3⟩] concatenates_S100000x100_S100000x100_S100000x172_S100000x100_S100000x472_d1) ]

/-- Operations 49 … 73 of @main. -/
abbrev L2 : List (HloOp τ sig (Elt F)) :=
  [ nullary main_c_7 (constantI S_ 32 0#32),
    unary main_c_7 main_v40 (broadcastInDim S100000 ![] bcast_S_S100000 : (⟨S_, .i32⟩ : BufTy).Contents (Elt F) → (⟨S100000, .i32⟩ : BufTy).Contents (Elt F)),
    binary main_arg7 main_v40 main_v41 (cmpi .slt : (⟨S100000, .i32⟩ : BufTy).Contents (Elt F) → (⟨S100000, .i32⟩ : BufTy).Contents (Elt F) → (⟨S100000, .i1⟩ : BufTy).Contents (Elt F)),
    nullary main_c_8 (constantI S_ 32 200000#32),
    unary main_c_8 main_v42 (broadcastInDim S100000 ![] bcast_S_S100000 : (⟨S_, .i32⟩ : BufTy).Contents (Elt F) → (⟨S100000, .i32⟩ : BufTy).Contents (Elt F)),
    binary main_arg7 main_v42 main_v43 (addi : (⟨S100000, .i32⟩ : BufTy).Contents (Elt F) → (⟨S100000, .i32⟩ : BufTy).Contents (Elt F) → (⟨S100000, .i32⟩ : BufTy).Contents (Elt F)),
    ternary main_v41 main_v43 main_arg7 main_v44 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v44 main_v45 (broadcastInDim S100000x1 ![0] bcast_S100000_S100000x1_0 : (⟨S100000, .i32⟩ : BufTy).Contents (Elt F) → (⟨S100000x1, .i32⟩ : BufTy).Contents (Elt F)),
    binary main_arg2 main_v45 main_v46 ((fun x i => Host.gather gather_S200000_S100000x1_S100000_n_0_n_n_0_1_1 x i) : (⟨S200000, .i32⟩ : BufTy).Contents (Elt F) → (⟨S100000x1, .i32⟩ : BufTy).Contents (Elt F) → (⟨S100000, .i32⟩ : BufTy).Contents (Elt F)),
    nullary main_c_9 (constantI S_ 32 0#32),
    unary main_c_9 main_v47 (broadcastInDim S100000 ![] bcast_S_S100000 : (⟨S_, .i32⟩ : BufTy).Contents (Elt F) → (⟨S100000, .i32⟩ : BufTy).Contents (Elt F)),
    binary main_v46 main_v47 main_v48 (cmpi .slt : (⟨S100000, .i32⟩ : BufTy).Contents (Elt F) → (⟨S100000, .i32⟩ : BufTy).Contents (Elt F) → (⟨S100000, .i1⟩ : BufTy).Contents (Elt F)),
    nullary main_c_10 (constantI S_ 32 1000000#32),
    unary main_c_10 main_v49 (broadcastInDim S100000 ![] bcast_S_S100000 : (⟨S_, .i32⟩ : BufTy).Contents (Elt F) → (⟨S100000, .i32⟩ : BufTy).Contents (Elt F)),
    binary main_v46 main_v49 main_v50 (addi : (⟨S100000, .i32⟩ : BufTy).Contents (Elt F) → (⟨S100000, .i32⟩ : BufTy).Contents (Elt F) → (⟨S100000, .i32⟩ : BufTy).Contents (Elt F)),
    ternary main_v48 main_v50 main_v46 main_v51 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v51 main_v52 (broadcastInDim S100000x1 ![0] bcast_S100000_S100000x1_0 : (⟨S100000, .i32⟩ : BufTy).Contents (Elt F) → (⟨S100000x1, .i32⟩ : BufTy).Contents (Elt F)),
    binary main_arg1 main_v52 main_v53 ((fun x i => Host.gather gather_S1000000_S100000x1_S100000_n_0_n_n_0_1_1 x i) : (⟨S1000000, .i32⟩ : BufTy).Contents (Elt F) → (⟨S100000x1, .i32⟩ : BufTy).Contents (Elt F) → (⟨S100000, .i32⟩ : BufTy).Contents (Elt F)),
    binary main_arg9 main_v53 main_v54 (subi : (⟨S100000, .i32⟩ : BufTy).Contents (Elt F) → (⟨S100000, .i32⟩ : BufTy).Contents (Elt F) → (⟨S100000, .i32⟩ : BufTy).Contents (Elt F)),
    unary main_v54 main_v55 (sitofp .f32 : (⟨S100000, .i32⟩ : BufTy).Contents (Elt F) → (⟨S100000, .f32⟩ : BufTy).Contents (Elt F)),
    unary main_v55 main_v56 (broadcastInDim S100000x1 ![0] bcast_S100000_S100000x1_0 : (⟨S100000, .f32⟩ : BufTy).Contents (Elt F) → (⟨S100000x1, .f32⟩ : BufTy).Contents (Elt F)),
    unary main_arg11 main_v57 (broadcastInDim S1x100 ![1] bcast_S100_S1x100_1 : (⟨S100, .f32⟩ : BufTy).Contents (Elt F) → (⟨S1x100, .f32⟩ : BufTy).Contents (Elt F)),
    unary main_v56 main_v58 (broadcastInDim S100000x100 ![0, 1] bcast_S100000x1_S100000x100_0_1 : (⟨S100000x1, .f32⟩ : BufTy).Contents (Elt F) → (⟨S100000x100, .f32⟩ : BufTy).Contents (Elt F)),
    unary main_v57 main_v59 (broadcastInDim S100000x100 ![0, 1] bcast_S1x100_S100000x100_0_1 : (⟨S1x100, .f32⟩ : BufTy).Contents (Elt F) → (⟨S100000x100, .f32⟩ : BufTy).Contents (Elt F)),
    binary main_v58 main_v59 main_v60 (mulf : (⟨S100000x100, .f32⟩ : BufTy).Contents (Elt F) → (⟨S100000x100, .f32⟩ : BufTy).Contents (Elt F) → (⟨S100000x100, .f32⟩ : BufTy).Contents (Elt F)) ]

/-- Operations 74 … 97 of @main. -/
abbrev L3 : List (HloOp τ sig (Elt F)) :=
  [ unary main_arg12 main_v61 (broadcastInDim S1x100 ![1] bcast_S100_S1x100_1 : (⟨S100, .f32⟩ : BufTy).Contents (Elt F) → (⟨S1x100, .f32⟩ : BufTy).Contents (Elt F)),
    unary main_v61 main_v62 (broadcastInDim S100000x100 ![0, 1] bcast_S1x100_S100000x100_0_1 : (⟨S1x100, .f32⟩ : BufTy).Contents (Elt F) → (⟨S100000x100, .f32⟩ : BufTy).Contents (Elt F)),
    binary main_v60 main_v62 main_v63 (addf : (⟨S100000x100, .f32⟩ : BufTy).Contents (Elt F) → (⟨S100000x100, .f32⟩ : BufTy).Contents (Elt F) → (⟨S100000x100, .f32⟩ : BufTy).Contents (Elt F)),
    unary main_v63 main_v64 (Host.cos : (⟨S100000x100, .f32⟩ : BufTy).Contents (Elt F) → (⟨S100000x100, .f32⟩ : BufTy).Contents (Elt F)),
    nullary main_c_11 (constantI S_ 32 0#32),
    unary main_c_11 main_v65 (broadcastInDim S100000 ![] bcast_S_S100000 : (⟨S_, .i32⟩ : BufTy).Contents (Elt F) → (⟨S100000, .i32⟩ : BufTy).Contents (Elt F)),
    binary main_v46 main_v65 main_v66 (cmpi .slt : (⟨S100000, .i32⟩ : BufTy).Contents (Elt F) → (⟨S100000, .i32⟩ : BufTy).Contents (Elt F) → (⟨S100000, .i1⟩ : BufTy).Contents (Elt F)),
    nullary main_c_12 (constantI S_ 32 1000000#32),
    unary main_c_12 main_v67 (broadcastInDim S100000 ![] bcast_S_S100000 : (⟨S_, .i32⟩ : BufTy).Contents (Elt F) → (⟨S100000, .i32⟩ : BufTy).Contents (Elt F)),
    binary main_v46 main_v67 main_v68 (addi : (⟨S100000, .i32⟩ : BufTy).Contents (Elt F) → (⟨S100000, .i32⟩ : BufTy).Contents (Elt F) → (⟨S100000, .i32⟩ : BufTy).Contents (Elt F)),
    ternary main_v66 main_v68 main_v46 main_v69 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v69 main_v70 (broadcastInDim S100000x1 ![0] bcast_S100000_S100000x1_0 : (⟨S100000, .i32⟩ : BufTy).Contents (Elt F) → (⟨S100000x1, .i32⟩ : BufTy).Contents (Elt F)),
    binary main_arg0 main_v70 main_v71 ((fun x i => Host.gather gather_S1000000x100_S100000x1_S100000x100_1_0_n_n_0_1_1100 x i) : (⟨S1000000x100, .f32⟩ : BufTy).Contents (Elt F) → (⟨S100000x1, .i32⟩ : BufTy).Contents (Elt F) → (⟨S100000x100, .f32⟩ : BufTy).Contents (Elt F)),
    nullary main_c_13 (constantI S_ 32 0#32),
    unary main_c_13 main_v72 (broadcastInDim S100000 ![] bcast_S_S100000 : (⟨S_, .i32⟩ : BufTy).Contents (Elt F) → (⟨S100000, .i32⟩ : BufTy).Contents (Elt F)),
    binary main_arg8 main_v72 main_v73 (cmpi .slt : (⟨S100000, .i32⟩ : BufTy).Contents (Elt F) → (⟨S100000, .i32⟩ : BufTy).Contents (Elt F) → (⟨S100000, .i1⟩ : BufTy).Contents (Elt F)),
    nullary main_c_14 (constantI S_ 32 1000000#32),
    unary main_c_14 main_v74 (broadcastInDim S100000 ![] bcast_S_S100000 : (⟨S_, .i32⟩ : BufTy).Contents (Elt F) → (⟨S100000, .i32⟩ : BufTy).Contents (Elt F)),
    binary main_arg8 main_v74 main_v75 (addi : (⟨S100000, .i32⟩ : BufTy).Contents (Elt F) → (⟨S100000, .i32⟩ : BufTy).Contents (Elt F) → (⟨S100000, .i32⟩ : BufTy).Contents (Elt F)),
    ternary main_v73 main_v75 main_arg8 main_v76 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v76 main_v77 (broadcastInDim S100000x1 ![0] bcast_S100000_S100000x1_0 : (⟨S100000, .i32⟩ : BufTy).Contents (Elt F) → (⟨S100000x1, .i32⟩ : BufTy).Contents (Elt F)),
    binary main_arg0 main_v77 main_v78 ((fun x i => Host.gather gather_S1000000x100_S100000x1_S100000x100_1_0_n_n_0_1_1100 x i) : (⟨S1000000x100, .f32⟩ : BufTy).Contents (Elt F) → (⟨S100000x1, .i32⟩ : BufTy).Contents (Elt F) → (⟨S100000x100, .f32⟩ : BufTy).Contents (Elt F)),
    nary ![main_v71, main_v78, main_arg10, main_v64] main_v79 (fun u => concatenate S100000x472 1 [⟨S100000x100, u 0⟩, ⟨S100000x100, u 1⟩, ⟨S100000x172, u 2⟩, ⟨S100000x100, u 3⟩] concatenates_S100000x100_S100000x100_S100000x172_S100000x100_S100000x472_d1),
    binary main_v39 main_v79 main_v80 ((fun a b => concatenate S200000x472 0 [⟨S100000x472, a⟩, ⟨S100000x472, b⟩] concatenates_S100000x472_S100000x472_S200000x472_d0) : (⟨S100000x472, .f32⟩ : BufTy).Contents (Elt F) → (⟨S100000x472, .f32⟩ : BufTy).Contents (Elt F) → (⟨S200000x472, .f32⟩ : BufTy).Contents (Elt F)) ]

/-- Operations 98 … 116 of @main. -/
abbrev L4 : List (HloOp τ sig (Elt F)) :=
  [ binary main_arg3 main_arg7 main_v81 ((fun a b => concatenate S200000 0 [⟨S100000, a⟩, ⟨S100000, b⟩] concatenates_S100000_S100000_S200000_d0) : (⟨S100000, .i32⟩ : BufTy).Contents (Elt F) → (⟨S100000, .i32⟩ : BufTy).Contents (Elt F) → (⟨S200000, .i32⟩ : BufTy).Contents (Elt F)),
    binary main_arg5 main_arg9 main_v82 ((fun a b => concatenate S200000 0 [⟨S100000, a⟩, ⟨S100000, b⟩] concatenates_S100000_S100000_S200000_d0) : (⟨S100000, .i32⟩ : BufTy).Contents (Elt F) → (⟨S100000, .i32⟩ : BufTy).Contents (Elt F) → (⟨S200000, .i32⟩ : BufTy).Contents (Elt F)),
    binary main_v6 main_v46 main_v83 ((fun a b => concatenate S200000 0 [⟨S100000, a⟩, ⟨S100000, b⟩] concatenates_S100000_S100000_S200000_d0) : (⟨S100000, .i32⟩ : BufTy).Contents (Elt F) → (⟨S100000, .i32⟩ : BufTy).Contents (Elt F) → (⟨S200000, .i32⟩ : BufTy).Contents (Elt F)),
    nullary main_c_15 (constantI S_ 32 2147483648#32),
    unary main_c_15 main_v84 (broadcastInDim S200000 ![] bcast_S_S200000 : (⟨S_, .i32⟩ : BufTy).Contents (Elt F) → (⟨S200000, .i32⟩ : BufTy).Contents (Elt F)),
    unary main_v81 main_v85 (broadcastInDim S200000x1 ![0] bcast_S200000_S200000x1_0 : (⟨S200000, .i32⟩ : BufTy).Contents (Elt F) → (⟨S200000x1, .i32⟩ : BufTy).Contents (Elt F)),
    ternary main_v84 main_v85 main_v82 main_v86 ((fun x i u => Host.scatter scatter_S200000_S200000x1_S200000_n_0_0_1 IntOp.maxsi x i u) : (⟨S200000, .i32⟩ : BufTy).Contents (Elt F) → (⟨S200000x1, .i32⟩ : BufTy).Contents (Elt F) → (⟨S200000, .i32⟩ : BufTy).Contents (Elt F) → (⟨S200000, .i32⟩ : BufTy).Contents (Elt F)),
    nullary main_c_16 (constantI S_ 32 0#32),
    unary main_c_16 main_v87 (broadcastInDim S200000 ![] bcast_S_S200000 : (⟨S_, .i32⟩ : BufTy).Contents (Elt F) → (⟨S200000, .i32⟩ : BufTy).Contents (Elt F)),
    binary main_v81 main_v87 main_v88 (cmpi .slt : (⟨S200000, .i32⟩ : BufTy).Contents (Elt F) → (⟨S200000, .i32⟩ : BufTy).Contents (Elt F) → (⟨S200000, .i1⟩ : BufTy).Contents (Elt F)),
    nullary main_c_17 (constantI S_ 32 200000#32),
    unary main_c_17 main_v89 (broadcastInDim S200000 ![] bcast_S_S200000 : (⟨S_, .i32⟩ : BufTy).Contents (Elt F) → (⟨S200000, .i32⟩ : BufTy).Contents (Elt F)),
    binary main_v81 main_v89 main_v90 (addi : (⟨S200000, .i32⟩ : BufTy).Contents (Elt F) → (⟨S200000, .i32⟩ : BufTy).Contents (Elt F) → (⟨S200000, .i32⟩ : BufTy).Contents (Elt F)),
    ternary main_v88 main_v90 main_v81 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v91 main_v92 (broadcastInDim S200000x1 ![0] bcast_S200000_S200000x1_0 : (⟨S200000, .i32⟩ : BufTy).Contents (Elt F) → (⟨S200000x1, .i32⟩ : BufTy).Contents (Elt F)),
    binary main_v86 main_v92 main_v93 ((fun x i => Host.gather gather_S200000_S200000x1_S200000_n_0_n_n_0_1_1 x i) : (⟨S200000, .i32⟩ : BufTy).Contents (Elt F) → (⟨S200000x1, .i32⟩ : BufTy).Contents (Elt F) → (⟨S200000, .i32⟩ : BufTy).Contents (Elt F)),
    binary main_v82 main_v93 main_v94 (cmpi .eq : (⟨S200000, .i32⟩ : BufTy).Contents (Elt F) → (⟨S200000, .i32⟩ : BufTy).Contents (Elt F) → (⟨S200000, .i1⟩ : BufTy).Contents (Elt F)),
    nullary main_v95 (iotaInDim S200000 32 0),
    nullary main_c_18 (constantI S_ 32 4294967295#32) ]

/-- Operations 117 … 117 of @main. -/
abbrev L5 : List (HloOp τ sig (Elt F)) :=
  [ TRef.unary (TRef.of (T := ⟨S_, .i32⟩) main_c_18) (TRef.of (T := ⟨S200000, .i32⟩) main_call0_v0) (broadcastInDim S200000 ![] bcast_S_S200000) ]

/-- Operations 118 … 118 of @main. -/
abbrev L6 : List (HloOp τ sig (Elt F)) :=
  [ TRef.ternary (TRef.of (T := ⟨S200000, .i1⟩) main_v94) (TRef.of (T := ⟨S200000, .i32⟩) main_v95) (TRef.of (T := ⟨S200000, .i32⟩) main_call0_v0) (TRef.of (T := ⟨S200000, .i32⟩) main_v96) select ]

/-- Operations 119 … 127 of @main. -/
abbrev L7 : List (HloOp τ sig (Elt F)) :=
  [ nullary main_c_19 (constantI S_ 32 2147483648#32),
    unary main_c_19 main_v97 (broadcastInDim S200000 ![] bcast_S_S200000 : (⟨S_, .i32⟩ : BufTy).Contents (Elt F) → (⟨S200000, .i32⟩ : BufTy).Contents (Elt F)),
    unary main_v81 main_v98 (broadcastInDim S200000x1 ![0] bcast_S200000_S200000x1_0 : (⟨S200000, .i32⟩ : BufTy).Contents (Elt F) → (⟨S200000x1, .i32⟩ : BufTy).Contents (Elt F)),
    ternary main_v97 main_v98 main_v96 main_v99 ((fun x i u => Host.scatter scatter_S200000_S200000x1_S200000_n_0_0_1 IntOp.maxsi x i u) : (⟨S200000, .i32⟩ : BufTy).Contents (Elt F) → (⟨S200000x1, .i32⟩ : BufTy).Contents (Elt F) → (⟨S200000, .i32⟩ : BufTy).Contents (Elt F) → (⟨S200000, .i32⟩ : BufTy).Contents (Elt F)),
    nullary main_c_20 (constantI S_ 32 0#32),
    unary main_c_20 main_v100 (broadcastInDim S200000 ![] bcast_S_S200000 : (⟨S_, .i32⟩ : BufTy).Contents (Elt F) → (⟨S200000, .i32⟩ : BufTy).Contents (Elt F)),
    binary main_v99 main_v100 main_v101 (cmpi .sge : (⟨S200000, .i32⟩ : BufTy).Contents (Elt F) → (⟨S200000, .i32⟩ : BufTy).Contents (Elt F) → (⟨S200000, .i1⟩ : BufTy).Contents (Elt F)),
    unary main_v101 main_v102 (broadcastInDim S200000x1 ![0] bcast_S200000_S200000x1_0 : (⟨S200000, .i1⟩ : BufTy).Contents (Elt F) → (⟨S200000x1, .i1⟩ : BufTy).Contents (Elt F)),
    nullary main_c_21 (constantI S_ 32 0#32) ]

/-- Operations 128 … 128 of @main. -/
abbrev L8 : List (HloOp τ sig (Elt F)) :=
  [ TRef.unary (TRef.of (T := ⟨S_, .i32⟩) main_c_21) (TRef.of (T := ⟨S_, .i32⟩) main_call1_v0) id ]

/-- Operations 129 … 129 of @main. -/
abbrev L9 : List (HloOp τ sig (Elt F)) :=
  [ TRef.unary (TRef.of (T := ⟨S_, .i32⟩) main_call1_v0) (TRef.of (T := ⟨S200000, .i32⟩) main_call1_v1) (broadcastInDim S200000 ![] bcast_S_S200000) ]

/-- Operations 130 … 130 of @main. -/
abbrev L10 : List (HloOp τ sig (Elt F)) :=
  [ TRef.binary (TRef.of (T := ⟨S200000, .i32⟩) main_call1_v1) (TRef.of (T := ⟨S200000, .i32⟩) main_v99) (TRef.of (T := ⟨S200000, .i32⟩) main_v103) maxsi ]

/-- Operations 131 … 140 of @main. -/
abbrev L11 : List (HloOp τ sig (Elt F)) :=
  [ nullary main_c_22 (constantI S_ 32 0#32),
    unary main_c_22 main_v104 (broadcastInDim S200000 ![] bcast_S_S200000 : (⟨S_, .i32⟩ : BufTy).Contents (Elt F) → (⟨S200000, .i32⟩ : BufTy).Contents (Elt F)),
    binary main_v103 main_v104 main_v105 (cmpi .slt : (⟨S200000, .i32⟩ : BufTy).Contents (Elt F) → (⟨S200000, .i32⟩ : BufTy).Contents (Elt F) → (⟨S200000, .i1⟩ : BufTy).Contents (Elt F)),
    nullary main_c_23 (constantI S_ 32 200000#32),
    unary main_c_23 main_v106 (broadcastInDim S200000 ![] bcast_S_S200000 : (⟨S_, .i32⟩ : BufTy).Contents (Elt F) → (⟨S200000, .i32⟩ : BufTy).Contents (Elt F)),
    binary main_v103 main_v106 main_v107 (addi : (⟨S200000, .i32⟩ : BufTy).Contents (Elt F) → (⟨S200000, .i32⟩ : BufTy).Contents (Elt F) → (⟨S200000, .i32⟩ : BufTy).Contents (Elt F)),
    ternary main_v105 main_v107 main_v103 main_v108 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v108 main_v109 (broadcastInDim S200000x1 ![0] bcast_S200000_S200000x1_0 : (⟨S200000, .i32⟩ : BufTy).Contents (Elt F) → (⟨S200000x1, .i32⟩ : BufTy).Contents (Elt F)),
    binary main_v80 main_v109 main_v110 ((fun x i => Host.gather gather_S200000x472_S200000x1_S200000x472_1_0_n_n_0_1_1472 x i) : (⟨S200000x472, .f32⟩ : BufTy).Contents (Elt F) → (⟨S200000x1, .i32⟩ : BufTy).Contents (Elt F) → (⟨S200000x472, .f32⟩ : BufTy).Contents (Elt F)),
    nullary main_cst (constant S_ .f32 0x00000000#32) ]

/-- Operations 141 … 141 of @main. -/
abbrev L12 : List (HloOp τ sig (Elt F)) :=
  [ TRef.unary (TRef.of (T := ⟨S_, .f32⟩) main_cst) (TRef.of (T := ⟨S_, .f32⟩) main_call2_v0) id ]

/-- Operations 142 … 142 of @main. -/
abbrev L13 : List (HloOp τ sig (Elt F)) :=
  [ TRef.unary (TRef.of (T := ⟨S200000x1, .i1⟩) main_v102) (TRef.of (T := ⟨S200000x472, .i1⟩) main_call2_v1) (broadcastInDim S200000x472 ![0, 1] bcast_S200000x1_S200000x472_0_1) ]

/-- Operations 143 … 143 of @main. -/
abbrev L14 : List (HloOp τ sig (Elt F)) :=
  [ TRef.unary (TRef.of (T := ⟨S_, .f32⟩) main_call2_v0) (TRef.of (T := ⟨S200000x472, .f32⟩) main_call2_v2) (broadcastInDim S200000x472 ![] bcast_S_S200000x472) ]

/-- Operations 144 … 144 of @main. -/
abbrev L15 : List (HloOp τ sig (Elt F)) :=
  [ TRef.ternary (TRef.of (T := ⟨S200000x472, .i1⟩) main_call2_v1) (TRef.of (T := ⟨S200000x472, .f32⟩) main_v110) (TRef.of (T := ⟨S200000x472, .f32⟩) main_call2_v2) (TRef.of (T := ⟨S200000x472, .f32⟩) main_v111) select ]

/-- Operations 145 … 163 of @main. -/
abbrev L16 : List (HloOp τ sig (Elt F)) :=
  [ nullary main_c_24 (constantI S_ 32 0#32),
    unary main_c_24 main_v112 (broadcastInDim S200000 ![] bcast_S_S200000 : (⟨S_, .i32⟩ : BufTy).Contents (Elt F) → (⟨S200000, .i32⟩ : BufTy).Contents (Elt F)),
    binary main_arg2 main_v112 main_v113 (cmpi .slt : (⟨S200000, .i32⟩ : BufTy).Contents (Elt F) → (⟨S200000, .i32⟩ : BufTy).Contents (Elt F) → (⟨S200000, .i1⟩ : BufTy).Contents (Elt F)),
    nullary main_c_25 (constantI S_ 32 1000000#32),
    unary main_c_25 main_v114 (broadcastInDim S200000 ![] bcast_S_S200000 : (⟨S_, .i32⟩ : BufTy).Contents (Elt F) → (⟨S200000, .i32⟩ : BufTy).Contents (Elt F)),
    binary main_arg2 main_v114 main_v115 (addi : (⟨S200000, .i32⟩ : BufTy).Contents (Elt F) → (⟨S200000, .i32⟩ : BufTy).Contents (Elt F) → (⟨S200000, .i32⟩ : BufTy).Contents (Elt F)),
    ternary main_v113 main_v115 main_arg2 main_v116 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v116 main_v117 (broadcastInDim S200000x1 ![0] bcast_S200000_S200000x1_0 : (⟨S200000, .i32⟩ : BufTy).Contents (Elt F) → (⟨S200000x1, .i32⟩ : BufTy).Contents (Elt F)),
    binary main_arg0 main_v117 main_v118 ((fun x i => Host.gather gather_S1000000x100_S200000x1_S200000x100_1_0_n_n_0_1_1100 x i) : (⟨S1000000x100, .f32⟩ : BufTy).Contents (Elt F) → (⟨S200000x1, .i32⟩ : BufTy).Contents (Elt F) → (⟨S200000x100, .f32⟩ : BufTy).Contents (Elt F)),
    unary main_arg13 main_v119 ((transpose S472x300 [1, 0] · transposes_S300x472_S472x300_1_0) : (⟨S300x472, .f32⟩ : BufTy).Contents (Elt F) → (⟨S472x300, .f32⟩ : BufTy).Contents (Elt F)),
    binary main_v111 main_v119 main_v120 ((fun l r => Host.dotGeneral dot_S200000x472_S472x300_S200000x300_1_0_0_1_n_n none l r) : (⟨S200000x472, .f32⟩ : BufTy).Contents (Elt F) → (⟨S472x300, .f32⟩ : BufTy).Contents (Elt F) → (⟨S200000x300, .f32⟩ : BufTy).Contents (Elt F)),
    unary main_arg15 main_v121 (broadcastInDim S1x300 ![1] bcast_S300_S1x300_1 : (⟨S300, .f32⟩ : BufTy).Contents (Elt F) → (⟨S1x300, .f32⟩ : BufTy).Contents (Elt F)),
    unary main_v121 main_v122 (broadcastInDim S200000x300 ![0, 1] bcast_S1x300_S200000x300_0_1 : (⟨S1x300, .f32⟩ : BufTy).Contents (Elt F) → (⟨S200000x300, .f32⟩ : BufTy).Contents (Elt F)),
    binary main_v120 main_v122 main_v123 (addf : (⟨S200000x300, .f32⟩ : BufTy).Contents (Elt F) → (⟨S200000x300, .f32⟩ : BufTy).Contents (Elt F) → (⟨S200000x300, .f32⟩ : BufTy).Contents (Elt F)),
    unary main_arg14 main_v124 ((transpose S100x300 [1, 0] · transposes_S300x100_S100x300_1_0) : (⟨S300x100, .f32⟩ : BufTy).Contents (Elt F) → (⟨S100x300, .f32⟩ : BufTy).Contents (Elt F)),
    binary main_v118 main_v124 main_v125 ((fun l r => Host.dotGeneral dot_S200000x100_S100x300_S200000x300_1_0_0_1_n_n none l r) : (⟨S200000x100, .f32⟩ : BufTy).Contents (Elt F) → (⟨S100x300, .f32⟩ : BufTy).Contents (Elt F) → (⟨S200000x300, .f32⟩ : BufTy).Contents (Elt F)),
    unary main_arg16 main_v126 (broadcastInDim S1x300 ![1] bcast_S300_S1x300_1 : (⟨S300, .f32⟩ : BufTy).Contents (Elt F) → (⟨S1x300, .f32⟩ : BufTy).Contents (Elt F)),
    unary main_v126 main_v127 (broadcastInDim S200000x300 ![0, 1] bcast_S1x300_S200000x300_0_1 : (⟨S1x300, .f32⟩ : BufTy).Contents (Elt F) → (⟨S200000x300, .f32⟩ : BufTy).Contents (Elt F)),
    binary main_v125 main_v127 main_v128 (addf : (⟨S200000x300, .f32⟩ : BufTy).Contents (Elt F) → (⟨S200000x300, .f32⟩ : BufTy).Contents (Elt F) → (⟨S200000x300, .f32⟩ : BufTy).Contents (Elt F)) ]

/-- Operations 164 … 196 of @main. -/
abbrev L17 : List (HloOp τ sig (Elt F)) :=
  [ unary main_v123 main_v129 ((extractStridedSlice S200000x100 ![0, 0] · slices_S200000x300_S200000x100_0_0) : (⟨S200000x300, .f32⟩ : BufTy).Contents (Elt F) → (⟨S200000x100, .f32⟩ : BufTy).Contents (Elt F)),
    unary main_v123 main_v130 ((extractStridedSlice S200000x100 ![0, 100] · slices_S200000x300_S200000x100_0_100) : (⟨S200000x300, .f32⟩ : BufTy).Contents (Elt F) → (⟨S200000x100, .f32⟩ : BufTy).Contents (Elt F)),
    unary main_v123 main_v131 ((extractStridedSlice S200000x100 ![0, 200] · slices_S200000x300_S200000x100_0_200) : (⟨S200000x300, .f32⟩ : BufTy).Contents (Elt F) → (⟨S200000x100, .f32⟩ : BufTy).Contents (Elt F)),
    unary main_v128 main_v132 ((extractStridedSlice S200000x100 ![0, 0] · slices_S200000x300_S200000x100_0_0) : (⟨S200000x300, .f32⟩ : BufTy).Contents (Elt F) → (⟨S200000x100, .f32⟩ : BufTy).Contents (Elt F)),
    unary main_v128 main_v133 ((extractStridedSlice S200000x100 ![0, 100] · slices_S200000x300_S200000x100_0_100) : (⟨S200000x300, .f32⟩ : BufTy).Contents (Elt F) → (⟨S200000x100, .f32⟩ : BufTy).Contents (Elt F)),
    unary main_v128 main_v134 ((extractStridedSlice S200000x100 ![0, 200] · slices_S200000x300_S200000x100_0_200) : (⟨S200000x300, .f32⟩ : BufTy).Contents (Elt F) → (⟨S200000x100, .f32⟩ : BufTy).Contents (Elt F)),
    binary main_v129 main_v132 main_v135 (addf : (⟨S200000x100, .f32⟩ : BufTy).Contents (Elt F) → (⟨S200000x100, .f32⟩ : BufTy).Contents (Elt F) → (⟨S200000x100, .f32⟩ : BufTy).Contents (Elt F)),
    unary main_v135 main_v136 (Host.negf : (⟨S200000x100, .f32⟩ : BufTy).Contents (Elt F) → (⟨S200000x100, .f32⟩ : BufTy).Contents (Elt F)),
    unary main_v136 main_v137 (Host.exp : (⟨S200000x100, .f32⟩ : BufTy).Contents (Elt F) → (⟨S200000x100, .f32⟩ : BufTy).Contents (Elt F)),
    nullary main_cst_26 (constant S_ .f32 0x3F800000#32),
    unary main_cst_26 main_v138 (broadcastInDim S200000x100 ![] bcast_S_S200000x100 : (⟨S_, .f32⟩ : BufTy).Contents (Elt F) → (⟨S200000x100, .f32⟩ : BufTy).Contents (Elt F)),
    binary main_v138 main_v137 main_v139 (addf : (⟨S200000x100, .f32⟩ : BufTy).Contents (Elt F) → (⟨S200000x100, .f32⟩ : BufTy).Contents (Elt F) → (⟨S200000x100, .f32⟩ : BufTy).Contents (Elt F)),
    nullary main_cst_27 (constant S_ .f32 0x3F800000#32),
    unary main_cst_27 main_v140 (broadcastInDim S200000x100 ![] bcast_S_S200000x100 : (⟨S_, .f32⟩ : BufTy).Contents (Elt F) → (⟨S200000x100, .f32⟩ : BufTy).Contents (Elt F)),
    binary main_v140 main_v139 main_v141 (Host.divf : (⟨S200000x100, .f32⟩ : BufTy).Contents (Elt F) → (⟨S200000x100, .f32⟩ : BufTy).Contents (Elt F) → (⟨S200000x100, .f32⟩ : BufTy).Contents (Elt F)),
    binary main_v130 main_v133 main_v142 (addf : (⟨S200000x100, .f32⟩ : BufTy).Contents (Elt F) → (⟨S200000x100, .f32⟩ : BufTy).Contents (Elt F) → (⟨S200000x100, .f32⟩ : BufTy).Contents (Elt F)),
    unary main_v142 main_v143 (Host.negf : (⟨S200000x100, .f32⟩ : BufTy).Contents (Elt F) → (⟨S200000x100, .f32⟩ : BufTy).Contents (Elt F)),
    unary main_v143 main_v144 (Host.exp : (⟨S200000x100, .f32⟩ : BufTy).Contents (Elt F) → (⟨S200000x100, .f32⟩ : BufTy).Contents (Elt F)),
    nullary main_cst_28 (constant S_ .f32 0x3F800000#32),
    unary main_cst_28 main_v145 (broadcastInDim S200000x100 ![] bcast_S_S200000x100 : (⟨S_, .f32⟩ : BufTy).Contents (Elt F) → (⟨S200000x100, .f32⟩ : BufTy).Contents (Elt F)),
    binary main_v145 main_v144 main_v146 (addf : (⟨S200000x100, .f32⟩ : BufTy).Contents (Elt F) → (⟨S200000x100, .f32⟩ : BufTy).Contents (Elt F) → (⟨S200000x100, .f32⟩ : BufTy).Contents (Elt F)),
    nullary main_cst_29 (constant S_ .f32 0x3F800000#32),
    unary main_cst_29 main_v147 (broadcastInDim S200000x100 ![] bcast_S_S200000x100 : (⟨S_, .f32⟩ : BufTy).Contents (Elt F) → (⟨S200000x100, .f32⟩ : BufTy).Contents (Elt F)),
    binary main_v147 main_v146 main_v148 (Host.divf : (⟨S200000x100, .f32⟩ : BufTy).Contents (Elt F) → (⟨S200000x100, .f32⟩ : BufTy).Contents (Elt F) → (⟨S200000x100, .f32⟩ : BufTy).Contents (Elt F)),
    binary main_v141 main_v134 main_v149 (mulf : (⟨S200000x100, .f32⟩ : BufTy).Contents (Elt F) → (⟨S200000x100, .f32⟩ : BufTy).Contents (Elt F) → (⟨S200000x100, .f32⟩ : BufTy).Contents (Elt F)),
    binary main_v131 main_v149 main_v150 (addf : (⟨S200000x100, .f32⟩ : BufTy).Contents (Elt F) → (⟨S200000x100, .f32⟩ : BufTy).Contents (Elt F) → (⟨S200000x100, .f32⟩ : BufTy).Contents (Elt F)),
    unary main_v150 main_v151 (Host.tanh : (⟨S200000x100, .f32⟩ : BufTy).Contents (Elt F) → (⟨S200000x100, .f32⟩ : BufTy).Contents (Elt F)),
    nullary main_cst_30 (constant S_ .f32 0x3F800000#32),
    unary main_cst_30 main_v152 (broadcastInDim S200000x100 ![] bcast_S_S200000x100 : (⟨S_, .f32⟩ : BufTy).Contents (Elt F) → (⟨S200000x100, .f32⟩ : BufTy).Contents (Elt F)),
    binary main_v152 main_v148 main_v153 (subf : (⟨S200000x100, .f32⟩ : BufTy).Contents (Elt F) → (⟨S200000x100, .f32⟩ : BufTy).Contents (Elt F) → (⟨S200000x100, .f32⟩ : BufTy).Contents (Elt F)),
    binary main_v153 main_v151 main_v154 (mulf : (⟨S200000x100, .f32⟩ : BufTy).Contents (Elt F) → (⟨S200000x100, .f32⟩ : BufTy).Contents (Elt F) → (⟨S200000x100, .f32⟩ : BufTy).Contents (Elt F)),
    binary main_v148 main_v118 main_v155 (mulf : (⟨S200000x100, .f32⟩ : BufTy).Contents (Elt F) → (⟨S200000x100, .f32⟩ : BufTy).Contents (Elt F) → (⟨S200000x100, .f32⟩ : BufTy).Contents (Elt F)),
    binary main_v154 main_v155 main_v156 (addf : (⟨S200000x100, .f32⟩ : BufTy).Contents (Elt F) → (⟨S200000x100, .f32⟩ : BufTy).Contents (Elt F) → (⟨S200000x100, .f32⟩ : BufTy).Contents (Elt F)) ]

/-- Operations 197 … 214 of @main. -/
abbrev L18 : List (HloOp τ sig (Elt F)) :=
  [ nullary main_c_31 (constantI S_ 32 0#32),
    unary main_c_31 main_v157 (broadcastInDim S200000 ![] bcast_S_S200000 : (⟨S_, .i32⟩ : BufTy).Contents (Elt F) → (⟨S200000, .i32⟩ : BufTy).Contents (Elt F)),
    binary main_v83 main_v157 main_v158 (cmpi .slt : (⟨S200000, .i32⟩ : BufTy).Contents (Elt F) → (⟨S200000, .i32⟩ : BufTy).Contents (Elt F) → (⟨S200000, .i1⟩ : BufTy).Contents (Elt F)),
    nullary main_c_32 (constantI S_ 32 1000000#32),
    unary main_c_32 main_v159 (broadcastInDim S200000 ![] bcast_S_S200000 : (⟨S_, .i32⟩ : BufTy).Contents (Elt F) → (⟨S200000, .i32⟩ : BufTy).Contents (Elt F)),
    binary main_v83 main_v159 main_v160 (addi : (⟨S200000, .i32⟩ : BufTy).Contents (Elt F) → (⟨S200000, .i32⟩ : BufTy).Contents (Elt F) → (⟨S200000, .i32⟩ : BufTy).Contents (Elt F)),
    ternary main_v158 main_v160 main_v83 main_v161 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v161 main_v162 (broadcastInDim S200000x1 ![0] bcast_S200000_S200000x1_0 : (⟨S200000, .i32⟩ : BufTy).Contents (Elt F) → (⟨S200000x1, .i32⟩ : BufTy).Contents (Elt F)),
    ternary main_arg1 main_v162 main_v82 main_v163 ((fun x i u => Host.scatter scatter_S1000000_S200000x1_S200000_n_0_0_1 IntOp.maxsi x i u) : (⟨S1000000, .i32⟩ : BufTy).Contents (Elt F) → (⟨S200000x1, .i32⟩ : BufTy).Contents (Elt F) → (⟨S200000, .i32⟩ : BufTy).Contents (Elt F) → (⟨S1000000, .i32⟩ : BufTy).Contents (Elt F)),
    nullary main_c_33 (constantI S_ 32 0#32),
    unary main_c_33 main_v164 (broadcastInDim S200000 ![] bcast_S_S200000 : (⟨S_, .i32⟩ : BufTy).Contents (Elt F) → (⟨S200000, .i32⟩ : BufTy).Contents (Elt F)),
    binary main_arg2 main_v164 main_v165 (cmpi .slt : (⟨S200000, .i32⟩ : BufTy).Contents (Elt F) → (⟨S200000, .i32⟩ : BufTy).Contents (Elt F) → (⟨S200000, .i1⟩ : BufTy).Contents (Elt F)),
    nullary main_c_34 (constantI S_ 32 1000000#32),
    unary main_c_34 main_v166 (broadcastInDim S200000 ![] bcast_S_S200000 : (⟨S_, .i32⟩ : BufTy).Contents (Elt F) → (⟨S200000, .i32⟩ : BufTy).Contents (Elt F)),
    binary main_arg2 main_v166 main_v167 (addi : (⟨S200000, .i32⟩ : BufTy).Contents (Elt F) → (⟨S200000, .i32⟩ : BufTy).Contents (Elt F) → (⟨S200000, .i32⟩ : BufTy).Contents (Elt F)),
    ternary main_v165 main_v167 main_arg2 main_v168 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v168 main_v169 (broadcastInDim S200000x1 ![0] bcast_S200000_S200000x1_0 : (⟨S200000, .i32⟩ : BufTy).Contents (Elt F) → (⟨S200000x1, .i32⟩ : BufTy).Contents (Elt F)),
    binary main_v163 main_v169 main_v170 ((fun x i => Host.gather gather_S1000000_S200000x1_S200000_n_0_n_n_0_1_1 x i) : (⟨S1000000, .i32⟩ : BufTy).Contents (Elt F) → (⟨S200000x1, .i32⟩ : BufTy).Contents (Elt F) → (⟨S200000, .i32⟩ : BufTy).Contents (Elt F)) ]

set_option maxRecDepth 65536 in
/-- The line is its stretches in order. -/
theorem ops_cut : (Value.ops : List (HloOp τ sig (Elt F))) = L0 ++ (L1 ++ (L2 ++ (L3 ++ (L4 ++ (L5 ++ (L6 ++ (L7 ++ (L8 ++ (L9 ++ (L10 ++ (L11 ++ (L12 ++ (L13 ++ (L14 ++ (L15 ++ (L16 ++ (L17 ++ (L18)))))))))))))))))) := rfl

/-! ## What the live buffers hold at each cut -/

/-- Before the first operation: what the buffers still to be read hold (`W`), from the launch contents (`V`). -/
structure Inv0 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg4 : W (Proc.devRef .tc main_arg4) = V (Proc.devRef .tc main_arg4)
  arg5 : W (Proc.devRef .tc main_arg5) = V (Proc.devRef .tc main_arg5)
  arg6 : W (Proc.devRef .tc main_arg6) = V (Proc.devRef .tc main_arg6)
  arg7 : W (Proc.devRef .tc main_arg7) = V (Proc.devRef .tc main_arg7)
  arg8 : W (Proc.devRef .tc main_arg8) = V (Proc.devRef .tc main_arg8)
  arg9 : W (Proc.devRef .tc main_arg9) = V (Proc.devRef .tc main_arg9)
  arg10 : W (Proc.devRef .tc main_arg10) = V (Proc.devRef .tc main_arg10)
  arg11 : W (Proc.devRef .tc main_arg11) = V (Proc.devRef .tc main_arg11)
  arg12 : W (Proc.devRef .tc main_arg12) = V (Proc.devRef .tc main_arg12)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)

/-- After operation 25: what the buffers still to be read hold (`W`), from the launch contents (`V`). -/
structure Inv1 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg4 : W (Proc.devRef .tc main_arg4) = V (Proc.devRef .tc main_arg4)
  arg5 : W (Proc.devRef .tc main_arg5) = V (Proc.devRef .tc main_arg5)
  arg6 : W (Proc.devRef .tc main_arg6) = V (Proc.devRef .tc main_arg6)
  arg7 : W (Proc.devRef .tc main_arg7) = V (Proc.devRef .tc main_arg7)
  arg8 : W (Proc.devRef .tc main_arg8) = V (Proc.devRef .tc main_arg8)
  arg9 : W (Proc.devRef .tc main_arg9) = V (Proc.devRef .tc main_arg9)
  arg10 : W (Proc.devRef .tc main_arg10) = V (Proc.devRef .tc main_arg10)
  arg11 : W (Proc.devRef .tc main_arg11) = V (Proc.devRef .tc main_arg11)
  arg12 : W (Proc.devRef .tc main_arg12) = V (Proc.devRef .tc main_arg12)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v6 : W (Proc.devRef .tc main_v6) = Read.val_main_v6 (F := F) (V (Proc.devRef .tc main_arg2)) (V (Proc.devRef .tc main_arg3))
  v20 : W (Proc.devRef .tc main_v20) = Read.val_main_v20 (F := F) (V (Proc.devRef .tc main_arg1)) (V (Proc.devRef .tc main_arg2)) (V (Proc.devRef .tc main_arg3)) (V (Proc.devRef .tc main_arg5)) (V (Proc.devRef .tc main_arg11))

/-- After operation 48: what the buffers still to be read hold (`W`), from the launch contents (`V`). -/
structure Inv2 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg5 : W (Proc.devRef .tc main_arg5) = V (Proc.devRef .tc main_arg5)
  arg7 : W (Proc.devRef .tc main_arg7) = V (Proc.devRef .tc main_arg7)
  arg8 : W (Proc.devRef .tc main_arg8) = V (Proc.devRef .tc main_arg8)
  arg9 : W (Proc.devRef .tc main_arg9) = V (Proc.devRef .tc main_arg9)
  arg10 : W (Proc.devRef .tc main_arg10) = V (Proc.devRef .tc main_arg10)
  arg11 : W (Proc.devRef .tc main_arg11) = V (Proc.devRef .tc main_arg11)
  arg12 : W (Proc.devRef .tc main_arg12) = V (Proc.devRef .tc main_arg12)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v6 : W (Proc.devRef .tc main_v6) = Read.val_main_v6 (F := F) (V (Proc.devRef .tc main_arg2)) (V (Proc.devRef .tc main_arg3))
  v39 : W (Proc.devRef .tc main_v39) = Read.val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12))

/-- After operation 73: what the buffers still to be read hold (`W`), from the launch contents (`V`). -/
structure Inv3 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg5 : W (Proc.devRef .tc main_arg5) = V (Proc.devRef .tc main_arg5)
  arg7 : W (Proc.devRef .tc main_arg7) = V (Proc.devRef .tc main_arg7)
  arg8 : W (Proc.devRef .tc main_arg8) = V (Proc.devRef .tc main_arg8)
  arg9 : W (Proc.devRef .tc main_arg9) = V (Proc.devRef .tc main_arg9)
  arg10 : W (Proc.devRef .tc main_arg10) = V (Proc.devRef .tc main_arg10)
  arg12 : W (Proc.devRef .tc main_arg12) = V (Proc.devRef .tc main_arg12)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v6 : W (Proc.devRef .tc main_v6) = Read.val_main_v6 (F := F) (V (Proc.devRef .tc main_arg2)) (V (Proc.devRef .tc main_arg3))
  v39 : W (Proc.devRef .tc main_v39) = Read.val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12))
  v46 : W (Proc.devRef .tc main_v46) = Read.val_main_v46 (F := F) (V (Proc.devRef .tc main_arg2)) (V (Proc.devRef .tc main_arg7))
  v60 : W (Proc.devRef .tc main_v60) = Read.val_main_v60 (F := F) (V (Proc.devRef .tc main_arg1)) (V (Proc.devRef .tc main_arg2)) (V (Proc.devRef .tc main_arg7)) (V (Proc.devRef .tc main_arg9)) (V (Proc.devRef .tc main_arg11))

/-- After operation 97: what the buffers still to be read hold (`W`), from the launch contents (`V`). -/
structure Inv4 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg5 : W (Proc.devRef .tc main_arg5) = V (Proc.devRef .tc main_arg5)
  arg7 : W (Proc.devRef .tc main_arg7) = V (Proc.devRef .tc main_arg7)
  arg9 : W (Proc.devRef .tc main_arg9) = V (Proc.devRef .tc main_arg9)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v6 : W (Proc.devRef .tc main_v6) = Read.val_main_v6 (F := F) (V (Proc.devRef .tc main_arg2)) (V (Proc.devRef .tc main_arg3))
  v46 : W (Proc.devRef .tc main_v46) = Read.val_main_v46 (F := F) (V (Proc.devRef .tc main_arg2)) (V (Proc.devRef .tc main_arg7))
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))

/-- After operation 116: what the buffers still to be read hold (`W`), from the launch contents (`V`). -/
structure Inv5 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v81 : W (Proc.devRef .tc main_v81) = Read.val_main_v81 (F := F) (V (Proc.devRef .tc main_arg3)) (V (Proc.devRef .tc main_arg7))
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v94 : W (Proc.devRef .tc main_v94) = Read.val_main_v94 (F := F) (V (Proc.devRef .tc main_arg3)) (V (Proc.devRef .tc main_arg5)) (V (Proc.devRef .tc main_arg7)) (V (Proc.devRef .tc main_arg9))
  v95 : W (Proc.devRef .tc main_v95) = Read.val_main_v95 (F := F)
  c_18 : W (Proc.devRef .tc main_c_18) = Read.val_main_c_18 (F := F)

/-- After operation 117: what the buffers still to be read hold (`W`), from the launch contents (`V`). -/
structure Inv6 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v81 : W (Proc.devRef .tc main_v81) = Read.val_main_v81 (F := F) (V (Proc.devRef .tc main_arg3)) (V (Proc.devRef .tc main_arg7))
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v94 : W (Proc.devRef .tc main_v94) = Read.val_main_v94 (F := F) (V (Proc.devRef .tc main_arg3)) (V (Proc.devRef .tc main_arg5)) (V (Proc.devRef .tc main_arg7)) (V (Proc.devRef .tc main_arg9))
  v95 : W (Proc.devRef .tc main_v95) = Read.val_main_v95 (F := F)
  call0_v0 : W (Proc.devRef .tc main_call0_v0) = Read.val_main_call0_v0 (F := F)

/-- After operation 118: what the buffers still to be read hold (`W`), from the launch contents (`V`). -/
structure Inv7 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v81 : W (Proc.devRef .tc main_v81) = Read.val_main_v81 (F := F) (V (Proc.devRef .tc main_arg3)) (V (Proc.devRef .tc main_arg7))
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v96 : W (Proc.devRef .tc main_v96) = Read.val_main_v96 (F := F) (V (Proc.devRef .tc main_arg3)) (V (Proc.devRef .tc main_arg5)) (V (Proc.devRef .tc main_arg7)) (V (Proc.devRef .tc main_arg9))

/-- After operation 127: what the buffers still to be read hold (`W`), from the launch contents (`V`). -/
structure Inv8 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v99 : W (Proc.devRef .tc main_v99) = Read.val_main_v99 (F := F) (V (Proc.devRef .tc main_arg3)) (V (Proc.devRef .tc main_arg5)) (V (Proc.devRef .tc main_arg7)) (V (Proc.devRef .tc main_arg9))
  v102 : W (Proc.devRef .tc main_v102) = Read.val_main_v102 (F := F) (V (Proc.devRef .tc main_arg3)) (V (Proc.devRef .tc main_arg5)) (V (Proc.devRef .tc main_arg7)) (V (Proc.devRef .tc main_arg9))
  c_21 : W (Proc.devRef .tc main_c_21) = Read.val_main_c_21 (F := F)

/-- After operation 128: what the buffers still to be read hold (`W`), from the launch contents (`V`). -/
structure Inv9 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v99 : W (Proc.devRef .tc main_v99) = Read.val_main_v99 (F := F) (V (Proc.devRef .tc main_arg3)) (V (Proc.devRef .tc main_arg5)) (V (Proc.devRef .tc main_arg7)) (V (Proc.devRef .tc main_arg9))
  v102 : W (Proc.devRef .tc main_v102) = Read.val_main_v102 (F := F) (V (Proc.devRef .tc main_arg3)) (V (Proc.devRef .tc main_arg5)) (V (Proc.devRef .tc main_arg7)) (V (Proc.devRef .tc main_arg9))
  call1_v0 : W (Proc.devRef .tc main_call1_v0) = Read.val_main_call1_v0 (F := F)

/-- After operation 129: what the buffers still to be read hold (`W`), from the launch contents (`V`). -/
structure Inv10 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v99 : W (Proc.devRef .tc main_v99) = Read.val_main_v99 (F := F) (V (Proc.devRef .tc main_arg3)) (V (Proc.devRef .tc main_arg5)) (V (Proc.devRef .tc main_arg7)) (V (Proc.devRef .tc main_arg9))
  v102 : W (Proc.devRef .tc main_v102) = Read.val_main_v102 (F := F) (V (Proc.devRef .tc main_arg3)) (V (Proc.devRef .tc main_arg5)) (V (Proc.devRef .tc main_arg7)) (V (Proc.devRef .tc main_arg9))
  call1_v1 : W (Proc.devRef .tc main_call1_v1) = Read.val_main_call1_v1 (F := F)

/-- After operation 130: what the buffers still to be read hold (`W`), from the launch contents (`V`). -/
structure Inv11 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v80 : W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v102 : W (Proc.devRef .tc main_v102) = Read.val_main_v102 (F := F) (V (Proc.devRef .tc main_arg3)) (V (Proc.devRef .tc main_arg5)) (V (Proc.devRef .tc main_arg7)) (V (Proc.devRef .tc main_arg9))
  v103 : W (Proc.devRef .tc main_v103) = Read.val_main_v103 (F := F) (V (Proc.devRef .tc main_arg3)) (V (Proc.devRef .tc main_arg5)) (V (Proc.devRef .tc main_arg7)) (V (Proc.devRef .tc main_arg9))

/-- After operation 140: what the buffers still to be read hold (`W`), from the launch contents (`V`). -/
structure Inv12 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v102 : W (Proc.devRef .tc main_v102) = Read.val_main_v102 (F := F) (V (Proc.devRef .tc main_arg3)) (V (Proc.devRef .tc main_arg5)) (V (Proc.devRef .tc main_arg7)) (V (Proc.devRef .tc main_arg9))
  v110 : W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  cst : W (Proc.devRef .tc main_cst) = Read.val_main_cst (F := F)

/-- After operation 141: what the buffers still to be read hold (`W`), from the launch contents (`V`). -/
structure Inv13 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v102 : W (Proc.devRef .tc main_v102) = Read.val_main_v102 (F := F) (V (Proc.devRef .tc main_arg3)) (V (Proc.devRef .tc main_arg5)) (V (Proc.devRef .tc main_arg7)) (V (Proc.devRef .tc main_arg9))
  v110 : W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  call2_v0 : W (Proc.devRef .tc main_call2_v0) = Read.val_main_call2_v0 (F := F)

/-- After operation 142: what the buffers still to be read hold (`W`), from the launch contents (`V`). -/
structure Inv14 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v110 : W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  call2_v0 : W (Proc.devRef .tc main_call2_v0) = Read.val_main_call2_v0 (F := F)
  call2_v1 : W (Proc.devRef .tc main_call2_v1) = Read.val_main_call2_v1 (F := F) (V (Proc.devRef .tc main_arg3)) (V (Proc.devRef .tc main_arg5)) (V (Proc.devRef .tc main_arg7)) (V (Proc.devRef .tc main_arg9))

/-- After operation 143: what the buffers still to be read hold (`W`), from the launch contents (`V`). -/
structure Inv15 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v110 : W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
  call2_v1 : W (Proc.devRef .tc main_call2_v1) = Read.val_main_call2_v1 (F := F) (V (Proc.devRef .tc main_arg3)) (V (Proc.devRef .tc main_arg5)) (V (Proc.devRef .tc main_arg7)) (V (Proc.devRef .tc main_arg9))
  call2_v2 : W (Proc.devRef .tc main_call2_v2) = Read.val_main_call2_v2 (F := F)

/-- After operation 144: what the buffers still to be read hold (`W`), from the launch contents (`V`). -/
structure Inv16 (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg13 : W (Proc.devRef .tc main_arg13) = V (Proc.devRef .tc main_arg13)
  arg14 : W (Proc.devRef .tc main_arg14) = V (Proc.devRef .tc main_arg14)
  arg15 : W (Proc.devRef .tc main_arg15) = V (Proc.devRef .tc main_arg15)
  arg16 : W (Proc.devRef .tc main_arg16) = V (Proc.devRef .tc main_arg16)
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v111 : W (Proc.devRef .tc main_v111) = Read.val_main_v111 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))

/-- After operation 163: what the buffers still to be read hold (`W`), from the launch contents (`V`). -/
structure Inv17 (V W : Valuation τ sig (Elt F)) : Prop where
  arg1 : W (Proc.devRef .tc main_arg1) = V (Proc.devRef .tc main_arg1)
  arg2 : W (Proc.devRef .tc main_arg2) = V (Proc.devRef .tc main_arg2)
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v118 : W (Proc.devRef .tc main_v118) = Read.val_main_v118 (F := F) (V (Proc.devRef .tc main_arg0)) (V (Proc.devRef .tc main_arg2))
  v123 : W (Proc.devRef .tc main_v123) = Read.val_main_v123 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg15))
  v128 : W (Proc.devRef .tc main_v128) = Read.val_main_v128 (F := F) (V (Proc.devRef .tc main_arg0)) (V (Proc.devRef .tc main_arg2)) (V (Proc.devRef .tc main_arg14)) (V (Proc.devRef .tc main_arg16))

/-- After operation 196: what the buffers still to be read hold (`W`), from the launch contents (`V`). -/
structure Inv18 (V W : Valuation τ sig (Elt F)) : Prop where
  arg1 : W (Proc.devRef .tc main_arg1) = V (Proc.devRef .tc main_arg1)
  arg2 : W (Proc.devRef .tc main_arg2) = V (Proc.devRef .tc main_arg2)
  v82 : W (Proc.devRef .tc main_v82) = Read.val_main_v82 (F := F) (V (Proc.devRef .tc main_arg5)) (V (Proc.devRef .tc main_arg9))
  v83 : W (Proc.devRef .tc main_v83) = Read.val_main_v83 (F := F) (V (Proc.devRef .tc main_arg2)) (V (Proc.devRef .tc main_arg3)) (V (Proc.devRef .tc main_arg7))
  v156 : W (Proc.devRef .tc main_v156) = Read.val_main_v156 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

/-- After operation 214: what the buffers still to be read hold (`W`), from the launch contents (`V`). -/
structure Inv19 (V W : Valuation τ sig (Elt F)) : Prop where
  v156 : W (Proc.devRef .tc main_v156) = Read.val_main_v156 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
  v170 : W (Proc.devRef .tc main_v170) = Read.val_main_v170 (F := F) (V (Proc.devRef .tc main_arg1)) (V (Proc.devRef .tc main_arg2)) (V (Proc.devRef .tc main_arg3)) (V (Proc.devRef .tc main_arg5)) (V (Proc.devRef .tc main_arg7)) (V (Proc.devRef .tc main_arg9))

theorem inv0 (V : Valuation τ sig (Elt F)) : Inv0 V V := ⟨rfl, rfl, rfl, rfl, rfl, rfl, rfl, rfl, rfl, rfl, rfl, rfl, rfl, rfl, rfl, rfl, rfl⟩

/-! ## Each stretch takes a record to the next -/

set_option maxHeartbeats 4000000 in
theorem step0_main_arg0 {V W : Valuation τ sig (Elt F)} (h : Inv0 V W) :
    after (L0 (F := F)) W (Proc.devRef .tc main_arg0) = V (Proc.devRef .tc main_arg0) := by
  fold_results
  exact h.arg0
set_option maxHeartbeats 4000000 in
theorem step0_main_arg1 {V W : Valuation τ sig (Elt F)} (h : Inv0 V W) :
    after (L0 (F := F)) W (Proc.devRef .tc main_arg1) = V (Proc.devRef .tc main_arg1) := by
  fold_results
  exact h.arg1
set_option maxHeartbeats 4000000 in
theorem step0_main_arg2 {V W : Valuation τ sig (Elt F)} (h : Inv0 V W) :
    after (L0 (F := F)) W (Proc.devRef .tc main_arg2) = V (Proc.devRef .tc main_arg2) := by
  fold_results
  exact h.arg2
set_option maxHeartbeats 4000000 in
theorem step0_main_arg3 {V W : Valuation τ sig (Elt F)} (h : Inv0 V W) :
    after (L0 (F := F)) W (Proc.devRef .tc main_arg3) = V (Proc.devRef .tc main_arg3) := by
  fold_results
  exact h.arg3
set_option maxHeartbeats 4000000 in
theorem step0_main_arg4 {V W : Valuation τ sig (Elt F)} (h : Inv0 V W) :
    after (L0 (F := F)) W (Proc.devRef .tc main_arg4) = V (Proc.devRef .tc main_arg4) := by
  fold_results
  exact h.arg4
set_option maxHeartbeats 4000000 in
theorem step0_main_arg5 {V W : Valuation τ sig (Elt F)} (h : Inv0 V W) :
    after (L0 (F := F)) W (Proc.devRef .tc main_arg5) = V (Proc.devRef .tc main_arg5) := by
  fold_results
  exact h.arg5
set_option maxHeartbeats 4000000 in
theorem step0_main_arg6 {V W : Valuation τ sig (Elt F)} (h : Inv0 V W) :
    after (L0 (F := F)) W (Proc.devRef .tc main_arg6) = V (Proc.devRef .tc main_arg6) := by
  fold_results
  exact h.arg6
set_option maxHeartbeats 4000000 in
theorem step0_main_arg7 {V W : Valuation τ sig (Elt F)} (h : Inv0 V W) :
    after (L0 (F := F)) W (Proc.devRef .tc main_arg7) = V (Proc.devRef .tc main_arg7) := by
  fold_results
  exact h.arg7
set_option maxHeartbeats 4000000 in
theorem step0_main_arg8 {V W : Valuation τ sig (Elt F)} (h : Inv0 V W) :
    after (L0 (F := F)) W (Proc.devRef .tc main_arg8) = V (Proc.devRef .tc main_arg8) := by
  fold_results
  exact h.arg8
set_option maxHeartbeats 4000000 in
theorem step0_main_arg9 {V W : Valuation τ sig (Elt F)} (h : Inv0 V W) :
    after (L0 (F := F)) W (Proc.devRef .tc main_arg9) = V (Proc.devRef .tc main_arg9) := by
  fold_results
  exact h.arg9
set_option maxHeartbeats 4000000 in
theorem step0_main_arg10 {V W : Valuation τ sig (Elt F)} (h : Inv0 V W) :
    after (L0 (F := F)) W (Proc.devRef .tc main_arg10) = V (Proc.devRef .tc main_arg10) := by
  fold_results
  exact h.arg10
set_option maxHeartbeats 4000000 in
theorem step0_main_arg11 {V W : Valuation τ sig (Elt F)} (h : Inv0 V W) :
    after (L0 (F := F)) W (Proc.devRef .tc main_arg11) = V (Proc.devRef .tc main_arg11) := by
  fold_results
  exact h.arg11
set_option maxHeartbeats 4000000 in
theorem step0_main_arg12 {V W : Valuation τ sig (Elt F)} (h : Inv0 V W) :
    after (L0 (F := F)) W (Proc.devRef .tc main_arg12) = V (Proc.devRef .tc main_arg12) := by
  fold_results
  exact h.arg12
set_option maxHeartbeats 4000000 in
theorem step0_main_arg13 {V W : Valuation τ sig (Elt F)} (h : Inv0 V W) :
    after (L0 (F := F)) W (Proc.devRef .tc main_arg13) = V (Proc.devRef .tc main_arg13) := by
  fold_results
  exact h.arg13
set_option maxHeartbeats 4000000 in
theorem step0_main_arg14 {V W : Valuation τ sig (Elt F)} (h : Inv0 V W) :
    after (L0 (F := F)) W (Proc.devRef .tc main_arg14) = V (Proc.devRef .tc main_arg14) := by
  fold_results
  exact h.arg14
set_option maxHeartbeats 4000000 in
theorem step0_main_arg15 {V W : Valuation τ sig (Elt F)} (h : Inv0 V W) :
    after (L0 (F := F)) W (Proc.devRef .tc main_arg15) = V (Proc.devRef .tc main_arg15) := by
  fold_results
  exact h.arg15
set_option maxHeartbeats 4000000 in
theorem step0_main_arg16 {V W : Valuation τ sig (Elt F)} (h : Inv0 V W) :
    after (L0 (F := F)) W (Proc.devRef .tc main_arg16) = V (Proc.devRef .tc main_arg16) := by
  fold_results
  exact h.arg16
set_option maxHeartbeats 4000000 in
theorem step0_main_v6 {V W : Valuation τ sig (Elt F)} (h : Inv0 V W) :
    after (L0 (F := F)) W (Proc.devRef .tc main_v6) = Read.val_main_v6 (F := F) (V (Proc.devRef .tc main_arg2)) (V (Proc.devRef .tc main_arg3)) := by
  fold_results
  fold_results_rw
  rw [h.arg2, h.arg3]
  first | done | rfl
set_option maxHeartbeats 4000000 in
theorem step0_main_v20 {V W : Valuation τ sig (Elt F)} (h : Inv0 V W) :
    after (L0 (F := F)) W (Proc.devRef .tc main_v20) = Read.val_main_v20 (F := F) (V (Proc.devRef .tc main_arg1)) (V (Proc.devRef .tc main_arg2)) (V (Proc.devRef .tc main_arg3)) (V (Proc.devRef .tc main_arg5)) (V (Proc.devRef .tc main_arg11)) := by
  fold_results
  fold_results_rw
  rw [h.arg5, h.arg1, h.arg2, h.arg3, h.arg11]
  first | done | rfl
theorem step0 {V W : Valuation τ sig (Elt F)} (h : Inv0 V W) : Inv1 V (after (L0 (F := F)) W) :=
  ⟨step0_main_arg0 h, step0_main_arg1 h, step0_main_arg2 h, step0_main_arg3 h, step0_main_arg4 h, step0_main_arg5 h, step0_main_arg6 h, step0_main_arg7 h, step0_main_arg8 h, step0_main_arg9 h, step0_main_arg10 h, step0_main_arg11 h, step0_main_arg12 h, step0_main_arg13 h, step0_main_arg14 h, step0_main_arg15 h, step0_main_arg16 h, step0_main_v6 h, step0_main_v20 h⟩

set_option maxHeartbeats 4000000 in
theorem step1_main_arg0 {V W : Valuation τ sig (Elt F)} (h : Inv1 V W) :
    after (L1 (F := F)) W (Proc.devRef .tc main_arg0) = V (Proc.devRef .tc main_arg0) := by
  fold_results
  exact h.arg0
set_option maxHeartbeats 4000000 in
theorem step1_main_arg1 {V W : Valuation τ sig (Elt F)} (h : Inv1 V W) :
    after (L1 (F := F)) W (Proc.devRef .tc main_arg1) = V (Proc.devRef .tc main_arg1) := by
  fold_results
  exact h.arg1
set_option maxHeartbeats 4000000 in
theorem step1_main_arg2 {V W : Valuation τ sig (Elt F)} (h : Inv1 V W) :
    after (L1 (F := F)) W (Proc.devRef .tc main_arg2) = V (Proc.devRef .tc main_arg2) := by
  fold_results
  exact h.arg2
set_option maxHeartbeats 4000000 in
theorem step1_main_arg3 {V W : Valuation τ sig (Elt F)} (h : Inv1 V W) :
    after (L1 (F := F)) W (Proc.devRef .tc main_arg3) = V (Proc.devRef .tc main_arg3) := by
  fold_results
  exact h.arg3
set_option maxHeartbeats 4000000 in
theorem step1_main_arg5 {V W : Valuation τ sig (Elt F)} (h : Inv1 V W) :
    after (L1 (F := F)) W (Proc.devRef .tc main_arg5) = V (Proc.devRef .tc main_arg5) := by
  fold_results
  exact h.arg5
set_option maxHeartbeats 4000000 in
theorem step1_main_arg7 {V W : Valuation τ sig (Elt F)} (h : Inv1 V W) :
    after (L1 (F := F)) W (Proc.devRef .tc main_arg7) = V (Proc.devRef .tc main_arg7) := by
  fold_results
  exact h.arg7
set_option maxHeartbeats 4000000 in
theorem step1_main_arg8 {V W : Valuation τ sig (Elt F)} (h : Inv1 V W) :
    after (L1 (F := F)) W (Proc.devRef .tc main_arg8) = V (Proc.devRef .tc main_arg8) := by
  fold_results
  exact h.arg8
set_option maxHeartbeats 4000000 in
theorem step1_main_arg9 {V W : Valuation τ sig (Elt F)} (h : Inv1 V W) :
    after (L1 (F := F)) W (Proc.devRef .tc main_arg9) = V (Proc.devRef .tc main_arg9) := by
  fold_results
  exact h.arg9
set_option maxHeartbeats 4000000 in
theorem step1_main_arg10 {V W : Valuation τ sig (Elt F)} (h : Inv1 V W) :
    after (L1 (F := F)) W (Proc.devRef .tc main_arg10) = V (Proc.devRef .tc main_arg10) := by
  fold_results
  exact h.arg10
set_option maxHeartbeats 4000000 in
theorem step1_main_arg11 {V W : Valuation τ sig (Elt F)} (h : Inv1 V W) :
    after (L1 (F := F)) W (Proc.devRef .tc main_arg11) = V (Proc.devRef .tc main_arg11) := by
  fold_results
  exact h.arg11
set_option maxHeartbeats 4000000 in
theorem step1_main_arg12 {V W : Valuation τ sig (Elt F)} (h : Inv1 V W) :
    after (L1 (F := F)) W (Proc.devRef .tc main_arg12) = V (Proc.devRef .tc main_arg12) := by
  fold_results
  exact h.arg12
set_option maxHeartbeats 4000000 in
theorem step1_main_arg13 {V W : Valuation τ sig (Elt F)} (h : Inv1 V W) :
    after (L1 (F := F)) W (Proc.devRef .tc main_arg13) = V (Proc.devRef .tc main_arg13) := by
  fold_results
  exact h.arg13
set_option maxHeartbeats 4000000 in
theorem step1_main_arg14 {V W : Valuation τ sig (Elt F)} (h : Inv1 V W) :
    after (L1 (F := F)) W (Proc.devRef .tc main_arg14) = V (Proc.devRef .tc main_arg14) := by
  fold_results
  exact h.arg14
set_option maxHeartbeats 4000000 in
theorem step1_main_arg15 {V W : Valuation τ sig (Elt F)} (h : Inv1 V W) :
    after (L1 (F := F)) W (Proc.devRef .tc main_arg15) = V (Proc.devRef .tc main_arg15) := by
  fold_results
  exact h.arg15
set_option maxHeartbeats 4000000 in
theorem step1_main_arg16 {V W : Valuation τ sig (Elt F)} (h : Inv1 V W) :
    after (L1 (F := F)) W (Proc.devRef .tc main_arg16) = V (Proc.devRef .tc main_arg16) := by
  fold_results
  exact h.arg16
set_option maxHeartbeats 4000000 in
theorem step1_main_v6 {V W : Valuation τ sig (Elt F)} (h : Inv1 V W) :
    after (L1 (F := F)) W (Proc.devRef .tc main_v6) = Read.val_main_v6 (F := F) (V (Proc.devRef .tc main_arg2)) (V (Proc.devRef .tc main_arg3)) := by
  fold_results
  exact h.v6
set_option maxHeartbeats 4000000 in
theorem step1_main_v39 {V W : Valuation τ sig (Elt F)} (h : Inv1 V W) :
    after (L1 (F := F)) W (Proc.devRef .tc main_v39) = Read.val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) := by
  fold_results
  fold_results_rw
  rw [h.arg0, h.v6, h.arg4, h.arg6, h.v20, h.arg12]
  first | done | rfl
theorem step1 {V W : Valuation τ sig (Elt F)} (h : Inv1 V W) : Inv2 V (after (L1 (F := F)) W) :=
  ⟨step1_main_arg0 h, step1_main_arg1 h, step1_main_arg2 h, step1_main_arg3 h, step1_main_arg5 h, step1_main_arg7 h, step1_main_arg8 h, step1_main_arg9 h, step1_main_arg10 h, step1_main_arg11 h, step1_main_arg12 h, step1_main_arg13 h, step1_main_arg14 h, step1_main_arg15 h, step1_main_arg16 h, step1_main_v6 h, step1_main_v39 h⟩

set_option maxHeartbeats 4000000 in
theorem step2_main_arg0 {V W : Valuation τ sig (Elt F)} (h : Inv2 V W) :
    after (L2 (F := F)) W (Proc.devRef .tc main_arg0) = V (Proc.devRef .tc main_arg0) := by
  fold_results
  exact h.arg0
set_option maxHeartbeats 4000000 in
theorem step2_main_arg1 {V W : Valuation τ sig (Elt F)} (h : Inv2 V W) :
    after (L2 (F := F)) W (Proc.devRef .tc main_arg1) = V (Proc.devRef .tc main_arg1) := by
  fold_results
  exact h.arg1
set_option maxHeartbeats 4000000 in
theorem step2_main_arg2 {V W : Valuation τ sig (Elt F)} (h : Inv2 V W) :
    after (L2 (F := F)) W (Proc.devRef .tc main_arg2) = V (Proc.devRef .tc main_arg2) := by
  fold_results
  exact h.arg2
set_option maxHeartbeats 4000000 in
theorem step2_main_arg3 {V W : Valuation τ sig (Elt F)} (h : Inv2 V W) :
    after (L2 (F := F)) W (Proc.devRef .tc main_arg3) = V (Proc.devRef .tc main_arg3) := by
  fold_results
  exact h.arg3
set_option maxHeartbeats 4000000 in
theorem step2_main_arg5 {V W : Valuation τ sig (Elt F)} (h : Inv2 V W) :
    after (L2 (F := F)) W (Proc.devRef .tc main_arg5) = V (Proc.devRef .tc main_arg5) := by
  fold_results
  exact h.arg5
set_option maxHeartbeats 4000000 in
theorem step2_main_arg7 {V W : Valuation τ sig (Elt F)} (h : Inv2 V W) :
    after (L2 (F := F)) W (Proc.devRef .tc main_arg7) = V (Proc.devRef .tc main_arg7) := by
  fold_results
  exact h.arg7
set_option maxHeartbeats 4000000 in
theorem step2_main_arg8 {V W : Valuation τ sig (Elt F)} (h : Inv2 V W) :
    after (L2 (F := F)) W (Proc.devRef .tc main_arg8) = V (Proc.devRef .tc main_arg8) := by
  fold_results
  exact h.arg8
set_option maxHeartbeats 4000000 in
theorem step2_main_arg9 {V W : Valuation τ sig (Elt F)} (h : Inv2 V W) :
    after (L2 (F := F)) W (Proc.devRef .tc main_arg9) = V (Proc.devRef .tc main_arg9) := by
  fold_results
  exact h.arg9
set_option maxHeartbeats 4000000 in
theorem step2_main_arg10 {V W : Valuation τ sig (Elt F)} (h : Inv2 V W) :
    after (L2 (F := F)) W (Proc.devRef .tc main_arg10) = V (Proc.devRef .tc main_arg10) := by
  fold_results
  exact h.arg10
set_option maxHeartbeats 4000000 in
theorem step2_main_arg12 {V W : Valuation τ sig (Elt F)} (h : Inv2 V W) :
    after (L2 (F := F)) W (Proc.devRef .tc main_arg12) = V (Proc.devRef .tc main_arg12) := by
  fold_results
  exact h.arg12
set_option maxHeartbeats 4000000 in
theorem step2_main_arg13 {V W : Valuation τ sig (Elt F)} (h : Inv2 V W) :
    after (L2 (F := F)) W (Proc.devRef .tc main_arg13) = V (Proc.devRef .tc main_arg13) := by
  fold_results
  exact h.arg13
set_option maxHeartbeats 4000000 in
theorem step2_main_arg14 {V W : Valuation τ sig (Elt F)} (h : Inv2 V W) :
    after (L2 (F := F)) W (Proc.devRef .tc main_arg14) = V (Proc.devRef .tc main_arg14) := by
  fold_results
  exact h.arg14
set_option maxHeartbeats 4000000 in
theorem step2_main_arg15 {V W : Valuation τ sig (Elt F)} (h : Inv2 V W) :
    after (L2 (F := F)) W (Proc.devRef .tc main_arg15) = V (Proc.devRef .tc main_arg15) := by
  fold_results
  exact h.arg15
set_option maxHeartbeats 4000000 in
theorem step2_main_arg16 {V W : Valuation τ sig (Elt F)} (h : Inv2 V W) :
    after (L2 (F := F)) W (Proc.devRef .tc main_arg16) = V (Proc.devRef .tc main_arg16) := by
  fold_results
  exact h.arg16
set_option maxHeartbeats 4000000 in
theorem step2_main_v6 {V W : Valuation τ sig (Elt F)} (h : Inv2 V W) :
    after (L2 (F := F)) W (Proc.devRef .tc main_v6) = Read.val_main_v6 (F := F) (V (Proc.devRef .tc main_arg2)) (V (Proc.devRef .tc main_arg3)) := by
  fold_results
  exact h.v6
set_option maxHeartbeats 4000000 in
theorem step2_main_v39 {V W : Valuation τ sig (Elt F)} (h : Inv2 V W) :
    after (L2 (F := F)) W (Proc.devRef .tc main_v39) = Read.val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) := by
  fold_results
  exact h.v39
set_option maxHeartbeats 4000000 in
theorem step2_main_v46 {V W : Valuation τ sig (Elt F)} (h : Inv2 V W) :
    after (L2 (F := F)) W (Proc.devRef .tc main_v46) = Read.val_main_v46 (F := F) (V (Proc.devRef .tc main_arg2)) (V (Proc.devRef .tc main_arg7)) := by
  fold_results
  fold_results_rw
  rw [h.arg2, h.arg7]
  first | done | rfl
set_option maxHeartbeats 4000000 in
theorem step2_main_v60 {V W : Valuation τ sig (Elt F)} (h : Inv2 V W) :
    after (L2 (F := F)) W (Proc.devRef .tc main_v60) = Read.val_main_v60 (F := F) (V (Proc.devRef .tc main_arg1)) (V (Proc.devRef .tc main_arg2)) (V (Proc.devRef .tc main_arg7)) (V (Proc.devRef .tc main_arg9)) (V (Proc.devRef .tc main_arg11)) := by
  fold_results
  fold_results_rw
  rw [h.arg9, h.arg1, h.arg2, h.arg7, h.arg11]
  first | done | rfl
theorem step2 {V W : Valuation τ sig (Elt F)} (h : Inv2 V W) : Inv3 V (after (L2 (F := F)) W) :=
  ⟨step2_main_arg0 h, step2_main_arg1 h, step2_main_arg2 h, step2_main_arg3 h, step2_main_arg5 h, step2_main_arg7 h, step2_main_arg8 h, step2_main_arg9 h, step2_main_arg10 h, step2_main_arg12 h, step2_main_arg13 h, step2_main_arg14 h, step2_main_arg15 h, step2_main_arg16 h, step2_main_v6 h, step2_main_v39 h, step2_main_v46 h, step2_main_v60 h⟩

set_option maxHeartbeats 4000000 in
theorem step3_main_arg0 {V W : Valuation τ sig (Elt F)} (h : Inv3 V W) :
    after (L3 (F := F)) W (Proc.devRef .tc main_arg0) = V (Proc.devRef .tc main_arg0) := by
  fold_results
  exact h.arg0
set_option maxHeartbeats 4000000 in
theorem step3_main_arg1 {V W : Valuation τ sig (Elt F)} (h : Inv3 V W) :
    after (L3 (F := F)) W (Proc.devRef .tc main_arg1) = V (Proc.devRef .tc main_arg1) := by
  fold_results
  exact h.arg1
set_option maxHeartbeats 4000000 in
theorem step3_main_arg2 {V W : Valuation τ sig (Elt F)} (h : Inv3 V W) :
    after (L3 (F := F)) W (Proc.devRef .tc main_arg2) = V (Proc.devRef .tc main_arg2) := by
  fold_results
  exact h.arg2
set_option maxHeartbeats 4000000 in
theorem step3_main_arg3 {V W : Valuation τ sig (Elt F)} (h : Inv3 V W) :
    after (L3 (F := F)) W (Proc.devRef .tc main_arg3) = V (Proc.devRef .tc main_arg3) := by
  fold_results
  exact h.arg3
set_option maxHeartbeats 4000000 in
theorem step3_main_arg5 {V W : Valuation τ sig (Elt F)} (h : Inv3 V W) :
    after (L3 (F := F)) W (Proc.devRef .tc main_arg5) = V (Proc.devRef .tc main_arg5) := by
  fold_results
  exact h.arg5
set_option maxHeartbeats 4000000 in
theorem step3_main_arg7 {V W : Valuation τ sig (Elt F)} (h : Inv3 V W) :
    after (L3 (F := F)) W (Proc.devRef .tc main_arg7) = V (Proc.devRef .tc main_arg7) := by
  fold_results
  exact h.arg7
set_option maxHeartbeats 4000000 in
theorem step3_main_arg9 {V W : Valuation τ sig (Elt F)} (h : Inv3 V W) :
    after (L3 (F := F)) W (Proc.devRef .tc main_arg9) = V (Proc.devRef .tc main_arg9) := by
  fold_results
  exact h.arg9
set_option maxHeartbeats 4000000 in
theorem step3_main_arg13 {V W : Valuation τ sig (Elt F)} (h : Inv3 V W) :
    after (L3 (F := F)) W (Proc.devRef .tc main_arg13) = V (Proc.devRef .tc main_arg13) := by
  fold_results
  exact h.arg13
set_option maxHeartbeats 4000000 in
theorem step3_main_arg14 {V W : Valuation τ sig (Elt F)} (h : Inv3 V W) :
    after (L3 (F := F)) W (Proc.devRef .tc main_arg14) = V (Proc.devRef .tc main_arg14) := by
  fold_results
  exact h.arg14
set_option maxHeartbeats 4000000 in
theorem step3_main_arg15 {V W : Valuation τ sig (Elt F)} (h : Inv3 V W) :
    after (L3 (F := F)) W (Proc.devRef .tc main_arg15) = V (Proc.devRef .tc main_arg15) := by
  fold_results
  exact h.arg15
set_option maxHeartbeats 4000000 in
theorem step3_main_arg16 {V W : Valuation τ sig (Elt F)} (h : Inv3 V W) :
    after (L3 (F := F)) W (Proc.devRef .tc main_arg16) = V (Proc.devRef .tc main_arg16) := by
  fold_results
  exact h.arg16
set_option maxHeartbeats 4000000 in
theorem step3_main_v6 {V W : Valuation τ sig (Elt F)} (h : Inv3 V W) :
    after (L3 (F := F)) W (Proc.devRef .tc main_v6) = Read.val_main_v6 (F := F) (V (Proc.devRef .tc main_arg2)) (V (Proc.devRef .tc main_arg3)) := by
  fold_results
  exact h.v6
set_option maxHeartbeats 4000000 in
theorem step3_main_v46 {V W : Valuation τ sig (Elt F)} (h : Inv3 V W) :
    after (L3 (F := F)) W (Proc.devRef .tc main_v46) = Read.val_main_v46 (F := F) (V (Proc.devRef .tc main_arg2)) (V (Proc.devRef .tc main_arg7)) := by
  fold_results
  exact h.v46
set_option maxHeartbeats 4000000 in
theorem step3_main_v80 {V W : Valuation τ sig (Elt F)} (h : Inv3 V W) :
    after (L3 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  fold_results_rw
  rw [h.v39, h.arg0, h.v46, h.arg8, h.arg10, h.v60, h.arg12]
  first | done | rfl
theorem step3 {V W : Valuation τ sig (Elt F)} (h : Inv3 V W) : Inv4 V (after (L3 (F := F)) W) :=
  ⟨step3_main_arg0 h, step3_main_arg1 h, step3_main_arg2 h, step3_main_arg3 h, step3_main_arg5 h, step3_main_arg7 h, step3_main_arg9 h, step3_main_arg13 h, step3_main_arg14 h, step3_main_arg15 h, step3_main_arg16 h, step3_main_v6 h, step3_main_v46 h, step3_main_v80 h⟩

set_option maxHeartbeats 4000000 in
theorem step4_main_arg0 {V W : Valuation τ sig (Elt F)} (h : Inv4 V W) :
    after (L4 (F := F)) W (Proc.devRef .tc main_arg0) = V (Proc.devRef .tc main_arg0) := by
  fold_results
  exact h.arg0
set_option maxHeartbeats 4000000 in
theorem step4_main_arg1 {V W : Valuation τ sig (Elt F)} (h : Inv4 V W) :
    after (L4 (F := F)) W (Proc.devRef .tc main_arg1) = V (Proc.devRef .tc main_arg1) := by
  fold_results
  exact h.arg1
set_option maxHeartbeats 4000000 in
theorem step4_main_arg2 {V W : Valuation τ sig (Elt F)} (h : Inv4 V W) :
    after (L4 (F := F)) W (Proc.devRef .tc main_arg2) = V (Proc.devRef .tc main_arg2) := by
  fold_results
  exact h.arg2
set_option maxHeartbeats 4000000 in
theorem step4_main_arg13 {V W : Valuation τ sig (Elt F)} (h : Inv4 V W) :
    after (L4 (F := F)) W (Proc.devRef .tc main_arg13) = V (Proc.devRef .tc main_arg13) := by
  fold_results
  exact h.arg13
set_option maxHeartbeats 4000000 in
theorem step4_main_arg14 {V W : Valuation τ sig (Elt F)} (h : Inv4 V W) :
    after (L4 (F := F)) W (Proc.devRef .tc main_arg14) = V (Proc.devRef .tc main_arg14) := by
  fold_results
  exact h.arg14
set_option maxHeartbeats 4000000 in
theorem step4_main_arg15 {V W : Valuation τ sig (Elt F)} (h : Inv4 V W) :
    after (L4 (F := F)) W (Proc.devRef .tc main_arg15) = V (Proc.devRef .tc main_arg15) := by
  fold_results
  exact h.arg15
set_option maxHeartbeats 4000000 in
theorem step4_main_arg16 {V W : Valuation τ sig (Elt F)} (h : Inv4 V W) :
    after (L4 (F := F)) W (Proc.devRef .tc main_arg16) = V (Proc.devRef .tc main_arg16) := by
  fold_results
  exact h.arg16
set_option maxHeartbeats 4000000 in
theorem step4_main_v80 {V W : Valuation τ sig (Elt F)} (h : Inv4 V W) :
    after (L4 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v80
set_option maxHeartbeats 4000000 in
theorem step4_main_v81 {V W : Valuation τ sig (Elt F)} (h : Inv4 V W) :
    after (L4 (F := F)) W (Proc.devRef .tc main_v81) = Read.val_main_v81 (F := F) (V (Proc.devRef .tc main_arg3)) (V (Proc.devRef .tc main_arg7)) := by
  fold_results
  fold_results_rw
  rw [h.arg3, h.arg7]
  first | done | rfl
set_option maxHeartbeats 4000000 in
theorem step4_main_v82 {V W : Valuation τ sig (Elt F)} (h : Inv4 V W) :
    after (L4 (F := F)) W (Proc.devRef .tc main_v82) = Read.val_main_v82 (F := F) (V (Proc.devRef .tc main_arg5)) (V (Proc.devRef .tc main_arg9)) := by
  fold_results
  fold_results_rw
  rw [h.arg5, h.arg9]
  first | done | rfl
set_option maxHeartbeats 4000000 in
theorem step4_main_v83 {V W : Valuation τ sig (Elt F)} (h : Inv4 V W) :
    after (L4 (F := F)) W (Proc.devRef .tc main_v83) = Read.val_main_v83 (F := F) (V (Proc.devRef .tc main_arg2)) (V (Proc.devRef .tc main_arg3)) (V (Proc.devRef .tc main_arg7)) := by
  fold_results
  fold_results_rw
  rw [h.v6, h.v46]
  first | done | rfl
set_option maxHeartbeats 4000000 in
theorem step4_main_v94 {V W : Valuation τ sig (Elt F)} (h : Inv4 V W) :
    after (L4 (F := F)) W (Proc.devRef .tc main_v94) = Read.val_main_v94 (F := F) (V (Proc.devRef .tc main_arg3)) (V (Proc.devRef .tc main_arg5)) (V (Proc.devRef .tc main_arg7)) (V (Proc.devRef .tc main_arg9)) := by
  fold_results
  fold_results_rw
  rw [h.arg5, h.arg9, h.arg3, h.arg7]
  first | done | rfl
set_option maxHeartbeats 4000000 in
theorem step4_main_v95 {V W : Valuation τ sig (Elt F)} (h : Inv4 V W) :
    after (L4 (F := F)) W (Proc.devRef .tc main_v95) = Read.val_main_v95 (F := F) := by
  fold_results
  fold_results_rw
  first | done | rfl
set_option maxHeartbeats 4000000 in
theorem step4_main_c_18 {V W : Valuation τ sig (Elt F)} (h : Inv4 V W) :
    after (L4 (F := F)) W (Proc.devRef .tc main_c_18) = Read.val_main_c_18 (F := F) := by
  fold_results
  fold_results_rw
  first | done | rfl
theorem step4 {V W : Valuation τ sig (Elt F)} (h : Inv4 V W) : Inv5 V (after (L4 (F := F)) W) :=
  ⟨step4_main_arg0 h, step4_main_arg1 h, step4_main_arg2 h, step4_main_arg13 h, step4_main_arg14 h, step4_main_arg15 h, step4_main_arg16 h, step4_main_v80 h, step4_main_v81 h, step4_main_v82 h, step4_main_v83 h, step4_main_v94 h, step4_main_v95 h, step4_main_c_18 h⟩

set_option maxHeartbeats 4000000 in
theorem step5_main_arg0 {V W : Valuation τ sig (Elt F)} (h : Inv5 V W) :
    after (L5 (F := F)) W (Proc.devRef .tc main_arg0) = V (Proc.devRef .tc main_arg0) := by
  fold_results
  exact h.arg0
set_option maxHeartbeats 4000000 in
theorem step5_main_arg1 {V W : Valuation τ sig (Elt F)} (h : Inv5 V W) :
    after (L5 (F := F)) W (Proc.devRef .tc main_arg1) = V (Proc.devRef .tc main_arg1) := by
  fold_results
  exact h.arg1
set_option maxHeartbeats 4000000 in
theorem step5_main_arg2 {V W : Valuation τ sig (Elt F)} (h : Inv5 V W) :
    after (L5 (F := F)) W (Proc.devRef .tc main_arg2) = V (Proc.devRef .tc main_arg2) := by
  fold_results
  exact h.arg2
set_option maxHeartbeats 4000000 in
theorem step5_main_arg13 {V W : Valuation τ sig (Elt F)} (h : Inv5 V W) :
    after (L5 (F := F)) W (Proc.devRef .tc main_arg13) = V (Proc.devRef .tc main_arg13) := by
  fold_results
  exact h.arg13
set_option maxHeartbeats 4000000 in
theorem step5_main_arg14 {V W : Valuation τ sig (Elt F)} (h : Inv5 V W) :
    after (L5 (F := F)) W (Proc.devRef .tc main_arg14) = V (Proc.devRef .tc main_arg14) := by
  fold_results
  exact h.arg14
set_option maxHeartbeats 4000000 in
theorem step5_main_arg15 {V W : Valuation τ sig (Elt F)} (h : Inv5 V W) :
    after (L5 (F := F)) W (Proc.devRef .tc main_arg15) = V (Proc.devRef .tc main_arg15) := by
  fold_results
  exact h.arg15
set_option maxHeartbeats 4000000 in
theorem step5_main_arg16 {V W : Valuation τ sig (Elt F)} (h : Inv5 V W) :
    after (L5 (F := F)) W (Proc.devRef .tc main_arg16) = V (Proc.devRef .tc main_arg16) := by
  fold_results
  exact h.arg16
set_option maxHeartbeats 4000000 in
theorem step5_main_v80 {V W : Valuation τ sig (Elt F)} (h : Inv5 V W) :
    after (L5 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v80
set_option maxHeartbeats 4000000 in
theorem step5_main_v81 {V W : Valuation τ sig (Elt F)} (h : Inv5 V W) :
    after (L5 (F := F)) W (Proc.devRef .tc main_v81) = Read.val_main_v81 (F := F) (V (Proc.devRef .tc main_arg3)) (V (Proc.devRef .tc main_arg7)) := by
  fold_results
  exact h.v81
set_option maxHeartbeats 4000000 in
theorem step5_main_v82 {V W : Valuation τ sig (Elt F)} (h : Inv5 V W) :
    after (L5 (F := F)) W (Proc.devRef .tc main_v82) = Read.val_main_v82 (F := F) (V (Proc.devRef .tc main_arg5)) (V (Proc.devRef .tc main_arg9)) := by
  fold_results
  exact h.v82
set_option maxHeartbeats 4000000 in
theorem step5_main_v83 {V W : Valuation τ sig (Elt F)} (h : Inv5 V W) :
    after (L5 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step5_main_v94 {V W : Valuation τ sig (Elt F)} (h : Inv5 V W) :
    after (L5 (F := F)) W (Proc.devRef .tc main_v94) = Read.val_main_v94 (F := F) (V (Proc.devRef .tc main_arg3)) (V (Proc.devRef .tc main_arg5)) (V (Proc.devRef .tc main_arg7)) (V (Proc.devRef .tc main_arg9)) := by
  fold_results
  exact h.v94
set_option maxHeartbeats 4000000 in
theorem step5_main_v95 {V W : Valuation τ sig (Elt F)} (h : Inv5 V W) :
    after (L5 (F := F)) W (Proc.devRef .tc main_v95) = Read.val_main_v95 (F := F) := by
  fold_results
  exact h.v95
set_option maxHeartbeats 4000000 in
theorem step5_main_call0_v0 {V W : Valuation τ sig (Elt F)} (h : Inv5 V W) :
    after (L5 (F := F)) W (Proc.devRef .tc main_call0_v0) = Read.val_main_call0_v0 (F := F) := by
  fold_results
  fold_results_rw
  rw [h.c_18]
  rw [ofBuf_main_c_18, toBuf_main_call0_v0]
  first | done | rfl
theorem step5 {V W : Valuation τ sig (Elt F)} (h : Inv5 V W) : Inv6 V (after (L5 (F := F)) W) :=
  ⟨step5_main_arg0 h, step5_main_arg1 h, step5_main_arg2 h, step5_main_arg13 h, step5_main_arg14 h, step5_main_arg15 h, step5_main_arg16 h, step5_main_v80 h, step5_main_v81 h, step5_main_v82 h, step5_main_v83 h, step5_main_v94 h, step5_main_v95 h, step5_main_call0_v0 h⟩

set_option maxHeartbeats 4000000 in
theorem step6_main_arg0 {V W : Valuation τ sig (Elt F)} (h : Inv6 V W) :
    after (L6 (F := F)) W (Proc.devRef .tc main_arg0) = V (Proc.devRef .tc main_arg0) := by
  fold_results
  exact h.arg0
set_option maxHeartbeats 4000000 in
theorem step6_main_arg1 {V W : Valuation τ sig (Elt F)} (h : Inv6 V W) :
    after (L6 (F := F)) W (Proc.devRef .tc main_arg1) = V (Proc.devRef .tc main_arg1) := by
  fold_results
  exact h.arg1
set_option maxHeartbeats 4000000 in
theorem step6_main_arg2 {V W : Valuation τ sig (Elt F)} (h : Inv6 V W) :
    after (L6 (F := F)) W (Proc.devRef .tc main_arg2) = V (Proc.devRef .tc main_arg2) := by
  fold_results
  exact h.arg2
set_option maxHeartbeats 4000000 in
theorem step6_main_arg13 {V W : Valuation τ sig (Elt F)} (h : Inv6 V W) :
    after (L6 (F := F)) W (Proc.devRef .tc main_arg13) = V (Proc.devRef .tc main_arg13) := by
  fold_results
  exact h.arg13
set_option maxHeartbeats 4000000 in
theorem step6_main_arg14 {V W : Valuation τ sig (Elt F)} (h : Inv6 V W) :
    after (L6 (F := F)) W (Proc.devRef .tc main_arg14) = V (Proc.devRef .tc main_arg14) := by
  fold_results
  exact h.arg14
set_option maxHeartbeats 4000000 in
theorem step6_main_arg15 {V W : Valuation τ sig (Elt F)} (h : Inv6 V W) :
    after (L6 (F := F)) W (Proc.devRef .tc main_arg15) = V (Proc.devRef .tc main_arg15) := by
  fold_results
  exact h.arg15
set_option maxHeartbeats 4000000 in
theorem step6_main_arg16 {V W : Valuation τ sig (Elt F)} (h : Inv6 V W) :
    after (L6 (F := F)) W (Proc.devRef .tc main_arg16) = V (Proc.devRef .tc main_arg16) := by
  fold_results
  exact h.arg16
set_option maxHeartbeats 4000000 in
theorem step6_main_v80 {V W : Valuation τ sig (Elt F)} (h : Inv6 V W) :
    after (L6 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v80
set_option maxHeartbeats 4000000 in
theorem step6_main_v81 {V W : Valuation τ sig (Elt F)} (h : Inv6 V W) :
    after (L6 (F := F)) W (Proc.devRef .tc main_v81) = Read.val_main_v81 (F := F) (V (Proc.devRef .tc main_arg3)) (V (Proc.devRef .tc main_arg7)) := by
  fold_results
  exact h.v81
set_option maxHeartbeats 4000000 in
theorem step6_main_v82 {V W : Valuation τ sig (Elt F)} (h : Inv6 V W) :
    after (L6 (F := F)) W (Proc.devRef .tc main_v82) = Read.val_main_v82 (F := F) (V (Proc.devRef .tc main_arg5)) (V (Proc.devRef .tc main_arg9)) := by
  fold_results
  exact h.v82
set_option maxHeartbeats 4000000 in
theorem step6_main_v83 {V W : Valuation τ sig (Elt F)} (h : Inv6 V W) :
    after (L6 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step6_main_v96 {V W : Valuation τ sig (Elt F)} (h : Inv6 V W) :
    after (L6 (F := F)) W (Proc.devRef .tc main_v96) = Read.val_main_v96 (F := F) (V (Proc.devRef .tc main_arg3)) (V (Proc.devRef .tc main_arg5)) (V (Proc.devRef .tc main_arg7)) (V (Proc.devRef .tc main_arg9)) := by
  fold_results
  fold_results_rw
  rw [h.v94, h.v95, h.call0_v0]
  rw [ofBuf_main_v94, ofBuf_main_v95, ofBuf_main_call0_v0, toBuf_main_v96]
  first | done | rfl
theorem step6 {V W : Valuation τ sig (Elt F)} (h : Inv6 V W) : Inv7 V (after (L6 (F := F)) W) :=
  ⟨step6_main_arg0 h, step6_main_arg1 h, step6_main_arg2 h, step6_main_arg13 h, step6_main_arg14 h, step6_main_arg15 h, step6_main_arg16 h, step6_main_v80 h, step6_main_v81 h, step6_main_v82 h, step6_main_v83 h, step6_main_v96 h⟩

set_option maxHeartbeats 4000000 in
theorem step7_main_arg0 {V W : Valuation τ sig (Elt F)} (h : Inv7 V W) :
    after (L7 (F := F)) W (Proc.devRef .tc main_arg0) = V (Proc.devRef .tc main_arg0) := by
  fold_results
  exact h.arg0
set_option maxHeartbeats 4000000 in
theorem step7_main_arg1 {V W : Valuation τ sig (Elt F)} (h : Inv7 V W) :
    after (L7 (F := F)) W (Proc.devRef .tc main_arg1) = V (Proc.devRef .tc main_arg1) := by
  fold_results
  exact h.arg1
set_option maxHeartbeats 4000000 in
theorem step7_main_arg2 {V W : Valuation τ sig (Elt F)} (h : Inv7 V W) :
    after (L7 (F := F)) W (Proc.devRef .tc main_arg2) = V (Proc.devRef .tc main_arg2) := by
  fold_results
  exact h.arg2
set_option maxHeartbeats 4000000 in
theorem step7_main_arg13 {V W : Valuation τ sig (Elt F)} (h : Inv7 V W) :
    after (L7 (F := F)) W (Proc.devRef .tc main_arg13) = V (Proc.devRef .tc main_arg13) := by
  fold_results
  exact h.arg13
set_option maxHeartbeats 4000000 in
theorem step7_main_arg14 {V W : Valuation τ sig (Elt F)} (h : Inv7 V W) :
    after (L7 (F := F)) W (Proc.devRef .tc main_arg14) = V (Proc.devRef .tc main_arg14) := by
  fold_results
  exact h.arg14
set_option maxHeartbeats 4000000 in
theorem step7_main_arg15 {V W : Valuation τ sig (Elt F)} (h : Inv7 V W) :
    after (L7 (F := F)) W (Proc.devRef .tc main_arg15) = V (Proc.devRef .tc main_arg15) := by
  fold_results
  exact h.arg15
set_option maxHeartbeats 4000000 in
theorem step7_main_arg16 {V W : Valuation τ sig (Elt F)} (h : Inv7 V W) :
    after (L7 (F := F)) W (Proc.devRef .tc main_arg16) = V (Proc.devRef .tc main_arg16) := by
  fold_results
  exact h.arg16
set_option maxHeartbeats 4000000 in
theorem step7_main_v80 {V W : Valuation τ sig (Elt F)} (h : Inv7 V W) :
    after (L7 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v80
set_option maxHeartbeats 4000000 in
theorem step7_main_v82 {V W : Valuation τ sig (Elt F)} (h : Inv7 V W) :
    after (L7 (F := F)) W (Proc.devRef .tc main_v82) = Read.val_main_v82 (F := F) (V (Proc.devRef .tc main_arg5)) (V (Proc.devRef .tc main_arg9)) := by
  fold_results
  exact h.v82
set_option maxHeartbeats 4000000 in
theorem step7_main_v83 {V W : Valuation τ sig (Elt F)} (h : Inv7 V W) :
    after (L7 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step7_main_v99 {V W : Valuation τ sig (Elt F)} (h : Inv7 V W) :
    after (L7 (F := F)) W (Proc.devRef .tc main_v99) = Read.val_main_v99 (F := F) (V (Proc.devRef .tc main_arg3)) (V (Proc.devRef .tc main_arg5)) (V (Proc.devRef .tc main_arg7)) (V (Proc.devRef .tc main_arg9)) := by
  fold_results
  fold_results_rw
  rw [h.v81, h.v96]
  first | done | rfl
set_option maxHeartbeats 4000000 in
theorem step7_main_v102 {V W : Valuation τ sig (Elt F)} (h : Inv7 V W) :
    after (L7 (F := F)) W (Proc.devRef .tc main_v102) = Read.val_main_v102 (F := F) (V (Proc.devRef .tc main_arg3)) (V (Proc.devRef .tc main_arg5)) (V (Proc.devRef .tc main_arg7)) (V (Proc.devRef .tc main_arg9)) := by
  fold_results
  fold_results_rw
  rw [h.v81, h.v96]
  first | done | rfl
set_option maxHeartbeats 4000000 in
theorem step7_main_c_21 {V W : Valuation τ sig (Elt F)} (h : Inv7 V W) :
    after (L7 (F := F)) W (Proc.devRef .tc main_c_21) = Read.val_main_c_21 (F := F) := by
  fold_results
  fold_results_rw
  first | done | rfl
theorem step7 {V W : Valuation τ sig (Elt F)} (h : Inv7 V W) : Inv8 V (after (L7 (F := F)) W) :=
  ⟨step7_main_arg0 h, step7_main_arg1 h, step7_main_arg2 h, step7_main_arg13 h, step7_main_arg14 h, step7_main_arg15 h, step7_main_arg16 h, step7_main_v80 h, step7_main_v82 h, step7_main_v83 h, step7_main_v99 h, step7_main_v102 h, step7_main_c_21 h⟩

set_option maxHeartbeats 4000000 in
theorem step8_main_arg0 {V W : Valuation τ sig (Elt F)} (h : Inv8 V W) :
    after (L8 (F := F)) W (Proc.devRef .tc main_arg0) = V (Proc.devRef .tc main_arg0) := by
  fold_results
  exact h.arg0
set_option maxHeartbeats 4000000 in
theorem step8_main_arg1 {V W : Valuation τ sig (Elt F)} (h : Inv8 V W) :
    after (L8 (F := F)) W (Proc.devRef .tc main_arg1) = V (Proc.devRef .tc main_arg1) := by
  fold_results
  exact h.arg1
set_option maxHeartbeats 4000000 in
theorem step8_main_arg2 {V W : Valuation τ sig (Elt F)} (h : Inv8 V W) :
    after (L8 (F := F)) W (Proc.devRef .tc main_arg2) = V (Proc.devRef .tc main_arg2) := by
  fold_results
  exact h.arg2
set_option maxHeartbeats 4000000 in
theorem step8_main_arg13 {V W : Valuation τ sig (Elt F)} (h : Inv8 V W) :
    after (L8 (F := F)) W (Proc.devRef .tc main_arg13) = V (Proc.devRef .tc main_arg13) := by
  fold_results
  exact h.arg13
set_option maxHeartbeats 4000000 in
theorem step8_main_arg14 {V W : Valuation τ sig (Elt F)} (h : Inv8 V W) :
    after (L8 (F := F)) W (Proc.devRef .tc main_arg14) = V (Proc.devRef .tc main_arg14) := by
  fold_results
  exact h.arg14
set_option maxHeartbeats 4000000 in
theorem step8_main_arg15 {V W : Valuation τ sig (Elt F)} (h : Inv8 V W) :
    after (L8 (F := F)) W (Proc.devRef .tc main_arg15) = V (Proc.devRef .tc main_arg15) := by
  fold_results
  exact h.arg15
set_option maxHeartbeats 4000000 in
theorem step8_main_arg16 {V W : Valuation τ sig (Elt F)} (h : Inv8 V W) :
    after (L8 (F := F)) W (Proc.devRef .tc main_arg16) = V (Proc.devRef .tc main_arg16) := by
  fold_results
  exact h.arg16
set_option maxHeartbeats 4000000 in
theorem step8_main_v80 {V W : Valuation τ sig (Elt F)} (h : Inv8 V W) :
    after (L8 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v80
set_option maxHeartbeats 4000000 in
theorem step8_main_v82 {V W : Valuation τ sig (Elt F)} (h : Inv8 V W) :
    after (L8 (F := F)) W (Proc.devRef .tc main_v82) = Read.val_main_v82 (F := F) (V (Proc.devRef .tc main_arg5)) (V (Proc.devRef .tc main_arg9)) := by
  fold_results
  exact h.v82
set_option maxHeartbeats 4000000 in
theorem step8_main_v83 {V W : Valuation τ sig (Elt F)} (h : Inv8 V W) :
    after (L8 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step8_main_v99 {V W : Valuation τ sig (Elt F)} (h : Inv8 V W) :
    after (L8 (F := F)) W (Proc.devRef .tc main_v99) = Read.val_main_v99 (F := F) (V (Proc.devRef .tc main_arg3)) (V (Proc.devRef .tc main_arg5)) (V (Proc.devRef .tc main_arg7)) (V (Proc.devRef .tc main_arg9)) := by
  fold_results
  exact h.v99
set_option maxHeartbeats 4000000 in
theorem step8_main_v102 {V W : Valuation τ sig (Elt F)} (h : Inv8 V W) :
    after (L8 (F := F)) W (Proc.devRef .tc main_v102) = Read.val_main_v102 (F := F) (V (Proc.devRef .tc main_arg3)) (V (Proc.devRef .tc main_arg5)) (V (Proc.devRef .tc main_arg7)) (V (Proc.devRef .tc main_arg9)) := by
  fold_results
  exact h.v102
set_option maxHeartbeats 4000000 in
theorem step8_main_call1_v0 {V W : Valuation τ sig (Elt F)} (h : Inv8 V W) :
    after (L8 (F := F)) W (Proc.devRef .tc main_call1_v0) = Read.val_main_call1_v0 (F := F) := by
  fold_results
  fold_results_rw
  rw [h.c_21]
  rw [ofBuf_main_c_21, toBuf_main_call1_v0]
  first | done | rfl
theorem step8 {V W : Valuation τ sig (Elt F)} (h : Inv8 V W) : Inv9 V (after (L8 (F := F)) W) :=
  ⟨step8_main_arg0 h, step8_main_arg1 h, step8_main_arg2 h, step8_main_arg13 h, step8_main_arg14 h, step8_main_arg15 h, step8_main_arg16 h, step8_main_v80 h, step8_main_v82 h, step8_main_v83 h, step8_main_v99 h, step8_main_v102 h, step8_main_call1_v0 h⟩

set_option maxHeartbeats 4000000 in
theorem step9_main_arg0 {V W : Valuation τ sig (Elt F)} (h : Inv9 V W) :
    after (L9 (F := F)) W (Proc.devRef .tc main_arg0) = V (Proc.devRef .tc main_arg0) := by
  fold_results
  exact h.arg0
set_option maxHeartbeats 4000000 in
theorem step9_main_arg1 {V W : Valuation τ sig (Elt F)} (h : Inv9 V W) :
    after (L9 (F := F)) W (Proc.devRef .tc main_arg1) = V (Proc.devRef .tc main_arg1) := by
  fold_results
  exact h.arg1
set_option maxHeartbeats 4000000 in
theorem step9_main_arg2 {V W : Valuation τ sig (Elt F)} (h : Inv9 V W) :
    after (L9 (F := F)) W (Proc.devRef .tc main_arg2) = V (Proc.devRef .tc main_arg2) := by
  fold_results
  exact h.arg2
set_option maxHeartbeats 4000000 in
theorem step9_main_arg13 {V W : Valuation τ sig (Elt F)} (h : Inv9 V W) :
    after (L9 (F := F)) W (Proc.devRef .tc main_arg13) = V (Proc.devRef .tc main_arg13) := by
  fold_results
  exact h.arg13
set_option maxHeartbeats 4000000 in
theorem step9_main_arg14 {V W : Valuation τ sig (Elt F)} (h : Inv9 V W) :
    after (L9 (F := F)) W (Proc.devRef .tc main_arg14) = V (Proc.devRef .tc main_arg14) := by
  fold_results
  exact h.arg14
set_option maxHeartbeats 4000000 in
theorem step9_main_arg15 {V W : Valuation τ sig (Elt F)} (h : Inv9 V W) :
    after (L9 (F := F)) W (Proc.devRef .tc main_arg15) = V (Proc.devRef .tc main_arg15) := by
  fold_results
  exact h.arg15
set_option maxHeartbeats 4000000 in
theorem step9_main_arg16 {V W : Valuation τ sig (Elt F)} (h : Inv9 V W) :
    after (L9 (F := F)) W (Proc.devRef .tc main_arg16) = V (Proc.devRef .tc main_arg16) := by
  fold_results
  exact h.arg16
set_option maxHeartbeats 4000000 in
theorem step9_main_v80 {V W : Valuation τ sig (Elt F)} (h : Inv9 V W) :
    after (L9 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v80
set_option maxHeartbeats 4000000 in
theorem step9_main_v82 {V W : Valuation τ sig (Elt F)} (h : Inv9 V W) :
    after (L9 (F := F)) W (Proc.devRef .tc main_v82) = Read.val_main_v82 (F := F) (V (Proc.devRef .tc main_arg5)) (V (Proc.devRef .tc main_arg9)) := by
  fold_results
  exact h.v82
set_option maxHeartbeats 4000000 in
theorem step9_main_v83 {V W : Valuation τ sig (Elt F)} (h : Inv9 V W) :
    after (L9 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step9_main_v99 {V W : Valuation τ sig (Elt F)} (h : Inv9 V W) :
    after (L9 (F := F)) W (Proc.devRef .tc main_v99) = Read.val_main_v99 (F := F) (V (Proc.devRef .tc main_arg3)) (V (Proc.devRef .tc main_arg5)) (V (Proc.devRef .tc main_arg7)) (V (Proc.devRef .tc main_arg9)) := by
  fold_results
  exact h.v99
set_option maxHeartbeats 4000000 in
theorem step9_main_v102 {V W : Valuation τ sig (Elt F)} (h : Inv9 V W) :
    after (L9 (F := F)) W (Proc.devRef .tc main_v102) = Read.val_main_v102 (F := F) (V (Proc.devRef .tc main_arg3)) (V (Proc.devRef .tc main_arg5)) (V (Proc.devRef .tc main_arg7)) (V (Proc.devRef .tc main_arg9)) := by
  fold_results
  exact h.v102
set_option maxHeartbeats 4000000 in
theorem step9_main_call1_v1 {V W : Valuation τ sig (Elt F)} (h : Inv9 V W) :
    after (L9 (F := F)) W (Proc.devRef .tc main_call1_v1) = Read.val_main_call1_v1 (F := F) := by
  fold_results
  fold_results_rw
  rw [h.call1_v0]
  rw [ofBuf_main_call1_v0, toBuf_main_call1_v1]
  first | done | rfl
theorem step9 {V W : Valuation τ sig (Elt F)} (h : Inv9 V W) : Inv10 V (after (L9 (F := F)) W) :=
  ⟨step9_main_arg0 h, step9_main_arg1 h, step9_main_arg2 h, step9_main_arg13 h, step9_main_arg14 h, step9_main_arg15 h, step9_main_arg16 h, step9_main_v80 h, step9_main_v82 h, step9_main_v83 h, step9_main_v99 h, step9_main_v102 h, step9_main_call1_v1 h⟩

set_option maxHeartbeats 4000000 in
theorem step10_main_arg0 {V W : Valuation τ sig (Elt F)} (h : Inv10 V W) :
    after (L10 (F := F)) W (Proc.devRef .tc main_arg0) = V (Proc.devRef .tc main_arg0) := by
  fold_results
  exact h.arg0
set_option maxHeartbeats 4000000 in
theorem step10_main_arg1 {V W : Valuation τ sig (Elt F)} (h : Inv10 V W) :
    after (L10 (F := F)) W (Proc.devRef .tc main_arg1) = V (Proc.devRef .tc main_arg1) := by
  fold_results
  exact h.arg1
set_option maxHeartbeats 4000000 in
theorem step10_main_arg2 {V W : Valuation τ sig (Elt F)} (h : Inv10 V W) :
    after (L10 (F := F)) W (Proc.devRef .tc main_arg2) = V (Proc.devRef .tc main_arg2) := by
  fold_results
  exact h.arg2
set_option maxHeartbeats 4000000 in
theorem step10_main_arg13 {V W : Valuation τ sig (Elt F)} (h : Inv10 V W) :
    after (L10 (F := F)) W (Proc.devRef .tc main_arg13) = V (Proc.devRef .tc main_arg13) := by
  fold_results
  exact h.arg13
set_option maxHeartbeats 4000000 in
theorem step10_main_arg14 {V W : Valuation τ sig (Elt F)} (h : Inv10 V W) :
    after (L10 (F := F)) W (Proc.devRef .tc main_arg14) = V (Proc.devRef .tc main_arg14) := by
  fold_results
  exact h.arg14
set_option maxHeartbeats 4000000 in
theorem step10_main_arg15 {V W : Valuation τ sig (Elt F)} (h : Inv10 V W) :
    after (L10 (F := F)) W (Proc.devRef .tc main_arg15) = V (Proc.devRef .tc main_arg15) := by
  fold_results
  exact h.arg15
set_option maxHeartbeats 4000000 in
theorem step10_main_arg16 {V W : Valuation τ sig (Elt F)} (h : Inv10 V W) :
    after (L10 (F := F)) W (Proc.devRef .tc main_arg16) = V (Proc.devRef .tc main_arg16) := by
  fold_results
  exact h.arg16
set_option maxHeartbeats 4000000 in
theorem step10_main_v80 {V W : Valuation τ sig (Elt F)} (h : Inv10 V W) :
    after (L10 (F := F)) W (Proc.devRef .tc main_v80) = Read.val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v80
set_option maxHeartbeats 4000000 in
theorem step10_main_v82 {V W : Valuation τ sig (Elt F)} (h : Inv10 V W) :
    after (L10 (F := F)) W (Proc.devRef .tc main_v82) = Read.val_main_v82 (F := F) (V (Proc.devRef .tc main_arg5)) (V (Proc.devRef .tc main_arg9)) := by
  fold_results
  exact h.v82
set_option maxHeartbeats 4000000 in
theorem step10_main_v83 {V W : Valuation τ sig (Elt F)} (h : Inv10 V W) :
    after (L10 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step10_main_v102 {V W : Valuation τ sig (Elt F)} (h : Inv10 V W) :
    after (L10 (F := F)) W (Proc.devRef .tc main_v102) = Read.val_main_v102 (F := F) (V (Proc.devRef .tc main_arg3)) (V (Proc.devRef .tc main_arg5)) (V (Proc.devRef .tc main_arg7)) (V (Proc.devRef .tc main_arg9)) := by
  fold_results
  exact h.v102
set_option maxHeartbeats 4000000 in
theorem step10_main_v103 {V W : Valuation τ sig (Elt F)} (h : Inv10 V W) :
    after (L10 (F := F)) W (Proc.devRef .tc main_v103) = Read.val_main_v103 (F := F) (V (Proc.devRef .tc main_arg3)) (V (Proc.devRef .tc main_arg5)) (V (Proc.devRef .tc main_arg7)) (V (Proc.devRef .tc main_arg9)) := by
  fold_results
  fold_results_rw
  rw [h.call1_v1, h.v99]
  rw [ofBuf_main_call1_v1, ofBuf_main_v99, toBuf_main_v103]
  first | done | rfl
theorem step10 {V W : Valuation τ sig (Elt F)} (h : Inv10 V W) : Inv11 V (after (L10 (F := F)) W) :=
  ⟨step10_main_arg0 h, step10_main_arg1 h, step10_main_arg2 h, step10_main_arg13 h, step10_main_arg14 h, step10_main_arg15 h, step10_main_arg16 h, step10_main_v80 h, step10_main_v82 h, step10_main_v83 h, step10_main_v102 h, step10_main_v103 h⟩

set_option maxHeartbeats 4000000 in
theorem step11_main_arg0 {V W : Valuation τ sig (Elt F)} (h : Inv11 V W) :
    after (L11 (F := F)) W (Proc.devRef .tc main_arg0) = V (Proc.devRef .tc main_arg0) := by
  fold_results
  exact h.arg0
set_option maxHeartbeats 4000000 in
theorem step11_main_arg1 {V W : Valuation τ sig (Elt F)} (h : Inv11 V W) :
    after (L11 (F := F)) W (Proc.devRef .tc main_arg1) = V (Proc.devRef .tc main_arg1) := by
  fold_results
  exact h.arg1
set_option maxHeartbeats 4000000 in
theorem step11_main_arg2 {V W : Valuation τ sig (Elt F)} (h : Inv11 V W) :
    after (L11 (F := F)) W (Proc.devRef .tc main_arg2) = V (Proc.devRef .tc main_arg2) := by
  fold_results
  exact h.arg2
set_option maxHeartbeats 4000000 in
theorem step11_main_arg13 {V W : Valuation τ sig (Elt F)} (h : Inv11 V W) :
    after (L11 (F := F)) W (Proc.devRef .tc main_arg13) = V (Proc.devRef .tc main_arg13) := by
  fold_results
  exact h.arg13
set_option maxHeartbeats 4000000 in
theorem step11_main_arg14 {V W : Valuation τ sig (Elt F)} (h : Inv11 V W) :
    after (L11 (F := F)) W (Proc.devRef .tc main_arg14) = V (Proc.devRef .tc main_arg14) := by
  fold_results
  exact h.arg14
set_option maxHeartbeats 4000000 in
theorem step11_main_arg15 {V W : Valuation τ sig (Elt F)} (h : Inv11 V W) :
    after (L11 (F := F)) W (Proc.devRef .tc main_arg15) = V (Proc.devRef .tc main_arg15) := by
  fold_results
  exact h.arg15
set_option maxHeartbeats 4000000 in
theorem step11_main_arg16 {V W : Valuation τ sig (Elt F)} (h : Inv11 V W) :
    after (L11 (F := F)) W (Proc.devRef .tc main_arg16) = V (Proc.devRef .tc main_arg16) := by
  fold_results
  exact h.arg16
set_option maxHeartbeats 4000000 in
theorem step11_main_v82 {V W : Valuation τ sig (Elt F)} (h : Inv11 V W) :
    after (L11 (F := F)) W (Proc.devRef .tc main_v82) = Read.val_main_v82 (F := F) (V (Proc.devRef .tc main_arg5)) (V (Proc.devRef .tc main_arg9)) := by
  fold_results
  exact h.v82
set_option maxHeartbeats 4000000 in
theorem step11_main_v83 {V W : Valuation τ sig (Elt F)} (h : Inv11 V W) :
    after (L11 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step11_main_v102 {V W : Valuation τ sig (Elt F)} (h : Inv11 V W) :
    after (L11 (F := F)) W (Proc.devRef .tc main_v102) = Read.val_main_v102 (F := F) (V (Proc.devRef .tc main_arg3)) (V (Proc.devRef .tc main_arg5)) (V (Proc.devRef .tc main_arg7)) (V (Proc.devRef .tc main_arg9)) := by
  fold_results
  exact h.v102
set_option maxHeartbeats 4000000 in
theorem step11_main_v110 {V W : Valuation τ sig (Elt F)} (h : Inv11 V W) :
    after (L11 (F := F)) W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  fold_results_rw
  rw [h.v80, h.v103]
  first | done | rfl
set_option maxHeartbeats 4000000 in
theorem step11_main_cst {V W : Valuation τ sig (Elt F)} (h : Inv11 V W) :
    after (L11 (F := F)) W (Proc.devRef .tc main_cst) = Read.val_main_cst (F := F) := by
  fold_results
  fold_results_rw
  first | done | rfl
theorem step11 {V W : Valuation τ sig (Elt F)} (h : Inv11 V W) : Inv12 V (after (L11 (F := F)) W) :=
  ⟨step11_main_arg0 h, step11_main_arg1 h, step11_main_arg2 h, step11_main_arg13 h, step11_main_arg14 h, step11_main_arg15 h, step11_main_arg16 h, step11_main_v82 h, step11_main_v83 h, step11_main_v102 h, step11_main_v110 h, step11_main_cst h⟩

set_option maxHeartbeats 4000000 in
theorem step12_main_arg0 {V W : Valuation τ sig (Elt F)} (h : Inv12 V W) :
    after (L12 (F := F)) W (Proc.devRef .tc main_arg0) = V (Proc.devRef .tc main_arg0) := by
  fold_results
  exact h.arg0
set_option maxHeartbeats 4000000 in
theorem step12_main_arg1 {V W : Valuation τ sig (Elt F)} (h : Inv12 V W) :
    after (L12 (F := F)) W (Proc.devRef .tc main_arg1) = V (Proc.devRef .tc main_arg1) := by
  fold_results
  exact h.arg1
set_option maxHeartbeats 4000000 in
theorem step12_main_arg2 {V W : Valuation τ sig (Elt F)} (h : Inv12 V W) :
    after (L12 (F := F)) W (Proc.devRef .tc main_arg2) = V (Proc.devRef .tc main_arg2) := by
  fold_results
  exact h.arg2
set_option maxHeartbeats 4000000 in
theorem step12_main_arg13 {V W : Valuation τ sig (Elt F)} (h : Inv12 V W) :
    after (L12 (F := F)) W (Proc.devRef .tc main_arg13) = V (Proc.devRef .tc main_arg13) := by
  fold_results
  exact h.arg13
set_option maxHeartbeats 4000000 in
theorem step12_main_arg14 {V W : Valuation τ sig (Elt F)} (h : Inv12 V W) :
    after (L12 (F := F)) W (Proc.devRef .tc main_arg14) = V (Proc.devRef .tc main_arg14) := by
  fold_results
  exact h.arg14
set_option maxHeartbeats 4000000 in
theorem step12_main_arg15 {V W : Valuation τ sig (Elt F)} (h : Inv12 V W) :
    after (L12 (F := F)) W (Proc.devRef .tc main_arg15) = V (Proc.devRef .tc main_arg15) := by
  fold_results
  exact h.arg15
set_option maxHeartbeats 4000000 in
theorem step12_main_arg16 {V W : Valuation τ sig (Elt F)} (h : Inv12 V W) :
    after (L12 (F := F)) W (Proc.devRef .tc main_arg16) = V (Proc.devRef .tc main_arg16) := by
  fold_results
  exact h.arg16
set_option maxHeartbeats 4000000 in
theorem step12_main_v82 {V W : Valuation τ sig (Elt F)} (h : Inv12 V W) :
    after (L12 (F := F)) W (Proc.devRef .tc main_v82) = Read.val_main_v82 (F := F) (V (Proc.devRef .tc main_arg5)) (V (Proc.devRef .tc main_arg9)) := by
  fold_results
  exact h.v82
set_option maxHeartbeats 4000000 in
theorem step12_main_v83 {V W : Valuation τ sig (Elt F)} (h : Inv12 V W) :
    after (L12 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step12_main_v102 {V W : Valuation τ sig (Elt F)} (h : Inv12 V W) :
    after (L12 (F := F)) W (Proc.devRef .tc main_v102) = Read.val_main_v102 (F := F) (V (Proc.devRef .tc main_arg3)) (V (Proc.devRef .tc main_arg5)) (V (Proc.devRef .tc main_arg7)) (V (Proc.devRef .tc main_arg9)) := by
  fold_results
  exact h.v102
set_option maxHeartbeats 4000000 in
theorem step12_main_v110 {V W : Valuation τ sig (Elt F)} (h : Inv12 V W) :
    after (L12 (F := F)) W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v110
set_option maxHeartbeats 4000000 in
theorem step12_main_call2_v0 {V W : Valuation τ sig (Elt F)} (h : Inv12 V W) :
    after (L12 (F := F)) W (Proc.devRef .tc main_call2_v0) = Read.val_main_call2_v0 (F := F) := by
  fold_results
  fold_results_rw
  rw [h.cst]
  rw [ofBuf_main_cst, toBuf_main_call2_v0]
  first | done | rfl
theorem step12 {V W : Valuation τ sig (Elt F)} (h : Inv12 V W) : Inv13 V (after (L12 (F := F)) W) :=
  ⟨step12_main_arg0 h, step12_main_arg1 h, step12_main_arg2 h, step12_main_arg13 h, step12_main_arg14 h, step12_main_arg15 h, step12_main_arg16 h, step12_main_v82 h, step12_main_v83 h, step12_main_v102 h, step12_main_v110 h, step12_main_call2_v0 h⟩

set_option maxHeartbeats 4000000 in
theorem step13_main_arg0 {V W : Valuation τ sig (Elt F)} (h : Inv13 V W) :
    after (L13 (F := F)) W (Proc.devRef .tc main_arg0) = V (Proc.devRef .tc main_arg0) := by
  fold_results
  exact h.arg0
set_option maxHeartbeats 4000000 in
theorem step13_main_arg1 {V W : Valuation τ sig (Elt F)} (h : Inv13 V W) :
    after (L13 (F := F)) W (Proc.devRef .tc main_arg1) = V (Proc.devRef .tc main_arg1) := by
  fold_results
  exact h.arg1
set_option maxHeartbeats 4000000 in
theorem step13_main_arg2 {V W : Valuation τ sig (Elt F)} (h : Inv13 V W) :
    after (L13 (F := F)) W (Proc.devRef .tc main_arg2) = V (Proc.devRef .tc main_arg2) := by
  fold_results
  exact h.arg2
set_option maxHeartbeats 4000000 in
theorem step13_main_arg13 {V W : Valuation τ sig (Elt F)} (h : Inv13 V W) :
    after (L13 (F := F)) W (Proc.devRef .tc main_arg13) = V (Proc.devRef .tc main_arg13) := by
  fold_results
  exact h.arg13
set_option maxHeartbeats 4000000 in
theorem step13_main_arg14 {V W : Valuation τ sig (Elt F)} (h : Inv13 V W) :
    after (L13 (F := F)) W (Proc.devRef .tc main_arg14) = V (Proc.devRef .tc main_arg14) := by
  fold_results
  exact h.arg14
set_option maxHeartbeats 4000000 in
theorem step13_main_arg15 {V W : Valuation τ sig (Elt F)} (h : Inv13 V W) :
    after (L13 (F := F)) W (Proc.devRef .tc main_arg15) = V (Proc.devRef .tc main_arg15) := by
  fold_results
  exact h.arg15
set_option maxHeartbeats 4000000 in
theorem step13_main_arg16 {V W : Valuation τ sig (Elt F)} (h : Inv13 V W) :
    after (L13 (F := F)) W (Proc.devRef .tc main_arg16) = V (Proc.devRef .tc main_arg16) := by
  fold_results
  exact h.arg16
set_option maxHeartbeats 4000000 in
theorem step13_main_v82 {V W : Valuation τ sig (Elt F)} (h : Inv13 V W) :
    after (L13 (F := F)) W (Proc.devRef .tc main_v82) = Read.val_main_v82 (F := F) (V (Proc.devRef .tc main_arg5)) (V (Proc.devRef .tc main_arg9)) := by
  fold_results
  exact h.v82
set_option maxHeartbeats 4000000 in
theorem step13_main_v83 {V W : Valuation τ sig (Elt F)} (h : Inv13 V W) :
    after (L13 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step13_main_v110 {V W : Valuation τ sig (Elt F)} (h : Inv13 V W) :
    after (L13 (F := F)) W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v110
set_option maxHeartbeats 4000000 in
theorem step13_main_call2_v0 {V W : Valuation τ sig (Elt F)} (h : Inv13 V W) :
    after (L13 (F := F)) W (Proc.devRef .tc main_call2_v0) = Read.val_main_call2_v0 (F := F) := by
  fold_results
  exact h.call2_v0
set_option maxHeartbeats 4000000 in
theorem step13_main_call2_v1 {V W : Valuation τ sig (Elt F)} (h : Inv13 V W) :
    after (L13 (F := F)) W (Proc.devRef .tc main_call2_v1) = Read.val_main_call2_v1 (F := F) (V (Proc.devRef .tc main_arg3)) (V (Proc.devRef .tc main_arg5)) (V (Proc.devRef .tc main_arg7)) (V (Proc.devRef .tc main_arg9)) := by
  fold_results
  fold_results_rw
  rw [h.v102]
  rw [ofBuf_main_v102, toBuf_main_call2_v1]
  first | done | rfl
theorem step13 {V W : Valuation τ sig (Elt F)} (h : Inv13 V W) : Inv14 V (after (L13 (F := F)) W) :=
  ⟨step13_main_arg0 h, step13_main_arg1 h, step13_main_arg2 h, step13_main_arg13 h, step13_main_arg14 h, step13_main_arg15 h, step13_main_arg16 h, step13_main_v82 h, step13_main_v83 h, step13_main_v110 h, step13_main_call2_v0 h, step13_main_call2_v1 h⟩

set_option maxHeartbeats 4000000 in
theorem step14_main_arg0 {V W : Valuation τ sig (Elt F)} (h : Inv14 V W) :
    after (L14 (F := F)) W (Proc.devRef .tc main_arg0) = V (Proc.devRef .tc main_arg0) := by
  fold_results
  exact h.arg0
set_option maxHeartbeats 4000000 in
theorem step14_main_arg1 {V W : Valuation τ sig (Elt F)} (h : Inv14 V W) :
    after (L14 (F := F)) W (Proc.devRef .tc main_arg1) = V (Proc.devRef .tc main_arg1) := by
  fold_results
  exact h.arg1
set_option maxHeartbeats 4000000 in
theorem step14_main_arg2 {V W : Valuation τ sig (Elt F)} (h : Inv14 V W) :
    after (L14 (F := F)) W (Proc.devRef .tc main_arg2) = V (Proc.devRef .tc main_arg2) := by
  fold_results
  exact h.arg2
set_option maxHeartbeats 4000000 in
theorem step14_main_arg13 {V W : Valuation τ sig (Elt F)} (h : Inv14 V W) :
    after (L14 (F := F)) W (Proc.devRef .tc main_arg13) = V (Proc.devRef .tc main_arg13) := by
  fold_results
  exact h.arg13
set_option maxHeartbeats 4000000 in
theorem step14_main_arg14 {V W : Valuation τ sig (Elt F)} (h : Inv14 V W) :
    after (L14 (F := F)) W (Proc.devRef .tc main_arg14) = V (Proc.devRef .tc main_arg14) := by
  fold_results
  exact h.arg14
set_option maxHeartbeats 4000000 in
theorem step14_main_arg15 {V W : Valuation τ sig (Elt F)} (h : Inv14 V W) :
    after (L14 (F := F)) W (Proc.devRef .tc main_arg15) = V (Proc.devRef .tc main_arg15) := by
  fold_results
  exact h.arg15
set_option maxHeartbeats 4000000 in
theorem step14_main_arg16 {V W : Valuation τ sig (Elt F)} (h : Inv14 V W) :
    after (L14 (F := F)) W (Proc.devRef .tc main_arg16) = V (Proc.devRef .tc main_arg16) := by
  fold_results
  exact h.arg16
set_option maxHeartbeats 4000000 in
theorem step14_main_v82 {V W : Valuation τ sig (Elt F)} (h : Inv14 V W) :
    after (L14 (F := F)) W (Proc.devRef .tc main_v82) = Read.val_main_v82 (F := F) (V (Proc.devRef .tc main_arg5)) (V (Proc.devRef .tc main_arg9)) := by
  fold_results
  exact h.v82
set_option maxHeartbeats 4000000 in
theorem step14_main_v83 {V W : Valuation τ sig (Elt F)} (h : Inv14 V W) :
    after (L14 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step14_main_v110 {V W : Valuation τ sig (Elt F)} (h : Inv14 V W) :
    after (L14 (F := F)) W (Proc.devRef .tc main_v110) = Read.val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  exact h.v110
set_option maxHeartbeats 4000000 in
theorem step14_main_call2_v1 {V W : Valuation τ sig (Elt F)} (h : Inv14 V W) :
    after (L14 (F := F)) W (Proc.devRef .tc main_call2_v1) = Read.val_main_call2_v1 (F := F) (V (Proc.devRef .tc main_arg3)) (V (Proc.devRef .tc main_arg5)) (V (Proc.devRef .tc main_arg7)) (V (Proc.devRef .tc main_arg9)) := by
  fold_results
  exact h.call2_v1
set_option maxHeartbeats 4000000 in
theorem step14_main_call2_v2 {V W : Valuation τ sig (Elt F)} (h : Inv14 V W) :
    after (L14 (F := F)) W (Proc.devRef .tc main_call2_v2) = Read.val_main_call2_v2 (F := F) := by
  fold_results
  fold_results_rw
  rw [h.call2_v0]
  rw [ofBuf_main_call2_v0, toBuf_main_call2_v2]
  first | done | rfl
theorem step14 {V W : Valuation τ sig (Elt F)} (h : Inv14 V W) : Inv15 V (after (L14 (F := F)) W) :=
  ⟨step14_main_arg0 h, step14_main_arg1 h, step14_main_arg2 h, step14_main_arg13 h, step14_main_arg14 h, step14_main_arg15 h, step14_main_arg16 h, step14_main_v82 h, step14_main_v83 h, step14_main_v110 h, step14_main_call2_v1 h, step14_main_call2_v2 h⟩

set_option maxHeartbeats 4000000 in
theorem step15_main_arg0 {V W : Valuation τ sig (Elt F)} (h : Inv15 V W) :
    after (L15 (F := F)) W (Proc.devRef .tc main_arg0) = V (Proc.devRef .tc main_arg0) := by
  fold_results
  exact h.arg0
set_option maxHeartbeats 4000000 in
theorem step15_main_arg1 {V W : Valuation τ sig (Elt F)} (h : Inv15 V W) :
    after (L15 (F := F)) W (Proc.devRef .tc main_arg1) = V (Proc.devRef .tc main_arg1) := by
  fold_results
  exact h.arg1
set_option maxHeartbeats 4000000 in
theorem step15_main_arg2 {V W : Valuation τ sig (Elt F)} (h : Inv15 V W) :
    after (L15 (F := F)) W (Proc.devRef .tc main_arg2) = V (Proc.devRef .tc main_arg2) := by
  fold_results
  exact h.arg2
set_option maxHeartbeats 4000000 in
theorem step15_main_arg13 {V W : Valuation τ sig (Elt F)} (h : Inv15 V W) :
    after (L15 (F := F)) W (Proc.devRef .tc main_arg13) = V (Proc.devRef .tc main_arg13) := by
  fold_results
  exact h.arg13
set_option maxHeartbeats 4000000 in
theorem step15_main_arg14 {V W : Valuation τ sig (Elt F)} (h : Inv15 V W) :
    after (L15 (F := F)) W (Proc.devRef .tc main_arg14) = V (Proc.devRef .tc main_arg14) := by
  fold_results
  exact h.arg14
set_option maxHeartbeats 4000000 in
theorem step15_main_arg15 {V W : Valuation τ sig (Elt F)} (h : Inv15 V W) :
    after (L15 (F := F)) W (Proc.devRef .tc main_arg15) = V (Proc.devRef .tc main_arg15) := by
  fold_results
  exact h.arg15
set_option maxHeartbeats 4000000 in
theorem step15_main_arg16 {V W : Valuation τ sig (Elt F)} (h : Inv15 V W) :
    after (L15 (F := F)) W (Proc.devRef .tc main_arg16) = V (Proc.devRef .tc main_arg16) := by
  fold_results
  exact h.arg16
set_option maxHeartbeats 4000000 in
theorem step15_main_v82 {V W : Valuation τ sig (Elt F)} (h : Inv15 V W) :
    after (L15 (F := F)) W (Proc.devRef .tc main_v82) = Read.val_main_v82 (F := F) (V (Proc.devRef .tc main_arg5)) (V (Proc.devRef .tc main_arg9)) := by
  fold_results
  exact h.v82
set_option maxHeartbeats 4000000 in
theorem step15_main_v83 {V W : Valuation τ sig (Elt F)} (h : Inv15 V W) :
    after (L15 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step15_main_v111 {V W : Valuation τ sig (Elt F)} (h : Inv15 V W) :
    after (L15 (F := F)) W (Proc.devRef .tc main_v111) = Read.val_main_v111 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  fold_results
  fold_results_rw
  rw [h.call2_v1, h.v110, h.call2_v2]
  rw [ofBuf_main_call2_v1, ofBuf_main_v110, ofBuf_main_call2_v2, toBuf_main_v111]
  first | done | rfl
theorem step15 {V W : Valuation τ sig (Elt F)} (h : Inv15 V W) : Inv16 V (after (L15 (F := F)) W) :=
  ⟨step15_main_arg0 h, step15_main_arg1 h, step15_main_arg2 h, step15_main_arg13 h, step15_main_arg14 h, step15_main_arg15 h, step15_main_arg16 h, step15_main_v82 h, step15_main_v83 h, step15_main_v111 h⟩

set_option maxHeartbeats 4000000 in
theorem step16_main_arg1 {V W : Valuation τ sig (Elt F)} (h : Inv16 V W) :
    after (L16 (F := F)) W (Proc.devRef .tc main_arg1) = V (Proc.devRef .tc main_arg1) := by
  fold_results
  exact h.arg1
set_option maxHeartbeats 4000000 in
theorem step16_main_arg2 {V W : Valuation τ sig (Elt F)} (h : Inv16 V W) :
    after (L16 (F := F)) W (Proc.devRef .tc main_arg2) = V (Proc.devRef .tc main_arg2) := by
  fold_results
  exact h.arg2
set_option maxHeartbeats 4000000 in
theorem step16_main_v82 {V W : Valuation τ sig (Elt F)} (h : Inv16 V W) :
    after (L16 (F := F)) W (Proc.devRef .tc main_v82) = Read.val_main_v82 (F := F) (V (Proc.devRef .tc main_arg5)) (V (Proc.devRef .tc main_arg9)) := by
  fold_results
  exact h.v82
set_option maxHeartbeats 4000000 in
theorem step16_main_v83 {V W : Valuation τ sig (Elt F)} (h : Inv16 V W) :
    after (L16 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step16_main_v118 {V W : Valuation τ sig (Elt F)} (h : Inv16 V W) :
    after (L16 (F := F)) W (Proc.devRef .tc main_v118) = Read.val_main_v118 (F := F) (V (Proc.devRef .tc main_arg0)) (V (Proc.devRef .tc main_arg2)) := by
  fold_results
  fold_results_rw
  rw [h.arg0, h.arg2]
  first | done | rfl
set_option maxHeartbeats 4000000 in
theorem step16_main_v123 {V W : Valuation τ sig (Elt F)} (h : Inv16 V W) :
    after (L16 (F := F)) W (Proc.devRef .tc main_v123) = Read.val_main_v123 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg15)) := by
  fold_results
  fold_results_rw
  rw [h.v111, h.arg13, h.arg15]
  first | done | rfl
set_option maxHeartbeats 4000000 in
theorem step16_main_v128 {V W : Valuation τ sig (Elt F)} (h : Inv16 V W) :
    after (L16 (F := F)) W (Proc.devRef .tc main_v128) = Read.val_main_v128 (F := F) (V (Proc.devRef .tc main_arg0)) (V (Proc.devRef .tc main_arg2)) (V (Proc.devRef .tc main_arg14)) (V (Proc.devRef .tc main_arg16)) := by
  fold_results
  fold_results_rw
  rw [h.arg0, h.arg2, h.arg14, h.arg16]
  first | done | rfl
theorem step16 {V W : Valuation τ sig (Elt F)} (h : Inv16 V W) : Inv17 V (after (L16 (F := F)) W) :=
  ⟨step16_main_arg1 h, step16_main_arg2 h, step16_main_v82 h, step16_main_v83 h, step16_main_v118 h, step16_main_v123 h, step16_main_v128 h⟩

set_option maxHeartbeats 4000000 in
theorem step17_main_arg1 {V W : Valuation τ sig (Elt F)} (h : Inv17 V W) :
    after (L17 (F := F)) W (Proc.devRef .tc main_arg1) = V (Proc.devRef .tc main_arg1) := by
  fold_results
  exact h.arg1
set_option maxHeartbeats 4000000 in
theorem step17_main_arg2 {V W : Valuation τ sig (Elt F)} (h : Inv17 V W) :
    after (L17 (F := F)) W (Proc.devRef .tc main_arg2) = V (Proc.devRef .tc main_arg2) := by
  fold_results
  exact h.arg2
set_option maxHeartbeats 4000000 in
theorem step17_main_v82 {V W : Valuation τ sig (Elt F)} (h : Inv17 V W) :
    after (L17 (F := F)) W (Proc.devRef .tc main_v82) = Read.val_main_v82 (F := F) (V (Proc.devRef .tc main_arg5)) (V (Proc.devRef .tc main_arg9)) := by
  fold_results
  exact h.v82
set_option maxHeartbeats 4000000 in
theorem step17_main_v83 {V W : Valuation τ sig (Elt F)} (h : Inv17 V W) :
    after (L17 (F := F)) W (Proc.devRef .tc main_v83) = Read.val_main_v83 (F := F) (V (Proc.devRef .tc main_arg2)) (V (Proc.devRef .tc main_arg3)) (V (Proc.devRef .tc main_arg7)) := by
  fold_results
  exact h.v83
set_option maxHeartbeats 4000000 in
theorem step17_main_v156 {V W : Valuation τ sig (Elt F)} (h : Inv17 V W) :
    after (L17 (F := F)) W (Proc.devRef .tc main_v156) = Read.val_main_v156 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  fold_results
  fold_results_rw
  rw [h.v123, h.v128, h.v118]
  first | done | rfl
theorem step17 {V W : Valuation τ sig (Elt F)} (h : Inv17 V W) : Inv18 V (after (L17 (F := F)) W) :=
  ⟨step17_main_arg1 h, step17_main_arg2 h, step17_main_v82 h, step17_main_v83 h, step17_main_v156 h⟩

set_option maxHeartbeats 4000000 in
theorem step18_main_v156 {V W : Valuation τ sig (Elt F)} (h : Inv18 V W) :
    after (L18 (F := F)) W (Proc.devRef .tc main_v156) = Read.val_main_v156 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  fold_results
  exact h.v156
set_option maxHeartbeats 4000000 in
theorem step18_main_v170 {V W : Valuation τ sig (Elt F)} (h : Inv18 V W) :
    after (L18 (F := F)) W (Proc.devRef .tc main_v170) = Read.val_main_v170 (F := F) (V (Proc.devRef .tc main_arg1)) (V (Proc.devRef .tc main_arg2)) (V (Proc.devRef .tc main_arg3)) (V (Proc.devRef .tc main_arg5)) (V (Proc.devRef .tc main_arg7)) (V (Proc.devRef .tc main_arg9)) := by
  fold_results
  fold_results_rw
  rw [h.arg1, h.v83, h.v82, h.arg2]
  first | done | rfl
theorem step18 {V W : Valuation τ sig (Elt F)} (h : Inv18 V W) : Inv19 V (after (L18 (F := F)) W) :=
  ⟨step18_main_v156 h, step18_main_v170 h⟩

/-- The whole line: the two results at their stages. -/
theorem after_ops (V : Valuation τ sig (Elt F)) : Inv19 V (after (Value.ops (F := F)) V) := by
  have e : after (Value.ops (F := F)) V = after L18 (after L17 (after L16 (after L15 (after L14 (after L13 (after L12 (after L11 (after L10 (after L9 (after L8 (after L7 (after L6 (after L5 (after L4 (after L3 (after L2 (after L1 (after L0 (V))))))))))))))))))) := by
    rw [ops_cut, after_append, after_append, after_append, after_append, after_append, after_append, after_append, after_append, after_append, after_append, after_append, after_append, after_append, after_append, after_append, after_append, after_append, after_append]
  rw [e]
  exact step18 (step17 (step16 (step15 (step14 (step13 (step12 (step11 (step10 (step9 (step8 (step7 (step6 (step5 (step4 (step3 (step2 (step1 (step0 (inv0 V)))))))))))))))))))

/-! ## No operation writes an argument -/

set_option maxHeartbeats 4000000 in
theorem keep_main_arg0 (V : Valuation τ sig (Elt F)) :
    after (Value.ops (F := F)) V (Proc.devRef .tc main_arg0) = V (Proc.devRef .tc main_arg0) :=
  after_of_forall_not_mem (b := Proc.devRef .tc main_arg0) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg1 (V : Valuation τ sig (Elt F)) :
    after (Value.ops (F := F)) V (Proc.devRef .tc main_arg1) = V (Proc.devRef .tc main_arg1) :=
  after_of_forall_not_mem (b := Proc.devRef .tc main_arg1) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg2 (V : Valuation τ sig (Elt F)) :
    after (Value.ops (F := F)) V (Proc.devRef .tc main_arg2) = V (Proc.devRef .tc main_arg2) :=
  after_of_forall_not_mem (b := Proc.devRef .tc main_arg2) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg3 (V : Valuation τ sig (Elt F)) :
    after (Value.ops (F := F)) V (Proc.devRef .tc main_arg3) = V (Proc.devRef .tc main_arg3) :=
  after_of_forall_not_mem (b := Proc.devRef .tc main_arg3) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg4 (V : Valuation τ sig (Elt F)) :
    after (Value.ops (F := F)) V (Proc.devRef .tc main_arg4) = V (Proc.devRef .tc main_arg4) :=
  after_of_forall_not_mem (b := Proc.devRef .tc main_arg4) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg5 (V : Valuation τ sig (Elt F)) :
    after (Value.ops (F := F)) V (Proc.devRef .tc main_arg5) = V (Proc.devRef .tc main_arg5) :=
  after_of_forall_not_mem (b := Proc.devRef .tc main_arg5) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg6 (V : Valuation τ sig (Elt F)) :
    after (Value.ops (F := F)) V (Proc.devRef .tc main_arg6) = V (Proc.devRef .tc main_arg6) :=
  after_of_forall_not_mem (b := Proc.devRef .tc main_arg6) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg7 (V : Valuation τ sig (Elt F)) :
    after (Value.ops (F := F)) V (Proc.devRef .tc main_arg7) = V (Proc.devRef .tc main_arg7) :=
  after_of_forall_not_mem (b := Proc.devRef .tc main_arg7) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg8 (V : Valuation τ sig (Elt F)) :
    after (Value.ops (F := F)) V (Proc.devRef .tc main_arg8) = V (Proc.devRef .tc main_arg8) :=
  after_of_forall_not_mem (b := Proc.devRef .tc main_arg8) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg9 (V : Valuation τ sig (Elt F)) :
    after (Value.ops (F := F)) V (Proc.devRef .tc main_arg9) = V (Proc.devRef .tc main_arg9) :=
  after_of_forall_not_mem (b := Proc.devRef .tc main_arg9) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg10 (V : Valuation τ sig (Elt F)) :
    after (Value.ops (F := F)) V (Proc.devRef .tc main_arg10) = V (Proc.devRef .tc main_arg10) :=
  after_of_forall_not_mem (b := Proc.devRef .tc main_arg10) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg11 (V : Valuation τ sig (Elt F)) :
    after (Value.ops (F := F)) V (Proc.devRef .tc main_arg11) = V (Proc.devRef .tc main_arg11) :=
  after_of_forall_not_mem (b := Proc.devRef .tc main_arg11) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg12 (V : Valuation τ sig (Elt F)) :
    after (Value.ops (F := F)) V (Proc.devRef .tc main_arg12) = V (Proc.devRef .tc main_arg12) :=
  after_of_forall_not_mem (b := Proc.devRef .tc main_arg12) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg13 (V : Valuation τ sig (Elt F)) :
    after (Value.ops (F := F)) V (Proc.devRef .tc main_arg13) = V (Proc.devRef .tc main_arg13) :=
  after_of_forall_not_mem (b := Proc.devRef .tc main_arg13) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg14 (V : Valuation τ sig (Elt F)) :
    after (Value.ops (F := F)) V (Proc.devRef .tc main_arg14) = V (Proc.devRef .tc main_arg14) :=
  after_of_forall_not_mem (b := Proc.devRef .tc main_arg14) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg15 (V : Valuation τ sig (Elt F)) :
    after (Value.ops (F := F)) V (Proc.devRef .tc main_arg15) = V (Proc.devRef .tc main_arg15) :=
  after_of_forall_not_mem (b := Proc.devRef .tc main_arg15) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem keep_main_arg16 (V : Valuation τ sig (Elt F)) :
    after (Value.ops (F := F)) V (Proc.devRef .tc main_arg16) = V (Proc.devRef .tc main_arg16) :=
  after_of_forall_not_mem (b := Proc.devRef .tc main_arg16) _ _ (List.forall_iff_forall_mem.mp (by
    simp only [Value.ops, List.Forall, nullary_writes, unary_writes, binary_writes, ternary_writes, quaternary_writes, reshape_writes, binaryIndexed_writes, nary_writes, Finset.mem_singleton]
    repeat' apply And.intro
    all_goals exact devRef_ne_of_ne (by decide)))

/-! ## The run -/

/-- On every device, for any float values, from any memory with zero counters: every weakly fair execution of @main
    terminates with the two results at their stages of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v156) = Read.val_main_v156 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v170) = Read.val_main_v170 (F := F) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v156).trans (after_ops (launchContents m c)).v156,
      (h c main_v170).trans (after_ops (launchContents m c)).v170,
      (h c main_arg0).trans (keep_main_arg0 (launchContents m c)),
      (h c main_arg1).trans (keep_main_arg1 (launchContents m c)),
      (h c main_arg2).trans (keep_main_arg2 (launchContents m c)),
      (h c main_arg3).trans (keep_main_arg3 (launchContents m c)),
      (h c main_arg4).trans (keep_main_arg4 (launchContents m c)),
      (h c main_arg5).trans (keep_main_arg5 (launchContents m c)),
      (h c main_arg6).trans (keep_main_arg6 (launchContents m c)),
      (h c main_arg7).trans (keep_main_arg7 (launchContents m c)),
      (h c main_arg8).trans (keep_main_arg8 (launchContents m c)),
      (h c main_arg9).trans (keep_main_arg9 (launchContents m c)),
      (h c main_arg10).trans (keep_main_arg10 (launchContents m c)),
      (h c main_arg11).trans (keep_main_arg11 (launchContents m c)),
      (h c main_arg12).trans (keep_main_arg12 (launchContents m c)),
      (h c main_arg13).trans (keep_main_arg13 (launchContents m c)),
      (h c main_arg14).trans (keep_main_arg14 (launchContents m c)),
      (h c main_arg15).trans (keep_main_arg15 (launchContents m c)),
      (h c main_arg16).trans (keep_main_arg16 (launchContents m c))⟩)
    (run_seq Value.scopedRefs_eq Value.scopedSems_eq defs main (fun _ => Value.ops) Value.main_eq (fun _ => Value.ops_sub) m ρ)

end Cert.ReferenceIdeal.HandRun

end
-- ==== Proof.lean ====
/-
  The certificate of a temporal-graph-network memory update: a Pallas TPU kernel (the gated-recurrent-unit update of
  200000 selected nodes, blocked over rows, inside a host program that aggregates each node's latest message) against
  its jnp reference, on the extended reals.

  Both programs compute, for every selected node, the message of its winning edge — the latest among the edges it
  owns — and feed it with the node's state to the same gated recurrent unit.  They differ in arrangement only:
  * the reference builds the message of EVERY edge and then gathers the winners' rows; the kernel program gathers the
    winners' entries of the per-edge vectors first and builds only their messages.  A gather of a gather is a gather
    at the composed index and an entry of a concatenation is an entry of one of its pieces, so the two matrices agree
    entry by entry (Proof/MsgBridge.lean, over Proof/IdealHost.lean, Proof/RefMsg.lean, Proof/RefGather.lean);
  * the kernel rounds the messages, the states and the weights to bf16 for its matrix unit and the reference does not;
    on the extended reals a change of float format is the identity (Proof/AggrBridge.lean);
  * the kernel walks the 200000 rows in 100 blocks of 2000, each block two matrix products into zero accumulators, and
    the reference takes two whole products; a row's gates depend on that row only, and a finite sum of extended reals
    does not depend on its order (Proof/IdealPayload.lean, Proof/IdealBlocks.lean against Proof/GruSpec.lean;
    Proof/RefGru.lean for the reference).
  The second result, the refreshed last-update times, is the same host computation in both programs.
  No step needs the inputs finite: nothing is distributed or cancelled, so the precondition is never opened.

  The three frames: the two kernel-side programs run (terminate, fault nowhere, leave their arguments unchanged) by
  the pipeline library's frame theorem for one region with host lines around it (Proof/BitsFrame.lean,
  Proof/IdealFrame.lean over the proof data of Proof/BitsRegion.lean, Proof/IdealRegion.lean); the reference is a
  straight-line host program whose run is read stretch by stretch (Proof/RefRunHand.lean).  The idealization rewrote no
  operation, so there is nothing to preserve.
-/
import proofs.«121507_j30451318129194_2_alg».proof.Defs
import proofs.«121507_j30451318129194_2_alg».proof.Proof.Gen.Kernel
import proofs.«121507_j30451318129194_2_alg».proof.Proof.Gen.KernelIdeal
import proofs.«121507_j30451318129194_2_alg».proof.Proof.Gen.ReferenceIdeal
import proofs.«121507_j30451318129194_2_alg».proof.Proof.Gen.Pre_finite_inputs
import proofs.«121507_j30451318129194_2_alg».proof.Proof.BitsFrame
import proofs.«121507_j30451318129194_2_alg».proof.Proof.IdealFrame
import proofs.«121507_j30451318129194_2_alg».proof.Proof.IdealResult
import proofs.«121507_j30451318129194_2_alg».proof.Proof.RefGru
import proofs.«121507_j30451318129194_2_alg».proof.Proof.RefRunHand
import Idealize.ShloMosaic.Adequacy
import Idealize.ShloMosaic.Init

noncomputable section

namespace Cert.Proof

open Idealize.ShloMosaic Idealize.SL.Sem

/-- The printed kernel program runs and leaves its arguments unchanged. -/
theorem frame_kernel : Cert.frame_Kernel (hKernel := Cert.Kernel.Gen.facts) (hPre_finite_inputs := Cert.Pre_finite_inputs.Gen.facts) :=
  fun m ρ _ => Cert.Kernel.Frame.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

/-- And the reference: its run, with the two results forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.HandRun.run (F := Ideal) m ρ)

/-- The idealization changed no operation. -/
theorem preserves : Cert.preserves_Kernel_KernelIdeal := trivial

set_option maxHeartbeats 2000000 in
/-- From memories that agree on the seventeen arguments both programs end with the same two results: the new states
    are the gated-recurrent-unit update of the reference's masked aggregate and gathered states, the new times the
    reference's own stage — each a function of the arguments only. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Gru.new (Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (Cert.ReferenceIdeal.Read.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), fun c => Cert.ReferenceIdeal.Read.val_main_v170 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)), ?_, ?_⟩
  · refine (θ_run Cert.KernelIdeal.defs _ _).mono (fun r h c => ⟨?_, ?_, Cert.KernelIdeal.Frame.post_args m h c⟩) (Cert.KernelIdeal.Frame.run_main (F := Ideal) m ρ)
    · exact ((h c).1 6).trans (Cert.KernelIdeal.Result.new_states m c)
    · exact ((h c).2 Cert.KernelIdeal.main_v125 (Pipeline.mem_restRefs_of Cert.KernelIdeal.main_v125 (by decide) (by decide))).trans (Cert.KernelIdeal.Prefix.tail_out (F := Ideal) m c)
  · refine (θ_run Cert.ReferenceIdeal.defs _ _).mono (fun r h c => ⟨(h c).1.trans ?_, (h c).2.1.trans ?_, (h c).2.2⟩) (Cert.ReferenceIdeal.HandRun.run (F := Ideal) m' ρ')
    · obtain ⟨e0, e1, e2, e3, e4, e5, e6, e7, e8, e9, e10, e11, e12, e13, e14, e15, e16⟩ := hagree c
      rw [e0, e1, e2, e3, e4, e5, e6, e7, e8, e9, e10, e11, e12, e13, e14, e15, e16]
      exact Cert.ReferenceIdeal.GruValue.ref_gru _ _ _ _ _ _ _ _ _ _ _ _ _ _ _ _ _
    · obtain ⟨e0, e1, e2, e3, e4, e5, e6, e7, e8, e9, e10, e11, e12, e13, e14, e15, e16⟩ := hagree c
      rw [e1, e2, e3, e5, e7, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
